-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_v126) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x3200000 : Shape := ⟨2, ![2, 3200000]⟩
abbrev S10x256 : Shape := ⟨2, ![10, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S10x256 : S_.BroadcastsInDim S10x256 (![] : Fin 0 → Fin S10x256.rank)
  reducesTo_S10x256_S_d0_1 : S10x256.ReducesTo [0, 1] S_

variable [Facts]

def fn {F : FTy → Type} [FloatOps F] (main_arg0 : FVec F S200000x256 .f32) (main_arg1 : IVec S2x3200000 32) (main_arg2 : FVec F S10x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S10x256 .f32 := Host.absf main_arg2
  let main_cst_0 : FVec F S_ .f32 := constant S_ .f32 0x7F800000#32
  let main_v5 : FVec F S10x256 .f32 := broadcastInDim S10x256 ![] bcast_S_S10x256 main_cst_0
  let main_v6 : IVec S10x256 1 := cmpf .olt main_v4 main_v5
  let main_c_1 : IVec S_ 1 := constantI S_ 1 1#1
  let main_v7 : IVec S_ 1 := (fun x v => Host.reduce IntOp.andi x v reducesTo_S10x256_S_d0_1 h_S_) main_v6 main_c_1
  let main_v8 : IVec S_ 1 := andi main_v3 main_v7
  main_v8
-- ==== Kernel.lean ====
abbrev S200000x256 : Shape := ⟨2, ![200000, 256]⟩
abbrev S2x3200000 : Shape := ⟨2, ![2, 3200000]⟩
abbrev S10x256 : Shape := ⟨2, ![10, 256]⟩
abbrev S_ : Shape := ⟨0, ![]⟩
abbrev S256 : Shape := ⟨1, ![256]⟩
abbrev S1x256 : Shape := ⟨2, ![1, 256]⟩
abbrev S2000x256 : Shape := ⟨2, ![2000, 256]⟩
abbrev S200010x256 : Shape := ⟨2, ![200010, 256]⟩
abbrev S256x10 : Shape := ⟨2, ![256, 10]⟩
abbrev S10x10 : Shape := ⟨2, ![10, 10]⟩
abbrev S100 : Shape := ⟨1, ![100]⟩
abbrev S10 : Shape := ⟨1, ![10]⟩
abbrev S1x10 : Shape := ⟨2, ![1, 10]⟩
abbrev S200000x10 : Shape := ⟨2, ![200000, 10]⟩
abbrev S2000x10 : Shape := ⟨2, ![2000, 10]⟩
abbrev S10x200000 : Shape := ⟨2, ![10, 200000]⟩
abbrev S2000000 : Shape := ⟨1, ![2000000]⟩
abbrev S200000 : Shape := ⟨1, ![200000]⟩
abbrev S1x200000 : Shape := ⟨2, ![1, 200000]⟩
abbrev S1x3200000 : Shape := ⟨2, ![1, 3200000]⟩
abbrev S3200000 : Shape := ⟨1, ![3200000]⟩
abbrev S7200100 : Shape := ⟨1, ![7200100]⟩
abbrev S7200100x1 : Shape := ⟨2, ![7200100, 1]⟩
abbrev S1 : Shape := ⟨1, ![1]⟩
abbrev S7200099 : Shape := ⟨1, ![7200099]⟩
abbrev S1x7200100 : Shape := ⟨2, ![1, 7200100]⟩
abbrev S2x7200100 : Shape := ⟨2, ![2, 7200100]⟩

abbrev nBuf : Space → Nat
  | .hbm => 196
  | .vmem => 11
  | .smem => 0
  | _ => 0

abbrev hbmTy0_0 (i : Nat) : BufTy := match i % 128 with
  | 0 => ⟨S200000x256, .f32⟩
  | 1 => ⟨S2x3200000, .i32⟩
  | 2 => ⟨S10x256, .f32⟩
  | 3 => ⟨S_, .f32⟩
  | 4 => ⟨S256, .f32⟩
  | 5 => ⟨S1x256, .f32⟩
  | 6 => ⟨S_, .f32⟩
  | 7 => ⟨S1x256, .f32⟩
  | 8 => ⟨S1x256, .f32⟩
  | 9 => ⟨S_, .i32⟩
  | 10 => ⟨S_, .f32⟩
  | 11 => ⟨S256, .f32⟩
  | 12 => ⟨S1x256, .f32⟩
  | 13 => ⟨S_, .f32⟩
  | 14 => ⟨S1x256, .f32⟩
  | 15 => ⟨S1x256, .f32⟩
  | 16 => ⟨S10x256, .f32⟩
  | 17 => ⟨S10x256, .f32⟩
  | 18 => ⟨S10x256, .f32⟩
  | 19 => ⟨S_, .f32⟩
  | 20 => ⟨S_, .f32⟩
  | 21 => ⟨S_, .f32⟩
  | 22 => ⟨S_, .f32⟩
  | 23 => ⟨S256, .f32⟩
  | 24 => ⟨S1x256, .f32⟩
  | 25 => ⟨S1x256, .f32⟩
  | 26 => ⟨S1x256, .f32⟩
  | 27 => ⟨S_, .f32⟩
  | 28 => ⟨S_, .i1⟩
  | 29 => ⟨S_, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S1x256, .f32⟩
  | 39 => ⟨S_, .f32⟩
  | 40 => ⟨S1x256, .f32⟩
  | 41 => ⟨S1x256, .f32⟩
  | 42 => ⟨S1x256, .f32⟩
  | 43 => ⟨S_, .f32⟩
  | 44 => ⟨S1x256, .f32⟩
  | 45 => ⟨S1x256, .f32⟩
  | 46 => ⟨S1x256, .f32⟩
  | 47 => ⟨S_, .f32⟩
  | 48 => ⟨S1x256, .f32⟩
  | 49 => ⟨S1x256, .f32⟩
  | 50 => ⟨S_, .f32⟩
  | 51 => ⟨S1x256, .f32⟩
  | 52 => ⟨S1x256, .f32⟩
  | 53 => ⟨S1x256, .f32⟩
  | 54 => ⟨S_, .f32⟩
  | 55 => ⟨S1x256, .f32⟩
  | 56 => ⟨S1x256, .f32⟩
  | 57 => ⟨S10x256, .f32⟩
  | 58 => ⟨S10x256, .f32⟩
  | 59 => ⟨S10x256, .f32⟩
  | 60 => ⟨S10x256, .f32⟩
  | 61 => ⟨S10x256, .f32⟩
  | 62 => ⟨S10x256, .f32⟩
  | 63 => ⟨S10x256, .f32⟩
  | 64 => ⟨S10x256, .f32⟩
  | 65 => ⟨S200010x256, .f32⟩
  | 66 => ⟨S256x10, .f32⟩
  | 67 => ⟨S10x10, .f32⟩
  | 68 => ⟨S10x10, .f32⟩
  | 69 => ⟨S10x10, .f32⟩
  | 70 => ⟨S_, .f32⟩
  | 71 => ⟨S10x10, .f32⟩
  | 72 => ⟨S10x10, .f32⟩
  | 73 => ⟨S_, .f32⟩
  | 74 => ⟨S10x10, .f32⟩
  | 75 => ⟨S10x10, .f32⟩
  | 76 => ⟨S_, .f32⟩
  | 77 => ⟨S10x10, .f32⟩
  | 78 => ⟨S10x10, .i1⟩
  | 79 => ⟨S100, .i1⟩
  | 80 => ⟨S10, .i32⟩
  | 81 => ⟨S10x10, .i32⟩
  | 82 => ⟨S100, .i32⟩
  | 83 => ⟨S_, .i32⟩
  | 84 => ⟨S100, .i32⟩
  | 85 => ⟨S100, .i32⟩
  | 86 => ⟨S1x10, .i32⟩
  | 87 => ⟨S10x10, .i32⟩
  | 88 => ⟨S100, .i32⟩
  | 89 => ⟨S_, .i32⟩
  | 90 => ⟨S100, .i32⟩
  | 91 => ⟨S100, .i32⟩
  | 92 => ⟨S200000x10, .f32⟩
  | 93 => ⟨S10x200000, .f32⟩
  | 94 => ⟨S2000000, .f32⟩
  | 95 => ⟨S_, .f32⟩
  | 96 => ⟨S2000000, .f32⟩
  | 97 => ⟨S2000000, .i1⟩
  | 98 => ⟨S10x200000, .i32⟩
  | 99 => ⟨S2000000, .i32⟩
  | 100 => ⟨S_, .i32⟩
  | 101 => ⟨S2000000, .i32⟩
  | 102 => ⟨S2000000, .i32⟩
  | 103 => ⟨S200000, .i32⟩
  | 104 => ⟨S1x200000, .i32⟩
  | 105 => ⟨S10x200000, .i32⟩
  | 106 => ⟨S2000000, .i32⟩
  | 107 => ⟨S1x3200000, .i32⟩
  | 108 => ⟨S3200000, .i32⟩
  | 109 => ⟨S7200100, .i32⟩
  | 110 => ⟨S1x3200000, .i32⟩
  | 111 => ⟨S3200000, .i32⟩
  | 112 => ⟨S7200100, .i32⟩
  | 113 => ⟨S_, .i1⟩
  | 114 => ⟨S3200000, .i1⟩
  | 115 => ⟨S7200100, .i1⟩
  | 116 => ⟨S_, .i32⟩
  | 117 => ⟨S7200100, .i32⟩
  | 118 => ⟨S7200100, .i32⟩
  | 119 => ⟨S_, .i32⟩
  | 120 => ⟨S7200100, .i32⟩
  | 121 => ⟨S7200100, .i32⟩
  | 122 => ⟨S7200100, .i32⟩
  | 123 => ⟨S7200100, .i32⟩
  | 124 => ⟨S7200100, .i32⟩
  | 125 => ⟨S7200100, .i32⟩
  | 126 => ⟨S_, .i32⟩
  | 127 => ⟨S7200100, .i32⟩
  | _ => ⟨S200000x256, .f32⟩

abbrev hbmTy0_1 (i : Nat) : BufTy := match i % 128 with
  | 0 => ⟨S7200100, .i1⟩
  | 1 => ⟨S_, .i32⟩
  | 2 => ⟨S7200100, .i32⟩
  | 3 => ⟨S7200100, .i32⟩
  | 4 => ⟨S7200100, .i32⟩
  | 5 => ⟨S7200100x1, .i32⟩
  | 6 => ⟨S7200100, .i32⟩
  | 7 => ⟨S_, .i32⟩
  | 8 => ⟨S7200100, .i32⟩
  | 9 => ⟨S7200100, .i1⟩
  | 10 => ⟨S_, .i32⟩
  | 11 => ⟨S7200100, .i32⟩
  | 12 => ⟨S7200100, .i32⟩
  | 13 => ⟨S7200100, .i32⟩
  | 14 => ⟨S7200100x1, .i32⟩
  | 15 => ⟨S7200100, .i32⟩
  | 16 => ⟨S_, .i1⟩
  | 17 => ⟨S1, .i1⟩
  | 18 => ⟨S7200099, .i32⟩
  | 19 => ⟨S7200099, .i32⟩
  | 20 => ⟨S7200099, .i1⟩
  | 21 => ⟨S7200099, .i32⟩
  | 22 => ⟨S7200099, .i32⟩
  | 23 => ⟨S7200099, .i1⟩
  | 24 => ⟨S7200099, .i1⟩
  | 25 => ⟨S7200100, .i1⟩
  | 26 => ⟨S_, .i32⟩
  | 27 => ⟨S7200100, .i32⟩
  | 28 => ⟨S7200100, .i1⟩
  | 29 => ⟨S7200100, .i1⟩
  | 30 => ⟨S_, .i32⟩
  | 31 => ⟨S7200100, .i32⟩
  | 32 => ⟨S7200100, .i32⟩
  | 33 => ⟨S_, .i32⟩
  | 34 => ⟨S7200100, .i32⟩
  | 35 => ⟨S7200100, .i32⟩
  | 36 => ⟨S_, .i32⟩
  | 37 => ⟨S7200100, .i32⟩
  | 38 => ⟨S7200100, .i1⟩
  | 39 => ⟨S7200100, .i32⟩
  | 40 => ⟨S7200100, .i32⟩
  | 41 => ⟨S7200100, .i32⟩
  | 42 => ⟨S7200100, .i32⟩
  | 43 => ⟨S_, .i32⟩
  | 44 => ⟨S7200100, .i32⟩
  | 45 => ⟨S7200100, .i1⟩
  | 46 => ⟨S_, .i32⟩
  | 47 => ⟨S7200100, .i32⟩
  | 48 => ⟨S7200100, .i32⟩
  | 49 => ⟨S7200100, .i32⟩
  | 50 => ⟨S7200100x1, .i32⟩
  | 51 => ⟨S7200100, .i32⟩
  | 52 => ⟨S_, .i32⟩
  | 53 => ⟨S7200100, .i32⟩
  | 54 => ⟨S7200100, .i1⟩
  | 55 => ⟨S_, .i32⟩
  | 56 => ⟨S7200100, .i32⟩
  | 57 => ⟨S7200100, .i32⟩
  | 58 => ⟨S7200100, .i32⟩
  | 59 => ⟨S7200100x1, .i32⟩
  | 60 => ⟨S7200100, .i32⟩
  | 61 => ⟨S1x7200100, .i32⟩
  | 62 => ⟨S1x7200100, .i32⟩
  | 63 => ⟨S2x7200100, .i32⟩
  | 64 => ⟨S_, .i32⟩
  | 65 => ⟨S7200100, .i32⟩
  | 66 => ⟨S7200100, .i1⟩
  | 67 => ⟨S7200100, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S10x256, .f32⟩
  | .local _ .vmem, ⟨9, _⟩ => ⟨S2000x10, .f32⟩
  | .local _ .vmem, ⟨10, _⟩ => ⟨S2000x10, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_v7_0 : Ref sig .tc := ⟨.hbm, 37, rfl⟩
abbrev main_v7_1 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_cst_9 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_11 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_12 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_13 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_14 : Ref sig .tc := ⟨.hbm, 113, rfl⟩
abbrev main_v70 : Ref sig .tc := ⟨.hbm, 114, rfl⟩
abbrev main_v71 : Ref sig .tc := ⟨.hbm, 115, rfl⟩
abbrev main_c_15 : Ref sig .tc := ⟨.hbm, 116, rfl⟩
abbrev main_call1_v0 : Ref sig .tc := ⟨.hbm, 117, rfl⟩
abbrev main_v72 : Ref sig .tc := ⟨.hbm, 118, rfl⟩
abbrev main_c_16 : Ref sig .tc := ⟨.hbm, 119, rfl⟩
abbrev main_call2_v0 : Ref sig .tc := ⟨.hbm, 120, rfl⟩
abbrev main_v73 : Ref sig .tc := ⟨.hbm, 121, rfl⟩
abbrev main_call3_v0 : Ref sig .tc := ⟨.hbm, 122, rfl⟩
abbrev main_call3_v1_0 : Ref sig .tc := ⟨.hbm, 123, rfl⟩
abbrev main_call3_v1_1 : Ref sig .tc := ⟨.hbm, 124, rfl⟩
abbrev main_v74 : Ref sig .tc := ⟨.hbm, 125, rfl⟩
abbrev main_c_17 : Ref sig .tc := ⟨.hbm, 126, rfl⟩
abbrev main_v75 : Ref sig .tc := ⟨.hbm, 127, rfl⟩
abbrev main_v76 : Ref sig .tc := ⟨.hbm, 128, rfl⟩
abbrev main_c_18 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_19 : Ref sig .tc := ⟨.hbm, 135, rfl⟩
abbrev main_v82 : Ref sig .tc := ⟨.hbm, 136, rfl⟩
abbrev main_v83 : Ref sig .tc := ⟨.hbm, 137, rfl⟩
abbrev main_c_20 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_c_21 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_22 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_c_23 : Ref sig .tc := ⟨.hbm, 158, rfl⟩
abbrev main_call4_v0 : Ref sig .tc := ⟨.hbm, 159, rfl⟩
abbrev main_v101 : Ref sig .tc := ⟨.hbm, 160, rfl⟩
abbrev main_c_24 : Ref sig .tc := ⟨.hbm, 161, rfl⟩
abbrev main_call5_v0 : Ref sig .tc := ⟨.hbm, 162, rfl⟩
abbrev main_v102 : Ref sig .tc := ⟨.hbm, 163, rfl⟩
abbrev main_c_25 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_call6_v0 : Ref sig .tc := ⟨.hbm, 168, rfl⟩
abbrev main_call6_v1_0 : Ref sig .tc := ⟨.hbm, 169, rfl⟩
abbrev main_v106 : Ref sig .tc := ⟨.hbm, 170, rfl⟩
abbrev main_c_26 : Ref sig .tc := ⟨.hbm, 171, rfl⟩
abbrev main_v107 : Ref sig .tc := ⟨.hbm, 172, rfl⟩
abbrev main_v108 : Ref sig .tc := ⟨.hbm, 173, rfl⟩
abbrev main_c_27 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_c_28 : Ref sig .tc := ⟨.hbm, 180, rfl⟩
abbrev main_v114 : Ref sig .tc := ⟨.hbm, 181, rfl⟩
abbrev main_v115 : Ref sig .tc := ⟨.hbm, 182, rfl⟩
abbrev main_c_29 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_c_30 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v19 : BitVec 1 := Scalar.cmpi .eq arg0 c99_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S10x256_0_1 : S1x256.BroadcastsInDim S10x256 (![0, 1] : Fin 2 → Fin S10x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S256_S1x256 : S256.ShapeCasts S1x256
  concatenates_S200000x256_S10x256_S200010x256_d0 : Shape.Concatenates [S200000x256, S10x256] S200010x256 0
  transposes_S10x256_S256x10_1_0 : S10x256.Transposes [1, 0] S256x10
  bcast_S_S10x10 : S_.BroadcastsInDim S10x10 (![] : Fin 0 → Fin S10x10.rank)
  shapeCasts_S10x10_S100 : S10x10.ShapeCasts S100
  bcast_S10_S10x10_0 : S10.BroadcastsInDim S10x10 (![0] : Fin 1 → Fin S10x10.rank)
  bcast_S_S100 : S_.BroadcastsInDim S100 (![] : Fin 0 → Fin S100.rank)
  shapeCasts_S10_S1x10 : S10.ShapeCasts S1x10
  bcast_S1x10_S10x10_0_1 : S1x10.BroadcastsInDim S10x10 (![0, 1] : Fin 2 → Fin S10x10.rank)
  inb_S10x256_S10x256_0_0 : ∀ a, (![0, 0] : Fin 2 → Nat) a + S10x256.size a ≤ S10x256.size a
  h_S10x256 : 0 < S10x256.numel
  shapeCasts_S10x256_S10x256 : S10x256.ShapeCasts S10x256
  transposes_S10x256_p1_0_S256x10 : S10x256.Transposes [1, 0] S256x10
  natLt_1_32 : 1 < 32
  inb_S2000x10_S2000x10_0_0 : ∀ a, (![0, 0] : Fin 2 → Nat) a + S2000x10.size a ≤ S2000x10.size a
  h_S2000x10 : 0 < S2000x10.numel
  transposes_S200000x10_S10x200000_1_0 : S200000x10.Transposes [1, 0] S10x200000
  shapeCasts_S10x200000_S2000000 : S10x200000.ShapeCasts S2000000
  bcast_S_S2000000 : S_.BroadcastsInDim S2000000 (![] : Fin 0 → Fin S2000000.rank)
  bcast_S10_S10x200000_0 : S10.BroadcastsInDim S10x200000 (![0] : Fin 1 → Fin S10x200000.rank)
  shapeCasts_S200000_S1x200000 : S200000.ShapeCasts S1x200000
  bcast_S1x200000_S10x200000_0_1 : S1x200000.BroadcastsInDim S10x200000 (![0, 1] : Fin 2 → Fin S10x200000.rank)
  slices_S2x3200000_S1x3200000_0_0 : S2x3200000.Slices ![0, 0] S1x3200000
  shapeCasts_S1x3200000_S3200000 : S1x3200000.ShapeCasts S3200000
  concatenates_S3200000_S100_S2000000_S2000000_S7200100_d0 : Shape.Concatenates [S3200000, S100, S2000000, S2000000] S7200100 0
  slices_S2x3200000_S1x3200000_1_0 : S2x3200000.Slices ![1, 0] S1x3200000
  bcast_S_S3200000 : S_.BroadcastsInDim S3200000 (![] : Fin 0 → Fin S3200000.rank)
  bcast_S_S7200100 : S_.BroadcastsInDim S7200100 (![] : Fin 0 → Fin S7200100.rank)
  bcast_S7200100_S7200100x1_0 : S7200100.BroadcastsInDim S7200100x1 (![0] : Fin 1 → Fin S7200100x1.rank)
  bcast_S_S1 : S_.BroadcastsInDim S1 (![] : Fin 0 → Fin S1.rank)
  slices_S7200100_S7200099_1 : S7200100.Slices ![1] S7200099
  slices_S7200100_S7200099_0 : S7200100.Slices ![0] S7200099
  concatenates_S1_S7200099_S7200100_d0 : Shape.Concatenates [S1, S7200099] S7200100 0
  bcast_S7200100_S1x7200100_1 : S7200100.BroadcastsInDim S1x7200100 (![1] : Fin 1 → Fin S1x7200100.rank)
  concatenates_S1x7200100_S1x7200100_S2x7200100_d0 : Shape.Concatenates [S1x7200100, S1x7200100] S2x7200100 0
  dot_S10x256_S256x10_S10x10_1_0_0_1_n_n_wf : DotDims.WF S10x256 S256x10 S10x10 [1] [0] [0] [1] [] []
  dot_S2000x256_S256x10_S2000x10_1_0_0_1_n_n_wf : DotDims.WF S2000x256 S256x10 S2000x10 [1] [0] [0] [1] [] []
  gather_S7200100_S7200100x1_S7200100_n_0_n_n_0_1_1_wf : GatherDims.WF S7200100 S7200100x1 S7200100 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x256.size a ≤ S10x256.size a
  hwx1_1 : ∀ i : grid1.Coords, EltTy.bits .f32 = 32 ∨ (Rect.block (s := S10x256) S10x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x10.size a ≤ S200000x10.size a
  hwx1_2 : ∀ i : grid1.Coords, EltTy.bits .f32 = 32 ∨ (Rect.block (s := S200000x10) S2000x10.size (cc1_transform_2 i) (hinb1_2 i)).WholeWords (EltTy.packing .f32)

variable [Facts₀]

def dot_S10x256_S256x10_S10x10_1_0_0_1_n_n : DotDims S10x256 S256x10 S10x10 where
  lhsContracting := [1]
  rhsContracting := [0]
  lhsNonContracting := [0]
  rhsNonContracting := [1]
  lhsBatch := []
  rhsBatch := []
  wf := dot_S10x256_S256x10_S10x10_1_0_0_1_n_n_wf
def dot_S2000x256_S256x10_S2000x10_1_0_0_1_n_n : DotDims S2000x256 S256x10 S2000x10 where
  lhsContracting := [1]
  rhsContracting := [0]
  lhsNonContracting := [0]
  rhsNonContracting := [1]
  lhsBatch := []
  rhsBatch := []
  wf := dot_S2000x256_S256x10_S2000x10_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S7200100_S7200100x1_S7200100_n_0_n_n_0_1_1 : GatherDims S7200100 S7200100x1 S7200100 where
  offsetDims := []
  collapsedSliceDims := [0]
  operandBatchingDims := []
  startIndicesBatchingDims := []
  startIndexMap := [0]
  indexVectorDim := 1
  sliceSizes := ![1]
  wf := gather_S7200100_S7200100x1_S7200100_n_0_n_n_0_1_1_wf
def comparator_i32_i32_d0 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x256 : Shape := ⟨2, ![200000, 256]⟩
abbrev S2x3200000 : Shape := ⟨2, ![2, 3200000]⟩
abbrev S10x256 : Shape := ⟨2, ![10, 256]⟩
abbrev S_ : Shape := ⟨0, ![]⟩
abbrev S256 : Shape := ⟨1, ![256]⟩
abbrev S1x256 : Shape := ⟨2, ![1, 256]⟩
abbrev S200010x256 : Shape := ⟨2, ![200010, 256]⟩
abbrev S256x10 : Shape := ⟨2, ![256, 10]⟩
abbrev S10x10 : Shape := ⟨2, ![10, 10]⟩
abbrev S100 : Shape := ⟨1, ![100]⟩
abbrev S10 : Shape := ⟨1, ![10]⟩
abbrev S1x10 : Shape := ⟨2, ![1, 10]⟩
abbrev S256x200000 : Shape := ⟨2, ![256, 200000]⟩
abbrev S10x200000 : Shape := ⟨2, ![10, 200000]⟩
abbrev S2000000 : Shape := ⟨1, ![2000000]⟩
abbrev S200000 : Shape := ⟨1, ![200000]⟩
abbrev S1x200000 : Shape := ⟨2, ![1, 200000]⟩
abbrev S1x3200000 : Shape := ⟨2, ![1, 3200000]⟩
abbrev S3200000 : Shape := ⟨1, ![3200000]⟩
abbrev S7200100 : Shape := ⟨1, ![7200100]⟩
abbrev S7200100x1 : Shape := ⟨2, ![7200100, 1]⟩
abbrev S1 : Shape := ⟨1, ![1]⟩
abbrev S7200099 : Shape := ⟨1, ![7200099]⟩
abbrev S1x7200100 : Shape := ⟨2, ![1, 7200100]⟩
abbrev S2x7200100 : Shape := ⟨2, ![2, 7200100]⟩

abbrev nBuf : Space → Nat
  | .hbm => 218
  | .vmem => 0
  | .smem => 0
  | _ => 0

abbrev hbmTy0_0 (i : Nat) : BufTy := match i % 128 with
  | 0 => ⟨S200000x256, .f32⟩
  | 1 => ⟨S2x3200000, .i32⟩
  | 2 => ⟨S10x256, .f32⟩
  | 3 => ⟨S_, .f32⟩
  | 4 => ⟨S256, .f32⟩
  | 5 => ⟨S1x256, .f32⟩
  | 6 => ⟨S_, .f32⟩
  | 7 => ⟨S1x256, .f32⟩
  | 8 => ⟨S1x256, .f32⟩
  | 9 => ⟨S_, .i32⟩
  | 10 => ⟨S_, .f32⟩
  | 11 => ⟨S256, .f32⟩
  | 12 => ⟨S1x256, .f32⟩
  | 13 => ⟨S_, .f32⟩
  | 14 => ⟨S1x256, .f32⟩
  | 15 => ⟨S1x256, .f32⟩
  | 16 => ⟨S10x256, .f32⟩
  | 17 => ⟨S10x256, .f32⟩
  | 18 => ⟨S10x256, .f32⟩
  | 19 => ⟨S_, .f32⟩
  | 20 => ⟨S_, .f32⟩
  | 21 => ⟨S_, .f32⟩
  | 22 => ⟨S_, .f32⟩
  | 23 => ⟨S256, .f32⟩
  | 24 => ⟨S1x256, .f32⟩
  | 25 => ⟨S1x256, .f32⟩
  | 26 => ⟨S1x256, .f32⟩
  | 27 => ⟨S_, .f32⟩
  | 28 => ⟨S_, .i1⟩
  | 29 => ⟨S_, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S_, .i32⟩
  | 44 => ⟨S_, .f32⟩
  | 45 => ⟨S256, .f32⟩
  | 46 => ⟨S1x256, .f32⟩
  | 47 => ⟨S_, .f32⟩
  | 48 => ⟨S1x256, .f32⟩
  | 49 => ⟨S1x256, .f32⟩
  | 50 => ⟨S200000x256, .f32⟩
  | 51 => ⟨S200000x256, .f32⟩
  | 52 => ⟨S200000x256, .f32⟩
  | 53 => ⟨S_, .f32⟩
  | 54 => ⟨S_, .f32⟩
  | 55 => ⟨S_, .f32⟩
  | 56 => ⟨S_, .f32⟩
  | 57 => ⟨S256, .f32⟩
  | 58 => ⟨S1x256, .f32⟩
  | 59 => ⟨S1x256, .f32⟩
  | 60 => ⟨S1x256, .f32⟩
  | 61 => ⟨S_, .f32⟩
  | 62 => ⟨S_, .i1⟩
  | 63 => ⟨S_, .f32⟩
  | 64 => ⟨S_, .f32⟩
  | 65 => ⟨S1x256, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S10x256, .f32⟩
  | 72 => ⟨S10x256, .f32⟩
  | 73 => ⟨S10x256, .f32⟩
  | 74 => ⟨S10x256, .f32⟩
  | 75 => ⟨S10x256, .f32⟩
  | 76 => ⟨S10x256, .f32⟩
  | 77 => ⟨S10x256, .f32⟩
  | 78 => ⟨S10x256, .f32⟩
  | 79 => ⟨S200010x256, .f32⟩
  | 80 => ⟨S256x10, .f32⟩
  | 81 => ⟨S10x10, .f32⟩
  | 82 => ⟨S10x10, .f32⟩
  | 83 => ⟨S10x10, .f32⟩
  | 84 => ⟨S_, .f32⟩
  | 85 => ⟨S10x10, .f32⟩
  | 86 => ⟨S10x10, .f32⟩
  | 87 => ⟨S_, .f32⟩
  | 88 => ⟨S10x10, .f32⟩
  | 89 => ⟨S10x10, .f32⟩
  | 90 => ⟨S_, .f32⟩
  | 91 => ⟨S10x10, .f32⟩
  | 92 => ⟨S10x10, .i1⟩
  | 93 => ⟨S100, .i1⟩
  | 94 => ⟨S10, .i32⟩
  | 95 => ⟨S10x10, .i32⟩
  | 96 => ⟨S100, .i32⟩
  | 97 => ⟨S_, .i32⟩
  | 98 => ⟨S100, .i32⟩
  | 99 => ⟨S100, .i32⟩
  | 100 => ⟨S1x10, .i32⟩
  | 101 => ⟨S10x10, .i32⟩
  | 102 => ⟨S100, .i32⟩
  | 103 => ⟨S_, .i32⟩
  | 104 => ⟨S100, .i32⟩
  | 105 => ⟨S100, .i32⟩
  | 106 => ⟨S256x200000, .f32⟩
  | 107 => ⟨S10x200000, .f32⟩
  | 108 => ⟨S10x200000, .f32⟩
  | 109 => ⟨S10x200000, .f32⟩
  | 110 => ⟨S_, .f32⟩
  | 111 => ⟨S10x200000, .f32⟩
  | 112 => ⟨S10x200000, .f32⟩
  | 113 => ⟨S_, .f32⟩
  | 114 => ⟨S10x200000, .f32⟩
  | 115 => ⟨S10x200000, .f32⟩
  | 116 => ⟨S_, .f32⟩
  | 117 => ⟨S10x200000, .f32⟩
  | 118 => ⟨S10x200000, .i1⟩
  | 119 => ⟨S2000000, .i1⟩
  | 120 => ⟨S10x200000, .i32⟩
  | 121 => ⟨S2000000, .i32⟩
  | 122 => ⟨S_, .i32⟩
  | 123 => ⟨S2000000, .i32⟩
  | 124 => ⟨S2000000, .i32⟩
  | 125 => ⟨S200000, .i32⟩
  | 126 => ⟨S1x200000, .i32⟩
  | 127 => ⟨S10x200000, .i32⟩
  | _ => ⟨S200000x256, .f32⟩

abbrev hbmTy0_1 (i : Nat) : BufTy := match i % 128 with
  | 0 => ⟨S2000000, .i32⟩
  | 1 => ⟨S1x3200000, .i32⟩
  | 2 => ⟨S3200000, .i32⟩
  | 3 => ⟨S7200100, .i32⟩
  | 4 => ⟨S1x3200000, .i32⟩
  | 5 => ⟨S3200000, .i32⟩
  | 6 => ⟨S7200100, .i32⟩
  | 7 => ⟨S_, .i1⟩
  | 8 => ⟨S3200000, .i1⟩
  | 9 => ⟨S7200100, .i1⟩
  | 10 => ⟨S_, .i32⟩
  | 11 => ⟨S7200100, .i32⟩
  | 12 => ⟨S7200100, .i32⟩
  | 13 => ⟨S_, .i32⟩
  | 14 => ⟨S7200100, .i32⟩
  | 15 => ⟨S7200100, .i32⟩
  | 16 => ⟨S7200100, .i32⟩
  | 17 => ⟨S7200100, .i32⟩
  | 18 => ⟨S7200100, .i32⟩
  | 19 => ⟨S7200100, .i32⟩
  | 20 => ⟨S_, .i32⟩
  | 21 => ⟨S7200100, .i32⟩
  | 22 => ⟨S7200100, .i1⟩
  | 23 => ⟨S_, .i32⟩
  | 24 => ⟨S7200100, .i32⟩
  | 25 => ⟨S7200100, .i32⟩
  | 26 => ⟨S7200100, .i32⟩
  | 27 => ⟨S7200100x1, .i32⟩
  | 28 => ⟨S7200100, .i32⟩
  | 29 => ⟨S_, .i32⟩
  | 30 => ⟨S7200100, .i32⟩
  | 31 => ⟨S7200100, .i1⟩
  | 32 => ⟨S_, .i32⟩
  | 33 => ⟨S7200100, .i32⟩
  | 34 => ⟨S7200100, .i32⟩
  | 35 => ⟨S7200100, .i32⟩
  | 36 => ⟨S7200100x1, .i32⟩
  | 37 => ⟨S7200100, .i32⟩
  | 38 => ⟨S_, .i1⟩
  | 39 => ⟨S1, .i1⟩
  | 40 => ⟨S7200099, .i32⟩
  | 41 => ⟨S7200099, .i32⟩
  | 42 => ⟨S7200099, .i1⟩
  | 43 => ⟨S7200099, .i32⟩
  | 44 => ⟨S7200099, .i32⟩
  | 45 => ⟨S7200099, .i1⟩
  | 46 => ⟨S7200099, .i1⟩
  | 47 => ⟨S7200100, .i1⟩
  | 48 => ⟨S_, .i32⟩
  | 49 => ⟨S7200100, .i32⟩
  | 50 => ⟨S7200100, .i1⟩
  | 51 => ⟨S7200100, .i1⟩
  | 52 => ⟨S_, .i32⟩
  | 53 => ⟨S7200100, .i32⟩
  | 54 => ⟨S7200100, .i32⟩
  | 55 => ⟨S_, .i32⟩
  | 56 => ⟨S7200100, .i32⟩
  | 57 => ⟨S7200100, .i32⟩
  | 58 => ⟨S_, .i32⟩
  | 59 => ⟨S7200100, .i32⟩
  | 60 => ⟨S7200100, .i1⟩
  | 61 => ⟨S7200100, .i32⟩
  | 62 => ⟨S7200100, .i32⟩
  | 63 => ⟨S7200100, .i32⟩
  | 64 => ⟨S7200100, .i32⟩
  | 65 => ⟨S_, .i32⟩
  | 66 => ⟨S7200100, .i32⟩
  | 67 => ⟨S7200100, .i1⟩
  | 68 => ⟨S_, .i32⟩
  | 69 => ⟨S7200100, .i32⟩
  | 70 => ⟨S7200100, .i32⟩
  | 71 => ⟨S7200100, .i32⟩
  | 72 => ⟨S7200100x1, .i32⟩
  | 73 => ⟨S7200100, .i32⟩
  | 74 => ⟨S_, .i32⟩
  | 75 => ⟨S7200100, .i32⟩
  | 76 => ⟨S7200100, .i1⟩
  | 77 => ⟨S_, .i32⟩
  | 78 => ⟨S7200100, .i32⟩
  | 79 => ⟨S7200100, .i32⟩
  | 80 => ⟨S7200100, .i32⟩
  | 81 => ⟨S7200100x1, .i32⟩
  | 82 => ⟨S7200100, .i32⟩
  | 83 => ⟨S1x7200100, .i32⟩
  | 84 => ⟨S1x7200100, .i32⟩
  | 85 => ⟨S2x7200100, .i32⟩
  | 86 => ⟨S_, .i32⟩
  | 87 => ⟨S7200100, .i32⟩
  | 88 => ⟨S7200100, .i1⟩
  | 89 => ⟨S7200100, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_cst_2 : Ref sig .tc := ⟨.hbm, 37, rfl⟩
abbrev main_v7 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_c_4 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_cst_0 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_cst_1 : Ref sig .tc := ⟨.hbm, 54, rfl⟩
abbrev main_call1_call0_v8 : Ref sig .tc := ⟨.hbm, 55, rfl⟩
abbrev main_call1_call0_cst_2 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_call0_v12 : Ref sig .tc := ⟨.hbm, 60, rfl⟩
abbrev main_call1_call0_cst_3 : Ref sig .tc := ⟨.hbm, 61, rfl⟩
abbrev main_call1_call0_v13 : Ref sig .tc := ⟨.hbm, 62, rfl⟩
abbrev main_call1_call0_cst_4 : Ref sig .tc := ⟨.hbm, 63, rfl⟩
abbrev main_call1_call0_call0_v0 : Ref sig .tc := ⟨.hbm, 64, rfl⟩
abbrev main_call1_call0_call0_v1 : Ref sig .tc := ⟨.hbm, 65, rfl⟩
abbrev main_call1_v0 : Ref sig .tc := ⟨.hbm, 66, rfl⟩
abbrev main_v11 : Ref sig .tc := ⟨.hbm, 67, rfl⟩
abbrev main_cst_5 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_6 : Ref sig .tc := ⟨.hbm, 84, rfl⟩
abbrev main_v27 : Ref sig .tc := ⟨.hbm, 85, rfl⟩
abbrev main_v28 : Ref sig .tc := ⟨.hbm, 86, rfl⟩
abbrev main_cst_7 : Ref sig .tc := ⟨.hbm, 87, rfl⟩
abbrev main_v29 : Ref sig .tc := ⟨.hbm, 88, rfl⟩
abbrev main_v30 : Ref sig .tc := ⟨.hbm, 89, rfl⟩
abbrev main_cst_8 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_9 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_c_10 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_11 : Ref sig .tc := ⟨.hbm, 110, rfl⟩
abbrev main_v48 : Ref sig .tc := ⟨.hbm, 111, rfl⟩
abbrev main_v49 : Ref sig .tc := ⟨.hbm, 112, rfl⟩
abbrev main_cst_12 : Ref sig .tc := ⟨.hbm, 113, rfl⟩
abbrev main_v50 : Ref sig .tc := ⟨.hbm, 114, rfl⟩
abbrev main_v51 : Ref sig .tc := ⟨.hbm, 115, rfl⟩
abbrev main_cst_13 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_c_14 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_c_15 : Ref sig .tc := ⟨.hbm, 135, rfl⟩
abbrev main_v69 : Ref sig .tc := ⟨.hbm, 136, rfl⟩
abbrev main_v70 : Ref sig .tc := ⟨.hbm, 137, rfl⟩
abbrev main_c_16 : Ref sig .tc := ⟨.hbm, 138, rfl⟩
abbrev main_call2_v0 : Ref sig .tc := ⟨.hbm, 139, rfl⟩
abbrev main_v71 : Ref sig .tc := ⟨.hbm, 140, rfl⟩
abbrev main_c_17 : Ref sig .tc := ⟨.hbm, 141, rfl⟩
abbrev main_call3_v0 : Ref sig .tc := ⟨.hbm, 142, rfl⟩
abbrev main_v72 : Ref sig .tc := ⟨.hbm, 143, rfl⟩
abbrev main_call4_v0 : Ref sig .tc := ⟨.hbm, 144, rfl⟩
abbrev main_call4_v1_0 : Ref sig .tc := ⟨.hbm, 145, rfl⟩
abbrev main_call4_v1_1 : Ref sig .tc := ⟨.hbm, 146, rfl⟩
abbrev main_v73 : Ref sig .tc := ⟨.hbm, 147, rfl⟩
abbrev main_c_18 : Ref sig .tc := ⟨.hbm, 148, rfl⟩
abbrev main_v74 : Ref sig .tc := ⟨.hbm, 149, rfl⟩
abbrev main_v75 : Ref sig .tc := ⟨.hbm, 150, rfl⟩
abbrev main_c_19 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_c_20 : Ref sig .tc := ⟨.hbm, 157, rfl⟩
abbrev main_v81 : Ref sig .tc := ⟨.hbm, 158, rfl⟩
abbrev main_v82 : Ref sig .tc := ⟨.hbm, 159, rfl⟩
abbrev main_c_21 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_c_22 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_c_23 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_c_24 : Ref sig .tc := ⟨.hbm, 180, rfl⟩
abbrev main_call5_v0 : Ref sig .tc := ⟨.hbm, 181, rfl⟩
abbrev main_v100 : Ref sig .tc := ⟨.hbm, 182, rfl⟩
abbrev main_c_25 : Ref sig .tc := ⟨.hbm, 183, rfl⟩
abbrev main_call6_v0 : Ref sig .tc := ⟨.hbm, 184, rfl⟩
abbrev main_v101 : Ref sig .tc := ⟨.hbm, 185, rfl⟩
abbrev main_c_26 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_call7_v0 : Ref sig .tc := ⟨.hbm, 190, rfl⟩
abbrev main_call7_v1_0 : Ref sig .tc := ⟨.hbm, 191, rfl⟩
abbrev main_v105 : Ref sig .tc := ⟨.hbm, 192, rfl⟩
abbrev main_c_27 : Ref sig .tc := ⟨.hbm, 193, rfl⟩
abbrev main_v106 : Ref sig .tc := ⟨.hbm, 194, rfl⟩
abbrev main_v107 : Ref sig .tc := ⟨.hbm, 195, rfl⟩
abbrev main_c_28 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_c_29 : Ref sig .tc := ⟨.hbm, 202, rfl⟩
abbrev main_v113 : Ref sig .tc := ⟨.hbm, 203, rfl⟩
abbrev main_v114 : Ref sig .tc := ⟨.hbm, 204, rfl⟩
abbrev main_c_30 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_c_31 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩

abbrev nD : Nat := 1
abbrev τ : Topo := Topo.v7x

variable {F : FTy → Type} [FloatOps F]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S10x256_0_1 : S1x256.BroadcastsInDim S10x256 (![0, 1] : Fin 2 → Fin S10x256.rank)
  reducesTo_S200000x256_S256_d0 : S200000x256.ReducesTo [0] S256
  bcast_S1x256_S200000x256_0_1 : S1x256.BroadcastsInDim S200000x256 (![0, 1] : Fin 2 → Fin S200000x256.rank)
  concatenates_S200000x256_S10x256_S200010x256_d0 : Shape.Concatenates [S200000x256, S10x256] S200010x256 0
  transposes_S10x256_S256x10_1_0 : S10x256.Transposes [1, 0] S256x10
  bcast_S_S10x10 : S_.BroadcastsInDim S10x10 (![] : Fin 0 → Fin S10x10.rank)
  shapeCasts_S10x10_S100 : S10x10.ShapeCasts S100
  bcast_S10_S10x10_0 : S10.BroadcastsInDim S10x10 (![0] : Fin 1 → Fin S10x10.rank)
  bcast_S_S100 : S_.BroadcastsInDim S100 (![] : Fin 0 → Fin S100.rank)
  shapeCasts_S10_S1x10 : S10.ShapeCasts S1x10
  bcast_S1x10_S10x10_0_1 : S1x10.BroadcastsInDim S10x10 (![0, 1] : Fin 2 → Fin S10x10.rank)
  transposes_S200000x256_S256x200000_1_0 : S200000x256.Transposes [1, 0] S256x200000
  bcast_S_S10x200000 : S_.BroadcastsInDim S10x200000 (![] : Fin 0 → Fin S10x200000.rank)
  shapeCasts_S10x200000_S2000000 : S10x200000.ShapeCasts S2000000
  bcast_S10_S10x200000_0 : S10.BroadcastsInDim S10x200000 (![0] : Fin 1 → Fin S10x200000.rank)
  bcast_S_S2000000 : S_.BroadcastsInDim S2000000 (![] : Fin 0 → Fin S2000000.rank)
  shapeCasts_S200000_S1x200000 : S200000.ShapeCasts S1x200000
  bcast_S1x200000_S10x200000_0_1 : S1x200000.BroadcastsInDim S10x200000 (![0, 1] : Fin 2 → Fin S10x200000.rank)
  slices_S2x3200000_S1x3200000_0_0 : S2x3200000.Slices ![0, 0] S1x3200000
  shapeCasts_S1x3200000_S3200000 : S1x3200000.ShapeCasts S3200000
  concatenates_S3200000_S100_S2000000_S2000000_S7200100_d0 : Shape.Concatenates [S3200000, S100, S2000000, S2000000] S7200100 0
  slices_S2x3200000_S1x3200000_1_0 : S2x3200000.Slices ![1, 0] S1x3200000
  bcast_S_S3200000 : S_.BroadcastsInDim S3200000 (![] : Fin 0 → Fin S3200000.rank)
  bcast_S_S7200100 : S_.BroadcastsInDim S7200100 (![] : Fin 0 → Fin S7200100.rank)
  bcast_S7200100_S7200100x1_0 : S7200100.BroadcastsInDim S7200100x1 (![0] : Fin 1 → Fin S7200100x1.rank)
  bcast_S_S1 : S_.BroadcastsInDim S1 (![] : Fin 0 → Fin S1.rank)
  slices_S7200100_S7200099_1 : S7200100.Slices ![1] S7200099
  slices_S7200100_S7200099_0 : S7200100.Slices ![0] S7200099
  concatenates_S1_S7200099_S7200100_d0 : Shape.Concatenates [S1, S7200099] S7200100 0
  natLt_1_32 : 1 < 32
  bcast_S7200100_S1x7200100_1 : S7200100.BroadcastsInDim S1x7200100 (![1] : Fin 1 → Fin S1x7200100.rank)
  concatenates_S1x7200100_S1x7200100_S2x7200100_d0 : Shape.Concatenates [S1x7200100, S1x7200100] S2x7200100 0
  dot_S10x256_S256x10_S10x10_1_0_0_1_n_n_wf : DotDims.WF S10x256 S256x10 S10x10 [1] [0] [0] [1] [] []
  dot_S10x256_S256x200000_S10x200000_1_0_0_1_n_n_wf : DotDims.WF S10x256 S256x200000 S10x200000 [1] [0] [0] [1] [] []
  gather_S7200100_S7200100x1_S7200100_n_0_n_n_0_1_1_wf : GatherDims.WF S7200100 S7200100x1 S7200100 [] [0] [] [0] [] 1 ![1]

variable [Facts₀]

def dot_S10x256_S256x10_S10x10_1_0_0_1_n_n : DotDims S10x256 S256x10 S10x10 where
  lhsContracting := [1]
  rhsContracting := [0]
  lhsNonContracting := [0]
  rhsNonContracting := [1]
  lhsBatch := []
  rhsBatch := []
  wf := dot_S10x256_S256x10_S10x10_1_0_0_1_n_n_wf
def dot_S10x256_S256x200000_S10x200000_1_0_0_1_n_n : DotDims S10x256 S256x200000 S10x200000 where
  lhsContracting := [1]
  rhsContracting := [0]
  lhsNonContracting := [0]
  rhsNonContracting := [1]
  lhsBatch := []
  rhsBatch := []
  wf := dot_S10x256_S256x200000_S10x200000_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S7200100_S7200100x1_S7200100_n_0_n_n_0_1_1 : GatherDims S7200100 S7200100x1 S7200100 where
  offsetDims := []
  collapsedSliceDims := [0]
  operandBatchingDims := []
  startIndicesBatchingDims := []
  startIndexMap := [0]
  indexVectorDim := 1
  sliceSizes := ![1]
  wf := gather_S7200100_S7200100x1_S7200100_n_0_n_n_0_1_1_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.KStatsA.lean ====
/-
  The first kernel (per-column sums of x and of x*x over the 100 row blocks of 2000 rows, kept in two
  scratch rows and copied to the two output rows at the last block): the three ways a grid point runs the
  body — the first point (the scratch rows zeroed, then the block's column sums added), a middle point
  (the block's column sums added to what the point before left), the last point (the same, then both
  scratch rows copied out) — each as a triple over whole staging memrefs, the rows every buffer ends
  with found by the run itself.
-/
import proofs.«162080_j20057497272460_1_alg».proof.Proof.Gen.Kernel.Launch
import proofs.«162080_j20057497272460_1_alg».proof.Proof.Gen.Kernel.Skeleton
import proofs.«162080_j20057497272460_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first branch (zero the two scratch rows) is taken where the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (copy the scratch rows to the outputs) is taken where the grid coordinate is 99. -/
abbrev cond0_1 (i : grid0.Coords) : Prop := k0_cond2 i = 1#1
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S1x256 .f32 := (Memref.whole cc0_stg1_0 : Memref sig .tc .vmem S1x256 .f32).view
abbrev VO0_2 : View sig .tc .vmem S1x256 .f32 := (Memref.whole cc0_stg2_0 : Memref sig .tc .vmem S1x256 .f32).view
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
/-- The two scratch rows: the running column sums of x and of x*x. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-! ## The body's triple, case by case -/

set_option maxHeartbeats 4000000 in
/-- FIRST POINT: both scratch rows, held at anything, are zeroed and the block's column sums added; the
    outputs are handed back untouched. -/
noncomputable def kernelRun0_A (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S2000x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.KStatsB.lean ====
/-
  The first kernel's body at a middle grid point: the block's column sums of x and of x*x are added to
  the two scratch rows as the point before left them; the outputs are handed back untouched.
-/
import proofs.«162080_j20057497272460_1_alg».proof.Proof.KStatsA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- MIDDLE POINT: the scratch rows at what the point before left (`xs0`, `xs1`). -/
noncomputable def kernelRun0_B (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : ¬cond0_1 i)
    (x0 : Vec F S2000x256 .f32) (xs0 xs1 : Vec F S1x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.KStatsC.lean ====
/-
  The first kernel's body at the last grid point: the block's column sums are added to the two scratch
  rows, and then each scratch row is copied whole into its output row.
-/
import proofs.«162080_j20057497272460_1_alg».proof.Proof.KStatsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST POINT: the scratch rows at what the point before left; the outputs, held at anything, end with the
    copied rows. -/
noncomputable def kernelRun0_C (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S2000x256 .f32) (xs0 xs1 : Vec F S1x256 .f32) :
    Σ' (L1 : List (View.Piece (Elt F) S1x256 .f32)) (L2 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.KStats.lean ====
/-
  The first kernel as a pipeline region, at the buffer contents `V` the region is entered with: what the
  two scratch rows and the two output rows hold after each grid point (by recursion on the point: the
  first point's zero-then-add, a later point's add onto what the point before left, the last point's copy
  out), the region invariant carrying the two scratch rows from point to point, the pipeline's proof data,
  and the body obligation at every point.
-/
import proofs.«162080_j20057497272460_1_alg».proof.Proof.KStatsC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The invariant's constant part -/

/-- The scoped buffers of the other kernel, each whole at some contents: they ride along untouched. -/
abbrev restO (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restO (F := F) c) ∗ (∃ r, prngReg c r)) := by
  unfold Pipeline.ΦA; rw [scopedRest0_eq]; simp only [scM0_0, scM0_1, owns_whole]; try rfl

/-! ## What each case leaves -/

section Cases
variable (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole)

theorem scover0_A_0 (hc0 : cond0_0 i) (hc1 : ¬cond0_1 i) (x0 : Vec F S2000x256 .f32) (y : S1x256.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x256.size (by sl_kernel_rfl) y
theorem scover0_A_1 (hc0 : cond0_0 i) (hc1 : ¬cond0_1 i) (x0 : Vec F S2000x256 .f32) (y : S1x256.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x256.size (by sl_kernel_rfl) y
def sout0_A_0 (hc0 : cond0_0 i) (hc1 : ¬cond0_1 i) (x0 : Vec F S2000x256 .f32) : Vec F S1x256 .f32 :=
  VS0_0.read (Elt F) (VS0_0.writes (Elt F) VS0_0.junk (kernelRun0_A c i arg1 harg1 arg2 harg2 arg3 harg3 arg4 harg4 arg5 harg5 hc0 hc1 x0).1)
def sout0_A_1 (hc0 : cond0_0 i) (hc1 : ¬cond0_1 i) (x0 : Vec F S2000x256 .f32) : Vec F S1x256 .f32 :=
  VS0_1.read (Elt F) (VS0_1.writes (Elt F) VS0_1.junk (kernelRun0_A c i arg1 harg1 arg2 harg2 arg3 harg3 arg4 harg4 arg5 harg5 hc0 hc1 x0).2.1)

theorem scover0_B_0 (hc0 : ¬cond0_0 i) (hc1 : ¬cond0_1 i) (x0 : Vec F S2000x256 .f32) (xs0 xs1 : Vec F S1x256 .f32) (y : S1x256.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x256.size (by sl_kernel_rfl) y
theorem scover0_B_1 (hc0 : ¬cond0_0 i) (hc1 : ¬cond0_1 i) (x0 : Vec F S2000x256 .f32) (xs0 xs1 : Vec F S1x256 .f32) (y : S1x256.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x256.size (by sl_kernel_rfl) y
def sout0_B_0 (hc0 : ¬cond0_0 i) (hc1 : ¬cond0_1 i) (x0 : Vec F S2000x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 hc0 hc1 x0 xs0 xs1).1)
def sout0_B_1 (hc0 : ¬cond0_0 i) (hc1 : ¬cond0_1 i) (x0 : Vec F S2000x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 hc0 hc1 x0 xs0 xs1).2.1)

theorem cover0_C_1 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x256.size (by sl_kernel_rfl) y
theorem cover0_C_2 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x256.size (by sl_kernel_rfl) y
theorem scover0_C_0 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x256.size (by sl_kernel_rfl) y
theorem scover0_C_1 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x256.size (by sl_kernel_rfl) y
def out0_C_1 (hc0 : ¬cond0_0 i) (hc1 : cond0_1 i) (x0 : Vec F S2000x256 .f32) (xs0 xs1 : Vec F S1x256 .f32) : Vec F S1x256 .f32 :=
  VO0_1.read (Elt F) (VO0_1.writes (Elt F) VO0_1.junk (kernelRun0_C c i arg1 harg1 arg2 harg2 arg3 harg3 arg4 harg4 arg5 harg5 hc0 hc1 x0 xs0 xs1).1)
def out0_C_2 (hc0 : ¬cond0_0 i) (hc1 : cond0_1 i) (x0 : Vec F S2000x256 .f32) (xs0 xs1 : Vec F S1x256 .f32) : Vec F S1x256 .f32 :=
  VO0_2.read (Elt F) (VO0_2.writes (Elt F) VO0_2.junk (kernelRun0_C c i arg1 harg1 arg2 harg2 arg3 harg3 arg4 harg4 arg5 harg5 hc0 hc1 x0 xs0 xs1).2.1)
def sout0_C_0 (hc0 : ¬cond0_0 i) (hc1 : cond0_1 i) (x0 : Vec F S2000x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 hc0 hc1 x0 xs0 xs1).2.2.1)
def sout0_C_1 (hc0 : ¬cond0_0 i) (hc1 : cond0_1 i) (x0 : Vec F S2000x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 hc0 hc1 x0 xs0 xs1).2.2.2.1)

end Cases

/-! ## What the rows hold after each point -/

/-- After the body at position `n`: (output row 1, output row 2, scratch row 0, scratch row 1). The output rows
    are only meaningful at the last point (elsewhere their windows are idle: a placeholder). -/
def outsAt0 (c : Dev nD) : (n : ℕ) → n < cfg0.N → Vec F S1x256 .f32 × Vec F S1x256 .f32 × Vec F S1x256 .f32 × Vec F S1x256 .f32
  | 0, hn =>
    (VO0_1.read (Elt F) VO0_1.junk, VO0_2.read (Elt F) VO0_2.junk,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 99 by decide)) (iblk0 V c 0 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 99 by decide)) (iblk0 V c 0 ⟨0, hn⟩))
  | n + 1, hn =>
    if h1 : n + 1 = 99 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (VO0_1.read (Elt F) VO0_1.junk, VO0_2.read (Elt F) VO0_2.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

end Cert.Kernel.Hand

end
-- ==== Proof.KStatsBody.lean ====
/-
  The first kernel as a pipeline region (continued): the case equations of the rows after each point, the
  region invariant carrying the two scratch rows from point to point, the pipeline's proof data, and the
  body obligation at every point.
-/
import proofs.«162080_j20057497272460_1_alg».proof.Proof.KStats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point: zero, then the block's column sums. -/
theorem outsAt0_A (c : Dev nD) (t : Fin cfg0.N) (h0 : t.val = 0) (h1 : ¬t.val = 99) :
    outsAt0 V c t.val t.isLt = (VO0_1.read (Elt F) VO0_1.junk, VO0_2.read (Elt F) VO0_2.junk,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- At a middle point: the block's column sums added to what the point before left. -/
theorem outsAt0_B (c : Dev nD) (t : Fin cfg0.N) (h0 : ¬t.val = 0) (h1 : ¬t.val = 99) :
    outsAt0 V c t.val t.isLt = (VO0_1.read (Elt F) VO0_1.junk, VO0_2.read (Elt F) VO0_2.junk,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- At the last point: the same, and the rows copied out. -/
theorem outsAt0_C (c : Dev nD) (t : Fin cfg0.N) (h0 : ¬t.val = 0) (h1 : t.val = 99) :
    outsAt0 V c t.val t.isLt = (
      out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: at the first point every scoped buffer at anything; afterwards the two scratch rows at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restO (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restO (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restO (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  by_cases h1 : t.val = 99
  · have h0 : ¬t.val = 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_1 out0_C_2 sout0_C_0 sout0_C_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩⟩
    iapply ((kernelRun0_C c (grid0.coords t) _ _ _ _ _ _ _ _ _ _ (fun h => h0 ((hcond0_0 t).mp h)) ((hcond0_1 t).mpr h1) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_C_0 c _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_C_1 c _ _ _ _ _ _ _ _ _ _ _ _ _ _ _ _)
    unfold owns; iexists _; isplitr
    swap; · iexact H2
    ipureintro; exact View.read_writes_of_cover _ _ _ _ _ (cover0_C_2 c _ _ _ _ _ _ _ _ _ _ _ _ _ _ _ _)
  · rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    by_cases h0 : t.val = 0
    · rw [outsAt0_A V c t h0 h1]
      unfold sout0_A_0 sout0_A_1; (try dsimp only)
      rw [PhiS_castSucc V c t, PhiS_zero V c _ _ h0, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
    · rw [outsAt0_B V c t h0 h1]
      unfold sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back, the rows' contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.Kernel.Hand

end
-- ==== Proof.KCross.lean ====
/- The class-A half of the second pipelined call of `Kernel` (region 1, kernel `cc1__cross_kernel`), at a
   PARAMETER `V`, the TensorCore's buffer contents when the region is entered, and generic in the float instance.

   The body loads the whole block of window 0 (2000 rows of x), the whole of window 1 (the 10 prototype rows),
   contracts them over the 256 columns, applies the logistic function, compares with a constant and stores the
   resulting 0/1 block over the whole of window 2's buffer.  What it leaves there is therefore a closed function
   `out1_2` of the two input blocks; the inputs' buffers are left as found.  Both inputs hold their blocks at every
   point: window 0 is fetched at every point, window 1 only at the first, but its block index never moves. -/
import proofs.«162080_j20057497272460_1_alg».proof.Proof.Gen.Kernel.Launch
import proofs.«162080_j20057497272460_1_alg».proof.Proof.Gen.Kernel.Skeleton
import proofs.«162080_j20057497272460_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S2000x256 := Rect.unit (s := S2000x256) ![0, 0] S2000x256.size inb_S2000x256_S2000x256_0_0
abbrev r1_1 : Rect S10x256 := Rect.unit (s := S10x256) ![0, 0] S10x256.size inb_S10x256_S10x256_0_0
abbrev r1_2 : Rect S2000x10 := Rect.unit (s := S2000x10) ![0, 0] S2000x10.size inb_S2000x10_S2000x10_0_0

/-! ## What the body leaves in the output window's buffer -/

/-- Window 2's staging buffer after the body, from the input windows' blocks: its one store, over the whole
    buffer, of the payload computed from the two loads. -/
def out1_2 (x0 : Vec F S2000x256 .f32) (x1 : Vec F S10x256 .f32) : Vec F S2000x10 .f32 :=
  View.canon [⟨r1_2, k1_pay1 (View.ld x0 r1_0) (View.ld x1 r1_1)⟩]

/-- The one store covers the buffer. -/
theorem cover1_2 (p0 : Vec F S2000x10 .f32) (y : S2000x10.Idx) :
    ∃ pc ∈ ([⟨r1_2, p0⟩] : List (View.Piece (Elt F) S2000x10 .f32)), y ∈ pc.1.set :=
  View.cover_of_tiled [⟨r1_2, p0⟩] S2000x10.size (by rfl) y

/-! ## The body's triple -/

set_option maxHeartbeats 1000000 in
/-- The kernel body on whole staging memrefs, the inputs' at read contents `x0`, `x1` and the output's at anything,
    runs to the continuation holding the inputs' as they were and the output's at `out1_2` of the inputs'.  The
    body also loads the output buffer before storing over the whole of it; the value loaded is not used. -/
theorem sound_kernel1 (c : Dev nD) (E : Set ℕ) (i : grid1.Coords) (arg1 : Memref sig .tc .vmem S2000x256 .f32) (harg1 : arg1.IsWhole)
    (arg2 : Memref sig .tc .vmem S10x256 .f32) (harg2 : arg2.IsWhole) (arg3 : Memref sig .tc .vmem S2000x10 .f32) (harg3 : arg3.IsWhole)
    (x0 : Vec F S2000x256 .f32) (x1 : Vec F S10x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__cross_kernel i arg1 harg1 arg2 harg2 arg3 harg3) K := by
  simp only [cc1__cross_kernel_eq_skeleton]; unfold cc1__cross_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as a run: the buffer contents at every boundary between a stretch of host operations and
  a kernel region, a fold from the launch memory; each kernel region entered from the contents the stretch
  before it left and left at its arrays' final contents; and the run itself: every weakly fair execution
  terminates with every unscoped buffer at the last boundary's contents.
-/
import proofs.«162080_j20057497272460_1_alg».proof.Proof.KStatsBody
import proofs.«162080_j20057497272460_1_alg».proof.Proof.KCross
import proofs.«162080_j20057497272460_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The first region's entry contents read at the TensorCore's references. -/
abbrev VR0 : (c : Dev nD) → (b : Ref sig .tc) → Buf (Elt F) ((c : Thread nD τ).loc b) := fun c b => W3 m c b
/-- After the first region: its arrays at what the pipeline leaves, every other buffer as entered. -/
def W4 (c : Dev nD) : Valuation τ sig (Elt F) :=
  Pipeline.withArrays spec0 c (W3 m c) fun w => (dat0 (VR0 m) c).arrAt w cfg0.N
theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VR0 m) c).arrAt w cfg0.N = VX0 m c (Pipeline.arrRef spec0 w) :=
  (W4_arr m c w).symm
theorem hrest0 (c : Dev nD) : ∀ b, b ∉ Finset.univ.image (Pipeline.arrRef spec0) → VX0 m c b = VR0 m c b :=
  fun b hb => W4_of_ne m c b fun w e => hb (Finset.mem_image.mpr ⟨w, Finset.mem_univ _, e⟩)
abbrev W5 (c : Dev nD) : Valuation τ sig (Elt F) := StableHlo.after hostOps1 (W4 m c)
/-- The second region's entry contents read at the TensorCore's references. -/
abbrev VR1 : (c : Dev nD) → (b : Ref sig .tc) → Buf (Elt F) ((c : Thread nD τ).loc b) := fun c b => W5 m c b
/-- After the second region: its arrays at what the pipeline leaves, every other buffer as entered. -/
def W6 (c : Dev nD) : Valuation τ sig (Elt F) :=
  Pipeline.withArrays spec1 c (W5 m c) fun w => (dat1 (VR1 m) c).arrAt w cfg1.N
theorem W6_arr (c : Dev nD) (w : Fin cfg1.W) :
    W6 m c (Proc.devRef .tc (Pipeline.arrRef spec1 w)) = (dat1 (VR1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VR1 m) c).arrAt w cfg1.N = VX1 m c (Pipeline.arrRef spec1 w) :=
  (W6_arr m c w).symm
theorem hrest1 (c : Dev nD) : ∀ b, b ∉ Finset.univ.image (Pipeline.arrRef spec1) → VX1 m c b = VR1 m c b :=
  fun b hb => W6_of_ne m c b fun w e => hb (Finset.mem_image.mpr ⟨w, Finset.mem_univ _, e⟩)
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)
abbrev W10 (c : Dev nD) : Valuation τ sig (Elt F) := StableHlo.after hostOps2_3 (W9 m c)
abbrev W11 (c : Dev nD) : Valuation τ sig (Elt F) := StableHlo.after hostOps2_4 (W10 m c)
abbrev W12 (c : Dev nD) : Valuation τ sig (Elt F) := StableHlo.after hostOps2_5 (W11 m c)
abbrev W13 (c : Dev nD) : Valuation τ sig (Elt F) := StableHlo.after hostOps2_6 (W12 m c)
abbrev W14 (c : Dev nD) : Valuation τ sig (Elt F) := StableHlo.after hostOps2_7 (W13 m c)
abbrev W15 (c : Dev nD) : Valuation τ sig (Elt F) := StableHlo.after hostOps2_8 (W14 m c)
abbrev W16 (c : Dev nD) : Valuation τ sig (Elt F) := StableHlo.after hostOps2_9 (W15 m c)
abbrev W17 (c : Dev nD) : Valuation τ sig (Elt F) := StableHlo.after hostOps2_10 (W16 m c)
abbrev W18 (c : Dev nD) : Valuation τ sig (Elt F) := StableHlo.after hostOps2_11 (W17 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0 over the thread state: its arrays split out of the unscoped buffers at the entry contents and
    put back at the exit contents; the generator register into the region invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and
    put back at the exit contents; the generator register into the region invariant and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)),
    .host (hseg hostOps2_4 hostOps2_4_sub hostOps2_4_fresh (W10 m)),
    .host (hseg hostOps2_5 hostOps2_5_sub hostOps2_5_fresh (W11 m)),
    .host (hseg hostOps2_6 hostOps2_6_sub hostOps2_6_fresh (W12 m)),
    .host (hseg hostOps2_7 hostOps2_7_sub hostOps2_7_fresh (W13 m)),
    .host (hseg hostOps2_8 hostOps2_8_sub hostOps2_8_fresh (W14 m)),
    .host (hseg hostOps2_9 hostOps2_9_sub hostOps2_9_fresh (W15 m)),
    .host (hseg hostOps2_10 hostOps2_10_sub hostOps2_10_fresh (W16 m)),
    .host (hseg hostOps2_11 hostOps2_11_sub hostOps2_11_fresh (W17 m)) ]

set_option backward.isDefEq.respectTransparency.types false in
/-- THE RUN: from any memory with zero counters every weakly fair execution of @main terminates, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

end Cert.Kernel.Hand

end
-- ==== Proof.KArgs.lean ====
/- The program's three argument arrays are never written: at every boundary between a stretch of host operations
   and a kernel region they hold their launch contents.  No host operation writes an argument; the kernel regions
   only read them (the x array is an input window of both regions, the other two arguments are no window at all). -/
import proofs.«162080_j20057497272460_1_alg».proof.Proof.KRun

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What each stretch of host operations leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ hostOps2_1_W) : W8 m c r = W7 m c r :=
  StableHlo.after_of_writes_sub hostOps2_1 _ hostOps2_1_writes h
theorem W9_of (c : Dev nD) (r : Ref sig .tc) (h : r ∉ hostOps2_2_W) : W9 m c r = W8 m c r :=
  StableHlo.after_of_writes_sub hostOps2_2 _ hostOps2_2_writes h
theorem W10_of (c : Dev nD) (r : Ref sig .tc) (h : r ∉ hostOps2_3_W) : W10 m c r = W9 m c r :=
  StableHlo.after_of_writes_sub hostOps2_3 _ hostOps2_3_writes h
theorem W11_of (c : Dev nD) (r : Ref sig .tc) (h : r ∉ hostOps2_4_W) : W11 m c r = W10 m c r :=
  StableHlo.after_of_writes_sub hostOps2_4 _ hostOps2_4_writes h
theorem W12_of (c : Dev nD) (r : Ref sig .tc) (h : r ∉ hostOps2_5_W) : W12 m c r = W11 m c r :=
  StableHlo.after_of_writes_sub hostOps2_5 _ hostOps2_5_writes h
theorem W13_of (c : Dev nD) (r : Ref sig .tc) (h : r ∉ hostOps2_6_W) : W13 m c r = W12 m c r :=
  StableHlo.after_of_writes_sub hostOps2_6 _ hostOps2_6_writes h
theorem W14_of (c : Dev nD) (r : Ref sig .tc) (h : r ∉ hostOps2_7_W) : W14 m c r = W13 m c r :=
  StableHlo.after_of_writes_sub hostOps2_7 _ hostOps2_7_writes h
theorem W15_of (c : Dev nD) (r : Ref sig .tc) (h : r ∉ hostOps2_8_W) : W15 m c r = W14 m c r :=
  StableHlo.after_of_writes_sub hostOps2_8 _ hostOps2_8_writes h
theorem W16_of (c : Dev nD) (r : Ref sig .tc) (h : r ∉ hostOps2_9_W) : W16 m c r = W15 m c r :=
  StableHlo.after_of_writes_sub hostOps2_9 _ hostOps2_9_writes h
theorem W17_of (c : Dev nD) (r : Ref sig .tc) (h : r ∉ hostOps2_10_W) : W17 m c r = W16 m c r :=
  StableHlo.after_of_writes_sub hostOps2_10 _ hostOps2_10_writes h
theorem W18_of (c : Dev nD) (r : Ref sig .tc) (h : r ∉ hostOps2_11_W) : W18 m c r = W17 m c r :=
  StableHlo.after_of_writes_sub hostOps2_11 _ hostOps2_11_writes h

/-! ## What each kernel region leaves in its input arrays -/

/-- The first region leaves the x array, its one input window's, as it found it. -/
theorem W4_main_arg0 (c : Dev nD) : W4 m c main_arg0 = W3 m c main_arg0 :=
  (W4_arr m c 0).trans (((dat0 (VR0 m) c).arrAt_in 0 rfl _).trans (A_eq0 (VR0 m) c 0))

/-- The second region leaves the x array, its first input window's, as it found it. -/
theorem W6_main_arg0 (c : Dev nD) : W6 m c main_arg0 = W5 m c main_arg0 :=
  (W6_arr m c 0).trans (((dat1 (VR1 m) c).arrAt_in 0 rfl _).trans (A_eq1 (VR1 m) c 0))

/-- The second region leaves the prototype array, its second input window's, as it found it. -/
theorem W6_main_v28 (c : Dev nD) : W6 m c main_v28 = W5 m c main_v28 :=
  (W6_arr m c 1).trans (((dat1 (VR1 m) c).arrAt_in 1 rfl _).trans (A_eq1 (VR1 m) c 1))

/-! ## The arguments at the second region's entry -/

theorem W3_main_arg0 (c : Dev nD) : W3 m c main_arg0 = m ((c : Thread nD τ).loc main_arg0) :=
  (W3_of m c main_arg0 (by decide)).trans <| (W2_of m c main_arg0 (by decide)).trans <| W1_of m c main_arg0 (by decide)
theorem W3_main_arg1 (c : Dev nD) : W3 m c main_arg1 = m ((c : Thread nD τ).loc main_arg1) :=
  (W3_of m c main_arg1 (by decide)).trans <| (W2_of m c main_arg1 (by decide)).trans <| W1_of m c main_arg1 (by decide)
theorem W3_main_arg2 (c : Dev nD) : W3 m c main_arg2 = m ((c : Thread nD τ).loc main_arg2) :=
  (W3_of m c main_arg2 (by decide)).trans <| (W2_of m c main_arg2 (by decide)).trans <| W1_of m c main_arg2 (by decide)

theorem W5_main_arg0 (c : Dev nD) : W5 m c main_arg0 = m ((c : Thread nD τ).loc main_arg0) :=
  (W5_of m c main_arg0 (by decide)).trans <| (W4_main_arg0 m c).trans <| W3_main_arg0 m c
theorem W5_main_arg1 (c : Dev nD) : W5 m c main_arg1 = m ((c : Thread nD τ).loc main_arg1) :=
  (W5_of m c main_arg1 (by decide)).trans <| (W4_of_ne m c main_arg1 (by decide)).trans <| W3_main_arg1 m c
theorem W5_main_arg2 (c : Dev nD) : W5 m c main_arg2 = m ((c : Thread nD τ).loc main_arg2) :=
  (W5_of m c main_arg2 (by decide)).trans <| (W4_of_ne m c main_arg2 (by decide)).trans <| W3_main_arg2 m c

/-! ## The arguments at the end -/

/-- A reference no stretch after the second region writes holds at the end what the second region left. -/
theorem W18_of_W6 (c : Dev nD) (r : Ref sig .tc) (h7 : r ∉ hostOps2_W) (h8 : r ∉ hostOps2_1_W) (h9 : r ∉ hostOps2_2_W)
    (h10 : r ∉ hostOps2_3_W) (h11 : r ∉ hostOps2_4_W) (h12 : r ∉ hostOps2_5_W) (h13 : r ∉ hostOps2_6_W)
    (h14 : r ∉ hostOps2_7_W) (h15 : r ∉ hostOps2_8_W) (h16 : r ∉ hostOps2_9_W) (h17 : r ∉ hostOps2_10_W)
    (h18 : r ∉ hostOps2_11_W) : W18 m c r = W6 m c r :=
  (W18_of m c r h18).trans <| (W17_of m c r h17).trans <| (W16_of m c r h16).trans <| (W15_of m c r h15).trans <|
    (W14_of m c r h14).trans <| (W13_of m c r h13).trans <| (W12_of m c r h12).trans <| (W11_of m c r h11).trans <|
    (W10_of m c r h10).trans <| (W9_of m c r h9).trans <| (W8_of m c r h8).trans <| W7_of m c r h7

theorem W18_main_arg0 (c : Dev nD) : W18 m c main_arg0 = m ((c : Thread nD τ).loc main_arg0) :=
  (W18_of_W6 m c main_arg0 (by decide) (by decide) (by decide) (by decide) (by decide) (by decide) (by decide)
    (by decide) (by decide) (by decide) (by decide) (by decide)).trans <| (W6_main_arg0 m c).trans <| W5_main_arg0 m c
theorem W18_main_arg1 (c : Dev nD) : W18 m c main_arg1 = m ((c : Thread nD τ).loc main_arg1) :=
  (W18_of_W6 m c main_arg1 (by decide) (by decide) (by decide) (by decide) (by decide) (by decide) (by decide)
    (by decide) (by decide) (by decide) (by decide) (by decide)).trans <| (W6_of_ne m c main_arg1 (by decide)).trans <| W5_main_arg1 m c
theorem W18_main_arg2 (c : Dev nD) : W18 m c main_arg2 = m ((c : Thread nD τ).loc main_arg2) :=
  (W18_of_W6 m c main_arg2 (by decide) (by decide) (by decide) (by decide) (by decide) (by decide) (by decide)
    (by decide) (by decide) (by decide) (by decide) (by decide)).trans <| (W6_of_ne m c main_arg2 (by decide)).trans <| W5_main_arg2 m c

end Cert.Kernel.Hand

end
-- ==== Proof.KIStatsA.lean ====
/-
  The first kernel (per-column sums of x and of x*x over the 100 row blocks of 2000 rows, kept in two
  scratch rows and copied to the two output rows at the last block): the three ways a grid point runs the
  body — the first point (the scratch rows zeroed, then the block's column sums added), a middle point
  (the block's column sums added to what the point before left), the last point (the same, then both
  scratch rows copied out) — each as a triple over whole staging memrefs, the rows every buffer ends
  with found by the run itself.
-/
import proofs.«162080_j20057497272460_1_alg».proof.Proof.Gen.KernelIdeal.Launch
import proofs.«162080_j20057497272460_1_alg».proof.Proof.Gen.KernelIdeal.Skeleton
import proofs.«162080_j20057497272460_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first branch (zero the two scratch rows) is taken where the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (copy the scratch rows to the outputs) is taken where the grid coordinate is 99. -/
abbrev cond0_1 (i : grid0.Coords) : Prop := k0_cond2 i = 1#1
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S1x256 .f32 := (Memref.whole cc0_stg1_0 : Memref sig .tc .vmem S1x256 .f32).view
abbrev VO0_2 : View sig .tc .vmem S1x256 .f32 := (Memref.whole cc0_stg2_0 : Memref sig .tc .vmem S1x256 .f32).view
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
/-- The two scratch rows: the running column sums of x and of x*x. -/
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-! ## The body's triple, case by case -/

set_option maxHeartbeats 4000000 in
/-- FIRST POINT: both scratch rows, held at anything, are zeroed and the block's column sums added; the
    outputs are handed back untouched. -/
noncomputable def kernelRun0_A (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S2000x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KIStatsB.lean ====
/-
  The first kernel's body at a middle grid point: the block's column sums of x and of x*x are added to
  the two scratch rows as the point before left them; the outputs are handed back untouched.
-/
import proofs.«162080_j20057497272460_1_alg».proof.Proof.KIStatsA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- MIDDLE POINT: the scratch rows at what the point before left (`xs0`, `xs1`). -/
noncomputable def kernelRun0_B (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : ¬cond0_1 i)
    (x0 : Vec F S2000x256 .f32) (xs0 xs1 : Vec F S1x256 .f32) :
    Σ' (LS0 : List (View.Piece (Elt F) S1x256 .f32)), { LS1 : List (View.Piece (Elt F) S1x256 .f32) //
      ∀ (xi1 xi2 : Vec F S1x256 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KIStatsC.lean ====
/-
  The first kernel's body at the last grid point: the block's column sums are added to the two scratch
  rows, and then each scratch row is copied whole into its output row.
-/
import proofs.«162080_j20057497272460_1_alg».proof.Proof.KIStatsB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST POINT: the scratch rows at what the point before left; the outputs, held at anything, end with the
    copied rows. -/
noncomputable def kernelRun0_C (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S2000x256 .f32) (xs0 xs1 : Vec F S1x256 .f32) :
    Σ' (L1 : List (View.Piece (Elt F) S1x256 .f32)) (L2 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KIStats.lean ====
/-
  The first kernel as a pipeline region, at the buffer contents `V` the region is entered with: what the
  two scratch rows and the two output rows hold after each grid point (by recursion on the point: the
  first point's zero-then-add, a later point's add onto what the point before left, the last point's copy
  out), the region invariant carrying the two scratch rows from point to point, the pipeline's proof data,
  and the body obligation at every point.
-/
import proofs.«162080_j20057497272460_1_alg».proof.Proof.KIStatsC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The invariant's constant part -/

/-- The scoped buffers of the other kernel, each whole at some contents: they ride along untouched. -/
abbrev restO (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restO (F := F) c) ∗ (∃ r, prngReg c r)) := by
  unfold Pipeline.ΦA; rw [scopedRest0_eq]; simp only [scM0_0, scM0_1, owns_whole]; try rfl

/-! ## What each case leaves -/

section Cases
variable (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole)

theorem scover0_A_0 (hc0 : cond0_0 i) (hc1 : ¬cond0_1 i) (x0 : Vec F S2000x256 .f32) (y : S1x256.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x256.size (by sl_kernel_rfl) y
theorem scover0_A_1 (hc0 : cond0_0 i) (hc1 : ¬cond0_1 i) (x0 : Vec F S2000x256 .f32) (y : S1x256.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x256.size (by sl_kernel_rfl) y
def sout0_A_0 (hc0 : cond0_0 i) (hc1 : ¬cond0_1 i) (x0 : Vec F S2000x256 .f32) : Vec F S1x256 .f32 :=
  VS0_0.read (Elt F) (VS0_0.writes (Elt F) VS0_0.junk (kernelRun0_A c i arg1 harg1 arg2 harg2 arg3 harg3 arg4 harg4 arg5 harg5 hc0 hc1 x0).1)
def sout0_A_1 (hc0 : cond0_0 i) (hc1 : ¬cond0_1 i) (x0 : Vec F S2000x256 .f32) : Vec F S1x256 .f32 :=
  VS0_1.read (Elt F) (VS0_1.writes (Elt F) VS0_1.junk (kernelRun0_A c i arg1 harg1 arg2 harg2 arg3 harg3 arg4 harg4 arg5 harg5 hc0 hc1 x0).2.1)

theorem scover0_B_0 (hc0 : ¬cond0_0 i) (hc1 : ¬cond0_1 i) (x0 : Vec F S2000x256 .f32) (xs0 xs1 : Vec F S1x256 .f32) (y : S1x256.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x256.size (by sl_kernel_rfl) y
theorem scover0_B_1 (hc0 : ¬cond0_0 i) (hc1 : ¬cond0_1 i) (x0 : Vec F S2000x256 .f32) (xs0 xs1 : Vec F S1x256 .f32) (y : S1x256.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x256.size (by sl_kernel_rfl) y
def sout0_B_0 (hc0 : ¬cond0_0 i) (hc1 : ¬cond0_1 i) (x0 : Vec F S2000x256 .f32) (xs0 xs1 : Vec F S1x256 .f32) : Vec F S1x256 .f32 :=
  VS0_0.read (Elt F) (VS0_0.writes (Elt F) VS0_0.junk (kernelRun0_B c i arg1 harg1 arg2 harg2 arg3 harg3 arg4 harg4 arg5 harg5 hc0 hc1 x0 xs0 xs1).1)
def sout0_B_1 (hc0 : ¬cond0_0 i) (hc1 : ¬cond0_1 i) (x0 : Vec F S2000x256 .f32) (xs0 xs1 : Vec F S1x256 .f32) : Vec F S1x256 .f32 :=
  VS0_1.read (Elt F) (VS0_1.writes (Elt F) VS0_1.junk (kernelRun0_B c i arg1 harg1 arg2 harg2 arg3 harg3 arg4 harg4 arg5 harg5 hc0 hc1 x0 xs0 xs1).2.1)

theorem cover0_C_1 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x256.size (by sl_kernel_rfl) y
theorem cover0_C_2 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x256.size (by sl_kernel_rfl) y
theorem scover0_C_0 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x256.size (by sl_kernel_rfl) y
theorem scover0_C_1 (hc0 : ¬cond0_0 i) (hc1 : cond0_1 i) (x0 : Vec F S2000x256 .f32) (xs0 xs1 : Vec F S1x256 .f32) (y : S1x256.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x256.size (by sl_kernel_rfl) y
def out0_C_1 (hc0 : ¬cond0_0 i) (hc1 : cond0_1 i) (x0 : Vec F S2000x256 .f32) (xs0 xs1 : Vec F S1x256 .f32) : Vec F S1x256 .f32 :=
  VO0_1.read (Elt F) (VO0_1.writes (Elt F) VO0_1.junk (kernelRun0_C c i arg1 harg1 arg2 harg2 arg3 harg3 arg4 harg4 arg5 harg5 hc0 hc1 x0 xs0 xs1).1)
def out0_C_2 (hc0 : ¬cond0_0 i) (hc1 : cond0_1 i) (x0 : Vec F S2000x256 .f32) (xs0 xs1 : Vec F S1x256 .f32) : Vec F S1x256 .f32 :=
  VO0_2.read (Elt F) (VO0_2.writes (Elt F) VO0_2.junk (kernelRun0_C c i arg1 harg1 arg2 harg2 arg3 harg3 arg4 harg4 arg5 harg5 hc0 hc1 x0 xs0 xs1).2.1)
def sout0_C_0 (hc0 : ¬cond0_0 i) (hc1 : cond0_1 i) (x0 : Vec F S2000x256 .f32) (xs0 xs1 : Vec F S1x256 .f32) : Vec F S1x256 .f32 :=
  VS0_0.read (Elt F) (VS0_0.writes (Elt F) VS0_0.junk (kernelRun0_C c i arg1 harg1 arg2 harg2 arg3 harg3 arg4 harg4 arg5 harg5 hc0 hc1 x0 xs0 xs1).2.2.1)
def sout0_C_1 (hc0 : ¬cond0_0 i) (hc1 : cond0_1 i) (x0 : Vec F S2000x256 .f32) (xs0 xs1 : Vec F S1x256 .f32) : Vec F S1x256 .f32 :=
  VS0_1.read (Elt F) (VS0_1.writes (Elt F) VS0_1.junk (kernelRun0_C c i arg1 harg1 arg2 harg2 arg3 harg3 arg4 harg4 arg5 harg5 hc0 hc1 x0 xs0 xs1).2.2.2.1)

end Cases

/-! ## What the rows hold after each point -/

/-- After the body at position `n`: (output row 1, output row 2, scratch row 0, scratch row 1). The output rows
    are only meaningful at the last point (elsewhere their windows are idle: a placeholder). -/
def outsAt0 (c : Dev nD) : (n : ℕ) → n < cfg0.N → Vec F S1x256 .f32 × Vec F S1x256 .f32 × Vec F S1x256 .f32 × Vec F S1x256 .f32
  | 0, hn =>
    (VO0_1.read (Elt F) VO0_1.junk, VO0_2.read (Elt F) VO0_2.junk,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 99 by decide)) (iblk0 V c 0 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 99 by decide)) (iblk0 V c 0 ⟨0, hn⟩))
  | n + 1, hn =>
    if h1 : n + 1 = 99 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (VO0_1.read (Elt F) VO0_1.junk, VO0_2.read (Elt F) VO0_2.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

end Cert.KernelIdeal.Hand

end
-- ==== Proof.KIStatsBody.lean ====
/-
  The first kernel as a pipeline region (continued): the case equations of the rows after each point, the
  region invariant carrying the two scratch rows from point to point, the pipeline's proof data, and the
  body obligation at every point.
-/
import proofs.«162080_j20057497272460_1_alg».proof.Proof.KIStats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point: zero, then the block's column sums. -/
theorem outsAt0_A (c : Dev nD) (t : Fin cfg0.N) (h0 : t.val = 0) (h1 : ¬t.val = 99) :
    outsAt0 V c t.val t.isLt = (VO0_1.read (Elt F) VO0_1.junk, VO0_2.read (Elt F) VO0_2.junk,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- At a middle point: the block's column sums added to what the point before left. -/
theorem outsAt0_B (c : Dev nD) (t : Fin cfg0.N) (h0 : ¬t.val = 0) (h1 : ¬t.val = 99) :
    outsAt0 V c t.val t.isLt = (VO0_1.read (Elt F) VO0_1.junk, VO0_2.read (Elt F) VO0_2.junk,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- At the last point: the same, and the rows copied out. -/
theorem outsAt0_C (c : Dev nD) (t : Fin cfg0.N) (h0 : ¬t.val = 0) (h1 : t.val = 99) :
    outsAt0 V c t.val t.isLt = (
      out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: at the first point every scoped buffer at anything; afterwards the two scratch rows at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restO (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restO (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restO (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  by_cases h1 : t.val = 99
  · have h0 : ¬t.val = 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_1 out0_C_2 sout0_C_0 sout0_C_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩⟩
    iapply ((kernelRun0_C c (grid0.coords t) _ _ _ _ _ _ _ _ _ _ (fun h => h0 ((hcond0_0 t).mp h)) ((hcond0_1 t).mpr h1) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_C_0 c _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_C_1 c _ _ _ _ _ _ _ _ _ _ _ _ _ _ _ _)
    unfold owns; iexists _; isplitr
    swap; · iexact H2
    ipureintro; exact View.read_writes_of_cover _ _ _ _ _ (cover0_C_2 c _ _ _ _ _ _ _ _ _ _ _ _ _ _ _ _)
  · rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    by_cases h0 : t.val = 0
    · rw [outsAt0_A V c t h0 h1]
      unfold sout0_A_0 sout0_A_1; (try dsimp only)
      rw [PhiS_castSucc V c t, PhiS_zero V c _ _ h0, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
    · rw [outsAt0_B V c t h0 h1]
      unfold sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped buffers back, the rows' contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Hand

end
-- ==== Proof.KICross.lean ====
/- The class-A half of the second pipelined call of `KernelIdeal` (region 1, kernel `cc1__cross_kernel`), at a
   PARAMETER `V`, the TensorCore's buffer contents when the region is entered, and generic in the float instance.

   The body loads the whole block of window 0 (2000 rows of x), the whole of window 1 (the 10 prototype rows),
   contracts them over the 256 columns, applies the logistic function, compares with a constant and stores the
   resulting 0/1 block over the whole of window 2's buffer.  What it leaves there is therefore a closed function
   `out1_2` of the two input blocks; the inputs' buffers are left as found.  Both inputs hold their blocks at every
   point: window 0 is fetched at every point, window 1 only at the first, but its block index never moves. -/
import proofs.«162080_j20057497272460_1_alg».proof.Proof.Gen.KernelIdeal.Launch
import proofs.«162080_j20057497272460_1_alg».proof.Proof.Gen.KernelIdeal.Skeleton
import proofs.«162080_j20057497272460_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S2000x256 := Rect.unit (s := S2000x256) ![0, 0] S2000x256.size inb_S2000x256_S2000x256_0_0
abbrev r1_1 : Rect S10x256 := Rect.unit (s := S10x256) ![0, 0] S10x256.size inb_S10x256_S10x256_0_0
abbrev r1_2 : Rect S2000x10 := Rect.unit (s := S2000x10) ![0, 0] S2000x10.size inb_S2000x10_S2000x10_0_0

/-! ## What the body leaves in the output window's buffer -/

/-- Window 2's staging buffer after the body, from the input windows' blocks: its one store, over the whole
    buffer, of the payload computed from the two loads. -/
def out1_2 (x0 : Vec F S2000x256 .f32) (x1 : Vec F S10x256 .f32) : Vec F S2000x10 .f32 :=
  View.canon [⟨r1_2, k1_pay1 (View.ld x0 r1_0) (View.ld x1 r1_1)⟩]

/-- The one store covers the buffer. -/
theorem cover1_2 (p0 : Vec F S2000x10 .f32) (y : S2000x10.Idx) :
    ∃ pc ∈ ([⟨r1_2, p0⟩] : List (View.Piece (Elt F) S2000x10 .f32)), y ∈ pc.1.set :=
  View.cover_of_tiled [⟨r1_2, p0⟩] S2000x10.size (by rfl) y

/-! ## The body's triple -/

set_option maxHeartbeats 1000000 in
/-- The kernel body on whole staging memrefs, the inputs' at read contents `x0`, `x1` and the output's at anything,
    runs to the continuation holding the inputs' as they were and the output's at `out1_2` of the inputs'.  The
    body also loads the output buffer before storing over the whole of it; the value loaded is not used. -/
theorem sound_kernel1 (c : Dev nD) (E : Set ℕ) (i : grid1.Coords) (arg1 : Memref sig .tc .vmem S2000x256 .f32) (harg1 : arg1.IsWhole)
    (arg2 : Memref sig .tc .vmem S10x256 .f32) (harg2 : arg2.IsWhole) (arg3 : Memref sig .tc .vmem S2000x10 .f32) (harg3 : arg3.IsWhole)
    (x0 : Vec F S2000x256 .f32) (x1 : Vec F S10x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__cross_kernel i arg1 harg1 arg2 harg2 arg3 harg3) K := by
  simp only [cc1__cross_kernel_eq_skeleton]; unfold cc1__cross_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program as a run: the buffer contents at every boundary between a stretch of host operations and
  a kernel region, a fold from the launch memory; each kernel region entered from the contents the stretch
  before it left and left at its arrays' final contents; and the run itself: every weakly fair execution
  terminates with every unscoped buffer at the last boundary's contents.
-/
import proofs.«162080_j20057497272460_1_alg».proof.Proof.KIStatsBody
import proofs.«162080_j20057497272460_1_alg».proof.Proof.KICross
import proofs.«162080_j20057497272460_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The first region's entry contents read at the TensorCore's references. -/
abbrev VR0 : (c : Dev nD) → (b : Ref sig .tc) → Buf (Elt F) ((c : Thread nD τ).loc b) := fun c b => W3 m c b
/-- After the first region: its arrays at what the pipeline leaves, every other buffer as entered. -/
def W4 (c : Dev nD) : Valuation τ sig (Elt F) :=
  Pipeline.withArrays spec0 c (W3 m c) fun w => (dat0 (VR0 m) c).arrAt w cfg0.N
theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VR0 m) c).arrAt w cfg0.N = VX0 m c (Pipeline.arrRef spec0 w) :=
  (W4_arr m c w).symm
theorem hrest0 (c : Dev nD) : ∀ b, b ∉ Finset.univ.image (Pipeline.arrRef spec0) → VX0 m c b = VR0 m c b :=
  fun b hb => W4_of_ne m c b fun w e => hb (Finset.mem_image.mpr ⟨w, Finset.mem_univ _, e⟩)
abbrev W5 (c : Dev nD) : Valuation τ sig (Elt F) := StableHlo.after hostOps1 (W4 m c)
/-- The second region's entry contents read at the TensorCore's references. -/
abbrev VR1 : (c : Dev nD) → (b : Ref sig .tc) → Buf (Elt F) ((c : Thread nD τ).loc b) := fun c b => W5 m c b
/-- After the second region: its arrays at what the pipeline leaves, every other buffer as entered. -/
def W6 (c : Dev nD) : Valuation τ sig (Elt F) :=
  Pipeline.withArrays spec1 c (W5 m c) fun w => (dat1 (VR1 m) c).arrAt w cfg1.N
theorem W6_arr (c : Dev nD) (w : Fin cfg1.W) :
    W6 m c (Proc.devRef .tc (Pipeline.arrRef spec1 w)) = (dat1 (VR1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VR1 m) c).arrAt w cfg1.N = VX1 m c (Pipeline.arrRef spec1 w) :=
  (W6_arr m c w).symm
theorem hrest1 (c : Dev nD) : ∀ b, b ∉ Finset.univ.image (Pipeline.arrRef spec1) → VX1 m c b = VR1 m c b :=
  fun b hb => W6_of_ne m c b fun w e => hb (Finset.mem_image.mpr ⟨w, Finset.mem_univ _, e⟩)
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)
abbrev W10 (c : Dev nD) : Valuation τ sig (Elt F) := StableHlo.after hostOps2_3 (W9 m c)
abbrev W11 (c : Dev nD) : Valuation τ sig (Elt F) := StableHlo.after hostOps2_4 (W10 m c)
abbrev W12 (c : Dev nD) : Valuation τ sig (Elt F) := StableHlo.after hostOps2_5 (W11 m c)
abbrev W13 (c : Dev nD) : Valuation τ sig (Elt F) := StableHlo.after hostOps2_6 (W12 m c)
abbrev W14 (c : Dev nD) : Valuation τ sig (Elt F) := StableHlo.after hostOps2_7 (W13 m c)
abbrev W15 (c : Dev nD) : Valuation τ sig (Elt F) := StableHlo.after hostOps2_8 (W14 m c)
abbrev W16 (c : Dev nD) : Valuation τ sig (Elt F) := StableHlo.after hostOps2_9 (W15 m c)
abbrev W17 (c : Dev nD) : Valuation τ sig (Elt F) := StableHlo.after hostOps2_10 (W16 m c)
abbrev W18 (c : Dev nD) : Valuation τ sig (Elt F) := StableHlo.after hostOps2_11 (W17 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0 over the thread state: its arrays split out of the unscoped buffers at the entry contents and
    put back at the exit contents; the generator register into the region invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and
    put back at the exit contents; the generator register into the region invariant and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)),
    .host (hseg hostOps2_4 hostOps2_4_sub hostOps2_4_fresh (W10 m)),
    .host (hseg hostOps2_5 hostOps2_5_sub hostOps2_5_fresh (W11 m)),
    .host (hseg hostOps2_6 hostOps2_6_sub hostOps2_6_fresh (W12 m)),
    .host (hseg hostOps2_7 hostOps2_7_sub hostOps2_7_fresh (W13 m)),
    .host (hseg hostOps2_8 hostOps2_8_sub hostOps2_8_fresh (W14 m)),
    .host (hseg hostOps2_9 hostOps2_9_sub hostOps2_9_fresh (W15 m)),
    .host (hseg hostOps2_10 hostOps2_10_sub hostOps2_10_fresh (W16 m)),
    .host (hseg hostOps2_11 hostOps2_11_sub hostOps2_11_fresh (W17 m)) ]

set_option backward.isDefEq.respectTransparency.types false in
/-- THE RUN: from any memory with zero counters every weakly fair execution of @main terminates, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

end Cert.KernelIdeal.Hand

end
-- ==== Proof.KIArgs.lean ====
/- The program's three argument arrays are never written: at every boundary between a stretch of host operations
   and a kernel region they hold their launch contents.  No host operation writes an argument; the kernel regions
   only read them (the x array is an input window of both regions, the other two arguments are no window at all). -/
import proofs.«162080_j20057497272460_1_alg».proof.Proof.KIRun

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What each stretch of host operations leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ hostOps2_1_W) : W8 m c r = W7 m c r :=
  StableHlo.after_of_writes_sub hostOps2_1 _ hostOps2_1_writes h
theorem W9_of (c : Dev nD) (r : Ref sig .tc) (h : r ∉ hostOps2_2_W) : W9 m c r = W8 m c r :=
  StableHlo.after_of_writes_sub hostOps2_2 _ hostOps2_2_writes h
theorem W10_of (c : Dev nD) (r : Ref sig .tc) (h : r ∉ hostOps2_3_W) : W10 m c r = W9 m c r :=
  StableHlo.after_of_writes_sub hostOps2_3 _ hostOps2_3_writes h
theorem W11_of (c : Dev nD) (r : Ref sig .tc) (h : r ∉ hostOps2_4_W) : W11 m c r = W10 m c r :=
  StableHlo.after_of_writes_sub hostOps2_4 _ hostOps2_4_writes h
theorem W12_of (c : Dev nD) (r : Ref sig .tc) (h : r ∉ hostOps2_5_W) : W12 m c r = W11 m c r :=
  StableHlo.after_of_writes_sub hostOps2_5 _ hostOps2_5_writes h
theorem W13_of (c : Dev nD) (r : Ref sig .tc) (h : r ∉ hostOps2_6_W) : W13 m c r = W12 m c r :=
  StableHlo.after_of_writes_sub hostOps2_6 _ hostOps2_6_writes h
theorem W14_of (c : Dev nD) (r : Ref sig .tc) (h : r ∉ hostOps2_7_W) : W14 m c r = W13 m c r :=
  StableHlo.after_of_writes_sub hostOps2_7 _ hostOps2_7_writes h
theorem W15_of (c : Dev nD) (r : Ref sig .tc) (h : r ∉ hostOps2_8_W) : W15 m c r = W14 m c r :=
  StableHlo.after_of_writes_sub hostOps2_8 _ hostOps2_8_writes h
theorem W16_of (c : Dev nD) (r : Ref sig .tc) (h : r ∉ hostOps2_9_W) : W16 m c r = W15 m c r :=
  StableHlo.after_of_writes_sub hostOps2_9 _ hostOps2_9_writes h
theorem W17_of (c : Dev nD) (r : Ref sig .tc) (h : r ∉ hostOps2_10_W) : W17 m c r = W16 m c r :=
  StableHlo.after_of_writes_sub hostOps2_10 _ hostOps2_10_writes h
theorem W18_of (c : Dev nD) (r : Ref sig .tc) (h : r ∉ hostOps2_11_W) : W18 m c r = W17 m c r :=
  StableHlo.after_of_writes_sub hostOps2_11 _ hostOps2_11_writes h

/-! ## What each kernel region leaves in its input arrays -/

/-- The first region leaves the x array, its one input window's, as it found it. -/
theorem W4_main_arg0 (c : Dev nD) : W4 m c main_arg0 = W3 m c main_arg0 :=
  (W4_arr m c 0).trans (((dat0 (VR0 m) c).arrAt_in 0 rfl _).trans (A_eq0 (VR0 m) c 0))

/-- The second region leaves the x array, its first input window's, as it found it. -/
theorem W6_main_arg0 (c : Dev nD) : W6 m c main_arg0 = W5 m c main_arg0 :=
  (W6_arr m c 0).trans (((dat1 (VR1 m) c).arrAt_in 0 rfl _).trans (A_eq1 (VR1 m) c 0))

/-- The second region leaves the prototype array, its second input window's, as it found it. -/
theorem W6_main_v28 (c : Dev nD) : W6 m c main_v28 = W5 m c main_v28 :=
  (W6_arr m c 1).trans (((dat1 (VR1 m) c).arrAt_in 1 rfl _).trans (A_eq1 (VR1 m) c 1))

/-! ## The arguments at the second region's entry -/

theorem W3_main_arg0 (c : Dev nD) : W3 m c main_arg0 = m ((c : Thread nD τ).loc main_arg0) :=
  (W3_of m c main_arg0 (by decide)).trans <| (W2_of m c main_arg0 (by decide)).trans <| W1_of m c main_arg0 (by decide)
theorem W3_main_arg1 (c : Dev nD) : W3 m c main_arg1 = m ((c : Thread nD τ).loc main_arg1) :=
  (W3_of m c main_arg1 (by decide)).trans <| (W2_of m c main_arg1 (by decide)).trans <| W1_of m c main_arg1 (by decide)
theorem W3_main_arg2 (c : Dev nD) : W3 m c main_arg2 = m ((c : Thread nD τ).loc main_arg2) :=
  (W3_of m c main_arg2 (by decide)).trans <| (W2_of m c main_arg2 (by decide)).trans <| W1_of m c main_arg2 (by decide)

theorem W5_main_arg0 (c : Dev nD) : W5 m c main_arg0 = m ((c : Thread nD τ).loc main_arg0) :=
  (W5_of m c main_arg0 (by decide)).trans <| (W4_main_arg0 m c).trans <| W3_main_arg0 m c
theorem W5_main_arg1 (c : Dev nD) : W5 m c main_arg1 = m ((c : Thread nD τ).loc main_arg1) :=
  (W5_of m c main_arg1 (by decide)).trans <| (W4_of_ne m c main_arg1 (by decide)).trans <| W3_main_arg1 m c
theorem W5_main_arg2 (c : Dev nD) : W5 m c main_arg2 = m ((c : Thread nD τ).loc main_arg2) :=
  (W5_of m c main_arg2 (by decide)).trans <| (W4_of_ne m c main_arg2 (by decide)).trans <| W3_main_arg2 m c

/-! ## The arguments at the end -/

/-- A reference no stretch after the second region writes holds at the end what the second region left. -/
theorem W18_of_W6 (c : Dev nD) (r : Ref sig .tc) (h7 : r ∉ hostOps2_W) (h8 : r ∉ hostOps2_1_W) (h9 : r ∉ hostOps2_2_W)
    (h10 : r ∉ hostOps2_3_W) (h11 : r ∉ hostOps2_4_W) (h12 : r ∉ hostOps2_5_W) (h13 : r ∉ hostOps2_6_W)
    (h14 : r ∉ hostOps2_7_W) (h15 : r ∉ hostOps2_8_W) (h16 : r ∉ hostOps2_9_W) (h17 : r ∉ hostOps2_10_W)
    (h18 : r ∉ hostOps2_11_W) : W18 m c r = W6 m c r :=
  (W18_of m c r h18).trans <| (W17_of m c r h17).trans <| (W16_of m c r h16).trans <| (W15_of m c r h15).trans <|
    (W14_of m c r h14).trans <| (W13_of m c r h13).trans <| (W12_of m c r h12).trans <| (W11_of m c r h11).trans <|
    (W10_of m c r h10).trans <| (W9_of m c r h9).trans <| (W8_of m c r h8).trans <| W7_of m c r h7

theorem W18_main_arg0 (c : Dev nD) : W18 m c main_arg0 = m ((c : Thread nD τ).loc main_arg0) :=
  (W18_of_W6 m c main_arg0 (by decide) (by decide) (by decide) (by decide) (by decide) (by decide) (by decide)
    (by decide) (by decide) (by decide) (by decide) (by decide)).trans <| (W6_main_arg0 m c).trans <| W5_main_arg0 m c
theorem W18_main_arg1 (c : Dev nD) : W18 m c main_arg1 = m ((c : Thread nD τ).loc main_arg1) :=
  (W18_of_W6 m c main_arg1 (by decide) (by decide) (by decide) (by decide) (by decide) (by decide) (by decide)
    (by decide) (by decide) (by decide) (by decide) (by decide)).trans <| (W6_of_ne m c main_arg1 (by decide)).trans <| W5_main_arg1 m c
theorem W18_main_arg2 (c : Dev nD) : W18 m c main_arg2 = m ((c : Thread nD τ).loc main_arg2) :=
  (W18_of_W6 m c main_arg2 (by decide) (by decide) (by decide) (by decide) (by decide) (by decide) (by decide)
    (by decide) (by decide) (by decide) (by decide) (by decide)).trans <| (W6_of_ne m c main_arg2 (by decide)).trans <| W5_main_arg2 m c

end Cert.KernelIdeal.Hand

end
-- ==== Proof.RefRun.lean ====
/- The reference program's @main as ONE straight line of host operations, and its run.
   @main calls eight outlined functions (two of them calling a further function that calls a third); a call is its
   callee's body over the call's own buffers, so the whole program is a sequence of 215 operations, each writing one
   buffer as a pure function of earlier ones. The sequence is cut into 18 consecutive stretches (a stretch ends where a
   call begins or ends); `ops` is their concatenation. Shown here: @main equals the sequence (`main_eq`); every
   execution from any memory terminates with each buffer at the fold of the operations over the launch contents
   (`run_all`, in the form of the library's `run_seq`; `after_ops` reads the fold stretch by stretch); no operation
   writes an argument, so the three arguments end as launched (`frame`). -/
import proofs.«162080_j20057497272460_1_alg».proof.Proof.Gen.ReferenceIdeal
import Idealize.ShloMosaic.Lib.StableHlo.Run
import Idealize.ShloMosaic.Lib.Pipeline.Regions

set_option maxRecDepth 2048

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Lists of operations: concatenation -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The reference `r` holds the same contents after the operations `l` as before them, whatever they were. -/
def Keeps (r : Ref sig .tc) (l : List (HloOp τ sig (Elt F))) : Prop :=
  ∀ V : Valuation τ sig (Elt F), after l V (Proc.devRef .tc r) = V (Proc.devRef .tc r)

theorem Keeps.append {r : Ref sig .tc} {l₁ l₂ : List (HloOp τ sig (Elt F))} (h₁ : Keeps r l₁) (h₂ : Keeps r l₂) : Keeps r (l₁ ++ l₂) :=
  fun V => by rw [after_append, h₂, h₁]

/-- A reference outside a list holding every reference the operations write keeps its contents. -/
theorem keeps_of_writes {W : List (Ref sig .tc)} {r : Ref sig .tc} {l : List (HloOp τ sig (Elt F))}
    (hW : l.Forall fun op => op.writes ⊆ (W.map (Proc.devRef (τ := τ) .tc)).toFinset) (hr : r ∉ W) : Keeps r l :=
  fun V => after_of_writes_sub l V hW hr

/-- An operation writes exactly its result buffer; that reference is in the given list. -/
local macro "writes_in" : tactic =>
  `(tactic| (simp only [StableHlo.nullary_writes, StableHlo.unary_writes, StableHlo.binary_writes, StableHlo.ternary_writes,
      StableHlo.quaternary_writes, StableHlo.reshape_writes, StableHlo.nary_writes, Finset.singleton_subset_iff, List.mem_toFinset]
             exact List.mem_map_of_mem (by decide)))

/-! ## The stretches -/

/-- 7 operations of @main's own, in order. -/
abbrev ops0 : List (HloOp τ sig (Elt F)) :=
  ( StableHlo.nullary main_cst (constant S_ .f32 0x00000000#32)
  :: StableHlo.binary main_arg2 main_cst main_v0 ((fun x v => Host.reduceAdd x v reducesTo_S10x256_S256_d0 h_S_) : (⟨S10x256, .f32⟩ : BufTy).Contents (Elt F) → (⟨S_, .f32⟩ : BufTy).Contents (Elt F) → (⟨S256, .f32⟩ : BufTy).Contents (Elt F))
  :: StableHlo.unary main_v0 main_v1 (broadcastInDim S1x256 ![1] bcast_S256_S1x256_1 : (⟨S256, .f32⟩ : BufTy).Contents (Elt F) → (⟨S1x256, .f32⟩ : BufTy).Contents (Elt F))
  :: StableHlo.nullary main_cst_0 (constant S_ .f32 0x41200000#32)
  :: StableHlo.unary main_cst_0 main_v2 (broadcastInDim S1x256 ![] bcast_S_S1x256 : (⟨S_, .f32⟩ : BufTy).Contents (Elt F) → (⟨S1x256, .f32⟩ : BufTy).Contents (Elt F))
  :: StableHlo.binary main_v1 main_v2 main_v3 (Host.divf : (⟨S1x256, .f32⟩ : BufTy).Contents (Elt F) → (⟨S1x256, .f32⟩ : BufTy).Contents (Elt F) → (⟨S1x256, .f32⟩ : BufTy).Contents (Elt F))
  :: StableHlo.nullary main_c (constantI S_ 32 1#32)
  :: [] )
theorem ops0_sub : (ops0 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem ops0_fresh : (ops0 : List (HloOp τ sig (Elt F))).Forall fun op => op.fresh = ∅ := by
  simp only [List.Forall]; repeat' constructor
/-- The references `ops0`'s operations write. -/
abbrev ops0_W : List (Ref sig .tc) := [main_cst, main_v0, main_v1, main_cst_0, main_v2, main_v3, main_c]
theorem ops0_writes : (ops0 : List (HloOp τ sig (Elt F))).Forall fun op => op.writes ⊆ (ops0_W.map (Proc.devRef (τ := τ) .tc)).toFinset := by
  simp only [List.Forall]; exact ⟨by writes_in, by writes_in, by writes_in, by writes_in, by writes_in, by writes_in, by writes_in⟩

/-- the 24 operations of one call of @_std, its callees' operations in their places, over that call's buffers, in order. -/
abbrev ops1 : List (HloOp τ sig (Elt F)) :=
  ( StableHlo.TRef.nullary (.of main_call0_call0_cst : StableHlo.TRef sig ⟨S_, .f32⟩) (constant S_ .f32 0x00000000#32)
  :: StableHlo.TRef.binary (.of main_arg2 : StableHlo.TRef sig ⟨S10x256, .f32⟩) (.of main_call0_call0_cst : StableHlo.TRef sig ⟨S_, .f32⟩) (.of main_call0_call0_v0 : StableHlo.TRef sig ⟨S256, .f32⟩) (fun x v => Host.reduceAdd x v reducesTo_S10x256_S256_d0 h_S_)
  :: StableHlo.TRef.unary (.of main_call0_call0_v0 : StableHlo.TRef sig ⟨S256, .f32⟩) (.of main_call0_call0_v1 : StableHlo.TRef sig ⟨S1x256, .f32⟩) (broadcastInDim S1x256 ![1] bcast_S256_S1x256_1)
  :: StableHlo.TRef.nullary (.of main_call0_call0_cst_0 : StableHlo.TRef sig ⟨S_, .f32⟩) (constant S_ .f32 0x41200000#32)
  :: StableHlo.TRef.unary (.of main_call0_call0_cst_0 : StableHlo.TRef sig ⟨S_, .f32⟩) (.of main_call0_call0_v2 : StableHlo.TRef sig ⟨S1x256, .f32⟩) (broadcastInDim S1x256 ![] bcast_S_S1x256)
  :: StableHlo.TRef.binary (.of main_call0_call0_v1 : StableHlo.TRef sig ⟨S1x256, .f32⟩) (.of main_call0_call0_v2 : StableHlo.TRef sig ⟨S1x256, .f32⟩) (.of main_call0_call0_v3 : StableHlo.TRef sig ⟨S1x256, .f32⟩) Host.divf
  :: StableHlo.TRef.unary (.of main_call0_call0_v3 : StableHlo.TRef sig ⟨S1x256, .f32⟩) (.of main_call0_call0_v4 : StableHlo.TRef sig ⟨S10x256, .f32⟩) (broadcastInDim S10x256 ![0, 1] bcast_S1x256_S10x256_0_1)
  :: StableHlo.TRef.binary (.of main_arg2 : StableHlo.TRef sig ⟨S10x256, .f32⟩) (.of main_call0_call0_v4 : StableHlo.TRef sig ⟨S10x256, .f32⟩) (.of main_call0_call0_v5 : StableHlo.TRef sig ⟨S10x256, .f32⟩) subf
  :: StableHlo.TRef.binary (.of main_call0_call0_v5 : StableHlo.TRef sig ⟨S10x256, .f32⟩) (.of main_call0_call0_v5 : StableHlo.TRef sig ⟨S10x256, .f32⟩) (.of main_call0_call0_v6 : StableHlo.TRef sig ⟨S10x256, .f32⟩) mulf
  :: StableHlo.TRef.unary (.of main_c : StableHlo.TRef sig ⟨S_, .i32⟩) (.of main_call0_call0_v7 : StableHlo.TRef sig ⟨S_, .f32⟩) (sitofp .f32)
  :: StableHlo.TRef.nullary (.of main_call0_call0_cst_1 : StableHlo.TRef sig ⟨S_, .f32⟩) (constant S_ .f32 0x41200000#32)
  :: StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf
  :: StableHlo.TRef.nullary (.of main_call0_call0_cst_2 : StableHlo.TRef sig ⟨S_, .f32⟩) (constant S_ .f32 0x00000000#32)
  :: StableHlo.TRef.binary (.of main_call0_call0_v6 : StableHlo.TRef sig ⟨S10x256, .f32⟩) (.of main_call0_call0_cst_2 : StableHlo.TRef sig ⟨S_, .f32⟩) (.of main_call0_call0_v9 : StableHlo.TRef sig ⟨S256, .f32⟩) (fun x v => Host.reduceAdd x v reducesTo_S10x256_S256_d0 h_S_)
  :: StableHlo.TRef.unary (.of main_call0_call0_v9 : StableHlo.TRef sig ⟨S256, .f32⟩) (.of main_call0_call0_v10 : StableHlo.TRef sig ⟨S1x256, .f32⟩) (broadcastInDim S1x256 ![1] bcast_S256_S1x256_1)
  :: StableHlo.TRef.unary (.of main_call0_call0_v8 : StableHlo.TRef sig ⟨S_, .f32⟩) (.of main_call0_call0_v11 : StableHlo.TRef sig ⟨S1x256, .f32⟩) (broadcastInDim S1x256 ![] bcast_S_S1x256)
  :: StableHlo.TRef.binary (.of main_call0_call0_v10 : StableHlo.TRef sig ⟨S1x256, .f32⟩) (.of main_call0_call0_v11 : StableHlo.TRef sig ⟨S1x256, .f32⟩) (.of main_call0_call0_v12 : StableHlo.TRef sig ⟨S1x256, .f32⟩) Host.divf
  :: StableHlo.TRef.nullary (.of main_call0_call0_cst_3 : StableHlo.TRef sig ⟨S_, .f32⟩) (constant S_ .f32 0x00000000#32)
  :: StableHlo.TRef.binary (.of main_call0_call0_v8 : StableHlo.TRef sig ⟨S_, .f32⟩) (.of main_call0_call0_cst_3 : StableHlo.TRef sig ⟨S_, .f32⟩) (.of main_call0_call0_v13 : StableHlo.TRef sig ⟨S_, .i1⟩) (cmpf .ogt)
  :: StableHlo.TRef.nullary (.of main_call0_call0_cst_4 : StableHlo.TRef sig ⟨S_, .f32⟩) (constant S_ .f32 0x7FC00000#32)
  :: StableHlo.TRef.unary (.of main_call0_call0_cst_4 : StableHlo.TRef sig ⟨S_, .f32⟩) (.of main_call0_call0_call0_v0 : StableHlo.TRef sig ⟨S_, .f32⟩) id
  :: StableHlo.TRef.unary (.of main_call0_call0_call0_v0 : StableHlo.TRef sig ⟨S_, .f32⟩) (.of main_call0_call0_call0_v1 : StableHlo.TRef sig ⟨S1x256, .f32⟩) (broadcastInDim S1x256 ![] bcast_S_S1x256)
  :: StableHlo.TRef.ternary (.of main_call0_call0_v13 : StableHlo.TRef sig ⟨S_, .i1⟩) (.of main_call0_call0_v12 : StableHlo.TRef sig ⟨S1x256, .f32⟩) (.of main_call0_call0_call0_v1 : StableHlo.TRef sig ⟨S1x256, .f32⟩) (.of main_call0_v0 : StableHlo.TRef sig ⟨S1x256, .f32⟩) (fun p a b => select (broadcastInDim S1x256 ![] bcast_S_S1x256 p) a b)
  :: StableHlo.TRef.unary (.of main_call0_v0 : StableHlo.TRef sig ⟨S1x256, .f32⟩) (.of main_v4 : StableHlo.TRef sig ⟨S1x256, .f32⟩) Host.sqrt
  :: [] )
theorem ops1_sub : (ops1 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩
theorem ops1_fresh : (ops1 : List (HloOp τ sig (Elt F))).Forall fun op => op.fresh = ∅ := by
  simp only [List.Forall]; repeat' constructor
/-- The references `ops1`'s operations write. -/
abbrev ops1_W : List (Ref sig .tc) := [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v0, main_v4]
theorem ops1_writes : (ops1 : List (HloOp τ sig (Elt F))).Forall fun op => op.writes ⊆ (ops1_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- 10 operations of @main's own, in order. -/
abbrev ops2 : List (HloOp τ sig (Elt F)) :=
  ( StableHlo.nullary main_cst_1 (constant S_ .f32 0x322BCC77#32)
  :: StableHlo.unary main_cst_1 main_v5 (broadcastInDim S1x256 ![] bcast_S_S1x256 : (⟨S_, .f32⟩ : BufTy).Contents (Elt F) → (⟨S1x256, .f32⟩ : BufTy).Contents (Elt F))
  :: StableHlo.binary main_v4 main_v5 main_v6 (addf : (⟨S1x256, .f32⟩ : BufTy).Contents (Elt F) → (⟨S1x256, .f32⟩ : BufTy).Contents (Elt F) → (⟨S1x256, .f32⟩ : BufTy).Contents (Elt F))
  :: StableHlo.nullary main_cst_2 (constant S_ .f32 0x00000000#32)
  :: StableHlo.binary main_arg0 main_cst_2 main_v7 ((fun x v => Host.reduceAdd x v reducesTo_S200000x256_S256_d0 h_S_) : (⟨S200000x256, .f32⟩ : BufTy).Contents (Elt F) → (⟨S_, .f32⟩ : BufTy).Contents (Elt F) → (⟨S256, .f32⟩ : BufTy).Contents (Elt F))
  :: StableHlo.unary main_v7 main_v8 (broadcastInDim S1x256 ![1] bcast_S256_S1x256_1 : (⟨S256, .f32⟩ : BufTy).Contents (Elt F) → (⟨S1x256, .f32⟩ : BufTy).Contents (Elt F))
  :: StableHlo.nullary main_cst_3 (constant S_ .f32 0x48435000#32)
  :: StableHlo.unary main_cst_3 main_v9 (broadcastInDim S1x256 ![] bcast_S_S1x256 : (⟨S_, .f32⟩ : BufTy).Contents (Elt F) → (⟨S1x256, .f32⟩ : BufTy).Contents (Elt F))
  :: StableHlo.binary main_v8 main_v9 main_v10 (Host.divf : (⟨S1x256, .f32⟩ : BufTy).Contents (Elt F) → (⟨S1x256, .f32⟩ : BufTy).Contents (Elt F) → (⟨S1x256, .f32⟩ : BufTy).Contents (Elt F))
  :: StableHlo.nullary main_c_4 (constantI S_ 32 1#32)
  :: [] )
theorem ops2_sub : (ops2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem ops2_fresh : (ops2 : List (HloOp τ sig (Elt F))).Forall fun op => op.fresh = ∅ := by
  simp only [List.Forall]; repeat' constructor
/-- The references `ops2`'s operations write. -/
abbrev ops2_W : List (Ref sig .tc) := [main_cst_1, main_v5, main_v6, main_cst_2, main_v7, main_v8, main_cst_3, main_v9, main_v10, main_c_4]
theorem ops2_writes : (ops2 : List (HloOp τ sig (Elt F))).Forall fun op => op.writes ⊆ (ops2_W.map (Proc.devRef (τ := τ) .tc)).toFinset := by
  simp only [List.Forall]; exact ⟨by writes_in, by writes_in, by writes_in, by writes_in, by writes_in, by writes_in, by writes_in, by writes_in, by writes_in, by writes_in⟩

/-- the 24 operations of one call of @_std_0, its callees' operations in their places, over that call's buffers, in order. -/
abbrev ops3 : List (HloOp τ sig (Elt F)) :=
  ( StableHlo.TRef.nullary (.of main_call1_call0_cst : StableHlo.TRef sig ⟨S_, .f32⟩) (constant S_ .f32 0x00000000#32)
  :: StableHlo.TRef.binary (.of main_arg0 : StableHlo.TRef sig ⟨S200000x256, .f32⟩) (.of main_call1_call0_cst : StableHlo.TRef sig ⟨S_, .f32⟩) (.of main_call1_call0_v0 : StableHlo.TRef sig ⟨S256, .f32⟩) (fun x v => Host.reduceAdd x v reducesTo_S200000x256_S256_d0 h_S_)
  :: StableHlo.TRef.unary (.of main_call1_call0_v0 : StableHlo.TRef sig ⟨S256, .f32⟩) (.of main_call1_call0_v1 : StableHlo.TRef sig ⟨S1x256, .f32⟩) (broadcastInDim S1x256 ![1] bcast_S256_S1x256_1)
  :: StableHlo.TRef.nullary (.of main_call1_call0_cst_0 : StableHlo.TRef sig ⟨S_, .f32⟩) (constant S_ .f32 0x48435000#32)
  :: StableHlo.TRef.unary (.of main_call1_call0_cst_0 : StableHlo.TRef sig ⟨S_, .f32⟩) (.of main_call1_call0_v2 : StableHlo.TRef sig ⟨S1x256, .f32⟩) (broadcastInDim S1x256 ![] bcast_S_S1x256)
  :: StableHlo.TRef.binary (.of main_call1_call0_v1 : StableHlo.TRef sig ⟨S1x256, .f32⟩) (.of main_call1_call0_v2 : StableHlo.TRef sig ⟨S1x256, .f32⟩) (.of main_call1_call0_v3 : StableHlo.TRef sig ⟨S1x256, .f32⟩) Host.divf
  :: StableHlo.TRef.unary (.of main_call1_call0_v3 : StableHlo.TRef sig ⟨S1x256, .f32⟩) (.of main_call1_call0_v4 : StableHlo.TRef sig ⟨S200000x256, .f32⟩) (broadcastInDim S200000x256 ![0, 1] bcast_S1x256_S200000x256_0_1)
  :: StableHlo.TRef.binary (.of main_arg0 : StableHlo.TRef sig ⟨S200000x256, .f32⟩) (.of main_call1_call0_v4 : StableHlo.TRef sig ⟨S200000x256, .f32⟩) (.of main_call1_call0_v5 : StableHlo.TRef sig ⟨S200000x256, .f32⟩) subf
  :: StableHlo.TRef.binary (.of main_call1_call0_v5 : StableHlo.TRef sig ⟨S200000x256, .f32⟩) (.of main_call1_call0_v5 : StableHlo.TRef sig ⟨S200000x256, .f32⟩) (.of main_call1_call0_v6 : StableHlo.TRef sig ⟨S200000x256, .f32⟩) mulf
  :: StableHlo.TRef.unary (.of main_c_4 : StableHlo.TRef sig ⟨S_, .i32⟩) (.of main_call1_call0_v7 : StableHlo.TRef sig ⟨S_, .f32⟩) (sitofp .f32)
  :: StableHlo.TRef.nullary (.of main_call1_call0_cst_1 : StableHlo.TRef sig ⟨S_, .f32⟩) (constant S_ .f32 0x48435000#32)
  :: StableHlo.TRef.binary (.of main_call1_call0_cst_1 : StableHlo.TRef sig ⟨S_, .f32⟩) (.of main_call1_call0_v7 : StableHlo.TRef sig ⟨S_, .f32⟩) (.of main_call1_call0_v8 : StableHlo.TRef sig ⟨S_, .f32⟩) subf
  :: StableHlo.TRef.nullary (.of main_call1_call0_cst_2 : StableHlo.TRef sig ⟨S_, .f32⟩) (constant S_ .f32 0x00000000#32)
  :: StableHlo.TRef.binary (.of main_call1_call0_v6 : StableHlo.TRef sig ⟨S200000x256, .f32⟩) (.of main_call1_call0_cst_2 : StableHlo.TRef sig ⟨S_, .f32⟩) (.of main_call1_call0_v9 : StableHlo.TRef sig ⟨S256, .f32⟩) (fun x v => Host.reduceAdd x v reducesTo_S200000x256_S256_d0 h_S_)
  :: StableHlo.TRef.unary (.of main_call1_call0_v9 : StableHlo.TRef sig ⟨S256, .f32⟩) (.of main_call1_call0_v10 : StableHlo.TRef sig ⟨S1x256, .f32⟩) (broadcastInDim S1x256 ![1] bcast_S256_S1x256_1)
  :: StableHlo.TRef.unary (.of main_call1_call0_v8 : StableHlo.TRef sig ⟨S_, .f32⟩) (.of main_call1_call0_v11 : StableHlo.TRef sig ⟨S1x256, .f32⟩) (broadcastInDim S1x256 ![] bcast_S_S1x256)
  :: StableHlo.TRef.binary (.of main_call1_call0_v10 : StableHlo.TRef sig ⟨S1x256, .f32⟩) (.of main_call1_call0_v11 : StableHlo.TRef sig ⟨S1x256, .f32⟩) (.of main_call1_call0_v12 : StableHlo.TRef sig ⟨S1x256, .f32⟩) Host.divf
  :: StableHlo.TRef.nullary (.of main_call1_call0_cst_3 : StableHlo.TRef sig ⟨S_, .f32⟩) (constant S_ .f32 0x00000000#32)
  :: StableHlo.TRef.binary (.of main_call1_call0_v8 : StableHlo.TRef sig ⟨S_, .f32⟩) (.of main_call1_call0_cst_3 : StableHlo.TRef sig ⟨S_, .f32⟩) (.of main_call1_call0_v13 : StableHlo.TRef sig ⟨S_, .i1⟩) (cmpf .ogt)
  :: StableHlo.TRef.nullary (.of main_call1_call0_cst_4 : StableHlo.TRef sig ⟨S_, .f32⟩) (constant S_ .f32 0x7FC00000#32)
  :: StableHlo.TRef.unary (.of main_call1_call0_cst_4 : StableHlo.TRef sig ⟨S_, .f32⟩) (.of main_call1_call0_call0_v0 : StableHlo.TRef sig ⟨S_, .f32⟩) id
  :: StableHlo.TRef.unary (.of main_call1_call0_call0_v0 : StableHlo.TRef sig ⟨S_, .f32⟩) (.of main_call1_call0_call0_v1 : StableHlo.TRef sig ⟨S1x256, .f32⟩) (broadcastInDim S1x256 ![] bcast_S_S1x256)
  :: StableHlo.TRef.ternary (.of main_call1_call0_v13 : StableHlo.TRef sig ⟨S_, .i1⟩) (.of main_call1_call0_v12 : StableHlo.TRef sig ⟨S1x256, .f32⟩) (.of main_call1_call0_call0_v1 : StableHlo.TRef sig ⟨S1x256, .f32⟩) (.of main_call1_v0 : StableHlo.TRef sig ⟨S1x256, .f32⟩) (fun p a b => select (broadcastInDim S1x256 ![] bcast_S_S1x256 p) a b)
  :: StableHlo.TRef.unary (.of main_call1_v0 : StableHlo.TRef sig ⟨S1x256, .f32⟩) (.of main_v11 : StableHlo.TRef sig ⟨S1x256, .f32⟩) Host.sqrt
  :: [] )
theorem ops3_sub : (ops3 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩
theorem ops3_fresh : (ops3 : List (HloOp τ sig (Elt F))).Forall fun op => op.fresh = ∅ := by
  simp only [List.Forall]; repeat' constructor
/-- The references `ops3`'s operations write. -/
abbrev ops3_W : List (Ref sig .tc) := [main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_v11, main_call1_call0_v12, main_call1_call0_cst_3, main_call1_call0_v13, main_call1_call0_cst_4, main_call1_call0_call0_v0, main_call1_call0_call0_v1, main_call1_v0, main_v11]
theorem ops3_writes : (ops3 : List (HloOp τ sig (Elt F))).Forall fun op => op.writes ⊆ (ops3_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- 41 operations of @main's own, in order. -/
abbrev ops4 : List (HloOp τ sig (Elt F)) :=
  ( StableHlo.nullary main_cst_5 (constant S_ .f32 0x322BCC77#32)
  :: StableHlo.unary main_cst_5 main_v12 (broadcastInDim S1x256 ![] bcast_S_S1x256 : (⟨S_, .f32⟩ : BufTy).Contents (Elt F) → (⟨S1x256, .f32⟩ : BufTy).Contents (Elt F))
  :: StableHlo.binary main_v11 main_v12 main_v13 (addf : (⟨S1x256, .f32⟩ : BufTy).Contents (Elt F) → (⟨S1x256, .f32⟩ : BufTy).Contents (Elt F) → (⟨S1x256, .f32⟩ : BufTy).Contents (Elt F))
  :: StableHlo.unary main_v3 main_v14 (broadcastInDim S10x256 ![0, 1] bcast_S1x256_S10x256_0_1 : (⟨S1x256, .f32⟩ : BufTy).Contents (Elt F) → (⟨S10x256, .f32⟩ : BufTy).Contents (Elt F))
  :: StableHlo.binary main_arg2 main_v14 main_v15 (subf : (⟨S10x256, .f32⟩ : BufTy).Contents (Elt F) → (⟨S10x256, .f32⟩ : BufTy).Contents (Elt F) → (⟨S10x256, .f32⟩ : BufTy).Contents (Elt F))
  :: StableHlo.unary main_v6 main_v16 (broadcastInDim S10x256 ![0, 1] bcast_S1x256_S10x256_0_1 : (⟨S1x256, .f32⟩ : BufTy).Contents (Elt F) → (⟨S10x256, .f32⟩ : BufTy).Contents (Elt F))
  :: StableHlo.binary main_v15 main_v16 main_v17 (Host.divf : (⟨S10x256, .f32⟩ : BufTy).Contents (Elt F) → (⟨S10x256, .f32⟩ : BufTy).Contents (Elt F) → (⟨S10x256, .f32⟩ : BufTy).Contents (Elt F))
  :: StableHlo.unary main_v13 main_v18 (broadcastInDim S10x256 ![0, 1] bcast_S1x256_S10x256_0_1 : (⟨S1x256, .f32⟩ : BufTy).Contents (Elt F) → (⟨S10x256, .f32⟩ : BufTy).Contents (Elt F))
  :: StableHlo.binary main_v17 main_v18 main_v19 (mulf : (⟨S10x256, .f32⟩ : BufTy).Contents (Elt F) → (⟨S10x256, .f32⟩ : BufTy).Contents (Elt F) → (⟨S10x256, .f32⟩ : BufTy).Contents (Elt F))
  :: StableHlo.unary main_v10 main_v20 (broadcastInDim S10x256 ![0, 1] bcast_S1x256_S10x256_0_1 : (⟨S1x256, .f32⟩ : BufTy).Contents (Elt F) → (⟨S10x256, .f32⟩ : BufTy).Contents (Elt F))
  :: StableHlo.binary main_v19 main_v20 main_v21 (addf : (⟨S10x256, .f32⟩ : BufTy).Contents (Elt F) → (⟨S10x256, .f32⟩ : BufTy).Contents (Elt F) → (⟨S10x256, .f32⟩ : BufTy).Contents (Elt F))
  :: StableHlo.binary main_arg0 main_v21 main_v22 ((fun a b => concatenate S200010x256 0 [⟨S200000x256, a⟩, ⟨S10x256, b⟩] concatenates_S200000x256_S10x256_S200010x256_d0) : (⟨S200000x256, .f32⟩ : BufTy).Contents (Elt F) → (⟨S10x256, .f32⟩ : BufTy).Contents (Elt F) → (⟨S200010x256, .f32⟩ : BufTy).Contents (Elt F))
  :: StableHlo.unary main_v21 main_v23 ((transpose S256x10 [1, 0] · transposes_S10x256_S256x10_1_0) : (⟨S10x256, .f32⟩ : BufTy).Contents (Elt F) → (⟨S256x10, .f32⟩ : BufTy).Contents (Elt F))
  :: StableHlo.binary main_v21 main_v23 main_v24 ((fun l r => Host.dotGeneral dot_S10x256_S256x10_S10x10_1_0_0_1_n_n none l r) : (⟨S10x256, .f32⟩ : BufTy).Contents (Elt F) → (⟨S256x10, .f32⟩ : BufTy).Contents (Elt F) → (⟨S10x10, .f32⟩ : BufTy).Contents (Elt F))
  :: StableHlo.unary main_v24 main_v25 (Host.negf : (⟨S10x10, .f32⟩ : BufTy).Contents (Elt F) → (⟨S10x10, .f32⟩ : BufTy).Contents (Elt F))
  :: StableHlo.unary main_v25 main_v26 (Host.exp : (⟨S10x10, .f32⟩ : BufTy).Contents (Elt F) → (⟨S10x10, .f32⟩ : BufTy).Contents (Elt F))
  :: StableHlo.nullary main_cst_6 (constant S_ .f32 0x3F800000#32)
  :: StableHlo.unary main_cst_6 main_v27 (broadcastInDim S10x10 ![] bcast_S_S10x10 : (⟨S_, .f32⟩ : BufTy).Contents (Elt F) → (⟨S10x10, .f32⟩ : BufTy).Contents (Elt F))
  :: StableHlo.binary main_v27 main_v26 main_v28 (addf : (⟨S10x10, .f32⟩ : BufTy).Contents (Elt F) → (⟨S10x10, .f32⟩ : BufTy).Contents (Elt F) → (⟨S10x10, .f32⟩ : BufTy).Contents (Elt F))
  :: StableHlo.nullary main_cst_7 (constant S_ .f32 0x3F800000#32)
  :: StableHlo.unary main_cst_7 main_v29 (broadcastInDim S10x10 ![] bcast_S_S10x10 : (⟨S_, .f32⟩ : BufTy).Contents (Elt F) → (⟨S10x10, .f32⟩ : BufTy).Contents (Elt F))
  :: StableHlo.binary main_v29 main_v28 main_v30 (Host.divf : (⟨S10x10, .f32⟩ : BufTy).Contents (Elt F) → (⟨S10x10, .f32⟩ : BufTy).Contents (Elt F) → (⟨S10x10, .f32⟩ : BufTy).Contents (Elt F))
  :: StableHlo.nullary main_cst_8 (constant S_ .f32 0x3E4CCCCD#32)
  :: StableHlo.unary main_cst_8 main_v31 (broadcastInDim S10x10 ![] bcast_S_S10x10 : (⟨S_, .f32⟩ : BufTy).Contents (Elt F) → (⟨S10x10, .f32⟩ : BufTy).Contents (Elt F))
  :: StableHlo.binary main_v30 main_v31 main_v32 (cmpf .ogt : (⟨S10x10, .f32⟩ : BufTy).Contents (Elt F) → (⟨S10x10, .f32⟩ : BufTy).Contents (Elt F) → (⟨S10x10, .i1⟩ : BufTy).Contents (Elt F))
  :: StableHlo.reshape main_v32 main_v33 rfl shapeCasts_S10x10_S100
  :: StableHlo.nullary main_v34 (iotaInDim S10 32 0)
  :: StableHlo.unary main_v34 main_v35 (broadcastInDim S10x10 ![0] bcast_S10_S10x10_0 : (⟨S10, .i32⟩ : BufTy).Contents (Elt F) → (⟨S10x10, .i32⟩ : BufTy).Contents (Elt F))
  :: StableHlo.reshape main_v35 main_v36 rfl shapeCasts_S10x10_S100
  :: StableHlo.nullary main_c_9 (constantI S_ 32 200000#32)
  :: StableHlo.unary main_c_9 main_v37 (broadcastInDim S100 ![] bcast_S_S100 : (⟨S_, .i32⟩ : BufTy).Contents (Elt F) → (⟨S100, .i32⟩ : BufTy).Contents (Elt F))
  :: StableHlo.binary main_v36 main_v37 main_v38 (addi : (⟨S100, .i32⟩ : BufTy).Contents (Elt F) → (⟨S100, .i32⟩ : BufTy).Contents (Elt F) → (⟨S100, .i32⟩ : BufTy).Contents (Elt F))
  :: StableHlo.reshape main_v34 main_v39 rfl shapeCasts_S10_S1x10
  :: StableHlo.unary main_v39 main_v40 (broadcastInDim S10x10 ![0, 1] bcast_S1x10_S10x10_0_1 : (⟨S1x10, .i32⟩ : BufTy).Contents (Elt F) → (⟨S10x10, .i32⟩ : BufTy).Contents (Elt F))
  :: StableHlo.reshape main_v40 main_v41 rfl shapeCasts_S10x10_S100
  :: StableHlo.nullary main_c_10 (constantI S_ 32 200000#32)
  :: StableHlo.unary main_c_10 main_v42 (broadcastInDim S100 ![] bcast_S_S100 : (⟨S_, .i32⟩ : BufTy).Contents (Elt F) → (⟨S100, .i32⟩ : BufTy).Contents (Elt F))
  :: StableHlo.binary main_v41 main_v42 main_v43 (addi : (⟨S100, .i32⟩ : BufTy).Contents (Elt F) → (⟨S100, .i32⟩ : BufTy).Contents (Elt F) → (⟨S100, .i32⟩ : BufTy).Contents (Elt F))
  :: StableHlo.unary main_arg0 main_v44 ((transpose S256x200000 [1, 0] · transposes_S200000x256_S256x200000_1_0) : (⟨S200000x256, .f32⟩ : BufTy).Contents (Elt F) → (⟨S256x200000, .f32⟩ : BufTy).Contents (Elt F))
  :: StableHlo.binary main_v21 main_v44 main_v45 ((fun l r => Host.dotGeneral dot_S10x256_S256x200000_S10x200000_1_0_0_1_n_n none l r) : (⟨S10x256, .f32⟩ : BufTy).Contents (Elt F) → (⟨S256x200000, .f32⟩ : BufTy).Contents (Elt F) → (⟨S10x200000, .f32⟩ : BufTy).Contents (Elt F))
  :: StableHlo.unary main_v45 main_v46 (Host.negf : (⟨S10x200000, .f32⟩ : BufTy).Contents (Elt F) → (⟨S10x200000, .f32⟩ : BufTy).Contents (Elt F))
  :: [] )
theorem ops4_sub : (ops4 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.binary_bufs_sub .., StableHlo.unary_bufs_sub ..⟩
theorem ops4_fresh : (ops4 : List (HloOp τ sig (Elt F))).Forall fun op => op.fresh = ∅ := by
  simp only [List.Forall]; repeat' constructor
/-- The references `ops4`'s operations write. -/
abbrev ops4_W : List (Ref sig .tc) := [main_cst_5, main_v12, main_v13, main_v14, main_v15, main_v16, main_v17, main_v18, main_v19, main_v20, main_v21, main_v22, main_v23, main_v24, main_v25, main_v26, main_cst_6, main_v27, main_v28, main_cst_7, main_v29, main_v30, main_cst_8, main_v31, main_v32, main_v33, main_v34, main_v35, main_v36, main_c_9, main_v37, main_v38, main_v39, main_v40, main_v41, main_c_10, main_v42, main_v43, main_v44, main_v45, main_v46]
theorem ops4_writes : (ops4 : List (HloOp τ sig (Elt F))).Forall fun op => op.writes ⊆ (ops4_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- 30 operations of @main's own, in order. -/
abbrev ops5 : List (HloOp τ sig (Elt F)) :=
  ( StableHlo.unary main_v46 main_v47 (Host.exp : (⟨S10x200000, .f32⟩ : BufTy).Contents (Elt F) → (⟨S10x200000, .f32⟩ : BufTy).Contents (Elt F))
  :: StableHlo.nullary main_cst_11 (constant S_ .f32 0x3F800000#32)
  :: StableHlo.unary main_cst_11 main_v48 (broadcastInDim S10x200000 ![] bcast_S_S10x200000 : (⟨S_, .f32⟩ : BufTy).Contents (Elt F) → (⟨S10x200000, .f32⟩ : BufTy).Contents (Elt F))
  :: StableHlo.binary main_v48 main_v47 main_v49 (addf : (⟨S10x200000, .f32⟩ : BufTy).Contents (Elt F) → (⟨S10x200000, .f32⟩ : BufTy).Contents (Elt F) → (⟨S10x200000, .f32⟩ : BufTy).Contents (Elt F))
  :: StableHlo.nullary main_cst_12 (constant S_ .f32 0x3F800000#32)
  :: StableHlo.unary main_cst_12 main_v50 (broadcastInDim S10x200000 ![] bcast_S_S10x200000 : (⟨S_, .f32⟩ : BufTy).Contents (Elt F) → (⟨S10x200000, .f32⟩ : BufTy).Contents (Elt F))
  :: StableHlo.binary main_v50 main_v49 main_v51 (Host.divf : (⟨S10x200000, .f32⟩ : BufTy).Contents (Elt F) → (⟨S10x200000, .f32⟩ : BufTy).Contents (Elt F) → (⟨S10x200000, .f32⟩ : BufTy).Contents (Elt F))
  :: StableHlo.nullary main_cst_13 (constant S_ .f32 0x3ECCCCCD#32)
  :: StableHlo.unary main_cst_13 main_v52 (broadcastInDim S10x200000 ![] bcast_S_S10x200000 : (⟨S_, .f32⟩ : BufTy).Contents (Elt F) → (⟨S10x200000, .f32⟩ : BufTy).Contents (Elt F))
  :: StableHlo.binary main_v51 main_v52 main_v53 (cmpf .ogt : (⟨S10x200000, .f32⟩ : BufTy).Contents (Elt F) → (⟨S10x200000, .f32⟩ : BufTy).Contents (Elt F) → (⟨S10x200000, .i1⟩ : BufTy).Contents (Elt F))
  :: StableHlo.reshape main_v53 main_v54 rfl shapeCasts_S10x200000_S2000000
  :: StableHlo.unary main_v34 main_v55 (broadcastInDim S10x200000 ![0] bcast_S10_S10x200000_0 : (⟨S10, .i32⟩ : BufTy).Contents (Elt F) → (⟨S10x200000, .i32⟩ : BufTy).Contents (Elt F))
  :: StableHlo.reshape main_v55 main_v56 rfl shapeCasts_S10x200000_S2000000
  :: StableHlo.nullary main_c_14 (constantI S_ 32 200000#32)
  :: StableHlo.unary main_c_14 main_v57 (broadcastInDim S2000000 ![] bcast_S_S2000000 : (⟨S_, .i32⟩ : BufTy).Contents (Elt F) → (⟨S2000000, .i32⟩ : BufTy).Contents (Elt F))
  :: StableHlo.binary main_v56 main_v57 main_v58 (addi : (⟨S2000000, .i32⟩ : BufTy).Contents (Elt F) → (⟨S2000000, .i32⟩ : BufTy).Contents (Elt F) → (⟨S2000000, .i32⟩ : BufTy).Contents (Elt F))
  :: StableHlo.nullary main_v59 (iotaInDim S200000 32 0)
  :: StableHlo.reshape main_v59 main_v60 rfl shapeCasts_S200000_S1x200000
  :: StableHlo.unary main_v60 main_v61 (broadcastInDim S10x200000 ![0, 1] bcast_S1x200000_S10x200000_0_1 : (⟨S1x200000, .i32⟩ : BufTy).Contents (Elt F) → (⟨S10x200000, .i32⟩ : BufTy).Contents (Elt F))
  :: StableHlo.reshape main_v61 main_v62 rfl shapeCasts_S10x200000_S2000000
  :: StableHlo.unary main_arg1 main_v63 ((extractStridedSlice S1x3200000 ![0, 0] · slices_S2x3200000_S1x3200000_0_0) : (⟨S2x3200000, .i32⟩ : BufTy).Contents (Elt F) → (⟨S1x3200000, .i32⟩ : BufTy).Contents (Elt F))
  :: StableHlo.reshape main_v63 main_v64 rfl shapeCasts_S1x3200000_S3200000
  :: StableHlo.nary ![main_v64, main_v38, main_v58, main_v62] main_v65 (fun u => concatenate S7200100 0 [⟨S3200000, u 0⟩, ⟨S100, u 1⟩, ⟨S2000000, u 2⟩, ⟨S2000000, u 3⟩] concatenates_S3200000_S100_S2000000_S2000000_S7200100_d0)
  :: StableHlo.unary main_arg1 main_v66 ((extractStridedSlice S1x3200000 ![1, 0] · slices_S2x3200000_S1x3200000_1_0) : (⟨S2x3200000, .i32⟩ : BufTy).Contents (Elt F) → (⟨S1x3200000, .i32⟩ : BufTy).Contents (Elt F))
  :: StableHlo.reshape main_v66 main_v67 rfl shapeCasts_S1x3200000_S3200000
  :: StableHlo.nary ![main_v67, main_v43, main_v62, main_v58] main_v68 (fun u => concatenate S7200100 0 [⟨S3200000, u 0⟩, ⟨S100, u 1⟩, ⟨S2000000, u 2⟩, ⟨S2000000, u 3⟩] concatenates_S3200000_S100_S2000000_S2000000_S7200100_d0)
  :: StableHlo.nullary main_c_15 (constantI S_ 1 1#1)
  :: StableHlo.unary main_c_15 main_v69 (broadcastInDim S3200000 ![] bcast_S_S3200000 : (⟨S_, .i1⟩ : BufTy).Contents (Elt F) → (⟨S3200000, .i1⟩ : BufTy).Contents (Elt F))
  :: StableHlo.nary ![main_v69, main_v33, main_v54, main_v54] main_v70 (fun u => concatenate S7200100 0 [⟨S3200000, u 0⟩, ⟨S100, u 1⟩, ⟨S2000000, u 2⟩, ⟨S2000000, u 3⟩] concatenates_S3200000_S100_S2000000_S2000000_S7200100_d0)
  :: StableHlo.nullary main_c_16 (constantI S_ 32 200010#32)
  :: [] )
theorem ops5_sub : (ops5 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.reshape_bufs_sub .., StableHlo.unary_bufs_sub .., StableHlo.reshape_bufs_sub .., StableHlo.unary_bufs_sub .., StableHlo.reshape_bufs_sub .., StableHlo.nary_bufs_sub .., StableHlo.unary_bufs_sub .., StableHlo.reshape_bufs_sub .., StableHlo.nary_bufs_sub .., StableHlo.nullary_bufs_sub .., StableHlo.unary_bufs_sub .., StableHlo.nary_bufs_sub .., StableHlo.nullary_bufs_sub ..⟩
theorem ops5_fresh : (ops5 : List (HloOp τ sig (Elt F))).Forall fun op => op.fresh = ∅ := by
  simp only [List.Forall]; repeat' constructor
/-- The references `ops5`'s operations write. -/
abbrev ops5_W : List (Ref sig .tc) := [main_v47, main_cst_11, main_v48, main_v49, main_cst_12, main_v50, main_v51, main_cst_13, main_v52, main_v53, main_v54, main_v55, main_v56, main_c_14, main_v57, main_v58, main_v59, main_v60, main_v61, main_v62, main_v63, main_v64, main_v65, main_v66, main_v67, main_v68, main_c_15, main_v69, main_v70, main_c_16]
theorem ops5_writes : (ops5 : List (HloOp τ sig (Elt F))).Forall fun op => op.writes ⊆ (ops5_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- the 2 operations of one call of @_where_2, its callees' operations in their places, over that call's buffers, in order. -/
abbrev ops6 : List (HloOp τ sig (Elt F)) :=
  ( StableHlo.TRef.unary (.of main_c_16 : StableHlo.TRef sig ⟨S_, .i32⟩) (.of main_call2_v0 : StableHlo.TRef sig ⟨S7200100, .i32⟩) (broadcastInDim S7200100 ![] bcast_S_S7200100)
  :: StableHlo.TRef.ternary (.of main_v70 : StableHlo.TRef sig ⟨S7200100, .i1⟩) (.of main_v65 : StableHlo.TRef sig ⟨S7200100, .i32⟩) (.of main_call2_v0 : StableHlo.TRef sig ⟨S7200100, .i32⟩) (.of main_v71 : StableHlo.TRef sig ⟨S7200100, .i32⟩) select
  :: [] )
theorem ops6_sub : (ops6 : List (HloOp τ sig (Elt F))).Forall fun op => op.bufs ⊆ tcRefs τ sig :=
  ⟨StableHlo.unary_bufs_sub .., StableHlo.ternary_bufs_sub ..⟩
theorem ops6_fresh : (ops6 : List (HloOp τ sig (Elt F))).Forall fun op => op.fresh = ∅ := by
  simp only [List.Forall]; repeat' constructor
/-- The references `ops6`'s operations write. -/
abbrev ops6_W : List (Ref sig .tc) := [main_call2_v0, main_v71]
theorem ops6_writes : (ops6 : List (HloOp τ sig (Elt F))).Forall fun op => op.writes ⊆ (ops6_W.map (Proc.devRef (τ := τ) .tc)).toFinset := by
  simp only [List.Forall]; exact ⟨by writes_in, by writes_in⟩

/-- 1 operations of @main's own, in order. -/
abbrev ops7 : List (HloOp τ sig (Elt F)) :=
  [ StableHlo.nullary main_c_17 (constantI S_ 32 200010#32) ]
theorem ops7_sub : (ops7 : List (HloOp τ sig (Elt F))).Forall fun op => op.bufs ⊆ tcRefs τ sig :=
  StableHlo.nullary_bufs_sub ..
theorem ops7_fresh : (ops7 : List (HloOp τ sig (Elt F))).Forall fun op => op.fresh = ∅ := by
  simp only [List.Forall]; repeat' constructor
/-- The references `ops7`'s operations write. -/
abbrev ops7_W : List (Ref sig .tc) := [main_c_17]
theorem ops7_writes : (ops7 : List (HloOp τ sig (Elt F))).Forall fun op => op.writes ⊆ (ops7_W.map (Proc.devRef (τ := τ) .tc)).toFinset := by
  simp only [List.Forall]; writes_in

/-- the 2 operations of one call of @_where_2, its callees' operations in their places, over that call's buffers, in order. -/
abbrev ops8 : List (HloOp τ sig (Elt F)) :=
  ( StableHlo.TRef.unary (.of main_c_17 : StableHlo.TRef sig ⟨S_, .i32⟩) (.of main_call3_v0 : StableHlo.TRef sig ⟨S7200100, .i32⟩) (broadcastInDim S7200100 ![] bcast_S_S7200100)
  :: StableHlo.TRef.ternary (.of main_v70 : StableHlo.TRef sig ⟨S7200100, .i1⟩) (.of main_v68 : StableHlo.TRef sig ⟨S7200100, .i32⟩) (.of main_call3_v0 : StableHlo.TRef sig ⟨S7200100, .i32⟩) (.of main_v72 : StableHlo.TRef sig ⟨S7200100, .i32⟩) select
  :: [] )
theorem ops8_sub : (ops8 : List (HloOp τ sig (Elt F))).Forall fun op => op.bufs ⊆ tcRefs τ sig :=
  ⟨StableHlo.unary_bufs_sub .., StableHlo.ternary_bufs_sub ..⟩
theorem ops8_fresh : (ops8 : List (HloOp τ sig (Elt F))).Forall fun op => op.fresh = ∅ := by
  simp only [List.Forall]; repeat' constructor
/-- The references `ops8`'s operations write. -/
abbrev ops8_W : List (Ref sig .tc) := [main_call3_v0, main_v72]
theorem ops8_writes : (ops8 : List (HloOp τ sig (Elt F))).Forall fun op => op.writes ⊆ (ops8_W.map (Proc.devRef (τ := τ) .tc)).toFinset := by
  simp only [List.Forall]; exact ⟨by writes_in, by writes_in⟩

/-- the 4 operations of one call of @_lexsort, its callees' operations in their places, over that call's buffers, in order. -/
abbrev ops9 : List (HloOp τ sig (Elt F)) :=
  ( StableHlo.TRef.nullary (.of main_call4_v0 : StableHlo.TRef sig ⟨S7200100, .i32⟩) (iotaInDim S7200100 32 0)
  :: StableHlo.TRef.ternary (.of main_v71 : StableHlo.TRef sig ⟨S7200100, .i32⟩) (.of main_v72 : StableHlo.TRef sig ⟨S7200100, .i32⟩) (.of main_call4_v0 : StableHlo.TRef sig ⟨S7200100, .i32⟩) (.of main_call4_v1_0 : StableHlo.TRef sig ⟨S7200100, .i32⟩) (fun x y z => (Host.sort3 S7200100 0 comparator_i32_i32_i32_d0 x y z).1)
  :: StableHlo.TRef.ternary (.of main_v71 : StableHlo.TRef sig ⟨S7200100, .i32⟩) (.of main_v72 : StableHlo.TRef sig ⟨S7200100, .i32⟩) (.of main_call4_v0 : StableHlo.TRef sig ⟨S7200100, .i32⟩) (.of main_call4_v1_1 : StableHlo.TRef sig ⟨S7200100, .i32⟩) (fun x y z => (Host.sort3 S7200100 0 comparator_i32_i32_i32_d0 x y z).2.1)
  :: StableHlo.TRef.ternary (.of main_v71 : StableHlo.TRef sig ⟨S7200100, .i32⟩) (.of main_v72 : StableHlo.TRef sig ⟨S7200100, .i32⟩) (.of main_call4_v0 : StableHlo.TRef sig ⟨S7200100, .i32⟩) (.of main_v73 : StableHlo.TRef sig ⟨S7200100, .i32⟩) (fun x y z => (Host.sort3 S7200100 0 comparator_i32_i32_i32_d0 x y z).2.2)
  :: [] )
theorem ops9_sub : (ops9 : List (HloOp τ sig (Elt F))).Forall fun op => op.bufs ⊆ tcRefs τ sig :=
  ⟨StableHlo.nullary_bufs_sub .., StableHlo.ternary_bufs_sub .., StableHlo.ternary_bufs_sub .., StableHlo.ternary_bufs_sub ..⟩
theorem ops9_fresh : (ops9 : List (HloOp τ sig (Elt F))).Forall fun op => op.fresh = ∅ := by
  simp only [List.Forall]; repeat' constructor
/-- The references `ops9`'s operations write. -/
abbrev ops9_W : List (Ref sig .tc) := [main_call4_v0, main_call4_v1_0, main_call4_v1_1, main_v73]
theorem ops9_writes : (ops9 : List (HloOp τ sig (Elt F))).Forall fun op => op.writes ⊆ (ops9_W.map (Proc.devRef (τ := τ) .tc)).toFinset := by
  simp only [List.Forall]; exact ⟨by writes_in, by writes_in, by writes_in, by writes_in⟩

/-- 26 operations of @main's own, in order. -/
abbrev ops10 : List (HloOp τ sig (Elt F)) :=
  ( StableHlo.nullary main_c_18 (constantI S_ 32 0#32)
  :: StableHlo.unary main_c_18 main_v74 (broadcastInDim S7200100 ![] bcast_S_S7200100 : (⟨S_, .i32⟩ : BufTy).Contents (Elt F) → (⟨S7200100, .i32⟩ : BufTy).Contents (Elt F))
  :: StableHlo.binary main_v73 main_v74 main_v75 (cmpi .slt : (⟨S7200100, .i32⟩ : BufTy).Contents (Elt F) → (⟨S7200100, .i32⟩ : BufTy).Contents (Elt F) → (⟨S7200100, .i1⟩ : BufTy).Contents (Elt F))
  :: StableHlo.nullary main_c_19 (constantI S_ 32 7200100#32)
  :: StableHlo.unary main_c_19 main_v76 (broadcastInDim S7200100 ![] bcast_S_S7200100 : (⟨S_, .i32⟩ : BufTy).Contents (Elt F) → (⟨S7200100, .i32⟩ : BufTy).Contents (Elt F))
  :: StableHlo.binary main_v73 main_v76 main_v77 (addi : (⟨S7200100, .i32⟩ : BufTy).Contents (Elt F) → (⟨S7200100, .i32⟩ : BufTy).Contents (Elt F) → (⟨S7200100, .i32⟩ : BufTy).Contents (Elt F))
  :: StableHlo.ternary main_v75 main_v77 main_v73 main_v78 (select : (⟨S7200100, .i1⟩ : BufTy).Contents (Elt F) → (⟨S7200100, .i32⟩ : BufTy).Contents (Elt F) → (⟨S7200100, .i32⟩ : BufTy).Contents (Elt F) → (⟨S7200100, .i32⟩ : BufTy).Contents (Elt F))
  :: StableHlo.unary main_v78 main_v79 (broadcastInDim S7200100x1 ![0] bcast_S7200100_S7200100x1_0 : (⟨S7200100, .i32⟩ : BufTy).Contents (Elt F) → (⟨S7200100x1, .i32⟩ : BufTy).Contents (Elt F))
  :: StableHlo.binary main_v71 main_v79 main_v80 ((fun x i => Host.gather gather_S7200100_S7200100x1_S7200100_n_0_n_n_0_1_1 x i) : (⟨S7200100, .i32⟩ : BufTy).Contents (Elt F) → (⟨S7200100x1, .i32⟩ : BufTy).Contents (Elt F) → (⟨S7200100, .i32⟩ : BufTy).Contents (Elt F))
  :: StableHlo.nullary main_c_20 (constantI S_ 32 0#32)
  :: StableHlo.unary main_c_20 main_v81 (broadcastInDim S7200100 ![] bcast_S_S7200100 : (⟨S_, .i32⟩ : BufTy).Contents (Elt F) → (⟨S7200100, .i32⟩ : BufTy).Contents (Elt F))
  :: StableHlo.binary main_v73 main_v81 main_v82 (cmpi .slt : (⟨S7200100, .i32⟩ : BufTy).Contents (Elt F) → (⟨S7200100, .i32⟩ : BufTy).Contents (Elt F) → (⟨S7200100, .i1⟩ : BufTy).Contents (Elt F))
  :: StableHlo.nullary main_c_21 (constantI S_ 32 7200100#32)
  :: StableHlo.unary main_c_21 main_v83 (broadcastInDim S7200100 ![] bcast_S_S7200100 : (⟨S_, .i32⟩ : BufTy).Contents (Elt F) → (⟨S7200100, .i32⟩ : BufTy).Contents (Elt F))
  :: StableHlo.binary main_v73 main_v83 main_v84 (addi : (⟨S7200100, .i32⟩ : BufTy).Contents (Elt F) → (⟨S7200100, .i32⟩ : BufTy).Contents (Elt F) → (⟨S7200100, .i32⟩ : BufTy).Contents (Elt F))
  :: StableHlo.ternary main_v82 main_v84 main_v73 main_v85 (select : (⟨S7200100, .i1⟩ : BufTy).Contents (Elt F) → (⟨S7200100, .i32⟩ : BufTy).Contents (Elt F) → (⟨S7200100, .i32⟩ : BufTy).Contents (Elt F) → (⟨S7200100, .i32⟩ : BufTy).Contents (Elt F))
  :: StableHlo.unary main_v85 main_v86 (broadcastInDim S7200100x1 ![0] bcast_S7200100_S7200100x1_0 : (⟨S7200100, .i32⟩ : BufTy).Contents (Elt F) → (⟨S7200100x1, .i32⟩ : BufTy).Contents (Elt F))
  :: StableHlo.binary main_v72 main_v86 main_v87 ((fun x i => Host.gather gather_S7200100_S7200100x1_S7200100_n_0_n_n_0_1_1 x i) : (⟨S7200100, .i32⟩ : BufTy).Contents (Elt F) → (⟨S7200100x1, .i32⟩ : BufTy).Contents (Elt F) → (⟨S7200100, .i32⟩ : BufTy).Contents (Elt F))
  :: StableHlo.nullary main_c_22 (constantI S_ 1 0#1)
  :: StableHlo.unary main_c_22 main_v88 (broadcastInDim S1 ![] bcast_S_S1 : (⟨S_, .i1⟩ : BufTy).Contents (Elt F) → (⟨S1, .i1⟩ : BufTy).Contents (Elt F))
  :: StableHlo.unary main_v80 main_v89 ((extractStridedSlice S7200099 ![1] · slices_S7200100_S7200099_1) : (⟨S7200100, .i32⟩ : BufTy).Contents (Elt F) → (⟨S7200099, .i32⟩ : BufTy).Contents (Elt F))
  :: StableHlo.unary main_v80 main_v90 ((extractStridedSlice S7200099 ![0] · slices_S7200100_S7200099_0) : (⟨S7200100, .i32⟩ : BufTy).Contents (Elt F) → (⟨S7200099, .i32⟩ : BufTy).Contents (Elt F))
  :: StableHlo.binary main_v89 main_v90 main_v91 (cmpi .eq : (⟨S7200099, .i32⟩ : BufTy).Contents (Elt F) → (⟨S7200099, .i32⟩ : BufTy).Contents (Elt F) → (⟨S7200099, .i1⟩ : BufTy).Contents (Elt F))
  :: StableHlo.unary main_v87 main_v92 ((extractStridedSlice S7200099 ![1] · slices_S7200100_S7200099_1) : (⟨S7200100, .i32⟩ : BufTy).Contents (Elt F) → (⟨S7200099, .i32⟩ : BufTy).Contents (Elt F))
  :: StableHlo.unary main_v87 main_v93 ((extractStridedSlice S7200099 ![0] · slices_S7200100_S7200099_0) : (⟨S7200100, .i32⟩ : BufTy).Contents (Elt F) → (⟨S7200099, .i32⟩ : BufTy).Contents (Elt F))
  :: StableHlo.binary main_v92 main_v93 main_v94 (cmpi .eq : (⟨S7200099, .i32⟩ : BufTy).Contents (Elt F) → (⟨S7200099, .i32⟩ : BufTy).Contents (Elt F) → (⟨S7200099, .i1⟩ : BufTy).Contents (Elt F))
  :: [] )
theorem ops10_sub : (ops10 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem ops10_fresh : (ops10 : List (HloOp τ sig (Elt F))).Forall fun op => op.fresh = ∅ := by
  simp only [List.Forall]; repeat' constructor
/-- The references `ops10`'s operations write. -/
abbrev ops10_W : List (Ref sig .tc) := [main_c_18, main_v74, main_v75, main_c_19, main_v76, main_v77, main_v78, main_v79, main_v80, main_c_20, main_v81, main_v82, main_c_21, main_v83, main_v84, main_v85, main_v86, main_v87, main_c_22, main_v88, main_v89, main_v90, main_v91, main_v92, main_v93, main_v94]
theorem ops10_writes : (ops10 : List (HloOp τ sig (Elt F))).Forall fun op => op.writes ⊆ (ops10_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- 7 operations of @main's own, in order. -/
abbrev ops11 : List (HloOp τ sig (Elt F)) :=
  ( StableHlo.binary main_v91 main_v94 main_v95 (andi : (⟨S7200099, .i1⟩ : BufTy).Contents (Elt F) → (⟨S7200099, .i1⟩ : BufTy).Contents (Elt F) → (⟨S7200099, .i1⟩ : BufTy).Contents (Elt F))
  :: StableHlo.binary main_v88 main_v95 main_v96 ((fun a b => concatenate S7200100 0 [⟨S1, a⟩, ⟨S7200099, b⟩] concatenates_S1_S7200099_S7200100_d0) : (⟨S1, .i1⟩ : BufTy).Contents (Elt F) → (⟨S7200099, .i1⟩ : BufTy).Contents (Elt F) → (⟨S7200100, .i1⟩ : BufTy).Contents (Elt F))
  :: StableHlo.nullary main_c_23 (constantI S_ 32 200010#32)
  :: StableHlo.unary main_c_23 main_v97 (broadcastInDim S7200100 ![] bcast_S_S7200100 : (⟨S_, .i32⟩ : BufTy).Contents (Elt F) → (⟨S7200100, .i32⟩ : BufTy).Contents (Elt F))
  :: StableHlo.binary main_v80 main_v97 main_v98 (cmpi .ne : (⟨S7200100, .i32⟩ : BufTy).Contents (Elt F) → (⟨S7200100, .i32⟩ : BufTy).Contents (Elt F) → (⟨S7200100, .i1⟩ : BufTy).Contents (Elt F))
  :: StableHlo.binary main_v96 main_v98 main_v99 (andi : (⟨S7200100, .i1⟩ : BufTy).Contents (Elt F) → (⟨S7200100, .i1⟩ : BufTy).Contents (Elt F) → (⟨S7200100, .i1⟩ : BufTy).Contents (Elt F))
  :: StableHlo.nullary main_c_24 (constantI S_ 32 200010#32)
  :: [] )
theorem ops11_sub : (ops11 : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem ops11_fresh : (ops11 : List (HloOp τ sig (Elt F))).Forall fun op => op.fresh = ∅ := by
  simp only [List.Forall]; repeat' constructor
/-- The references `ops11`'s operations write. -/
abbrev ops11_W : List (Ref sig .tc) := [main_v95, main_v96, main_c_23, main_v97, main_v98, main_v99, main_c_24]
theorem ops11_writes : (ops11 : List (HloOp τ sig (Elt F))).Forall fun op => op.writes ⊆ (ops11_W.map (Proc.devRef (τ := τ) .tc)).toFinset := by
  simp only [List.Forall]; exact ⟨by writes_in, by writes_in, by writes_in, by writes_in, by writes_in, by writes_in, by writes_in⟩

/-- the 2 operations of one call of @_where_3, its callees' operations in their places, over that call's buffers, in order. -/
abbrev ops12 : List (HloOp τ sig (Elt F)) :=
  ( StableHlo.TRef.unary (.of main_c_24 : StableHlo.TRef sig ⟨S_, .i32⟩) (.of main_call5_v0 : StableHlo.TRef sig ⟨S7200100, .i32⟩) (broadcastInDim S7200100 ![] bcast_S_S7200100)
  :: StableHlo.TRef.ternary (.of main_v99 : StableHlo.TRef sig ⟨S7200100, .i1⟩) (.of main_call5_v0 : StableHlo.TRef sig ⟨S7200100, .i32⟩) (.of main_v80 : StableHlo.TRef sig ⟨S7200100, .i32⟩) (.of main_v100 : StableHlo.TRef sig ⟨S7200100, .i32⟩) select
  :: [] )
theorem ops12_sub : (ops12 : List (HloOp τ sig (Elt F))).Forall fun op => op.bufs ⊆ tcRefs τ sig :=
  ⟨StableHlo.unary_bufs_sub .., StableHlo.ternary_bufs_sub ..⟩
theorem ops12_fresh : (ops12 : List (HloOp τ sig (Elt F))).Forall fun op => op.fresh = ∅ := by
  simp only [List.Forall]; repeat' constructor
/-- The references `ops12`'s operations write. -/
abbrev ops12_W : List (Ref sig .tc) := [main_call5_v0, main_v100]
theorem ops12_writes : (ops12 : List (HloOp τ sig (Elt F))).Forall fun op => op.writes ⊆ (ops12_W.map (Proc.devRef (τ := τ) .tc)).toFinset := by
  simp only [List.Forall]; exact ⟨by writes_in, by writes_in⟩

/-- 1 operations of @main's own, in order. -/
abbrev ops13 : List (HloOp τ sig (Elt F)) :=
  [ StableHlo.nullary main_c_25 (constantI S_ 32 200010#32) ]
theorem ops13_sub : (ops13 : List (HloOp τ sig (Elt F))).Forall fun op => op.bufs ⊆ tcRefs τ sig :=
  StableHlo.nullary_bufs_sub ..
theorem ops13_fresh : (ops13 : List (HloOp τ sig (Elt F))).Forall fun op => op.fresh = ∅ := by
  simp only [List.Forall]; repeat' constructor
/-- The references `ops13`'s operations write. -/
abbrev ops13_W : List (Ref sig .tc) := [main_c_25]
theorem ops13_writes : (ops13 : List (HloOp τ sig (Elt F))).Forall fun op => op.writes ⊆ (ops13_W.map (Proc.devRef (τ := τ) .tc)).toFinset := by
  simp only [List.Forall]; writes_in

/-- the 2 operations of one call of @_where_3, its callees' operations in their places, over that call's buffers, in order. -/
abbrev ops14 : List (HloOp τ sig (Elt F)) :=
  ( StableHlo.TRef.unary (.of main_c_25 : StableHlo.TRef sig ⟨S_, .i32⟩) (.of main_call6_v0 : StableHlo.TRef sig ⟨S7200100, .i32⟩) (broadcastInDim S7200100 ![] bcast_S_S7200100)
  :: StableHlo.TRef.ternary (.of main_v99 : StableHlo.TRef sig ⟨S7200100, .i1⟩) (.of main_call6_v0 : StableHlo.TRef sig ⟨S7200100, .i32⟩) (.of main_v87 : StableHlo.TRef sig ⟨S7200100, .i32⟩) (.of main_v101 : StableHlo.TRef sig ⟨S7200100, .i32⟩) select
  :: [] )
theorem ops14_sub : (ops14 : List (HloOp τ sig (Elt F))).Forall fun op => op.bufs ⊆ tcRefs τ sig :=
  ⟨StableHlo.unary_bufs_sub .., StableHlo.ternary_bufs_sub ..⟩
theorem ops14_fresh : (ops14 : List (HloOp τ sig (Elt F))).Forall fun op => op.fresh = ∅ := by
  simp only [List.Forall]; repeat' constructor
/-- The references `ops14`'s operations write. -/
abbrev ops14_W : List (Ref sig .tc) := [main_call6_v0, main_v101]
theorem ops14_writes : (ops14 : List (HloOp τ sig (Elt F))).Forall fun op => op.writes ⊆ (ops14_W.map (Proc.devRef (τ := τ) .tc)).toFinset := by
  simp only [List.Forall]; exact ⟨by writes_in, by writes_in⟩

/-- 4 operations of @main's own, in order. -/
abbrev ops15 : List (HloOp τ sig (Elt F)) :=
  ( StableHlo.nullary main_c_26 (constantI S_ 32 200010#32)
  :: StableHlo.unary main_c_26 main_v102 (broadcastInDim S7200100 ![] bcast_S_S7200100 : (⟨S_, .i32⟩ : BufTy).Contents (Elt F) → (⟨S7200100, .i32⟩ : BufTy).Contents (Elt F))
  :: StableHlo.binary main_v100 main_v102 main_v103 (cmpi .eq : (⟨S7200100, .i32⟩ : BufTy).Contents (Elt F) → (⟨S7200100, .i32⟩ : BufTy).Contents (Elt F) → (⟨S7200100, .i1⟩ : BufTy).Contents (Elt F))
  :: StableHlo.unary main_v103 main_v104 ((extui 32 · natLt_1_32) : (⟨S7200100, .i1⟩ : BufTy).Contents (Elt F) → (⟨S7200100, .i32⟩ : BufTy).Contents (Elt F))
  :: [] )
theorem ops15_sub : (ops15 : List (HloOp τ sig (Elt F))).Forall fun op => op.bufs ⊆ tcRefs τ sig :=
  ⟨StableHlo.nullary_bufs_sub .., StableHlo.unary_bufs_sub .., StableHlo.binary_bufs_sub .., StableHlo.unary_bufs_sub ..⟩
theorem ops15_fresh : (ops15 : List (HloOp τ sig (Elt F))).Forall fun op => op.fresh = ∅ := by
  simp only [List.Forall]; repeat' constructor
/-- The references `ops15`'s operations write. -/
abbrev ops15_W : List (Ref sig .tc) := [main_c_26, main_v102, main_v103, main_v104]
theorem ops15_writes : (ops15 : List (HloOp τ sig (Elt F))).Forall fun op => op.writes ⊆ (ops15_W.map (Proc.devRef (τ := τ) .tc)).toFinset := by
  simp only [List.Forall]; exact ⟨by writes_in, by writes_in, by writes_in, by writes_in⟩

/-- the 3 operations of one call of @_argsort, its callees' operations in their places, over that call's buffers, in order. -/
abbrev ops16 : List (HloOp τ sig (Elt F)) :=
  ( StableHlo.TRef.nullary (.of main_call7_v0 : StableHlo.TRef sig ⟨S7200100, .i32⟩) (iotaInDim S7200100 32 0)
  :: StableHlo.TRef.binary (.of main_v104 : StableHlo.TRef sig ⟨S7200100, .i32⟩) (.of main_call7_v0 : StableHlo.TRef sig ⟨S7200100, .i32⟩) (.of main_call7_v1_0 : StableHlo.TRef sig ⟨S7200100, .i32⟩) (fun x y => (Host.sort2 S7200100 0 comparator_i32_i32_d0 x y).1)
  :: StableHlo.TRef.binary (.of main_v104 : StableHlo.TRef sig ⟨S7200100, .i32⟩) (.of main_call7_v0 : StableHlo.TRef sig ⟨S7200100, .i32⟩) (.of main_v105 : StableHlo.TRef sig ⟨S7200100, .i32⟩) (fun x y => (Host.sort2 S7200100 0 comparator_i32_i32_d0 x y).2)
  :: [] )
theorem ops16_sub : (ops16 : List (HloOp τ sig (Elt F))).Forall fun op => op.bufs ⊆ tcRefs τ sig :=
  ⟨StableHlo.nullary_bufs_sub .., StableHlo.binary_bufs_sub .., StableHlo.binary_bufs_sub ..⟩
theorem ops16_fresh : (ops16 : List (HloOp τ sig (Elt F))).Forall fun op => op.fresh = ∅ := by
  simp only [List.Forall]; repeat' constructor
/-- The references `ops16`'s operations write. -/
abbrev ops16_W : List (Ref sig .tc) := [main_call7_v0, main_call7_v1_0, main_v105]
theorem ops16_writes : (ops16 : List (HloOp τ sig (Elt F))).Forall fun op => op.writes ⊆ (ops16_W.map (Proc.devRef (τ := τ) .tc)).toFinset := by
  simp only [List.Forall]; exact ⟨by writes_in, by writes_in, by writes_in⟩

/-- 25 operations of @main's own, in order. -/
abbrev ops17 : List (HloOp τ sig (Elt F)) :=
  ( StableHlo.nullary main_c_27 (constantI S_ 32 0#32)
  :: StableHlo.unary main_c_27 main_v106 (broadcastInDim S7200100 ![] bcast_S_S7200100 : (⟨S_, .i32⟩ : BufTy).Contents (Elt F) → (⟨S7200100, .i32⟩ : BufTy).Contents (Elt F))
  :: StableHlo.binary main_v105 main_v106 main_v107 (cmpi .slt : (⟨S7200100, .i32⟩ : BufTy).Contents (Elt F) → (⟨S7200100, .i32⟩ : BufTy).Contents (Elt F) → (⟨S7200100, .i1⟩ : BufTy).Contents (Elt F))
  :: StableHlo.nullary main_c_28 (constantI S_ 32 7200100#32)
  :: StableHlo.unary main_c_28 main_v108 (broadcastInDim S7200100 ![] bcast_S_S7200100 : (⟨S_, .i32⟩ : BufTy).Contents (Elt F) → (⟨S7200100, .i32⟩ : BufTy).Contents (Elt F))
  :: StableHlo.binary main_v105 main_v108 main_v109 (addi : (⟨S7200100, .i32⟩ : BufTy).Contents (Elt F) → (⟨S7200100, .i32⟩ : BufTy).Contents (Elt F) → (⟨S7200100, .i32⟩ : BufTy).Contents (Elt F))
  :: StableHlo.ternary main_v107 main_v109 main_v105 main_v110 (select : (⟨S7200100, .i1⟩ : BufTy).Contents (Elt F) → (⟨S7200100, .i32⟩ : BufTy).Contents (Elt F) → (⟨S7200100, .i32⟩ : BufTy).Contents (Elt F) → (⟨S7200100, .i32⟩ : BufTy).Contents (Elt F))
  :: StableHlo.unary main_v110 main_v111 (broadcastInDim S7200100x1 ![0] bcast_S7200100_S7200100x1_0 : (⟨S7200100, .i32⟩ : BufTy).Contents (Elt F) → (⟨S7200100x1, .i32⟩ : BufTy).Contents (Elt F))
  :: StableHlo.binary main_v100 main_v111 main_v112 ((fun x i => Host.gather gather_S7200100_S7200100x1_S7200100_n_0_n_n_0_1_1 x i) : (⟨S7200100, .i32⟩ : BufTy).Contents (Elt F) → (⟨S7200100x1, .i32⟩ : BufTy).Contents (Elt F) → (⟨S7200100, .i32⟩ : BufTy).Contents (Elt F))
  :: StableHlo.nullary main_c_29 (constantI S_ 32 0#32)
  :: StableHlo.unary main_c_29 main_v113 (broadcastInDim S7200100 ![] bcast_S_S7200100 : (⟨S_, .i32⟩ : BufTy).Contents (Elt F) → (⟨S7200100, .i32⟩ : BufTy).Contents (Elt F))
  :: StableHlo.binary main_v105 main_v113 main_v114 (cmpi .slt : (⟨S7200100, .i32⟩ : BufTy).Contents (Elt F) → (⟨S7200100, .i32⟩ : BufTy).Contents (Elt F) → (⟨S7200100, .i1⟩ : BufTy).Contents (Elt F))
  :: StableHlo.nullary main_c_30 (constantI S_ 32 7200100#32)
  :: StableHlo.unary main_c_30 main_v115 (broadcastInDim S7200100 ![] bcast_S_S7200100 : (⟨S_, .i32⟩ : BufTy).Contents (Elt F) → (⟨S7200100, .i32⟩ : BufTy).Contents (Elt F))
  :: StableHlo.binary main_v105 main_v115 main_v116 (addi : (⟨S7200100, .i32⟩ : BufTy).Contents (Elt F) → (⟨S7200100, .i32⟩ : BufTy).Contents (Elt F) → (⟨S7200100, .i32⟩ : BufTy).Contents (Elt F))
  :: StableHlo.ternary main_v114 main_v116 main_v105 main_v117 (select : (⟨S7200100, .i1⟩ : BufTy).Contents (Elt F) → (⟨S7200100, .i32⟩ : BufTy).Contents (Elt F) → (⟨S7200100, .i32⟩ : BufTy).Contents (Elt F) → (⟨S7200100, .i32⟩ : BufTy).Contents (Elt F))
  :: StableHlo.unary main_v117 main_v118 (broadcastInDim S7200100x1 ![0] bcast_S7200100_S7200100x1_0 : (⟨S7200100, .i32⟩ : BufTy).Contents (Elt F) → (⟨S7200100x1, .i32⟩ : BufTy).Contents (Elt F))
  :: StableHlo.binary main_v101 main_v118 main_v119 ((fun x i => Host.gather gather_S7200100_S7200100x1_S7200100_n_0_n_n_0_1_1 x i) : (⟨S7200100, .i32⟩ : BufTy).Contents (Elt F) → (⟨S7200100x1, .i32⟩ : BufTy).Contents (Elt F) → (⟨S7200100, .i32⟩ : BufTy).Contents (Elt F))
  :: StableHlo.unary main_v112 main_v120 (broadcastInDim S1x7200100 ![1] bcast_S7200100_S1x7200100_1 : (⟨S7200100, .i32⟩ : BufTy).Contents (Elt F) → (⟨S1x7200100, .i32⟩ : BufTy).Contents (Elt F))
  :: StableHlo.unary main_v119 main_v121 (broadcastInDim S1x7200100 ![1] bcast_S7200100_S1x7200100_1 : (⟨S7200100, .i32⟩ : BufTy).Contents (Elt F) → (⟨S1x7200100, .i32⟩ : BufTy).Contents (Elt F))
  :: StableHlo.binary main_v120 main_v121 main_v122 ((fun a b => concatenate S2x7200100 0 [⟨S1x7200100, a⟩, ⟨S1x7200100, b⟩] concatenates_S1x7200100_S1x7200100_S2x7200100_d0) : (⟨S1x7200100, .i32⟩ : BufTy).Contents (Elt F) → (⟨S1x7200100, .i32⟩ : BufTy).Contents (Elt F) → (⟨S2x7200100, .i32⟩ : BufTy).Contents (Elt F))
  :: StableHlo.nullary main_c_31 (constantI S_ 32 200010#32)
  :: StableHlo.unary main_c_31 main_v123 (broadcastInDim S7200100 ![] bcast_S_S7200100 : (⟨S_, .i32⟩ : BufTy).Contents (Elt F) → (⟨S7200100, .i32⟩ : BufTy).Contents (Elt F))
  :: StableHlo.binary main_v112 main_v123 main_v124 (cmpi .ne : (⟨S7200100, .i32⟩ : BufTy).Contents (Elt F) → (⟨S7200100, .i32⟩ : BufTy).Contents (Elt F) → (⟨S7200100, .i1⟩ : BufTy).Contents (Elt F))
  :: StableHlo.unary main_v124 main_v125 (uitofp .f32 : (⟨S7200100, .i1⟩ : BufTy).Contents (Elt F) → (⟨S7200100, .f32⟩ : BufTy).Contents (Elt F))
  :: [] )
theorem ops17_sub : (ops17 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem ops17_fresh : (ops17 : List (HloOp τ sig (Elt F))).Forall fun op => op.fresh = ∅ := by
  simp only [List.Forall]; repeat' constructor
/-- The references `ops17`'s operations write. -/
abbrev ops17_W : List (Ref sig .tc) := [main_c_27, main_v106, main_v107, main_c_28, main_v108, main_v109, main_v110, main_v111, main_v112, main_c_29, main_v113, main_v114, main_c_30, main_v115, main_v116, main_v117, main_v118, main_v119, main_v120, main_v121, main_v122, main_c_31, main_v123, main_v124, main_v125]
theorem ops17_writes : (ops17 : List (HloOp τ sig (Elt F))).Forall fun op => op.writes ⊆ (ops17_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-! ## The whole line -/

/-- @main's operations, in order: the stretches one after the other. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17)))))))))))))))))

theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (forall_append ops10_sub (forall_append ops11_sub (forall_append ops12_sub (forall_append ops13_sub (forall_append ops14_sub (forall_append ops15_sub (forall_append ops16_sub (ops17_sub)))))))))))))))))

theorem ops_fresh : (ops : List (HloOp τ sig (Elt F))).Forall fun op => op.fresh = ∅ :=
  forall_append ops0_fresh (forall_append ops1_fresh (forall_append ops2_fresh (forall_append ops3_fresh (forall_append ops4_fresh (forall_append ops5_fresh (forall_append ops6_fresh (forall_append ops7_fresh (forall_append ops8_fresh (forall_append ops9_fresh (forall_append ops10_fresh (forall_append ops11_fresh (forall_append ops12_fresh (forall_append ops13_fresh (forall_append ops14_fresh (forall_append ops15_fresh (forall_append ops16_fresh (ops17_fresh)))))))))))))))))

/-- The fold over the whole line, stretch by stretch. -/
theorem after_ops (V : Valuation τ sig (Elt F)) :
    after ops V = after ops17 (after ops16 (after ops15 (after ops14 (after ops13 (after ops12 (after ops11 (after ops10 (after ops9 (after ops8 (after ops7 (after ops6 (after ops5 (after ops4 (after ops3 (after ops2 (after ops1 (after ops0 (V)))))))))))))))))) := by
  simp only [after_append]

theorem main_part0_chain (c : Dev nD) : main_part0 (F := F) c = (Pipeline.chainK
  [ seq ops0,
    seq ops1,
    seq ops2,
    seq ops3 ]
  (seq ops4) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ seq ops5,
    seq ops6,
    seq ops7,
    seq ops8,
    seq ops9 ]
  (seq ops10) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain
  [ seq ops11,
    seq ops12,
    seq ops13,
    seq ops14,
    seq ops15,
    seq ops16,
    seq ops17 ] : Prog (TpuEff nD τ sig (Elt F) (Pipeline.Sig Λ₀ (Fin 0) fun p => (pcfgs (F := F) p).Adm) .tc) PUnit) := by
  chain_rfl

/-- @main is the straight line: each window of it is the chain of its stretches (a call unfolds to its callee's body
    over the call's buffers), and a chain of lines is the line of their concatenation. -/
theorem main_eq (c : Dev nD) : main (F := F) c = seq ops := by
  simp only [main]
  rw [main_part0_chain, main_part1_chain, main_part2_chain]
  simp only [Pipeline.chainK, Pipeline.chain, seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

/-- No operation writes `main_arg0`. -/
theorem ops_keeps_arg0 : Keeps (F := F) main_arg0 ops :=
  (keeps_of_writes ops0_writes (by decide)).append ((keeps_of_writes ops1_writes (by decide)).append ((keeps_of_writes ops2_writes (by decide)).append ((keeps_of_writes ops3_writes (by decide)).append ((keeps_of_writes ops4_writes (by decide)).append ((keeps_of_writes ops5_writes (by decide)).append ((keeps_of_writes ops6_writes (by decide)).append ((keeps_of_writes ops7_writes (by decide)).append ((keeps_of_writes ops8_writes (by decide)).append ((keeps_of_writes ops9_writes (by decide)).append ((keeps_of_writes ops10_writes (by decide)).append ((keeps_of_writes ops11_writes (by decide)).append ((keeps_of_writes ops12_writes (by decide)).append ((keeps_of_writes ops13_writes (by decide)).append ((keeps_of_writes ops14_writes (by decide)).append ((keeps_of_writes ops15_writes (by decide)).append ((keeps_of_writes ops16_writes (by decide)).append (keeps_of_writes ops17_writes (by decide))))))))))))))))))

/-- No operation writes `main_arg1`. -/
theorem ops_keeps_arg1 : Keeps (F := F) main_arg1 ops :=
  (keeps_of_writes ops0_writes (by decide)).append ((keeps_of_writes ops1_writes (by decide)).append ((keeps_of_writes ops2_writes (by decide)).append ((keeps_of_writes ops3_writes (by decide)).append ((keeps_of_writes ops4_writes (by decide)).append ((keeps_of_writes ops5_writes (by decide)).append ((keeps_of_writes ops6_writes (by decide)).append ((keeps_of_writes ops7_writes (by decide)).append ((keeps_of_writes ops8_writes (by decide)).append ((keeps_of_writes ops9_writes (by decide)).append ((keeps_of_writes ops10_writes (by decide)).append ((keeps_of_writes ops11_writes (by decide)).append ((keeps_of_writes ops12_writes (by decide)).append ((keeps_of_writes ops13_writes (by decide)).append ((keeps_of_writes ops14_writes (by decide)).append ((keeps_of_writes ops15_writes (by decide)).append ((keeps_of_writes ops16_writes (by decide)).append (keeps_of_writes ops17_writes (by decide))))))))))))))))))

/-- No operation writes `main_arg2`. -/
theorem ops_keeps_arg2 : Keeps (F := F) main_arg2 ops :=
  (keeps_of_writes ops0_writes (by decide)).append ((keeps_of_writes ops1_writes (by decide)).append ((keeps_of_writes ops2_writes (by decide)).append ((keeps_of_writes ops3_writes (by decide)).append ((keeps_of_writes ops4_writes (by decide)).append ((keeps_of_writes ops5_writes (by decide)).append ((keeps_of_writes ops6_writes (by decide)).append ((keeps_of_writes ops7_writes (by decide)).append ((keeps_of_writes ops8_writes (by decide)).append ((keeps_of_writes ops9_writes (by decide)).append ((keeps_of_writes ops10_writes (by decide)).append ((keeps_of_writes ops11_writes (by decide)).append ((keeps_of_writes ops12_writes (by decide)).append ((keeps_of_writes ops13_writes (by decide)).append ((keeps_of_writes ops14_writes (by decide)).append ((keeps_of_writes ops15_writes (by decide)).append ((keeps_of_writes ops16_writes (by decide)).append (keeps_of_writes ops17_writes (by decide))))))))))))))))))

/-- @main runs to the end from any memory and its three arguments end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (ops_keeps_arg0 _),
      (h c main_arg1).trans (ops_keeps_arg1 _),
      (h c main_arg2).trans (ops_keeps_arg2 _)⟩)
    (run_all m ρ)

end Cert.ReferenceIdeal.Hand

end
-- ==== Proof.KIHostProto.lean ====
/- The host stage before the second kernel region, at the ideal values: the re-standardised prototypes the
   region reads as its second input, as the printed chain of the statistics arrays; the observations' mean and
   spread read entry by entry from the two arrays the first region leaves; the concatenated array. -/
import proofs.«162080_j20057497272460_1_alg».proof.Proof.KIArgs
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-- The prototypes re-standardised, as the printed chain: subtract the prototypes' mean, divide by their spread,
    multiply by the observations' spread, add the observations' mean, each statistic laid along the 10 rows. -/
def PPchainK (pf : FVec Ideal S10x256 .f32) (muP sigP muO sigO : FVec Ideal S1x256 .f32) : FVec Ideal S10x256 .f32 :=
  addf (mulf (Host.divf (subf pf (broadcastInDim S10x256 ![0, 1] bcast_S1x256_S10x256_0_1 muP))
      (broadcastInDim S10x256 ![0, 1] bcast_S1x256_S10x256_0_1 sigP))
      (broadcastInDim S10x256 ![0, 1] bcast_S1x256_S10x256_0_1 sigO))
    (broadcastInDim S10x256 ![0, 1] bcast_S1x256_S10x256_0_1 muO)

set_option maxHeartbeats 4000000 in
theorem W5_main_v28 (c : Dev nD) : (W5 m c main_v28 : S10x256.Idx → Ideal .f32)
    = PPchainK (W5 m c main_arg2) (W5 m c main_v3) (W5 m c main_v6) (W5 m c main_v9) (W5 m c main_v20) := by
  unfold PPchainK
  after_results_simp

/-- A concatenation of two pieces depends only on the pieces. -/
theorem concatenate_pair_congr {α : Type} {t s₁ s₂ : Shape} (a : Fin t.rank) {A A' : s₁.Idx → α} {B B' : s₂.Idx → α}
    (h : Shape.Concatenates [s₁, s₂] t a) (hA : A = A') (hB : B = B') :
    concatenate t a [⟨s₁, A⟩, ⟨s₂, B⟩] h = concatenate t a [⟨s₁, A'⟩, ⟨s₂, B'⟩] h := by
  subst hA hB; rfl

theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl

set_option maxHeartbeats 4000000 in
/-- The concatenation of the x array and the re-standardised prototypes. -/
theorem W5_main_v29 (c : Dev nD) : (W5 m c main_v29 : S200010x256.Idx → Ideal .f32)
    = concatenate S200010x256 0 [⟨S200000x256, (W5 m c main_arg0 : S200000x256.Idx → Ideal .f32)⟩, ⟨S10x256, (W5 m c main_v28 : S10x256.Idx → Ideal .f32)⟩]
        concatenates_S200000x256_S10x256_S200010x256_d0 := by
  after_results_simp
  refine concatenate_pair_congr _ _ ?_ ?_ <;> after_results_simp

/-! ## The observations' statistics, entry by entry -/

/-- The observations' mean from the column sum `s0`: the sum over the count. -/
def muOK (s0 : EReal) : EReal := Ideal.div s0 (Ideal.ofBits .f32 0x48435000#32)

/-- The observations' spread from the column sum `s0` and the column sum of squares `s1`: the square root of the
    unbiased variance, clamped below at zero, plus the guard constant. -/
def sigOK (s0 s1 : EReal) : EReal :=
  Ideal.sqrt (max (Ideal.div (s1 - Ideal.ofBits .f32 0x48435000#32 * (muOK s0 * muOK s0)) (Ideal.ofBits .f32 0x48434FC0#32))
    (Ideal.ofBits .f32 0x00000000#32)) + Ideal.ofBits .f32 0x322BCC77#32

theorem W5_main_v9_eq (c : Dev nD) : (W5 m c main_v9 : S1x256.Idx → Ideal .f32)
    = Host.divf (W4 m c main_v7_0 : S1x256.Idx → Ideal .f32) (broadcastInDim S1x256 ![] bcast_S_S1x256 (constant (F := Ideal) S_ .f32 0x48435000#32)) := by
  after_results_simp

/-- The observations' mean at column `k`. -/
theorem W5_main_v9_apply (c : Dev nD) (k : Fin 256) :
    (W5 m c main_v9 : S1x256.Idx → Ideal .f32) (ix2 (0 : Fin 1) k) = muOK (W4 m c main_v7_0 (ix2 (0 : Fin 1) k)) := by
  rw [W5_main_v9_eq]
  show Ideal.div _ (broadcastInDim S1x256 ![] bcast_S_S1x256 (constant (F := Ideal) S_ .f32 0x48435000#32) (ix2 (0 : Fin 1) k)) = _
  rw [broadcastInDim_apply ![] bcast_S_S1x256 _ _ ix0 (fun a => a.elim0), constant_apply]
  rfl

theorem W5_main_v20_eq (c : Dev nD) : (W5 m c main_v20 : S1x256.Idx → Ideal .f32)
    = addf (Host.sqrt (maximumf (Host.divf (subf (W4 m c main_v7_1 : S1x256.Idx → Ideal .f32)
          (mulf (broadcastInDim S1x256 ![] bcast_S_S1x256 (constant (F := Ideal) S_ .f32 0x48435000#32))
            (mulf (W5 m c main_v9 : S1x256.Idx → Ideal .f32) (W5 m c main_v9 : S1x256.Idx → Ideal .f32))))
          (broadcastInDim S1x256 ![] bcast_S_S1x256 (constant (F := Ideal) S_ .f32 0x48434FC0#32)))
        (broadcastInDim S1x256 ![] bcast_S_S1x256 (constant (F := Ideal) S_ .f32 0x00000000#32))))
      (broadcastInDim S1x256 ![] bcast_S_S1x256 (constant (F := Ideal) S_ .f32 0x322BCC77#32)) := by
  after_results_simp

/-- The observations' spread at column `k`. -/
theorem W5_main_v20_apply (c : Dev nD) (k : Fin 256) :
    (W5 m c main_v20 : S1x256.Idx → Ideal .f32) (ix2 (0 : Fin 1) k)
      = sigOK (W4 m c main_v7_0 (ix2 (0 : Fin 1) k)) (W4 m c main_v7_1 (ix2 (0 : Fin 1) k)) := by
  have hb : ∀ w : BitVec 32, broadcastInDim S1x256 ![] bcast_S_S1x256 (constant (F := Ideal) S_ .f32 w) (ix2 (0 : Fin 1) k)
      = Ideal.ofBits .f32 w := fun w => by
    rw [broadcastInDim_apply ![] bcast_S_S1x256 _ _ ix0 (fun a => a.elim0), constant_apply]
  rw [W5_main_v20_eq, addf_apply, hostSqrt_apply, maximumf_apply, hostDivf_apply, subf_apply, mulf_apply, mulf_apply,
    hb, hb, hb, hb, W5_main_v9_apply]
  rfl

/-! ## The constants' words -/

/-- The count of observations. -/
theorem ofBits_count : Ideal.ofBits .f32 0x48435000#32 = ((200000 : ℝ) : EReal) := by
  have hneg : ((0x48435000#32 : BitVec 32).extractLsb' (8 + 23) 1 == 1#1) = false := by decide
  have hex : ((0x48435000#32 : BitVec 32).extractLsb' 23 8).toNat = 144 := by decide
  have hfr : ((0x48435000#32 : BitVec 32).extractLsb' 0 23).toNat = 4411392 := by decide
  simp only [Ideal.ofBits, Ideal.ieee, hneg, hex, hfr]
  norm_num

/-- The count of observations less one. -/
theorem ofBits_count_pred : Ideal.ofBits .f32 0x48434FC0#32 = ((199999 : ℝ) : EReal) := by
  have hneg : ((0x48434FC0#32 : BitVec 32).extractLsb' (8 + 23) 1 == 1#1) = false := by decide
  have hex : ((0x48434FC0#32 : BitVec 32).extractLsb' 23 8).toNat = 144 := by decide
  have hfr : ((0x48434FC0#32 : BitVec 32).extractLsb' 0 23).toNat = 4411328 := by decide
  simp only [Ideal.ofBits, Ideal.ieee, hneg, hex, hfr]
  norm_num

end Cert.KernelIdeal.Hand

end
-- ==== Proof.KIStatsPieces.lean ====
/-
  The first kernel: what each case of the body leaves in a scratch row or an output row is the body's own
  arithmetic — the block's column sums (of x, or of x*x) added to the row as the case found it (zeros at the
  first point) — read off the stores the run found.
-/
import proofs.«162080_j20057497272460_1_alg».proof.Proof.KIStats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := by funext a; fin_cases a <;> rfl

section
variable (c : Dev nD) (i : grid0.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole)

theorem sout0_A_0_eq (hc0 : cond0_0 i) (hc1 : ¬cond0_1 i) (x0 : Vec F S2000x256 .f32) :
    sout0_A_0 c i arg1 harg1 arg2 harg2 arg3 harg3 arg4 harg4 arg5 harg5 hc0 hc1 x0 = k0_pay3 x0 (k0_pay1 (F := F)) := by
  unfold sout0_A_0
  rw [View.read_writes_eq_canon _ _ _ (scover0_A_0 c i arg1 harg1 arg2 harg2 arg3 harg3 arg4 harg4 arg5 harg5 hc0 hc1 x0)]
  unfold kernelRun0_A
  dsimp only
  sl_unfold_words
  simp only [View.readCov_unit_zero (S := S1x256) _ hz1, View.readAt_eq_ld, harg1.read_unread, View.ld_unit_zero (S := S2000x256) hz1, View.ld_unit_zero (S := S1x256) hz1]
  exact View.canon_cons_unit_zero (S := S1x256) hz1 _ _ _

theorem sout0_A_1_eq (hc0 : cond0_0 i) (hc1 : ¬cond0_1 i) (x0 : Vec F S2000x256 .f32) :
    sout0_A_1 c i arg1 harg1 arg2 harg2 arg3 harg3 arg4 harg4 arg5 harg5 hc0 hc1 x0 = k0_pay4 x0 (k0_pay2 (F := F)) := by
  unfold sout0_A_1
  rw [View.read_writes_eq_canon _ _ _ (scover0_A_1 c i arg1 harg1 arg2 harg2 arg3 harg3 arg4 harg4 arg5 harg5 hc0 hc1 x0)]
  unfold kernelRun0_A
  dsimp only
  sl_unfold_words
  simp only [View.readCov_unit_zero (S := S1x256) _ hz1, View.readAt_eq_ld, harg1.read_unread, View.ld_unit_zero (S := S2000x256) hz1, View.ld_unit_zero (S := S1x256) hz1]
  exact View.canon_cons_unit_zero (S := S1x256) hz1 _ _ _

theorem sout0_B_0_eq (hc0 : ¬cond0_0 i) (hc1 : ¬cond0_1 i) (x0 : Vec F S2000x256 .f32) (xs0 xs1 : Vec F S1x256 .f32) :
    sout0_B_0 c i arg1 harg1 arg2 harg2 arg3 harg3 arg4 harg4 arg5 harg5 hc0 hc1 x0 xs0 xs1 = k0_pay3 x0 xs0 := by
  unfold sout0_B_0
  rw [View.read_writes_eq_canon _ _ _ (scover0_B_0 c i arg1 harg1 arg2 harg2 arg3 harg3 arg4 harg4 arg5 harg5 hc0 hc1 x0 xs0 xs1)]
  unfold kernelRun0_B
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

theorem sout0_B_1_eq (hc0 : ¬cond0_0 i) (hc1 : ¬cond0_1 i) (x0 : Vec F S2000x256 .f32) (xs0 xs1 : Vec F S1x256 .f32) :
    sout0_B_1 c i arg1 harg1 arg2 harg2 arg3 harg3 arg4 harg4 arg5 harg5 hc0 hc1 x0 xs0 xs1 = k0_pay4 x0 xs1 := by
  unfold sout0_B_1
  rw [View.read_writes_eq_canon _ _ _ (scover0_B_1 c i arg1 harg1 arg2 harg2 arg3 harg3 arg4 harg4 arg5 harg5 hc0 hc1 x0 xs0 xs1)]
  unfold kernelRun0_B
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

theorem sout0_C_0_eq (hc0 : ¬cond0_0 i) (hc1 : cond0_1 i) (x0 : Vec F S2000x256 .f32) (xs0 xs1 : Vec F S1x256 .f32) :
    sout0_C_0 c i arg1 harg1 arg2 harg2 arg3 harg3 arg4 harg4 arg5 harg5 hc0 hc1 x0 xs0 xs1 = k0_pay3 x0 xs0 := by
  unfold sout0_C_0
  rw [View.read_writes_eq_canon _ _ _ (scover0_C_0 c i arg1 harg1 arg2 harg2 arg3 harg3 arg4 harg4 arg5 harg5 hc0 hc1 x0 xs0 xs1)]
  unfold kernelRun0_C
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

theorem sout0_C_1_eq (hc0 : ¬cond0_0 i) (hc1 : cond0_1 i) (x0 : Vec F S2000x256 .f32) (xs0 xs1 : Vec F S1x256 .f32) :
    sout0_C_1 c i arg1 harg1 arg2 harg2 arg3 harg3 arg4 harg4 arg5 harg5 hc0 hc1 x0 xs0 xs1 = k0_pay4 x0 xs1 := by
  unfold sout0_C_1
  rw [View.read_writes_eq_canon _ _ _ (scover0_C_1 c i arg1 harg1 arg2 harg2 arg3 harg3 arg4 harg4 arg5 harg5 hc0 hc1 x0 xs0 xs1)]
  unfold kernelRun0_C
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

theorem out0_C_1_eq (hc0 : ¬cond0_0 i) (hc1 : cond0_1 i) (x0 : Vec F S2000x256 .f32) (xs0 xs1 : Vec F S1x256 .f32) :
    out0_C_1 c i arg1 harg1 arg2 harg2 arg3 harg3 arg4 harg4 arg5 harg5 hc0 hc1 x0 xs0 xs1 = k0_pay3 x0 xs0 := by
  unfold out0_C_1
  rw [View.read_writes_eq_canon _ _ _ (cover0_C_1 c i arg1 harg1 arg2 harg2 arg3 harg3 arg4 harg4 arg5 harg5 hc0 hc1 x0 xs0 xs1)]
  unfold kernelRun0_C
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

theorem out0_C_2_eq (hc0 : ¬cond0_0 i) (hc1 : cond0_1 i) (x0 : Vec F S2000x256 .f32) (xs0 xs1 : Vec F S1x256 .f32) :
    out0_C_2 c i arg1 harg1 arg2 harg2 arg3 harg3 arg4 harg4 arg5 harg5 hc0 hc1 x0 xs0 xs1 = k0_pay4 x0 xs1 := by
  unfold out0_C_2
  rw [View.read_writes_eq_canon _ _ _ (cover0_C_2 c i arg1 harg1 arg2 harg2 arg3 harg3 arg4 harg4 arg5 harg5 hc0 hc1 x0 xs0 xs1)]
  unfold kernelRun0_C
  dsimp only
  sl_unfold_words
  simp only [View.readCov_unit_zero (S := S1x256) _ hz1, View.readAt_eq_ld, harg1.read_unread, harg4.read_unread, harg5.read_unread, View.ld_unit_zero (S := S2000x256) hz1, View.ld_unit_zero (S := S1x256) hz1]
  exact View.canon_unit_zero (S := S1x256) hz1 _ _

end

end Cert.KernelIdeal.Hand

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KIStatsVal.lean ====
/-
  The first kernel's arithmetic read at an index on the extended reals: a zeroed row is 0 at every column; a
  row after the body's update is, at column k, what it held plus the block's column sum (of x, or of x*x).
-/
import proofs.«162080_j20057497272460_1_alg».proof.Proof.KIStatsPieces
import proofs.«162080_j20057497272460_1_alg».proof.Proof.LibAxisSum
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem pay1_apply (k : Fin 256) : k0_pay1 (F := Ideal) (ix2 (0 : Fin 1) k) = 0 := by
  unfold k0_pay1
  rw [shapeCast_self]
  exact Ideal.ofBits_zero_f32

theorem pay2_apply (k : Fin 256) : k0_pay2 (F := Ideal) (ix2 (0 : Fin 1) k) = 0 := by
  unfold k0_pay2
  rw [shapeCast_self]
  exact Ideal.ofBits_zero_f32

theorem pay3_apply (x0 : FVec Ideal S2000x256 .f32) (a : FVec Ideal S1x256 .f32) (k : Fin 256) :
    k0_pay3 x0 a (ix2 (0 : Fin 1) k) = a (ix2 (0 : Fin 1) k) + ∑ r : Fin 2000, x0 (ix2 r k) := by
  unfold k0_pay3
  rw [shapeCast_self]
  refine congrArg (a (ix2 (0 : Fin 1) k) + ·) ?_
  refine (shapeCast_a_1a_apply _ _ (0 : Fin 1) k).trans ?_
  exact Cert.LibAxisSum.sum_first _ _ _ _ _ k

theorem pay4_apply (x0 : FVec Ideal S2000x256 .f32) (a : FVec Ideal S1x256 .f32) (k : Fin 256) :
    k0_pay4 x0 a (ix2 (0 : Fin 1) k) = a (ix2 (0 : Fin 1) k) + ∑ r : Fin 2000, x0 (ix2 r k) * x0 (ix2 r k) := by
  unfold k0_pay4
  rw [shapeCast_self]
  refine congrArg (a (ix2 (0 : Fin 1) k) + ·) ?_
  refine (shapeCast_a_1a_apply _ _ (0 : Fin 1) k).trans ?_
  exact Cert.LibAxisSum.sum_first _ _ _ _ _ k

end Cert.KernelIdeal.Hand

end
-- ==== Proof.KIStatsAcc.lean ====
/-
  The first kernel's value on the extended reals. Row n of the array x is read through the block that
  holds it (block t, position r: n = 2000 t + r). After grid point n the two scratch rows hold, at column
  k, the sums of x and of x*x over the rows of blocks 0..n, accumulated block by block from zero; the last
  point copies them to the outputs, whose one block is the whole output row.
-/
import proofs.«162080_j20057497272460_1_alg».proof.Proof.KIStatsVal
import proofs.«162080_j20057497272460_1_alg».proof.Proof.KIStatsBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The input window's block index at point t is (t, 0). -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Position (r, k) of block t is row 2000 t + r, column k of the array. -/
theorem iblk0_apply (c : Dev nD) (t : Fin cfg0.N) (r : Fin 2000) (k : Fin 256) (h : t.val * 2000 + r.val < 200000) :
    (iblk0 V c 0 t : FVec Ideal S2000x256 .f32) (ix2 r k)
      = (V c main_arg0 : FVec Ideal S200000x256 .f32) (ix2 (⟨t.val * 2000 + r.val, h⟩ : Fin 200000) k) := by
  show (V c main_arg0 : FVec Ideal S200000x256 .f32) (((cfg0.win 0).blk t).view.emb (ix2 r k)) = _
  refine congrArg _ (funext fun a => Fin.ext ?_)
  match a with
  | ⟨0, _⟩ =>
    show win0_0.index t 0 * 2000 + 1 * r.val = t.val * 2000 + r.val
    rw [(idx_facts0 t).1]; omega
  | ⟨1, _⟩ =>
    show win0_0.index t 1 * 256 + 1 * k.val = k.val
    rw [(idx_facts0 t).2]; omega

/-- Row n of x at column k (0 past the last row: never read). -/
def rowAt (X : FVec Ideal S200000x256 .f32) (n : ℕ) (k : Fin 256) : EReal :=
  if h : n < 200000 then X (ix2 (⟨n, h⟩ : Fin 200000) k) else 0
/-- Block t's column sums of x and of x*x. -/
def blkS (X : FVec Ideal S200000x256 .f32) (t : ℕ) (k : Fin 256) : EReal := ∑ r : Fin 2000, rowAt X (t * 2000 + r.val) k
def blkQ (X : FVec Ideal S200000x256 .f32) (t : ℕ) (k : Fin 256) : EReal := ∑ r : Fin 2000, rowAt X (t * 2000 + r.val) k * rowAt X (t * 2000 + r.val) k
/-- The running sums over blocks 0..n. -/
def accS (X : FVec Ideal S200000x256 .f32) (n : ℕ) (k : Fin 256) : EReal := 0 + ∑ t ∈ Finset.range (n + 1), blkS X t k
def accQ (X : FVec Ideal S200000x256 .f32) (n : ℕ) (k : Fin 256) : EReal := 0 + ∑ t ∈ Finset.range (n + 1), blkQ X t k
/-- They are what the kernel accumulates: from zero at the first block, one block added per point. -/
theorem accS_zero (X : FVec Ideal S200000x256 .f32) (k : Fin 256) : accS X 0 k = 0 + blkS X 0 k := by
  unfold accS; rw [Finset.sum_range_one]
theorem accS_succ (X : FVec Ideal S200000x256 .f32) (n : ℕ) (k : Fin 256) : accS X (n + 1) k = accS X n k + blkS X (n + 1) k := by
  unfold accS; rw [Finset.sum_range_succ, add_assoc]
theorem accQ_zero (X : FVec Ideal S200000x256 .f32) (k : Fin 256) : accQ X 0 k = 0 + blkQ X 0 k := by
  unfold accQ; rw [Finset.sum_range_one]
theorem accQ_succ (X : FVec Ideal S200000x256 .f32) (n : ℕ) (k : Fin 256) : accQ X (n + 1) k = accQ X n k + blkQ X (n + 1) k := by
  unfold accQ; rw [Finset.sum_range_succ, add_assoc]
theorem accS_pos (X : FVec Ideal S200000x256 .f32) (n : ℕ) (hn : n ≠ 0) (k : Fin 256) : accS X n k = accS X (n - 1) k + blkS X n k := by
  obtain ⟨p, rfl⟩ := Nat.exists_eq_succ_of_ne_zero hn
  rw [Nat.succ_sub_one]; exact accS_succ X p k
theorem accQ_pos (X : FVec Ideal S200000x256 .f32) (n : ℕ) (hn : n ≠ 0) (k : Fin 256) : accQ X n k = accQ X (n - 1) k + blkQ X n k := by
  obtain ⟨p, rfl⟩ := Nat.exists_eq_succ_of_ne_zero hn
  rw [Nat.succ_sub_one]; exact accQ_succ X p k

theorem blk_sumS (c : Dev nD) (t : Fin cfg0.N) (k : Fin 256) (x0 : FVec Ideal S2000x256 .f32) (hx : x0 = iblk0 V c 0 t) :
    ∑ r : Fin 2000, x0 (ix2 r k) = blkS (V c main_arg0) t.val k := by
  subst hx
  refine Finset.sum_congr rfl fun r _ => ?_
  have h : t.val * 2000 + r.val < 200000 := by
    have h1 : t.val < 100 := lt_of_lt_of_eq t.isLt (show cfg0.N = 100 from N_0)
    have h2 := r.isLt; omega
  refine (iblk0_apply V c t r k h).trans ?_
  unfold rowAt; rw [dif_pos h]

theorem blk_sumQ (c : Dev nD) (t : Fin cfg0.N) (k : Fin 256) (x0 : FVec Ideal S2000x256 .f32) (hx : x0 = iblk0 V c 0 t) :
    ∑ r : Fin 2000, x0 (ix2 r k) * x0 (ix2 r k) = blkQ (V c main_arg0) t.val k := by
  subst hx
  refine Finset.sum_congr rfl fun r _ => ?_
  have h : t.val * 2000 + r.val < 200000 := by
    have h1 : t.val < 100 := lt_of_lt_of_eq t.isLt (show cfg0.N = 100 from N_0)
    have h2 := r.isLt; omega
  rw [show (iblk0 V c 0 t : FVec Ideal S2000x256 .f32) (ix2 r k) = _ from iblk0_apply V c t r k h]
  unfold rowAt; rw [dif_pos h]

/-! ## One point's update of the scratch rows -/

theorem step_A (c : Dev nD) (t : Fin cfg0.N) (h0 : t.val = 0) (h1 : ¬t.val = 99) (k : Fin 256) :
    (outsAt0 V c t.val t.isLt).2.2.1 (ix2 (0 : Fin 1) k) = 0 + blkS (V c main_arg0) t.val k
    ∧ (outsAt0 V c t.val t.isLt).2.2.2 (ix2 (0 : Fin 1) k) = 0 + blkQ (V c main_arg0) t.val k := by
  rw [outsAt0_A V c t h0 h1]
  dsimp only
  refine ⟨?_, ?_⟩
  · refine (congrFun (sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) _).trans ?_
    refine (pay3_apply _ _ k).trans ?_
    rw [pay1_apply]; exact congrArg (0 + ·) (blk_sumS V c t k _ rfl)
  · refine (congrFun (sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) _).trans ?_
    refine (pay4_apply _ _ k).trans ?_
    rw [pay2_apply]; exact congrArg (0 + ·) (blk_sumQ V c t k _ rfl)

theorem step_B (c : Dev nD) (t : Fin cfg0.N) (h0 : ¬t.val = 0) (h1 : ¬t.val = 99) (k : Fin 256) :
    (outsAt0 V c t.val t.isLt).2.2.1 (ix2 (0 : Fin 1) k) = (outsAt0 V c (t.val - 1) (Nat.lt_of_le_of_lt (Nat.sub_le _ _) t.isLt)).2.2.1 (ix2 (0 : Fin 1) k) + blkS (V c main_arg0) t.val k
    ∧ (outsAt0 V c t.val t.isLt).2.2.2 (ix2 (0 : Fin 1) k) = (outsAt0 V c (t.val - 1) (Nat.lt_of_le_of_lt (Nat.sub_le _ _) t.isLt)).2.2.2 (ix2 (0 : Fin 1) k) + blkQ (V c main_arg0) t.val k := by
  rw [outsAt0_B V c t h0 h1]
  dsimp only
  refine ⟨?_, ?_⟩
  · refine (congrFun (sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay3_apply _ _ k).trans ?_
    exact congrArg (_ + ·) (blk_sumS V c t k _ rfl)
  · refine (congrFun (sout0_B_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay4_apply _ _ k).trans ?_
    exact congrArg (_ + ·) (blk_sumQ V c t k _ rfl)

theorem step_C (c : Dev nD) (t : Fin cfg0.N) (h0 : ¬t.val = 0) (h1 : t.val = 99) (k : Fin 256) :
    ((outsAt0 V c t.val t.isLt).2.2.1 (ix2 (0 : Fin 1) k) = (outsAt0 V c (t.val - 1) (Nat.lt_of_le_of_lt (Nat.sub_le _ _) t.isLt)).2.2.1 (ix2 (0 : Fin 1) k) + blkS (V c main_arg0) t.val k
    ∧ (outsAt0 V c t.val t.isLt).2.2.2 (ix2 (0 : Fin 1) k) = (outsAt0 V c (t.val - 1) (Nat.lt_of_le_of_lt (Nat.sub_le _ _) t.isLt)).2.2.2 (ix2 (0 : Fin 1) k) + blkQ (V c main_arg0) t.val k)
    ∧ ((outsAt0 V c t.val t.isLt).1 (ix2 (0 : Fin 1) k) = (outsAt0 V c (t.val - 1) (Nat.lt_of_le_of_lt (Nat.sub_le _ _) t.isLt)).2.2.1 (ix2 (0 : Fin 1) k) + blkS (V c main_arg0) t.val k
    ∧ (outsAt0 V c t.val t.isLt).2.1 (ix2 (0 : Fin 1) k) = (outsAt0 V c (t.val - 1) (Nat.lt_of_le_of_lt (Nat.sub_le _ _) t.isLt)).2.2.2 (ix2 (0 : Fin 1) k) + blkQ (V c main_arg0) t.val k) := by
  rw [outsAt0_C V c t h0 h1]
  dsimp only
  refine ⟨⟨?_, ?_⟩, ⟨?_, ?_⟩⟩
  · refine (congrFun (sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay3_apply _ _ k).trans ?_
    exact congrArg (_ + ·) (blk_sumS V c t k _ rfl)
  · refine (congrFun (sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay4_apply _ _ k).trans ?_
    exact congrArg (_ + ·) (blk_sumQ V c t k _ rfl)
  · refine (congrFun (out0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay3_apply _ _ k).trans ?_
    exact congrArg (_ + ·) (blk_sumS V c t k _ rfl)
  · refine (congrFun (out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) _).trans ?_
    refine (pay4_apply _ _ k).trans ?_
    exact congrArg (_ + ·) (blk_sumQ V c t k _ rfl)

/-! ## The scratch rows after every point -/

theorem scratch_eq (c : Dev nD) : ∀ (n : ℕ) (hn : n < cfg0.N) (k : Fin 256),
    (outsAt0 V c n hn).2.2.1 (ix2 (0 : Fin 1) k) = accS (V c main_arg0) n k
    ∧ (outsAt0 V c n hn).2.2.2 (ix2 (0 : Fin 1) k) = accQ (V c main_arg0) n k
  | 0, hn, k => by
    have s := step_A V c ⟨0, hn⟩ rfl (show ¬ (0 : ℕ) = 99 by decide) k
    exact ⟨s.1.trans (accS_zero _ k).symm, s.2.trans (accQ_zero _ k).symm⟩
  | n + 1, hn, k => by
    have ih := scratch_eq c n (Nat.lt_of_succ_lt hn) k
    by_cases h1 : n + 1 = 99
    · have s := (step_C V c ⟨n + 1, hn⟩ (Nat.succ_ne_zero n) h1 k).1
      exact ⟨(s.1.trans (congrArg (· + blkS (V c main_arg0) (n + 1) k) ih.1)).trans (accS_succ _ n k).symm,
        (s.2.trans (congrArg (· + blkQ (V c main_arg0) (n + 1) k) ih.2)).trans (accQ_succ _ n k).symm⟩
    · have s := step_B V c ⟨n + 1, hn⟩ (Nat.succ_ne_zero n) h1 k
      exact ⟨(s.1.trans (congrArg (· + blkS (V c main_arg0) (n + 1) k) ih.1)).trans (accS_succ _ n k).symm,
        (s.2.trans (congrArg (· + blkQ (V c main_arg0) (n + 1) k) ih.2)).trans (accQ_succ _ n k).symm⟩

/-- The output rows at the last point: the full running sums. -/
theorem out_last (c : Dev nD) (t : Fin cfg0.N) (h1 : t.val = 99) (k : Fin 256) :
    (outsAt0 V c t.val t.isLt).1 (ix2 (0 : Fin 1) k) = accS (V c main_arg0) 99 k
    ∧ (outsAt0 V c t.val t.isLt).2.1 (ix2 (0 : Fin 1) k) = accQ (V c main_arg0) 99 k := by
  have h0 : ¬t.val = 0 := by omega
  have s := (step_C V c t h0 h1 k).2
  have ih := scratch_eq V c (t.val - 1) (Nat.lt_of_le_of_lt (Nat.sub_le _ _) t.isLt) k
  have eS : accS (V c main_arg0) 99 k = accS (V c main_arg0) t.val k := by rw [h1]
  have eQ : accQ (V c main_arg0) 99 k = accQ (V c main_arg0) t.val k := by rw [h1]
  rw [eS, eQ]
  exact ⟨(s.1.trans (congrArg (· + blkS (V c main_arg0) t.val k) ih.1)).trans (accS_pos _ _ h0 k).symm,
    (s.2.trans (congrArg (· + blkQ (V c main_arg0) t.val k) ih.2)).trans (accQ_pos _ _ h0 k).symm⟩

end Cert.KernelIdeal.Hand

end
-- ==== Proof.KIStatsArr.lean ====
/-
  The first kernel's two output rows after the region, as whole arrays: each is written back once, at the
  last grid point, through its one block, which is the whole row; so the row ends holding the running sums
  after the last block.
-/
import proofs.«162080_j20057497272460_1_alg».proof.Proof.KIStatsAcc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The final rows: column k holds the sum over all 100 blocks. -/
def GS (X : FVec Ideal S200000x256 .f32) : FVec Ideal S1x256 .f32 := fun j => accS X 99 ⟨(j 1).val, idx2_lt1 j⟩
def GQ (X : FVec Ideal S200000x256 .f32) : FVec Ideal S1x256 .f32 := fun j => accQ X 99 ⟨(j 1).val, idx2_lt1 j⟩
theorem GS_at (X : FVec Ideal S200000x256 .f32) (j : S1x256.Idx) (k : Fin 256) (h : (j 1).val = k.val) : GS X j = accS X 99 k := by
  unfold GS; exact congrArg _ (Fin.ext h)
theorem GQ_at (X : FVec Ideal S200000x256 .f32) (j : S1x256.Idx) (k : Fin 256) (h : (j 1).val = k.val) : GQ X j = accQ X 99 k := by
  unfold GQ; exact congrArg _ (Fin.ext h)

theorem eq_ix2_0 (y : S1x256.Idx) : y = ix2 (0 : Fin 1) (y 1) := by
  funext a
  match a with
  | ⟨0, _⟩ => exact Fin.ext (Nat.lt_one_iff.mp (idx2_lt0 y))
  | ⟨1, _⟩ => rfl

/-- Both output windows' block index is (0, 0) at every point. -/
theorem idx_facts0o : ∀ t : Fin cfg0.N, win0_1.index t (0 : Fin 2) = 0 ∧ win0_1.index t (1 : Fin 2) = 0 ∧ win0_2.index t (0 : Fin 2) = 0 ∧ win0_2.index t (1 : Fin 2) = 0 :=
  (by decide +kernel : ∀ t : Fin grid0.N, win0_1.index t (0 : Fin 2) = 0 ∧ win0_1.index t (1 : Fin 2) = 0 ∧ win0_2.index t (0 : Fin 2) = 0 ∧ win0_2.index t (1 : Fin 2) = 0)

theorem flushed0_1_eq (c : Dev nD) (t : Fin cfg0.N) (hf : (cfg0.win 1).flush t = true) :
    (dat0 V c).flushed 1 t = ((cfg0.win 1).blk t).view.read (Elt Ideal) (GS (V c main_arg0)) := by
  have h99 : t.val = 99 := by
    have h1 : t.val < 100 := lt_of_lt_of_eq t.isLt (show cfg0.N = 100 from N_0)
    have := (flush0_1 t).mp hf; omega
  show (cfg0.win 1).cut (grid0.coords t) ((dat0 V c).after 1 t) = _
  rw [after0_1]
  obtain ⟨e0, e1, e2, e3⟩ := idx_facts0o t
  funext y
  show ((outsAt0 V c t.val t.isLt).1 : FVec Ideal S1x256 .f32) y = GS (V c main_arg0) (((cfg0.win 1).blk t).view.emb y)
  rw [eq_ix2_0 y]
  refine ((out_last V c t h99 _).1).trans (GS_at (V c main_arg0) _ _ ?_).symm
  show win0_1.index t (1 : Fin 2) * 256 + 1 * ((ix2 (0 : Fin 1) (y 1) : S1x256.Idx) 1).val = (y 1).val
  rw [e1]; show 0 * 256 + 1 * (y 1).val = (y 1).val; omega

theorem mem_blk0_1 (t : Fin cfg0.N) (i : S1x256.Idx) :
    i ∈ ((cfg0.win 1).blk t).view.set ↔ ∀ a : Fin 2, win0_1.index t a * S1x256.size a ≤ (i a).val ∧ (i a).val < win0_1.index t a * S1x256.size a + S1x256.size a := by
  show i ∈ ((View.whole main_v7_0).slice (win0_1.rect t)).set ↔ _
  rw [View.set_slice_whole, Rect.mem_set_unit]
  exact Iff.rfl

theorem cover0_1_arr (i : S1x256.Idx) :
    ∃ t : Fin cfg0.N, (cfg0.win 1).flush t = true ∧ i ∈ ((cfg0.win 1).blk t).view.set := by
  have hN : 99 < cfg0.N := by show _ < grid0.N; rw [N_0]; decide
  refine ⟨⟨99, hN⟩, (flush0_1 _).mpr (show (99 : ℕ) % 100 = 99 by decide), ?_⟩
  obtain ⟨e0, e1, e2, e3⟩ := idx_facts0o ⟨99, hN⟩
  rw [mem_blk0_1]
  intro a
  match a with
  | ⟨0, _⟩ =>
    show win0_1.index ⟨99, hN⟩ (0 : Fin 2) * 1 ≤ (i 0).val ∧ (i 0).val < win0_1.index ⟨99, hN⟩ (0 : Fin 2) * 1 + 1
    rw [e0]; have := idx2_lt0 i; omega
  | ⟨1, _⟩ =>
    show win0_1.index ⟨99, hN⟩ (1 : Fin 2) * 256 ≤ (i 1).val ∧ (i 1).val < win0_1.index ⟨99, hN⟩ (1 : Fin 2) * 256 + 256
    rw [e1]; have := idx2_lt1 i; omega

/-- The output row after the region: the column sums over all the rows, accumulated block by block. -/
theorem arr0_1 (c : Dev nD) : (dat0 V c).arrAt 1 cfg0.N = GS (V c main_arg0) :=
  Pipeline.Dat.arrAt_eq_of_cover (dat0 V c) 1 (GS (V c main_arg0)) (fun t hf => flushed0_1_eq V c t hf) cover0_1_arr

theorem flushed0_2_eq (c : Dev nD) (t : Fin cfg0.N) (hf : (cfg0.win 2).flush t = true) :
    (dat0 V c).flushed 2 t = ((cfg0.win 2).blk t).view.read (Elt Ideal) (GQ (V c main_arg0)) := by
  have h99 : t.val = 99 := by
    have h1 : t.val < 100 := lt_of_lt_of_eq t.isLt (show cfg0.N = 100 from N_0)
    have := (flush0_2 t).mp hf; omega
  show (cfg0.win 2).cut (grid0.coords t) ((dat0 V c).after 2 t) = _
  rw [after0_2]
  obtain ⟨e0, e1, e2, e3⟩ := idx_facts0o t
  funext y
  show ((outsAt0 V c t.val t.isLt).2.1 : FVec Ideal S1x256 .f32) y = GQ (V c main_arg0) (((cfg0.win 2).blk t).view.emb y)
  rw [eq_ix2_0 y]
  refine ((out_last V c t h99 _).2).trans (GQ_at (V c main_arg0) _ _ ?_).symm
  show win0_2.index t (1 : Fin 2) * 256 + 1 * ((ix2 (0 : Fin 1) (y 1) : S1x256.Idx) 1).val = (y 1).val
  rw [e3]; show 0 * 256 + 1 * (y 1).val = (y 1).val; omega

theorem mem_blk0_2 (t : Fin cfg0.N) (i : S1x256.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v7_1).slice (win0_2.rect t)).set ↔ _
  rw [View.set_slice_whole, Rect.mem_set_unit]
  exact Iff.rfl

theorem cover0_2_arr (i : S1x256.Idx) :
    ∃ t : Fin cfg0.N, (cfg0.win 2).flush t = true ∧ i ∈ ((cfg0.win 2).blk t).view.set := by
  have hN : 99 < cfg0.N := by show _ < grid0.N; rw [N_0]; decide
  refine ⟨⟨99, hN⟩, (flush0_2 _).mpr (show (99 : ℕ) % 100 = 99 by decide), ?_⟩
  obtain ⟨e0, e1, e2, e3⟩ := idx_facts0o ⟨99, hN⟩
  rw [mem_blk0_2]
  intro a
  match a with
  | ⟨0, _⟩ =>
    show win0_2.index ⟨99, hN⟩ (0 : Fin 2) * 1 ≤ (i 0).val ∧ (i 0).val < win0_2.index ⟨99, hN⟩ (0 : Fin 2) * 1 + 1
    rw [e2]; have := idx2_lt0 i; omega
  | ⟨1, _⟩ =>
    show win0_2.index ⟨99, hN⟩ (1 : Fin 2) * 256 ≤ (i 1).val ∧ (i 1).val < win0_2.index ⟨99, hN⟩ (1 : Fin 2) * 256 + 256
    rw [e3]; have := idx2_lt1 i; omega

/-- The output row after the region: the column sums over all the rows, accumulated block by block. -/
theorem arr0_2 (c : Dev nD) : (dat0 V c).arrAt 2 cfg0.N = GQ (V c main_arg0) :=
  Pipeline.Dat.arrAt_eq_of_cover (dat0 V c) 2 (GQ (V c main_arg0)) (fun t hf => flushed0_2_eq V c t hf) cover0_2_arr

end Cert.KernelIdeal.Hand

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.KIStatsSum.lean ====
/-
  The running sums after the last block are the sums over all 200000 rows: the rows regrouped into 100
  consecutive blocks of 2000 (a finite sum in a commutative monoid: no order or finiteness matters).
-/
import proofs.«162080_j20057497272460_1_alg».proof.Proof.KIStatsArr
import proofs.«162080_j20057497272460_1_alg».proof.Proof.LibSumBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem accS_eq_sum (X : FVec Ideal S200000x256 .f32) (k : Fin 256) :
    accS X 99 k = 0 + ∑ i : Fin 200000, X (ix2 i k) := by
  unfold accS
  refine congrArg ((0 : EReal) + ·) ?_
  rw [Cert.SumBlocks.sum_fin_blocks (N := 200000) 100 2000 (by norm_num) (fun i : Fin 200000 => X (ix2 i k))]
  show ∑ t ∈ Finset.range 100, blkS X t k = _
  rw [Finset.sum_range]
  refine Finset.sum_congr rfl fun x _ => ?_
  unfold blkS
  refine Finset.sum_congr rfl fun y _ => ?_
  have h : x.val * 2000 + y.val < 200000 := by have := x.isLt; have := y.isLt; omega
  unfold rowAt; rw [dif_pos h]

theorem accQ_eq_sum (X : FVec Ideal S200000x256 .f32) (k : Fin 256) :
    accQ X 99 k = 0 + ∑ i : Fin 200000, X (ix2 i k) * X (ix2 i k) := by
  unfold accQ
  refine congrArg ((0 : EReal) + ·) ?_
  rw [Cert.SumBlocks.sum_fin_blocks (N := 200000) 100 2000 (by norm_num) (fun i : Fin 200000 => X (ix2 i k) * X (ix2 i k))]
  show ∑ t ∈ Finset.range 100, blkQ X t k = _
  rw [Finset.sum_range]
  refine Finset.sum_congr rfl fun x _ => ?_
  unfold blkQ
  refine Finset.sum_congr rfl fun y _ => ?_
  have h : x.val * 2000 + y.val < 200000 := by have := x.isLt; have := y.isLt; omega
  unfold rowAt; rw [dif_pos h]

/-- The two output rows of the first kernel at column k: the column's sum and sum of squares. -/
theorem GS_apply (X : FVec Ideal S200000x256 .f32) (k : Fin 256) :
    GS X (ix2 (0 : Fin 1) k) = 0 + ∑ i : Fin 200000, X (ix2 i k) :=
  (GS_at X _ k rfl).trans (accS_eq_sum X k)
theorem GQ_apply (X : FVec Ideal S200000x256 .f32) (k : Fin 256) :
    GQ X (ix2 (0 : Fin 1) k) = 0 + ∑ i : Fin 200000, X (ix2 i k) * X (ix2 i k) :=
  (GQ_at X _ k rfl).trans (accQ_eq_sum X k)

end Cert.KernelIdeal.Hand

end
-- ==== Proof.KIStatsOut.lean ====
/-
  What the first kernel leaves in its two outputs, in the program's run: at column k the sum, and the sum of
  squares, of column k of the argument x over all its rows.
-/
import proofs.«162080_j20057497272460_1_alg».proof.Proof.KIStatsSum
import proofs.«162080_j20057497272460_1_alg».proof.Proof.KIArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

theorem W4_v7_0 (c : Dev nD) :
    (W4 m c main_v7_0 : FVec Ideal S1x256 .f32) = GS (m ((c : Thread nD τ).loc main_arg0)) := by
  have h := W4_arr m c 1
  rw [arr0_1 (VR0 m) c] at h
  rw [show (VR0 m c main_arg0) = m ((c : Thread nD τ).loc main_arg0) from W3_main_arg0 m c] at h
  exact h

theorem W4_v7_1 (c : Dev nD) :
    (W4 m c main_v7_1 : FVec Ideal S1x256 .f32) = GQ (m ((c : Thread nD τ).loc main_arg0)) := by
  have h := W4_arr m c 2
  rw [arr0_2 (VR0 m) c] at h
  rw [show (VR0 m c main_arg0) = m ((c : Thread nD τ).loc main_arg0) from W3_main_arg0 m c] at h
  exact h

/-- Column k's sum and sum of squares over all rows, from the initial value 0. -/
def colSum (X : FVec Ideal S200000x256 .f32) (k : Fin 256) : EReal := 0 + ∑ i : Fin 200000, X (ix2 i k)
def colSq (X : FVec Ideal S200000x256 .f32) (k : Fin 256) : EReal := 0 + ∑ i : Fin 200000, X (ix2 i k) * X (ix2 i k)

theorem W4_v7_0_apply (c : Dev nD) (k : Fin 256) :
    (W4 m c main_v7_0 : FVec Ideal S1x256 .f32) (ix2 (0 : Fin 1) k) = colSum (m ((c : Thread nD τ).loc main_arg0)) k := by
  rw [W4_v7_0]; exact GS_apply _ k

theorem W4_v7_1_apply (c : Dev nD) (k : Fin 256) :
    (W4 m c main_v7_1 : FVec Ideal S1x256 .f32) (ix2 (0 : Fin 1) k) = colSq (m ((c : Thread nD τ).loc main_arg0)) k := by
  rw [W4_v7_1]; exact GQ_apply _ k

end Cert.KernelIdeal.Hand

end
-- ==== Proof.KIFinite.lean ====
/-
  The precondition, decoded: every entry of the two float inputs is a real number.

  The precondition is the printed predicate finite_inputs, stated to be all ones. It takes the absolute value of
  each float input, compares it (strictly less) against the word of +∞, folds each comparison array by "and" over
  all its axes, and takes the "and" of the two results. If that bit is 1 then both folds are 1, so every single
  comparison is 1, so |x| < ⊤ at every entry x; an extended real whose absolute value max x (−x) is below ⊤ is
  neither ⊤ nor ⊥, that is, it is the coercion of a real.
-/
import proofs.«162080_j20057497272460_1_alg».proof.Defs
import proofs.«162080_j20057497272460_1_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Hand

open Idealize.ShloMosaic Idealize.SL.Sem

/-- The scalar shape has exactly one index (there is no axis to choose a coordinate on). -/
instance subsingleton_scalar_idx : Subsingleton Cert.Pre_finite_inputs.S_.Idx :=
  ⟨fun a b => funext fun d => d.elim0⟩

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value compares strictly below +∞ is the coercion of a real. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  rw [Ideal.cmpf_def, Ideal.hostAbsf_def, Ideal.absf_def, Ideal.ofBits_def, ofBits_inf] at h
  induction x using EReal.rec with
  | bot => simp [Ideal.cmp] at h
  | coe r => exact ⟨r, rfl⟩
  | top => simp [Ideal.cmp] at h

section
variable (m : (ℓ : Loc Cert.KernelIdeal.nD Cert.KernelIdeal.τ Cert.KernelIdeal.sig) → Buf (Elt Ideal) ℓ)

/-- Under the precondition, on every device, every entry of the first input and every entry of the third input is
    the coercion of a real (stated at an arbitrary index of each array). -/
theorem inputs_real (h : Cert.Pre_KernelIdeal m) (c : Dev Cert.KernelIdeal.nD) :
    (∀ j : Cert.Pre_finite_inputs.S200000x256.Idx, ∃ r : ℝ,
        (m ((c.tc : Thread Cert.KernelIdeal.nD Cert.KernelIdeal.τ).loc Cert.KernelIdeal.main_arg0)
          : FVec Ideal Cert.Pre_finite_inputs.S200000x256 .f32) j = (r : EReal))
    ∧ (∀ j : Cert.Pre_finite_inputs.S10x256.Idx, ∃ r : ℝ,
        (m ((c.tc : Thread Cert.KernelIdeal.nD Cert.KernelIdeal.τ).loc Cert.KernelIdeal.main_arg2)
          : FVec Ideal Cert.Pre_finite_inputs.S10x256 .f32) j = (r : EReal)) := by
  have h0 := congrFun (h c) ValueIdx.ix0
  dsimp only [Cert.Pre_finite_inputs.fn] at h0
  obtain ⟨h3, h7⟩ := IntOp.andi_eq_one.1 h0
  exact ⟨fun j => real_of_abs_lt_inf _ (Host.reduce_andi_all _ _ _ _ _ h3 j),
    fun j => real_of_abs_lt_inf _ (Host.reduce_andi_all _ _ _ _ _ h7 j)⟩

/-- Every entry x[i, k] of the first input is a real. -/
theorem arg0_real (h : Cert.Pre_KernelIdeal m) (c : Dev Cert.KernelIdeal.nD) (i : Fin 200000) (k : Fin 256) :
    ∃ r : ℝ, (m ((c.tc : Thread Cert.KernelIdeal.nD Cert.KernelIdeal.τ).loc Cert.KernelIdeal.main_arg0)
        : FVec Ideal Cert.Pre_finite_inputs.S200000x256 .f32) (ValueIdx.ix2 i k) = (r : EReal) :=
  (inputs_real m h c).1 (ValueIdx.ix2 i k)

/-- Every entry p[i, k] of the third input is a real. -/
theorem arg2_real (h : Cert.Pre_KernelIdeal m) (c : Dev Cert.KernelIdeal.nD) (i : Fin 10) (k : Fin 256) :
    ∃ r : ℝ, (m ((c.tc : Thread Cert.KernelIdeal.nD Cert.KernelIdeal.τ).loc Cert.KernelIdeal.main_arg2)
        : FVec Ideal Cert.Pre_finite_inputs.S10x256 .f32) (ValueIdx.ix2 i k) = (r : EReal) :=
  (inputs_real m h c).2 (ValueIdx.ix2 i k)

end

end Cert.KernelIdeal.Hand

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.RefValue.lean ====
/- The reference program's intermediate arrays, read off its run.
   The column means and standard deviations of the prompt rows and of the data rows, and the prompt rows rescaled from their
   own statistics to the data's, are named as functions of the arguments in the program's own operations; each is shown to be
   what the corresponding buffer holds at the end of the run (`A_muP`, `A_sigP`, `A_muO`, `A_sigO`, `A_PP`, `A_out0`),
   for any float values. The run is read stretch by stretch: a stretch is evaluated from arbitrary earlier contents, and a
   buffer written once holds at the end what it held when later stretches read it. -/
import proofs.«162080_j20057497272460_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The arrays the reference computes on the way, as functions of its arguments -/

/-- A float scalar spread over one row of 256. -/
abbrev row (c : FVec F S_ .f32) : FVec F S1x256 .f32 := broadcastInDim S1x256 ![] bcast_S_S1x256 c

/-- The machine-epsilon-like offset `1e-8` (the word `0x322BCC77`) over one row. -/
abbrev epsRow : FVec F S1x256 .f32 := row (constant S_ .f32 0x322BCC77#32)

/-- Column means of the 10 prompt rows: the column sums (from the initial value zero) over the word of `10`. -/
def muP (pf : FVec F S10x256 .f32) : FVec F S1x256 .f32 :=
  Host.divf (broadcastInDim S1x256 ![1] bcast_S256_S1x256_1 (Host.reduceAdd pf (constant S_ .f32 0x00000000#32) reducesTo_S10x256_S256_d0 h_S_))
    (row (constant S_ .f32 0x41200000#32))

/-- Column means of the 200000 data rows: the column sums over the word of `200000`. -/
def muO (x : FVec F S200000x256 .f32) : FVec F S1x256 .f32 :=
  Host.divf (broadcastInDim S1x256 ![1] bcast_S256_S1x256_1 (Host.reduceAdd x (constant S_ .f32 0x00000000#32) reducesTo_S200000x256_S256_d0 h_S_))
    (row (constant S_ .f32 0x48435000#32))

/-- The outlined variance of the prompt rows with `d` degrees of freedom removed: the column sums of squared deviations
    from the column means over `10 - d`, where `10 - d > 0`, and the quiet-NaN word elsewhere. -/
def varP (pf : FVec F S10x256 .f32) (d : IVec S_ 32) : FVec F S1x256 .f32 :=
  select (broadcastInDim S1x256 ![] bcast_S_S1x256
      (cmpf .ogt (subf (constant S_ .f32 0x41200000#32) (sitofp .f32 d)) (constant (F := F) S_ .f32 0x00000000#32)))
    (Host.divf
      (broadcastInDim S1x256 ![1] bcast_S256_S1x256_1
        (Host.reduceAdd
          (mulf (subf pf (broadcastInDim S10x256 ![0, 1] bcast_S1x256_S10x256_0_1 (muP pf)))
                (subf pf (broadcastInDim S10x256 ![0, 1] bcast_S1x256_S10x256_0_1 (muP pf))))
          (constant S_ .f32 0x00000000#32) reducesTo_S10x256_S256_d0 h_S_))
      (row (subf (constant S_ .f32 0x41200000#32) (sitofp .f32 d))))
    (row (id (constant S_ .f32 0x7FC00000#32)))

/-- The same for the data rows, `200000` in place of `10`. -/
def varO (x : FVec F S200000x256 .f32) (d : IVec S_ 32) : FVec F S1x256 .f32 :=
  select (broadcastInDim S1x256 ![] bcast_S_S1x256
      (cmpf .ogt (subf (constant S_ .f32 0x48435000#32) (sitofp .f32 d)) (constant (F := F) S_ .f32 0x00000000#32)))
    (Host.divf
      (broadcastInDim S1x256 ![1] bcast_S256_S1x256_1
        (Host.reduceAdd
          (mulf (subf x (broadcastInDim S200000x256 ![0, 1] bcast_S1x256_S200000x256_0_1 (muO x)))
                (subf x (broadcastInDim S200000x256 ![0, 1] bcast_S1x256_S200000x256_0_1 (muO x))))
          (constant S_ .f32 0x00000000#32) reducesTo_S200000x256_S256_d0 h_S_))
      (row (subf (constant S_ .f32 0x48435000#32) (sitofp .f32 d))))
    (row (id (constant S_ .f32 0x7FC00000#32)))

/-- The prompt rows' column standard deviation (one degree of freedom removed) plus the offset. -/
def sigP (pf : FVec F S10x256 .f32) : FVec F S1x256 .f32 := addf (Host.sqrt (varP pf (constantI S_ 32 1#32))) epsRow

/-- The data rows' column standard deviation (one degree of freedom removed) plus the offset. -/
def sigO (x : FVec F S200000x256 .f32) : FVec F S1x256 .f32 := addf (Host.sqrt (varO x (constantI S_ 32 1#32))) epsRow

/-- One row of 256 repeated over the 10 prompt rows. -/
abbrev rows10 (r : FVec F S1x256 .f32) : FVec F S10x256 .f32 := broadcastInDim S10x256 ![0, 1] bcast_S1x256_S10x256_0_1 r

/-- The prompt rows standardized by their own column statistics, then rescaled to the data's:
    `(pf - mp) / sp * so + mo`, each statistic one row repeated over the 10 rows. -/
def PPof (pf : FVec F S10x256 .f32) (mp sp mo so : FVec F S1x256 .f32) : FVec F S10x256 .f32 :=
  addf (mulf (Host.divf (subf pf (rows10 mp)) (rows10 sp)) (rows10 so)) (rows10 mo)

/-- The rescaled prompt rows of the arguments. -/
def PP (x : FVec F S200000x256 .f32) (pf : FVec F S10x256 .f32) : FVec F S10x256 .f32 :=
  PPof pf (muP pf) (sigP pf) (muO x) (sigO x)

/-! ## The buffers after each stretch -/

/-- The buffers before the first stretch. -/
abbrev W0 (V : Valuation τ sig (Elt F)) : Valuation τ sig (Elt F) := V
/-- The buffers after stretch `ops0`. -/
abbrev W1 (V : Valuation τ sig (Elt F)) : Valuation τ sig (Elt F) := after ops0 (W0 V)
/-- The buffers after stretch `ops1`. -/
abbrev W2 (V : Valuation τ sig (Elt F)) : Valuation τ sig (Elt F) := after ops1 (W1 V)
/-- The buffers after stretch `ops2`. -/
abbrev W3 (V : Valuation τ sig (Elt F)) : Valuation τ sig (Elt F) := after ops2 (W2 V)
/-- The buffers after stretch `ops3`. -/
abbrev W4 (V : Valuation τ sig (Elt F)) : Valuation τ sig (Elt F) := after ops3 (W3 V)
/-- The buffers after stretch `ops4`. -/
abbrev W5 (V : Valuation τ sig (Elt F)) : Valuation τ sig (Elt F) := after ops4 (W4 V)
/-- The buffers after stretch `ops5`. -/
abbrev W6 (V : Valuation τ sig (Elt F)) : Valuation τ sig (Elt F) := after ops5 (W5 V)
/-- The buffers after stretch `ops6`. -/
abbrev W7 (V : Valuation τ sig (Elt F)) : Valuation τ sig (Elt F) := after ops6 (W6 V)
/-- The buffers after stretch `ops7`. -/
abbrev W8 (V : Valuation τ sig (Elt F)) : Valuation τ sig (Elt F) := after ops7 (W7 V)
/-- The buffers after stretch `ops8`. -/
abbrev W9 (V : Valuation τ sig (Elt F)) : Valuation τ sig (Elt F) := after ops8 (W8 V)
/-- The buffers after stretch `ops9`. -/
abbrev W10 (V : Valuation τ sig (Elt F)) : Valuation τ sig (Elt F) := after ops9 (W9 V)
/-- The buffers after stretch `ops10`. -/
abbrev W11 (V : Valuation τ sig (Elt F)) : Valuation τ sig (Elt F) := after ops10 (W10 V)
/-- The buffers after stretch `ops11`. -/
abbrev W12 (V : Valuation τ sig (Elt F)) : Valuation τ sig (Elt F) := after ops11 (W11 V)
/-- The buffers after stretch `ops12`. -/
abbrev W13 (V : Valuation τ sig (Elt F)) : Valuation τ sig (Elt F) := after ops12 (W12 V)
/-- The buffers after stretch `ops13`. -/
abbrev W14 (V : Valuation τ sig (Elt F)) : Valuation τ sig (Elt F) := after ops13 (W13 V)
/-- The buffers after stretch `ops14`. -/
abbrev W15 (V : Valuation τ sig (Elt F)) : Valuation τ sig (Elt F) := after ops14 (W14 V)
/-- The buffers after stretch `ops15`. -/
abbrev W16 (V : Valuation τ sig (Elt F)) : Valuation τ sig (Elt F) := after ops15 (W15 V)
/-- The buffers after stretch `ops16`. -/
abbrev W17 (V : Valuation τ sig (Elt F)) : Valuation τ sig (Elt F) := after ops16 (W16 V)
/-- The buffers after stretch `ops17`. -/
abbrev W18 (V : Valuation τ sig (Elt F)) : Valuation τ sig (Elt F) := after ops17 (W17 V)

/-- The buffers at the end are the buffers after the last stretch. -/
theorem after_opsW (V : Valuation τ sig (Elt F)) : after ops V = W18 V := after_ops V

/-! ## Each buffer as a function of the buffers it is computed from

For a buffer `r` written in stretch `k`: `opsk_r` reads the stretch at `r` from any earlier contents `W`, and `A_r`
states the same equation between the FINAL contents (every buffer is written once, so what a stretch reads is what is
there at the end). -/

set_option maxRecDepth 8192

theorem A_arg0 (V : Valuation τ sig (Elt F)) : after ops V (main_arg0 : DevRef τ sig) = V (main_arg0 : DevRef τ sig) := ops_keeps_arg0 V
theorem A_arg1 (V : Valuation τ sig (Elt F)) : after ops V (main_arg1 : DevRef τ sig) = V (main_arg1 : DevRef τ sig) := ops_keeps_arg1 V
theorem A_arg2 (V : Valuation τ sig (Elt F)) : after ops V (main_arg2 : DevRef τ sig) = V (main_arg2 : DevRef τ sig) := ops_keeps_arg2 V

theorem ops0_v3 (W : Valuation τ sig (Elt F)) :
    after ops0 W (main_v3 : DevRef τ sig) = muP (W (main_arg2 : DevRef τ sig)) := by
  after_results; try rfl
theorem A_v3 (V : Valuation τ sig (Elt F)) :
    after ops V (main_v3 : DevRef τ sig) = muP (after ops V (main_arg2 : DevRef τ sig)) := by
  have h1 : W18 V (main_v3 : DevRef τ sig) = W1 V (main_v3 : DevRef τ sig) :=
    (after_of_writes_sub (r := main_v3) ops17 (W17 V) ops17_writes (by decide)).trans ((after_of_writes_sub (r := main_v3) ops16 (W16 V) ops16_writes (by decide)).trans ((after_of_writes_sub (r := main_v3) ops15 (W15 V) ops15_writes (by decide)).trans ((after_of_writes_sub (r := main_v3) ops14 (W14 V) ops14_writes (by decide)).trans ((after_of_writes_sub (r := main_v3) ops13 (W13 V) ops13_writes (by decide)).trans ((after_of_writes_sub (r := main_v3) ops12 (W12 V) ops12_writes (by decide)).trans ((after_of_writes_sub (r := main_v3) ops11 (W11 V) ops11_writes (by decide)).trans ((after_of_writes_sub (r := main_v3) ops10 (W10 V) ops10_writes (by decide)).trans ((after_of_writes_sub (r := main_v3) ops9 (W9 V) ops9_writes (by decide)).trans ((after_of_writes_sub (r := main_v3) ops8 (W8 V) ops8_writes (by decide)).trans ((after_of_writes_sub (r := main_v3) ops7 (W7 V) ops7_writes (by decide)).trans ((after_of_writes_sub (r := main_v3) ops6 (W6 V) ops6_writes (by decide)).trans ((after_of_writes_sub (r := main_v3) ops5 (W5 V) ops5_writes (by decide)).trans ((after_of_writes_sub (r := main_v3) ops4 (W4 V) ops4_writes (by decide)).trans ((after_of_writes_sub (r := main_v3) ops3 (W3 V) ops3_writes (by decide)).trans ((after_of_writes_sub (r := main_v3) ops2 (W2 V) ops2_writes (by decide)).trans ((after_of_writes_sub (r := main_v3) ops1 (W1 V) ops1_writes (by decide))))))))))))))))))
  have ha0 : W18 V (main_arg2 : DevRef τ sig) = W0 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)).trans ((after_of_writes_sub (r := main_arg2) ops3 (W3 V) ops3_writes (by decide)).trans ((after_of_writes_sub (r := main_arg2) ops2 (W2 V) ops2_writes (by decide)).trans ((after_of_writes_sub (r := main_arg2) ops1 (W1 V) ops1_writes (by decide)).trans ((after_of_writes_sub (r := main_arg2) ops0 (W0 V) ops0_writes (by decide)))))))))))))))))))
  rw [after_opsW, h1, ha0]
  exact ops0_v3 (W0 V)

theorem ops0_c (W : Valuation τ sig (Elt F)) :
    after ops0 W (main_c : DevRef τ sig) = constantI S_ 32 1#32 := by
  after_results; try rfl
theorem A_c (V : Valuation τ sig (Elt F)) :
    after ops V (main_c : DevRef τ sig) = constantI S_ 32 1#32 := by
  have h1 : W18 V (main_c : DevRef τ sig) = W1 V (main_c : DevRef τ sig) :=
    (after_of_writes_sub (r := main_c) ops17 (W17 V) ops17_writes (by decide)).trans ((after_of_writes_sub (r := main_c) ops16 (W16 V) ops16_writes (by decide)).trans ((after_of_writes_sub (r := main_c) ops15 (W15 V) ops15_writes (by decide)).trans ((after_of_writes_sub (r := main_c) ops14 (W14 V) ops14_writes (by decide)).trans ((after_of_writes_sub (r := main_c) ops13 (W13 V) ops13_writes (by decide)).trans ((after_of_writes_sub (r := main_c) ops12 (W12 V) ops12_writes (by decide)).trans ((after_of_writes_sub (r := main_c) ops11 (W11 V) ops11_writes (by decide)).trans ((after_of_writes_sub (r := main_c) ops10 (W10 V) ops10_writes (by decide)).trans ((after_of_writes_sub (r := main_c) ops9 (W9 V) ops9_writes (by decide)).trans ((after_of_writes_sub (r := main_c) ops8 (W8 V) ops8_writes (by decide)).trans ((after_of_writes_sub (r := main_c) ops7 (W7 V) ops7_writes (by decide)).trans ((after_of_writes_sub (r := main_c) ops6 (W6 V) ops6_writes (by decide)).trans ((after_of_writes_sub (r := main_c) ops5 (W5 V) ops5_writes (by decide)).trans ((after_of_writes_sub (r := main_c) ops4 (W4 V) ops4_writes (by decide)).trans ((after_of_writes_sub (r := main_c) ops3 (W3 V) ops3_writes (by decide)).trans ((after_of_writes_sub (r := main_c) ops2 (W2 V) ops2_writes (by decide)).trans ((after_of_writes_sub (r := main_c) ops1 (W1 V) ops1_writes (by decide))))))))))))))))))
  rw [after_opsW, h1]
  exact ops0_c (W0 V)

theorem ops1_v4 (W : Valuation τ sig (Elt F)) :
    after ops1 W (main_v4 : DevRef τ sig) = Host.sqrt (varP (W (main_arg2 : DevRef τ sig)) (W (main_c : DevRef τ sig))) := by
  after_results; try rfl
theorem A_v4 (V : Valuation τ sig (Elt F)) :
    after ops V (main_v4 : DevRef τ sig) = Host.sqrt (varP (after ops V (main_arg2 : DevRef τ sig)) (after ops V (main_c : DevRef τ sig))) := by
  have h1 : W18 V (main_v4 : DevRef τ sig) = W2 V (main_v4 : DevRef τ sig) :=
    (after_of_writes_sub (r := main_v4) ops17 (W17 V) ops17_writes (by decide)).trans ((after_of_writes_sub (r := main_v4) ops16 (W16 V) ops16_writes (by decide)).trans ((after_of_writes_sub (r := main_v4) ops15 (W15 V) ops15_writes (by decide)).trans ((after_of_writes_sub (r := main_v4) ops14 (W14 V) ops14_writes (by decide)).trans ((after_of_writes_sub (r := main_v4) ops13 (W13 V) ops13_writes (by decide)).trans ((after_of_writes_sub (r := main_v4) ops12 (W12 V) ops12_writes (by decide)).trans ((after_of_writes_sub (r := main_v4) ops11 (W11 V) ops11_writes (by decide)).trans ((after_of_writes_sub (r := main_v4) ops10 (W10 V) ops10_writes (by decide)).trans ((after_of_writes_sub (r := main_v4) ops9 (W9 V) ops9_writes (by decide)).trans ((after_of_writes_sub (r := main_v4) ops8 (W8 V) ops8_writes (by decide)).trans ((after_of_writes_sub (r := main_v4) ops7 (W7 V) ops7_writes (by decide)).trans ((after_of_writes_sub (r := main_v4) ops6 (W6 V) ops6_writes (by decide)).trans ((after_of_writes_sub (r := main_v4) ops5 (W5 V) ops5_writes (by decide)).trans ((after_of_writes_sub (r := main_v4) ops4 (W4 V) ops4_writes (by decide)).trans ((after_of_writes_sub (r := main_v4) ops3 (W3 V) ops3_writes (by decide)).trans ((after_of_writes_sub (r := main_v4) ops2 (W2 V) ops2_writes (by decide)))))))))))))))))
  have ha0 : W18 V (main_arg2 : DevRef τ sig) = W1 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)).trans ((after_of_writes_sub (r := main_arg2) ops3 (W3 V) ops3_writes (by decide)).trans ((after_of_writes_sub (r := main_arg2) ops2 (W2 V) ops2_writes (by decide)).trans ((after_of_writes_sub (r := main_arg2) ops1 (W1 V) ops1_writes (by decide))))))))))))))))))
  have ha1 : W18 V (main_c : DevRef τ sig) = W1 V (main_c : DevRef τ sig) :=
    (after_of_writes_sub (r := main_c) ops17 (W17 V) ops17_writes (by decide)).trans ((after_of_writes_sub (r := main_c) ops16 (W16 V) ops16_writes (by decide)).trans ((after_of_writes_sub (r := main_c) ops15 (W15 V) ops15_writes (by decide)).trans ((after_of_writes_sub (r := main_c) ops14 (W14 V) ops14_writes (by decide)).trans ((after_of_writes_sub (r := main_c) ops13 (W13 V) ops13_writes (by decide)).trans ((after_of_writes_sub (r := main_c) ops12 (W12 V) ops12_writes (by decide)).trans ((after_of_writes_sub (r := main_c) ops11 (W11 V) ops11_writes (by decide)).trans ((after_of_writes_sub (r := main_c) ops10 (W10 V) ops10_writes (by decide)).trans ((after_of_writes_sub (r := main_c) ops9 (W9 V) ops9_writes (by decide)).trans ((after_of_writes_sub (r := main_c) ops8 (W8 V) ops8_writes (by decide)).trans ((after_of_writes_sub (r := main_c) ops7 (W7 V) ops7_writes (by decide)).trans ((after_of_writes_sub (r := main_c) ops6 (W6 V) ops6_writes (by decide)).trans ((after_of_writes_sub (r := main_c) ops5 (W5 V) ops5_writes (by decide)).trans ((after_of_writes_sub (r := main_c) ops4 (W4 V) ops4_writes (by decide)).trans ((after_of_writes_sub (r := main_c) ops3 (W3 V) ops3_writes (by decide)).trans ((after_of_writes_sub (r := main_c) ops2 (W2 V) ops2_writes (by decide)).trans ((after_of_writes_sub (r := main_c) ops1 (W1 V) ops1_writes (by decide))))))))))))))))))
  rw [after_opsW, h1, ha0, ha1]
  exact ops1_v4 (W1 V)

theorem ops2_v6 (W : Valuation τ sig (Elt F)) :
    after ops2 W (main_v6 : DevRef τ sig) = addf (W (main_v4 : DevRef τ sig)) epsRow := by
  after_results; try rfl
theorem A_v6 (V : Valuation τ sig (Elt F)) :
    after ops V (main_v6 : DevRef τ sig) = addf (after ops V (main_v4 : DevRef τ sig)) epsRow := by
  have h1 : W18 V (main_v6 : DevRef τ sig) = W3 V (main_v6 : DevRef τ sig) :=
    (after_of_writes_sub (r := main_v6) ops17 (W17 V) ops17_writes (by decide)).trans ((after_of_writes_sub (r := main_v6) ops16 (W16 V) ops16_writes (by decide)).trans ((after_of_writes_sub (r := main_v6) ops15 (W15 V) ops15_writes (by decide)).trans ((after_of_writes_sub (r := main_v6) ops14 (W14 V) ops14_writes (by decide)).trans ((after_of_writes_sub (r := main_v6) ops13 (W13 V) ops13_writes (by decide)).trans ((after_of_writes_sub (r := main_v6) ops12 (W12 V) ops12_writes (by decide)).trans ((after_of_writes_sub (r := main_v6) ops11 (W11 V) ops11_writes (by decide)).trans ((after_of_writes_sub (r := main_v6) ops10 (W10 V) ops10_writes (by decide)).trans ((after_of_writes_sub (r := main_v6) ops9 (W9 V) ops9_writes (by decide)).trans ((after_of_writes_sub (r := main_v6) ops8 (W8 V) ops8_writes (by decide)).trans ((after_of_writes_sub (r := main_v6) ops7 (W7 V) ops7_writes (by decide)).trans ((after_of_writes_sub (r := main_v6) ops6 (W6 V) ops6_writes (by decide)).trans ((after_of_writes_sub (r := main_v6) ops5 (W5 V) ops5_writes (by decide)).trans ((after_of_writes_sub (r := main_v6) ops4 (W4 V) ops4_writes (by decide)).trans ((after_of_writes_sub (r := main_v6) ops3 (W3 V) ops3_writes (by decide))))))))))))))))
  have ha0 : W18 V (main_v4 : DevRef τ sig) = W2 V (main_v4 : DevRef τ sig) :=
    (after_of_writes_sub (r := main_v4) ops17 (W17 V) ops17_writes (by decide)).trans ((after_of_writes_sub (r := main_v4) ops16 (W16 V) ops16_writes (by decide)).trans ((after_of_writes_sub (r := main_v4) ops15 (W15 V) ops15_writes (by decide)).trans ((after_of_writes_sub (r := main_v4) ops14 (W14 V) ops14_writes (by decide)).trans ((after_of_writes_sub (r := main_v4) ops13 (W13 V) ops13_writes (by decide)).trans ((after_of_writes_sub (r := main_v4) ops12 (W12 V) ops12_writes (by decide)).trans ((after_of_writes_sub (r := main_v4) ops11 (W11 V) ops11_writes (by decide)).trans ((after_of_writes_sub (r := main_v4) ops10 (W10 V) ops10_writes (by decide)).trans ((after_of_writes_sub (r := main_v4) ops9 (W9 V) ops9_writes (by decide)).trans ((after_of_writes_sub (r := main_v4) ops8 (W8 V) ops8_writes (by decide)).trans ((after_of_writes_sub (r := main_v4) ops7 (W7 V) ops7_writes (by decide)).trans ((after_of_writes_sub (r := main_v4) ops6 (W6 V) ops6_writes (by decide)).trans ((after_of_writes_sub (r := main_v4) ops5 (W5 V) ops5_writes (by decide)).trans ((after_of_writes_sub (r := main_v4) ops4 (W4 V) ops4_writes (by decide)).trans ((after_of_writes_sub (r := main_v4) ops3 (W3 V) ops3_writes (by decide)).trans ((after_of_writes_sub (r := main_v4) ops2 (W2 V) ops2_writes (by decide)))))))))))))))))
  rw [after_opsW, h1, ha0]
  exact ops2_v6 (W2 V)

theorem ops2_v10 (W : Valuation τ sig (Elt F)) :
    after ops2 W (main_v10 : DevRef τ sig) = muO (W (main_arg0 : DevRef τ sig)) := by
  after_results; try rfl
theorem A_v10 (V : Valuation τ sig (Elt F)) :
    after ops V (main_v10 : DevRef τ sig) = muO (after ops V (main_arg0 : DevRef τ sig)) := by
  have h1 : W18 V (main_v10 : DevRef τ sig) = W3 V (main_v10 : DevRef τ sig) :=
    (after_of_writes_sub (r := main_v10) ops17 (W17 V) ops17_writes (by decide)).trans ((after_of_writes_sub (r := main_v10) ops16 (W16 V) ops16_writes (by decide)).trans ((after_of_writes_sub (r := main_v10) ops15 (W15 V) ops15_writes (by decide)).trans ((after_of_writes_sub (r := main_v10) ops14 (W14 V) ops14_writes (by decide)).trans ((after_of_writes_sub (r := main_v10) ops13 (W13 V) ops13_writes (by decide)).trans ((after_of_writes_sub (r := main_v10) ops12 (W12 V) ops12_writes (by decide)).trans ((after_of_writes_sub (r := main_v10) ops11 (W11 V) ops11_writes (by decide)).trans ((after_of_writes_sub (r := main_v10) ops10 (W10 V) ops10_writes (by decide)).trans ((after_of_writes_sub (r := main_v10) ops9 (W9 V) ops9_writes (by decide)).trans ((after_of_writes_sub (r := main_v10) ops8 (W8 V) ops8_writes (by decide)).trans ((after_of_writes_sub (r := main_v10) ops7 (W7 V) ops7_writes (by decide)).trans ((after_of_writes_sub (r := main_v10) ops6 (W6 V) ops6_writes (by decide)).trans ((after_of_writes_sub (r := main_v10) ops5 (W5 V) ops5_writes (by decide)).trans ((after_of_writes_sub (r := main_v10) ops4 (W4 V) ops4_writes (by decide)).trans ((after_of_writes_sub (r := main_v10) ops3 (W3 V) ops3_writes (by decide))))))))))))))))
  have ha0 : W18 V (main_arg0 : DevRef τ sig) = W2 V (main_arg0 : DevRef τ sig) :=
    (after_of_writes_sub (r := main_arg0) ops17 (W17 V) ops17_writes (by decide)).trans ((after_of_writes_sub (r := main_arg0) ops16 (W16 V) ops16_writes (by decide)).trans ((after_of_writes_sub (r := main_arg0) ops15 (W15 V) ops15_writes (by decide)).trans ((after_of_writes_sub (r := main_arg0) ops14 (W14 V) ops14_writes (by decide)).trans ((after_of_writes_sub (r := main_arg0) ops13 (W13 V) ops13_writes (by decide)).trans ((after_of_writes_sub (r := main_arg0) ops12 (W12 V) ops12_writes (by decide)).trans ((after_of_writes_sub (r := main_arg0) ops11 (W11 V) ops11_writes (by decide)).trans ((after_of_writes_sub (r := main_arg0) ops10 (W10 V) ops10_writes (by decide)).trans ((after_of_writes_sub (r := main_arg0) ops9 (W9 V) ops9_writes (by decide)).trans ((after_of_writes_sub (r := main_arg0) ops8 (W8 V) ops8_writes (by decide)).trans ((after_of_writes_sub (r := main_arg0) ops7 (W7 V) ops7_writes (by decide)).trans ((after_of_writes_sub (r := main_arg0) ops6 (W6 V) ops6_writes (by decide)).trans ((after_of_writes_sub (r := main_arg0) ops5 (W5 V) ops5_writes (by decide)).trans ((after_of_writes_sub (r := main_arg0) ops4 (W4 V) ops4_writes (by decide)).trans ((after_of_writes_sub (r := main_arg0) ops3 (W3 V) ops3_writes (by decide)).trans ((after_of_writes_sub (r := main_arg0) ops2 (W2 V) ops2_writes (by decide)))))))))))))))))
  rw [after_opsW, h1, ha0]
  exact ops2_v10 (W2 V)

theorem ops2_c_4 (W : Valuation τ sig (Elt F)) :
    after ops2 W (main_c_4 : DevRef τ sig) = constantI S_ 32 1#32 := by
  after_results; try rfl
theorem A_c_4 (V : Valuation τ sig (Elt F)) :
    after ops V (main_c_4 : DevRef τ sig) = constantI S_ 32 1#32 := by
  have h1 : W18 V (main_c_4 : DevRef τ sig) = W3 V (main_c_4 : DevRef τ sig) :=
    (after_of_writes_sub (r := main_c_4) ops17 (W17 V) ops17_writes (by decide)).trans ((after_of_writes_sub (r := main_c_4) ops16 (W16 V) ops16_writes (by decide)).trans ((after_of_writes_sub (r := main_c_4) ops15 (W15 V) ops15_writes (by decide)).trans ((after_of_writes_sub (r := main_c_4) ops14 (W14 V) ops14_writes (by decide)).trans ((after_of_writes_sub (r := main_c_4) ops13 (W13 V) ops13_writes (by decide)).trans ((after_of_writes_sub (r := main_c_4) ops12 (W12 V) ops12_writes (by decide)).trans ((after_of_writes_sub (r := main_c_4) ops11 (W11 V) ops11_writes (by decide)).trans ((after_of_writes_sub (r := main_c_4) ops10 (W10 V) ops10_writes (by decide)).trans ((after_of_writes_sub (r := main_c_4) ops9 (W9 V) ops9_writes (by decide)).trans ((after_of_writes_sub (r := main_c_4) ops8 (W8 V) ops8_writes (by decide)).trans ((after_of_writes_sub (r := main_c_4) ops7 (W7 V) ops7_writes (by decide)).trans ((after_of_writes_sub (r := main_c_4) ops6 (W6 V) ops6_writes (by decide)).trans ((after_of_writes_sub (r := main_c_4) ops5 (W5 V) ops5_writes (by decide)).trans ((after_of_writes_sub (r := main_c_4) ops4 (W4 V) ops4_writes (by decide)).trans ((after_of_writes_sub (r := main_c_4) ops3 (W3 V) ops3_writes (by decide))))))))))))))))
  rw [after_opsW, h1]
  exact ops2_c_4 (W2 V)

theorem ops3_v11 (W : Valuation τ sig (Elt F)) :
    after ops3 W (main_v11 : DevRef τ sig) = Host.sqrt (varO (W (main_arg0 : DevRef τ sig)) (W (main_c_4 : DevRef τ sig))) := by
  after_results; try rfl
theorem A_v11 (V : Valuation τ sig (Elt F)) :
    after ops V (main_v11 : DevRef τ sig) = Host.sqrt (varO (after ops V (main_arg0 : DevRef τ sig)) (after ops V (main_c_4 : DevRef τ sig))) := by
  have h1 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  have ha0 : W18 V (main_arg0 : DevRef τ sig) = W3 V (main_arg0 : DevRef τ sig) :=
    (after_of_writes_sub (r := main_arg0) ops17 (W17 V) ops17_writes (by decide)).trans ((after_of_writes_sub (r := main_arg0) ops16 (W16 V) ops16_writes (by decide)).trans ((after_of_writes_sub (r := main_arg0) ops15 (W15 V) ops15_writes (by decide)).trans ((after_of_writes_sub (r := main_arg0) ops14 (W14 V) ops14_writes (by decide)).trans ((after_of_writes_sub (r := main_arg0) ops13 (W13 V) ops13_writes (by decide)).trans ((after_of_writes_sub (r := main_arg0) ops12 (W12 V) ops12_writes (by decide)).trans ((after_of_writes_sub (r := main_arg0) ops11 (W11 V) ops11_writes (by decide)).trans ((after_of_writes_sub (r := main_arg0) ops10 (W10 V) ops10_writes (by decide)).trans ((after_of_writes_sub (r := main_arg0) ops9 (W9 V) ops9_writes (by decide)).trans ((after_of_writes_sub (r := main_arg0) ops8 (W8 V) ops8_writes (by decide)).trans ((after_of_writes_sub (r := main_arg0) ops7 (W7 V) ops7_writes (by decide)).trans ((after_of_writes_sub (r := main_arg0) ops6 (W6 V) ops6_writes (by decide)).trans ((after_of_writes_sub (r := main_arg0) ops5 (W5 V) ops5_writes (by decide)).trans ((after_of_writes_sub (r := main_arg0) ops4 (W4 V) ops4_writes (by decide)).trans ((after_of_writes_sub (r := main_arg0) ops3 (W3 V) ops3_writes (by decide))))))))))))))))
  have ha1 : W18 V (main_c_4 : DevRef τ sig) = W3 V (main_c_4 : DevRef τ sig) :=
    (after_of_writes_sub (r := main_c_4) ops17 (W17 V) ops17_writes (by decide)).trans ((after_of_writes_sub (r := main_c_4) ops16 (W16 V) ops16_writes (by decide)).trans ((after_of_writes_sub (r := main_c_4) ops15 (W15 V) ops15_writes (by decide)).trans ((after_of_writes_sub (r := main_c_4) ops14 (W14 V) ops14_writes (by decide)).trans ((after_of_writes_sub (r := main_c_4) ops13 (W13 V) ops13_writes (by decide)).trans ((after_of_writes_sub (r := main_c_4) ops12 (W12 V) ops12_writes (by decide)).trans ((after_of_writes_sub (r := main_c_4) ops11 (W11 V) ops11_writes (by decide)).trans ((after_of_writes_sub (r := main_c_4) ops10 (W10 V) ops10_writes (by decide)).trans ((after_of_writes_sub (r := main_c_4) ops9 (W9 V) ops9_writes (by decide)).trans ((after_of_writes_sub (r := main_c_4) ops8 (W8 V) ops8_writes (by decide)).trans ((after_of_writes_sub (r := main_c_4) ops7 (W7 V) ops7_writes (by decide)).trans ((after_of_writes_sub (r := main_c_4) ops6 (W6 V) ops6_writes (by decide)).trans ((after_of_writes_sub (r := main_c_4) ops5 (W5 V) ops5_writes (by decide)).trans ((after_of_writes_sub (r := main_c_4) ops4 (W4 V) ops4_writes (by decide)).trans ((after_of_writes_sub (r := main_c_4) ops3 (W3 V) ops3_writes (by decide))))))))))))))))
  rw [after_opsW, h1, ha0, ha1]
  exact ops3_v11 (W3 V)

theorem ops4_v13 (W : Valuation τ sig (Elt F)) :
    after ops4 W (main_v13 : DevRef τ sig) = addf (W (main_v11 : DevRef τ sig)) epsRow := by
  after_results_simp; try rfl
theorem A_v13 (V : Valuation τ sig (Elt F)) :
    after ops V (main_v13 : DevRef τ sig) = addf (after ops V (main_v11 : DevRef τ sig)) epsRow := by
  have h1 : W18 V (main_v13 : DevRef τ sig) = W5 V (main_v13 : DevRef τ sig) :=
    (after_of_writes_sub (r := main_v13) ops17 (W17 V) ops17_writes (by decide)).trans ((after_of_writes_sub (r := main_v13) ops16 (W16 V) ops16_writes (by decide)).trans ((after_of_writes_sub (r := main_v13) ops15 (W15 V) ops15_writes (by decide)).trans ((after_of_writes_sub (r := main_v13) ops14 (W14 V) ops14_writes (by decide)).trans ((after_of_writes_sub (r := main_v13) ops13 (W13 V) ops13_writes (by decide)).trans ((after_of_writes_sub (r := main_v13) ops12 (W12 V) ops12_writes (by decide)).trans ((after_of_writes_sub (r := main_v13) ops11 (W11 V) ops11_writes (by decide)).trans ((after_of_writes_sub (r := main_v13) ops10 (W10 V) ops10_writes (by decide)).trans ((after_of_writes_sub (r := main_v13) ops9 (W9 V) ops9_writes (by decide)).trans ((after_of_writes_sub (r := main_v13) ops8 (W8 V) ops8_writes (by decide)).trans ((after_of_writes_sub (r := main_v13) ops7 (W7 V) ops7_writes (by decide)).trans ((after_of_writes_sub (r := main_v13) ops6 (W6 V) ops6_writes (by decide)).trans ((after_of_writes_sub (r := main_v13) ops5 (W5 V) ops5_writes (by decide))))))))))))))
  have ha0 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  rw [after_opsW, h1, ha0]
  exact ops4_v13 (W4 V)

theorem ops4_v21 (W : Valuation τ sig (Elt F)) :
    after ops4 W (main_v21 : DevRef τ sig) = (PPof (W (main_arg2 : DevRef τ sig)) (W (main_v3 : DevRef τ sig)) (W (main_v6 : DevRef τ sig)) (W (main_v10 : DevRef τ sig)) (addf (W (main_v11 : DevRef τ sig)) epsRow)) := by
  after_results_simp; try rfl
theorem A_v21 (V : Valuation τ sig (Elt F)) :
    after ops V (main_v21 : DevRef τ sig) = (PPof (after ops V (main_arg2 : DevRef τ sig)) (after ops V (main_v3 : DevRef τ sig)) (after ops V (main_v6 : DevRef τ sig)) (after ops V (main_v10 : DevRef τ sig)) (addf (after ops V (main_v11 : DevRef τ sig)) epsRow)) := by
  have h1 : W18 V (main_v21 : DevRef τ sig) = W5 V (main_v21 : DevRef τ sig) :=
    (after_of_writes_sub (r := main_v21) ops17 (W17 V) ops17_writes (by decide)).trans ((after_of_writes_sub (r := main_v21) ops16 (W16 V) ops16_writes (by decide)).trans ((after_of_writes_sub (r := main_v21) ops15 (W15 V) ops15_writes (by decide)).trans ((after_of_writes_sub (r := main_v21) ops14 (W14 V) ops14_writes (by decide)).trans ((after_of_writes_sub (r := main_v21) ops13 (W13 V) ops13_writes (by decide)).trans ((after_of_writes_sub (r := main_v21) ops12 (W12 V) ops12_writes (by decide)).trans ((after_of_writes_sub (r := main_v21) ops11 (W11 V) ops11_writes (by decide)).trans ((after_of_writes_sub (r := main_v21) ops10 (W10 V) ops10_writes (by decide)).trans ((after_of_writes_sub (r := main_v21) ops9 (W9 V) ops9_writes (by decide)).trans ((after_of_writes_sub (r := main_v21) ops8 (W8 V) ops8_writes (by decide)).trans ((after_of_writes_sub (r := main_v21) ops7 (W7 V) ops7_writes (by decide)).trans ((after_of_writes_sub (r := main_v21) ops6 (W6 V) ops6_writes (by decide)).trans ((after_of_writes_sub (r := main_v21) ops5 (W5 V) ops5_writes (by decide))))))))))))))
  have ha0 : W18 V (main_arg2 : DevRef τ sig) = W4 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)))))))))))))))
  have ha1 : W18 V (main_v3 : DevRef τ sig) = W4 V (main_v3 : DevRef τ sig) :=
    (after_of_writes_sub (r := main_v3) ops17 (W17 V) ops17_writes (by decide)).trans ((after_of_writes_sub (r := main_v3) ops16 (W16 V) ops16_writes (by decide)).trans ((after_of_writes_sub (r := main_v3) ops15 (W15 V) ops15_writes (by decide)).trans ((after_of_writes_sub (r := main_v3) ops14 (W14 V) ops14_writes (by decide)).trans ((after_of_writes_sub (r := main_v3) ops13 (W13 V) ops13_writes (by decide)).trans ((after_of_writes_sub (r := main_v3) ops12 (W12 V) ops12_writes (by decide)).trans ((after_of_writes_sub (r := main_v3) ops11 (W11 V) ops11_writes (by decide)).trans ((after_of_writes_sub (r := main_v3) ops10 (W10 V) ops10_writes (by decide)).trans ((after_of_writes_sub (r := main_v3) ops9 (W9 V) ops9_writes (by decide)).trans ((after_of_writes_sub (r := main_v3) ops8 (W8 V) ops8_writes (by decide)).trans ((after_of_writes_sub (r := main_v3) ops7 (W7 V) ops7_writes (by decide)).trans ((after_of_writes_sub (r := main_v3) ops6 (W6 V) ops6_writes (by decide)).trans ((after_of_writes_sub (r := main_v3) ops5 (W5 V) ops5_writes (by decide)).trans ((after_of_writes_sub (r := main_v3) ops4 (W4 V) ops4_writes (by decide)))))))))))))))
  have ha2 : W18 V (main_v6 : DevRef τ sig) = W4 V (main_v6 : DevRef τ sig) :=
    (after_of_writes_sub (r := main_v6) ops17 (W17 V) ops17_writes (by decide)).trans ((after_of_writes_sub (r := main_v6) ops16 (W16 V) ops16_writes (by decide)).trans ((after_of_writes_sub (r := main_v6) ops15 (W15 V) ops15_writes (by decide)).trans ((after_of_writes_sub (r := main_v6) ops14 (W14 V) ops14_writes (by decide)).trans ((after_of_writes_sub (r := main_v6) ops13 (W13 V) ops13_writes (by decide)).trans ((after_of_writes_sub (r := main_v6) ops12 (W12 V) ops12_writes (by decide)).trans ((after_of_writes_sub (r := main_v6) ops11 (W11 V) ops11_writes (by decide)).trans ((after_of_writes_sub (r := main_v6) ops10 (W10 V) ops10_writes (by decide)).trans ((after_of_writes_sub (r := main_v6) ops9 (W9 V) ops9_writes (by decide)).trans ((after_of_writes_sub (r := main_v6) ops8 (W8 V) ops8_writes (by decide)).trans ((after_of_writes_sub (r := main_v6) ops7 (W7 V) ops7_writes (by decide)).trans ((after_of_writes_sub (r := main_v6) ops6 (W6 V) ops6_writes (by decide)).trans ((after_of_writes_sub (r := main_v6) ops5 (W5 V) ops5_writes (by decide)).trans ((after_of_writes_sub (r := main_v6) ops4 (W4 V) ops4_writes (by decide)))))))))))))))
  have ha3 : W18 V (main_v10 : DevRef τ sig) = W4 V (main_v10 : DevRef τ sig) :=
    (after_of_writes_sub (r := main_v10) ops17 (W17 V) ops17_writes (by decide)).trans ((after_of_writes_sub (r := main_v10) ops16 (W16 V) ops16_writes (by decide)).trans ((after_of_writes_sub (r := main_v10) ops15 (W15 V) ops15_writes (by decide)).trans ((after_of_writes_sub (r := main_v10) ops14 (W14 V) ops14_writes (by decide)).trans ((after_of_writes_sub (r := main_v10) ops13 (W13 V) ops13_writes (by decide)).trans ((after_of_writes_sub (r := main_v10) ops12 (W12 V) ops12_writes (by decide)).trans ((after_of_writes_sub (r := main_v10) ops11 (W11 V) ops11_writes (by decide)).trans ((after_of_writes_sub (r := main_v10) ops10 (W10 V) ops10_writes (by decide)).trans ((after_of_writes_sub (r := main_v10) ops9 (W9 V) ops9_writes (by decide)).trans ((after_of_writes_sub (r := main_v10) ops8 (W8 V) ops8_writes (by decide)).trans ((after_of_writes_sub (r := main_v10) ops7 (W7 V) ops7_writes (by decide)).trans ((after_of_writes_sub (r := main_v10) ops6 (W6 V) ops6_writes (by decide)).trans ((after_of_writes_sub (r := main_v10) ops5 (W5 V) ops5_writes (by decide)).trans ((after_of_writes_sub (r := main_v10) ops4 (W4 V) ops4_writes (by decide)))))))))))))))
  have ha4 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  rw [after_opsW, h1, ha0, ha1, ha2, ha3, ha4]
  exact ops4_v21 (W4 V)

theorem ops4_v22 (W : Valuation τ sig (Elt F)) :
    after ops4 W (main_v22 : DevRef τ sig) = concatenate S200010x256 0 [⟨S200000x256, (W (main_arg0 : DevRef τ sig))⟩, ⟨S10x256, (PPof (W (main_arg2 : DevRef τ sig)) (W (main_v3 : DevRef τ sig)) (W (main_v6 : DevRef τ sig)) (W (main_v10 : DevRef τ sig)) (addf (W (main_v11 : DevRef τ sig)) epsRow))⟩] concatenates_S200000x256_S10x256_S200010x256_d0 := by
  after_results_simp; try rfl
theorem A_v22 (V : Valuation τ sig (Elt F)) :
    after ops V (main_v22 : DevRef τ sig) = concatenate S200010x256 0 [⟨S200000x256, (after ops V (main_arg0 : DevRef τ sig))⟩, ⟨S10x256, (PPof (after ops V (main_arg2 : DevRef τ sig)) (after ops V (main_v3 : DevRef τ sig)) (after ops V (main_v6 : DevRef τ sig)) (after ops V (main_v10 : DevRef τ sig)) (addf (after ops V (main_v11 : DevRef τ sig)) epsRow))⟩] concatenates_S200000x256_S10x256_S200010x256_d0 := by
  have h1 : W18 V (main_v22 : DevRef τ sig) = W5 V (main_v22 : DevRef τ sig) :=
    (after_of_writes_sub (r := main_v22) ops17 (W17 V) ops17_writes (by decide)).trans ((after_of_writes_sub (r := main_v22) ops16 (W16 V) ops16_writes (by decide)).trans ((after_of_writes_sub (r := main_v22) ops15 (W15 V) ops15_writes (by decide)).trans ((after_of_writes_sub (r := main_v22) ops14 (W14 V) ops14_writes (by decide)).trans ((after_of_writes_sub (r := main_v22) ops13 (W13 V) ops13_writes (by decide)).trans ((after_of_writes_sub (r := main_v22) ops12 (W12 V) ops12_writes (by decide)).trans ((after_of_writes_sub (r := main_v22) ops11 (W11 V) ops11_writes (by decide)).trans ((after_of_writes_sub (r := main_v22) ops10 (W10 V) ops10_writes (by decide)).trans ((after_of_writes_sub (r := main_v22) ops9 (W9 V) ops9_writes (by decide)).trans ((after_of_writes_sub (r := main_v22) ops8 (W8 V) ops8_writes (by decide)).trans ((after_of_writes_sub (r := main_v22) ops7 (W7 V) ops7_writes (by decide)).trans ((after_of_writes_sub (r := main_v22) ops6 (W6 V) ops6_writes (by decide)).trans ((after_of_writes_sub (r := main_v22) ops5 (W5 V) ops5_writes (by decide))))))))))))))
  have ha0 : W18 V (main_arg0 : DevRef τ sig) = W4 V (main_arg0 : DevRef τ sig) :=
    (after_of_writes_sub (r := main_arg0) ops17 (W17 V) ops17_writes (by decide)).trans ((after_of_writes_sub (r := main_arg0) ops16 (W16 V) ops16_writes (by decide)).trans ((after_of_writes_sub (r := main_arg0) ops15 (W15 V) ops15_writes (by decide)).trans ((after_of_writes_sub (r := main_arg0) ops14 (W14 V) ops14_writes (by decide)).trans ((after_of_writes_sub (r := main_arg0) ops13 (W13 V) ops13_writes (by decide)).trans ((after_of_writes_sub (r := main_arg0) ops12 (W12 V) ops12_writes (by decide)).trans ((after_of_writes_sub (r := main_arg0) ops11 (W11 V) ops11_writes (by decide)).trans ((after_of_writes_sub (r := main_arg0) ops10 (W10 V) ops10_writes (by decide)).trans ((after_of_writes_sub (r := main_arg0) ops9 (W9 V) ops9_writes (by decide)).trans ((after_of_writes_sub (r := main_arg0) ops8 (W8 V) ops8_writes (by decide)).trans ((after_of_writes_sub (r := main_arg0) ops7 (W7 V) ops7_writes (by decide)).trans ((after_of_writes_sub (r := main_arg0) ops6 (W6 V) ops6_writes (by decide)).trans ((after_of_writes_sub (r := main_arg0) ops5 (W5 V) ops5_writes (by decide)).trans ((after_of_writes_sub (r := main_arg0) ops4 (W4 V) ops4_writes (by decide)))))))))))))))
  have ha1 : W18 V (main_arg2 : DevRef τ sig) = W4 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)))))))))))))))
  have ha2 : W18 V (main_v3 : DevRef τ sig) = W4 V (main_v3 : DevRef τ sig) :=
    (after_of_writes_sub (r := main_v3) ops17 (W17 V) ops17_writes (by decide)).trans ((after_of_writes_sub (r := main_v3) ops16 (W16 V) ops16_writes (by decide)).trans ((after_of_writes_sub (r := main_v3) ops15 (W15 V) ops15_writes (by decide)).trans ((after_of_writes_sub (r := main_v3) ops14 (W14 V) ops14_writes (by decide)).trans ((after_of_writes_sub (r := main_v3) ops13 (W13 V) ops13_writes (by decide)).trans ((after_of_writes_sub (r := main_v3) ops12 (W12 V) ops12_writes (by decide)).trans ((after_of_writes_sub (r := main_v3) ops11 (W11 V) ops11_writes (by decide)).trans ((after_of_writes_sub (r := main_v3) ops10 (W10 V) ops10_writes (by decide)).trans ((after_of_writes_sub (r := main_v3) ops9 (W9 V) ops9_writes (by decide)).trans ((after_of_writes_sub (r := main_v3) ops8 (W8 V) ops8_writes (by decide)).trans ((after_of_writes_sub (r := main_v3) ops7 (W7 V) ops7_writes (by decide)).trans ((after_of_writes_sub (r := main_v3) ops6 (W6 V) ops6_writes (by decide)).trans ((after_of_writes_sub (r := main_v3) ops5 (W5 V) ops5_writes (by decide)).trans ((after_of_writes_sub (r := main_v3) ops4 (W4 V) ops4_writes (by decide)))))))))))))))
  have ha3 : W18 V (main_v6 : DevRef τ sig) = W4 V (main_v6 : DevRef τ sig) :=
    (after_of_writes_sub (r := main_v6) ops17 (W17 V) ops17_writes (by decide)).trans ((after_of_writes_sub (r := main_v6) ops16 (W16 V) ops16_writes (by decide)).trans ((after_of_writes_sub (r := main_v6) ops15 (W15 V) ops15_writes (by decide)).trans ((after_of_writes_sub (r := main_v6) ops14 (W14 V) ops14_writes (by decide)).trans ((after_of_writes_sub (r := main_v6) ops13 (W13 V) ops13_writes (by decide)).trans ((after_of_writes_sub (r := main_v6) ops12 (W12 V) ops12_writes (by decide)).trans ((after_of_writes_sub (r := main_v6) ops11 (W11 V) ops11_writes (by decide)).trans ((after_of_writes_sub (r := main_v6) ops10 (W10 V) ops10_writes (by decide)).trans ((after_of_writes_sub (r := main_v6) ops9 (W9 V) ops9_writes (by decide)).trans ((after_of_writes_sub (r := main_v6) ops8 (W8 V) ops8_writes (by decide)).trans ((after_of_writes_sub (r := main_v6) ops7 (W7 V) ops7_writes (by decide)).trans ((after_of_writes_sub (r := main_v6) ops6 (W6 V) ops6_writes (by decide)).trans ((after_of_writes_sub (r := main_v6) ops5 (W5 V) ops5_writes (by decide)).trans ((after_of_writes_sub (r := main_v6) ops4 (W4 V) ops4_writes (by decide)))))))))))))))
  have ha4 : W18 V (main_v10 : DevRef τ sig) = W4 V (main_v10 : DevRef τ sig) :=
    (after_of_writes_sub (r := main_v10) ops17 (W17 V) ops17_writes (by decide)).trans ((after_of_writes_sub (r := main_v10) ops16 (W16 V) ops16_writes (by decide)).trans ((after_of_writes_sub (r := main_v10) ops15 (W15 V) ops15_writes (by decide)).trans ((after_of_writes_sub (r := main_v10) ops14 (W14 V) ops14_writes (by decide)).trans ((after_of_writes_sub (r := main_v10) ops13 (W13 V) ops13_writes (by decide)).trans ((after_of_writes_sub (r := main_v10) ops12 (W12 V) ops12_writes (by decide)).trans ((after_of_writes_sub (r := main_v10) ops11 (W11 V) ops11_writes (by decide)).trans ((after_of_writes_sub (r := main_v10) ops10 (W10 V) ops10_writes (by decide)).trans ((after_of_writes_sub (r := main_v10) ops9 (W9 V) ops9_writes (by decide)).trans ((after_of_writes_sub (r := main_v10) ops8 (W8 V) ops8_writes (by decide)).trans ((after_of_writes_sub (r := main_v10) ops7 (W7 V) ops7_writes (by decide)).trans ((after_of_writes_sub (r := main_v10) ops6 (W6 V) ops6_writes (by decide)).trans ((after_of_writes_sub (r := main_v10) ops5 (W5 V) ops5_writes (by decide)).trans ((after_of_writes_sub (r := main_v10) ops4 (W4 V) ops4_writes (by decide)))))))))))))))
  have ha5 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  rw [after_opsW, h1, ha0, ha1, ha2, ha3, ha4, ha5]
  exact ops4_v22 (W4 V)

/-! ## The named arrays, read off the final buffers -/

theorem A_muP (V : Valuation τ sig (Elt F)) : after ops V (main_v3 : DevRef τ sig) = muP (V (main_arg2 : DevRef τ sig)) := by
  rw [A_v3, A_arg2]
theorem A_sigP (V : Valuation τ sig (Elt F)) : after ops V (main_v6 : DevRef τ sig) = sigP (V (main_arg2 : DevRef τ sig)) := by
  rw [A_v6, A_v4, A_c, A_arg2]; rfl
theorem A_muO (V : Valuation τ sig (Elt F)) : after ops V (main_v10 : DevRef τ sig) = muO (V (main_arg0 : DevRef τ sig)) := by
  rw [A_v10, A_arg0]
theorem A_sigO (V : Valuation τ sig (Elt F)) : after ops V (main_v13 : DevRef τ sig) = sigO (V (main_arg0 : DevRef τ sig)) := by
  rw [A_v13, A_v11, A_c_4, A_arg0]; rfl
theorem A_PP (V : Valuation τ sig (Elt F)) :
    after ops V (main_v21 : DevRef τ sig) = PP (V (main_arg0 : DevRef τ sig)) (V (main_arg2 : DevRef τ sig)) := by
  rw [A_v21, A_muP, A_sigP, A_muO, A_v11, A_c_4, A_arg0, A_arg2]; rfl
/-- The first result: the data rows with the rescaled prompt rows below them. -/
theorem A_out0 (V : Valuation τ sig (Elt F)) :
    after ops V (main_v22 : DevRef τ sig) = concatenate S200010x256 0 [⟨S200000x256, (V (main_arg0 : DevRef τ sig))⟩, ⟨S10x256, (PP (V (main_arg0 : DevRef τ sig)) (V (main_arg2 : DevRef τ sig)))⟩] concatenates_S200000x256_S10x256_S200010x256_d0 := by
  rw [A_v22, A_muP, A_sigP, A_muO, A_v11, A_c_4, A_arg0, A_arg2]; rfl

end Cert.ReferenceIdeal.Hand

end
-- ==== Proof.RefRead.lean ====
/- The reference's intermediate arrays read at an entry, at the extended reals.
   A column sum along the rows is the initial value plus the sum of the column; a one-row broadcast reads its row. So the
   column means are sums over the word of the row count, the standard deviations are square roots of the sums of squared
   deviations over the word of the count less the converted integer `1` (the guard `count - 1 > 0` holds for both counts,
   so the quotient is taken, never the NaN word), plus the offset word; and a rescaled prompt entry is
   `(pf - muP) / sigP * sigO + muO` at its column. -/
import proofs.«162080_j20057497272460_1_alg».proof.Proof.RefValue
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Column sums and one-row broadcasts at an index -/

/-- Over result index `k` of a reduction of an `n × m` array along its rows, the source index with row `i` is `(i, k)`. -/
theorem lift_col {n m : Nat} (h : Shape.Reduces ⟨2, ![n, m]⟩ [0] ⟨1, ![m]⟩) (k : Fin m) (i : Fin n) :
    h.lift (ix1 k) i = ix2 i k := by
  funext c
  match c with
  | ⟨0, _⟩ => exact Fin.ext rfl
  | ⟨1, _⟩ => exact Fin.ext rfl

/-- The host's sum of an `n × m` array along its rows, at column `k`: the initial value plus the sum of the column. -/
theorem reduceAdd_col {n m : Nat} (x : FVec Ideal ⟨2, ![n, m]⟩ .f32) (init : FVec Ideal S_ .f32)
    (h' : Shape.ReducesTo ⟨2, ![n, m]⟩ [0] ⟨1, ![m]⟩) (h : Shape.Reduces ⟨2, ![n, m]⟩ [0] ⟨1, ![m]⟩) (hu : 0 < S_.numel) (k : Fin m) :
    Host.reduceAdd x init h' hu (ix1 k) = init ix0 + ∑ i : Fin n, x (ix2 i k) := by
  rw [hostReduceAdd_apply, Ideal.hostReduceAdd_single h' h]
  refine congrArg₂ (· + ·) (congrArg init (eq_ix0 _)) ?_
  exact Finset.sum_congr rfl fun i _ => congrArg x (lift_col h k i)

/-- A column vector of 256 laid as one row reads its entry. -/
theorem asRow_apply (v : FVec Ideal S256 .f32) (k : Fin 256) :
    broadcastInDim S1x256 ![1] bcast_S256_S1x256_1 v (ix2 (0 : Fin 1) k) = v (ix1 k) :=
  broadcastInDim_apply ![1] bcast_S256_S1x256_1 v (ix2 (0 : Fin 1) k) (ix1 k) (fun a => by fin_cases a; rfl)

/-- One row repeated over `n` rows reads the row. -/
theorem rows200000_apply (r : FVec Ideal S1x256 .f32) (i : Fin 200000) (k : Fin 256) :
    broadcastInDim S200000x256 ![0, 1] bcast_S1x256_S200000x256_0_1 r (ix2 i k) = r (ix2 (0 : Fin 1) k) :=
  broadcastInDim_apply ![0, 1] bcast_S1x256_S200000x256_0_1 r (ix2 i k) (ix2 (0 : Fin 1) k) (fun a => by fin_cases a <;> rfl)

theorem rows10_apply (r : FVec Ideal S1x256 .f32) (i : Fin 10) (k : Fin 256) :
    rows10 r (ix2 i k) = r (ix2 (0 : Fin 1) k) :=
  broadcastInDim_apply ![0, 1] bcast_S1x256_S10x256_0_1 r (ix2 i k) (ix2 (0 : Fin 1) k) (fun a => by fin_cases a <;> rfl)

/-- A scalar spread over one row reads the scalar. -/
theorem row_apply (c : FVec Ideal S_ .f32) (j : S1x256.Idx) : row c j = c ix0 :=
  broadcastInDim_scalar_apply bcast_S_S1x256 c j

/-! ## The data rows' column mean and standard deviation at a column -/

/-- The column mean of the data rows at column `k`: the column's sum (from the zero word) over the word of `200000`. -/
theorem muO_apply (x : FVec Ideal S200000x256 .f32) (k : Fin 256) :
    muO x (ix2 (0 : Fin 1) k)
      = Ideal.div (Ideal.ofBits .f32 0x00000000#32 + ∑ i : Fin 200000, x (ix2 i k)) (Ideal.ofBits .f32 0x48435000#32) := by
  unfold muO
  rw [hostDivf_apply, asRow_apply, row_apply, reduceAdd_col x _ _ (by decide) _ k]
  rfl

/-! ## The words -/

/-- The word `0x48435000` is `200000`. -/
theorem ofBits_200000 : Ideal.ofBits .f32 0x48435000#32 = ((200000 : ℝ) : EReal) := by
  simp [Ideal.ofBits, Ideal.ieee, -EReal.coe_mul]; norm_num

/-- The word `0x41200000` is `10`. -/
theorem ofBits_10 : Ideal.ofBits .f32 0x41200000#32 = ((10 : ℝ) : EReal) := by
  simp [Ideal.ofBits, Ideal.ieee, -EReal.coe_mul]; norm_num

/-- The integer word `1`, converted, is `1`. -/
theorem sitofp_one : (FloatOps.sitofp (F := Ideal) .f32 (1#32 : BitVec 32) : Ideal .f32) = ((1 : ℝ) : EReal) := by
  show ((((1#32 : BitVec 32).toInt : ℤ) : ℝ) : EReal) = _
  rw [show (1#32 : BitVec 32).toInt = 1 by decide]; norm_num

/-- `200000 - 1 > 0`: the data rows' variance is the quotient, not the NaN word. -/
theorem dofO_pos :
    Ideal.cmp .ogt (Ideal.ofBits .f32 0x48435000#32 - (FloatOps.sitofp (F := Ideal) .f32 (1#32 : BitVec 32) : Ideal .f32))
      (Ideal.ofBits .f32 0x00000000#32) = 1#1 := by
  rw [ofBits_200000, sitofp_one, Ideal.ofBits_zero_f32]
  have h : (0 : EReal) < ((200000 : ℝ) : EReal) - ((1 : ℝ) : EReal) := by
    rw [← EReal.coe_sub]; exact_mod_cast (by norm_num : (0 : ℝ) < 200000 - 1)
  show BitVec.ofBool (decide ((0 : EReal) < ((200000 : ℝ) : EReal) - ((1 : ℝ) : EReal))) = 1#1
  rw [decide_eq_true h]; rfl

/-- `10 - 1 > 0`: likewise for the prompt rows. -/
theorem dofP_pos :
    Ideal.cmp .ogt (Ideal.ofBits .f32 0x41200000#32 - (FloatOps.sitofp (F := Ideal) .f32 (1#32 : BitVec 32) : Ideal .f32))
      (Ideal.ofBits .f32 0x00000000#32) = 1#1 := by
  rw [ofBits_10, sitofp_one, Ideal.ofBits_zero_f32]
  have h : (0 : EReal) < ((10 : ℝ) : EReal) - ((1 : ℝ) : EReal) := by
    rw [← EReal.coe_sub]; exact_mod_cast (by norm_num : (0 : ℝ) < 10 - 1)
  show BitVec.ofBool (decide ((0 : EReal) < ((10 : ℝ) : EReal) - ((1 : ℝ) : EReal))) = 1#1
  rw [decide_eq_true h]; rfl

/-- The data rows' variance at column `k`, one degree of freedom removed: the sum of the column's squared deviations from
    its mean (from the zero word) over `200000 - 1` in the program's words. -/
theorem varO_apply (x : FVec Ideal S200000x256 .f32) (k : Fin 256) :
    varO x (constantI S_ 32 1#32) (ix2 (0 : Fin 1) k)
      = Ideal.div
          (Ideal.ofBits .f32 0x00000000#32
            + ∑ i : Fin 200000, (x (ix2 i k) - muO x (ix2 (0 : Fin 1) k)) * (x (ix2 i k) - muO x (ix2 (0 : Fin 1) k)))
          (Ideal.ofBits .f32 0x48435000#32 - (FloatOps.sitofp (F := Ideal) .f32 (1#32 : BitVec 32) : Ideal .f32)) := by
  unfold varO
  have hc : broadcastInDim S1x256 ![] bcast_S_S1x256
      (cmpf .ogt (subf (constant (F := Ideal) S_ .f32 0x48435000#32) (sitofp .f32 (constantI S_ 32 1#32))) (constant (F := Ideal) S_ .f32 0x00000000#32))
      (ix2 (0 : Fin 1) k) = 1#1 :=
    (broadcastInDim_scalar_apply bcast_S_S1x256 _ _).trans dofO_pos
  rw [select_apply, hc, select_one, hostDivf_apply, asRow_apply, row_apply, reduceAdd_col _ _ _ (by decide) _ k]
  refine congrArg₂ Ideal.div (congrArg₂ (· + ·) rfl (Finset.sum_congr rfl fun i _ => ?_)) rfl
  show (x (ix2 i k) - broadcastInDim S200000x256 ![0, 1] bcast_S1x256_S200000x256_0_1 (muO x) (ix2 i k))
      * (x (ix2 i k) - broadcastInDim S200000x256 ![0, 1] bcast_S1x256_S200000x256_0_1 (muO x) (ix2 i k)) = _
  rw [rows200000_apply]

/-- The data rows' standard deviation plus the offset, at column `k`. -/
theorem sigO_apply (x : FVec Ideal S200000x256 .f32) (k : Fin 256) :
    sigO x (ix2 (0 : Fin 1) k)
      = Ideal.sqrt (Ideal.div
          (Ideal.ofBits .f32 0x00000000#32
            + ∑ i : Fin 200000, (x (ix2 i k) - muO x (ix2 (0 : Fin 1) k)) * (x (ix2 i k) - muO x (ix2 (0 : Fin 1) k)))
          (Ideal.ofBits .f32 0x48435000#32 - (FloatOps.sitofp (F := Ideal) .f32 (1#32 : BitVec 32) : Ideal .f32)))
        + Ideal.ofBits .f32 0x322BCC77#32 := by
  unfold sigO
  have he : (epsRow : FVec Ideal S1x256 .f32) (ix2 (0 : Fin 1) k) = Ideal.ofBits .f32 0x322BCC77#32 := row_apply _ _
  rw [addf_apply, he]
  show Ideal.sqrt (varO x (constantI S_ 32 1#32) (ix2 (0 : Fin 1) k)) + _ = _
  rw [varO_apply]

/-! ## The prompt rows' statistics and the rescaled prompt rows at an entry -/

theorem muP_apply (pf : FVec Ideal S10x256 .f32) (k : Fin 256) :
    muP pf (ix2 (0 : Fin 1) k)
      = Ideal.div (Ideal.ofBits .f32 0x00000000#32 + ∑ i : Fin 10, pf (ix2 i k)) (Ideal.ofBits .f32 0x41200000#32) := by
  unfold muP
  rw [hostDivf_apply, asRow_apply, row_apply, reduceAdd_col pf _ _ (by decide) _ k]
  rfl

theorem varP_apply (pf : FVec Ideal S10x256 .f32) (k : Fin 256) :
    varP pf (constantI S_ 32 1#32) (ix2 (0 : Fin 1) k)
      = Ideal.div
          (Ideal.ofBits .f32 0x00000000#32
            + ∑ i : Fin 10, (pf (ix2 i k) - muP pf (ix2 (0 : Fin 1) k)) * (pf (ix2 i k) - muP pf (ix2 (0 : Fin 1) k)))
          (Ideal.ofBits .f32 0x41200000#32 - (FloatOps.sitofp (F := Ideal) .f32 (1#32 : BitVec 32) : Ideal .f32)) := by
  unfold varP
  have hc : broadcastInDim S1x256 ![] bcast_S_S1x256
      (cmpf .ogt (subf (constant (F := Ideal) S_ .f32 0x41200000#32) (sitofp .f32 (constantI S_ 32 1#32))) (constant (F := Ideal) S_ .f32 0x00000000#32))
      (ix2 (0 : Fin 1) k) = 1#1 :=
    (broadcastInDim_scalar_apply bcast_S_S1x256 _ _).trans dofP_pos
  rw [select_apply, hc, select_one, hostDivf_apply, asRow_apply, row_apply, reduceAdd_col _ _ _ (by decide) _ k]
  refine congrArg₂ Ideal.div (congrArg₂ (· + ·) rfl (Finset.sum_congr rfl fun i _ => ?_)) rfl
  show (pf (ix2 i k) - rows10 (muP pf) (ix2 i k)) * (pf (ix2 i k) - rows10 (muP pf) (ix2 i k)) = _
  rw [rows10_apply]

theorem sigP_apply (pf : FVec Ideal S10x256 .f32) (k : Fin 256) :
    sigP pf (ix2 (0 : Fin 1) k)
      = Ideal.sqrt (Ideal.div
          (Ideal.ofBits .f32 0x00000000#32
            + ∑ i : Fin 10, (pf (ix2 i k) - muP pf (ix2 (0 : Fin 1) k)) * (pf (ix2 i k) - muP pf (ix2 (0 : Fin 1) k)))
          (Ideal.ofBits .f32 0x41200000#32 - (FloatOps.sitofp (F := Ideal) .f32 (1#32 : BitVec 32) : Ideal .f32)))
        + Ideal.ofBits .f32 0x322BCC77#32 := by
  unfold sigP
  have he : (epsRow : FVec Ideal S1x256 .f32) (ix2 (0 : Fin 1) k) = Ideal.ofBits .f32 0x322BCC77#32 := row_apply _ _
  rw [addf_apply, he]
  show Ideal.sqrt (varP pf (constantI S_ 32 1#32) (ix2 (0 : Fin 1) k)) + _ = _
  rw [varP_apply]

/-- A rescaled prompt row's entry: standardized by the prompt rows' column statistics, rescaled by the data's. -/
theorem PPof_apply (pf : FVec Ideal S10x256 .f32) (mp sp mo so : FVec Ideal S1x256 .f32) (p : Fin 10) (k : Fin 256) :
    PPof pf mp sp mo so (ix2 p k)
      = Ideal.div (pf (ix2 p k) - mp (ix2 (0 : Fin 1) k)) (sp (ix2 (0 : Fin 1) k)) * so (ix2 (0 : Fin 1) k)
        + mo (ix2 (0 : Fin 1) k) := by
  unfold PPof
  rw [addf_apply, mulf_apply, hostDivf_apply, subf_apply, rows10_apply, rows10_apply, rows10_apply, rows10_apply]

theorem PP_apply (x : FVec Ideal S200000x256 .f32) (pf : FVec Ideal S10x256 .f32) (p : Fin 10) (k : Fin 256) :
    PP x pf (ix2 p k)
      = Ideal.div (pf (ix2 p k) - muP pf (ix2 (0 : Fin 1) k)) (sigP pf (ix2 (0 : Fin 1) k)) * sigO x (ix2 (0 : Fin 1) k)
        + muO x (ix2 (0 : Fin 1) k) :=
  PPof_apply pf _ _ _ _ p k

end Cert.ReferenceIdeal.Hand

end
-- ==== Proof.KIPrompt.lean ====
/-
  The kernel program's statistics of the prompt rows (their column means, and their column standard
  deviations plus the offset) are the reference's: the same host operations on the same argument.
-/
import proofs.«162080_j20057497272460_1_alg».proof.Proof.KIArgs
import proofs.«162080_j20057497272460_1_alg».proof.Proof.RefValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

set_option maxRecDepth 8192

theorem W1_v3 (c : Dev nD) :
    (W1 m c main_v3 : FVec F S1x256 .f32) = Cert.ReferenceIdeal.Hand.muP (m ((c : Thread nD τ).loc main_arg2)) := by
  show StableHlo.after hostOps0 (W0 m c) (Proc.devRef .tc main_v3) = _
  generalize hU : W0 m c = U
  have hx : U (Proc.devRef .tc main_arg2) = m ((c : Thread nD τ).loc main_arg2) := by rw [← hU]
  rw [← hx]
  after_results
  rfl

theorem W1_c (c : Dev nD) : (W1 m c main_c : IVec S_ 32) = constantI S_ 32 1#32 := by
  show StableHlo.after hostOps0 (W0 m c) (Proc.devRef .tc main_c) = _
  generalize W0 m c = U
  after_results

theorem W2_v4 (c : Dev nD) :
    (W2 m c main_v4 : FVec F S1x256 .f32)
      = Host.sqrt (Cert.ReferenceIdeal.Hand.varP (W1 m c main_arg2 : FVec F S10x256 .f32) (W1 m c main_c : IVec S_ 32)) := by
  show StableHlo.after hostOps0_1 (W1 m c) (Proc.devRef .tc main_v4) = _
  generalize W1 m c = U
  after_results_simp
  rfl

theorem W3_v6 (c : Dev nD) :
    (W3 m c main_v6 : FVec F S1x256 .f32) = addf (W2 m c main_v4 : FVec F S1x256 .f32) (Cert.ReferenceIdeal.Hand.epsRow (F := F)) := by
  show StableHlo.after hostOps0_2 (W2 m c) (Proc.devRef .tc main_v6) = _
  generalize W2 m c = U
  after_results

/-- The kernel program's prompt-row statistics are the reference's functions of the prompt rows. -/
theorem W3_v3_ref (c : Dev nD) :
    (W3 m c main_v3 : FVec F S1x256 .f32) = Cert.ReferenceIdeal.Hand.muP (m ((c : Thread nD τ).loc main_arg2)) := by
  rw [show W3 m c main_v3 = W2 m c main_v3 from W3_of m c main_v3 (by decide), show W2 m c main_v3 = W1 m c main_v3 from W2_of m c main_v3 (by decide)]
  exact W1_v3 m c

theorem W3_v6_ref (c : Dev nD) :
    (W3 m c main_v6 : FVec F S1x256 .f32) = Cert.ReferenceIdeal.Hand.sigP (m ((c : Thread nD τ).loc main_arg2)) := by
  rw [W3_v6, W2_v4, W1_c]
  rw [show W1 m c main_arg2 = W0 m c main_arg2 from W1_of m c main_arg2 (by decide)]
  rfl

end Cert.KernelIdeal.Hand

end
-- ==== Proof.KIMu.lean ====
/-
  The statistics of the data rows agree. Column k's mean is its sum over the count on both sides. For the
  spread, the kernel program divides (sum of squares − count · mean²) by (count − 1) and clamps at zero; the
  reference divides the sum of squared deviations from the mean by (count − 1). For FINITE entries these are
  one real number (the deviations' squares sum to sum of squares − count · mean², which is nonnegative), so the
  square roots and the offsets agree. Hence the rescaled prompt rows agree.
-/
import proofs.«162080_j20057497272460_1_alg».proof.Proof.KIHostProto
import proofs.«162080_j20057497272460_1_alg».proof.Proof.KIStatsOut
import proofs.«162080_j20057497272460_1_alg».proof.Proof.KIFinite
import proofs.«162080_j20057497272460_1_alg».proof.Proof.LibVariance
import proofs.«162080_j20057497272460_1_alg».proof.Proof.RefRead
import proofs.«162080_j20057497272460_1_alg».proof.Proof.KIPrompt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

theorem mu_eq (c : Dev nD) (k : Fin 256) :
    (W5 m c main_v9 : S1x256.Idx → Ideal .f32) (ix2 (0 : Fin 1) k)
      = Cert.ReferenceIdeal.Hand.muO (F := Ideal) (m ((c : Thread nD τ).loc main_arg0)) (ix2 (0 : Fin 1) k) := by
  rw [W5_main_v9_apply, W4_v7_0_apply, Cert.ReferenceIdeal.Hand.muO_apply]
  unfold muOK colSum
  rw [Ideal.ofBits_zero_f32]

theorem sig_eq (hpre : Cert.Pre_KernelIdeal (hPre_finite_inputs := Cert.Pre_finite_inputs.Gen.facts) m) (c : Dev nD) (k : Fin 256) :
    (W5 m c main_v20 : S1x256.Idx → Ideal .f32) (ix2 (0 : Fin 1) k)
      = Cert.ReferenceIdeal.Hand.sigO (F := Ideal) (m ((c : Thread nD τ).loc main_arg0)) (ix2 (0 : Fin 1) k) := by
  choose r hr using fun i => arg0_real m hpre c i k
  rw [W5_main_v20_apply, W4_v7_0_apply, W4_v7_1_apply, Cert.ReferenceIdeal.Hand.sigO_apply, Cert.ReferenceIdeal.Hand.muO_apply]
  unfold sigOK muOK colSum colSq
  simp only [hr]
  rw [Cert.Lib.Variance.ofBits_200000, Cert.Lib.Variance.ofBits_199999, Cert.Lib.Variance.coe_199999, Ideal.ofBits_zero_f32,
    Cert.ReferenceIdeal.Hand.sitofp_one, ← EReal.coe_sub]
  rw [Cert.Lib.Variance.sqrt_var_eq r 200000 (by simp) (by norm_num)]

end Cert.KernelIdeal.Hand

end
-- ==== Proof.KICrossValue.lean ====
/- The output block of the second pipelined call read at an index, at the ideal values.

   `out1_2 x0 x1` is what the body leaves in the output window's buffer from the two input blocks (the 2000 rows of
   x at the point, and the 10 prototype rows).  Its one store is over the whole buffer, so it is the payload; and the
   payload at row `r`, column `j` is 1 or 0 according to whether the logistic function of the inner product of row `r`
   of x with prototype row `j` exceeds the constant the kernel compares with. -/
import proofs.«162080_j20057497272460_1_alg».proof.Proof.KICross
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- The offsets of a whole-buffer access are all zero. -/
theorem zero_offsets2 : (![0, 0] : Fin 2 → Nat) = fun _ => 0 := funext fun a => by fin_cases a <;> rfl

section Generic
variable {F : FTy → Type} [FloatOps F]

/-- The one store covers the whole buffer and the two loads read whole buffers: what the body leaves is the payload
    of the input blocks themselves. -/
theorem out1_2_eq_pay (x0 : Vec F S2000x256 .f32) (x1 : Vec F S10x256 .f32) : out1_2 x0 x1 = k1_pay1 x0 x1 := by
  unfold out1_2
  rw [View.canon_unit_zero zero_offsets2]
  simp only [View.ld_unit_zero (S := S2000x256) zero_offsets2, View.ld_unit_zero (S := S10x256) zero_offsets2]

end Generic

/-- The contraction at the ideal values: entry `(r, j)` of x times the transposed prototypes, accumulated into
    zero, is the inner product of row `r` of x and prototype row `j`. -/
theorem cross_matmul_apply (x0 : FVec Ideal S2000x256 .f32) (x1 : FVec Ideal S10x256 .f32) (r : Fin 2000) (j : Fin 10) :
    matmul (F := Ideal) (φ₁ := .f32) (φ₂ := .f32) dot_S2000x256_S256x10_S2000x10_1_0_0_1_n_n none x0
        (transpose S256x10 [1, 0] (shapeCast S10x256 x1 shapeCasts_S10x256_S10x256) transposes_S10x256_p1_0_S256x10)
        (constant (F := Ideal) S2000x10 .f32 0x00000000#32) (ix2 r j)
      = ∑ k : Fin 256, x0 (ix2 r k) * x1 (ix2 j k) := by
  rw [shapeCast_self]
  simp only [matmul]
  rw [Ideal.matmul_constant_zero_apply]
  rw [← Equiv.sum_comp (contrEquiv1 dot_S2000x256_S256x10_S2000x10_1_0_0_1_n_n 256 rfl rfl).symm]
  refine Finset.sum_congr rfl fun k _ => ?_
  have hl : dot_S2000x256_S256x10_S2000x10_1_0_0_1_n_n.lhsIdx (ix2 r j)
      ((contrEquiv1 dot_S2000x256_S256x10_S2000x10_1_0_0_1_n_n 256 rfl rfl).symm k) = ix2 r k := by
    funext a; apply Fin.ext
    match a with
    | ⟨0, _⟩ => rfl
    | ⟨1, _⟩ =>
      exact (dot_S2000x256_S256x10_S2000x10_1_0_0_1_n_n.lhsIdx_val_of_single rfl _ _).trans
        (contrEquiv1_symm_val dot_S2000x256_S256x10_S2000x10_1_0_0_1_n_n 256 rfl rfl k)
  have hr : dot_S2000x256_S256x10_S2000x10_1_0_0_1_n_n.rhsIdx (ix2 r j)
      ((contrEquiv1 dot_S2000x256_S256x10_S2000x10_1_0_0_1_n_n 256 rfl rfl).symm k) = ix2 k j := by
    funext a; apply Fin.ext
    match a with
    | ⟨0, _⟩ =>
      exact (dot_S2000x256_S256x10_S2000x10_1_0_0_1_n_n.rhsIdx_val_of_single rfl _ _).trans
        (contrEquiv1_symm_val dot_S2000x256_S256x10_S2000x10_1_0_0_1_n_n 256 rfl rfl k)
    | ⟨1, _⟩ => rfl
  rw [hl, hr, transpose_apply [1, 0] x1 transposes_S10x256_p1_0_S256x10 (ix2 k j) (ix2 j k)
    (fun b => by match b with | ⟨0, _⟩ => rfl | ⟨1, _⟩ => rfl)]

/-- The payload at the ideal values, at row `r` and column `j`: 1 where the logistic function of the inner product
    of row `r` of x with prototype row `j` exceeds the constant compared with, 0 elsewhere. -/
theorem k1_pay1_apply (x0 : FVec Ideal S2000x256 .f32) (x1 : FVec Ideal S10x256 .f32) (r : Fin 2000) (j : Fin 10) :
    k1_pay1 (F := Ideal) x0 x1 (ix2 r j)
      = if Ideal.ofBits .f32 0x3ECCCCCD#32 < Ideal.logistic (∑ k : Fin 256, x0 (ix2 r k) * x1 (ix2 j k)) then (1 : EReal) else 0 := by
  have h := cross_matmul_apply x0 x1 r j
  unfold k1_pay1
  simp only [sitofp_apply, extui_apply, cmpf_apply, broadcast_apply, logistic, h]
  show (((BitVec.setWidth 32 (Ideal.cmp .ogt (Ideal.logistic (∑ k : Fin 256, x0 (ix2 r k) * x1 (ix2 j k)))
      (Ideal.ofBits .f32 0x3ECCCCCD#32))).toInt : ℝ) : EReal) = _
  generalize Ideal.logistic (∑ k : Fin 256, x0 (ix2 r k) * x1 (ix2 j k)) = a
  generalize Ideal.ofBits .f32 0x3ECCCCCD#32 = b
  unfold Ideal.cmp
  by_cases hlt : b < a
  · rw [if_pos hlt]; simp [hlt]
  · rw [if_neg hlt]; simp [hlt]

/-- What the body leaves in the output window's buffer at the ideal values, at row `r` and column `j`, from the two
    input blocks: 1 where the logistic function of the inner product of row `r` of the x block with prototype row `j`
    exceeds the constant compared with, 0 elsewhere. -/
theorem out1_2_apply (x0 : Vec Ideal S2000x256 .f32) (x1 : Vec Ideal S10x256 .f32) (r : Fin 2000) (j : Fin 10) :
    out1_2 (F := Ideal) x0 x1 (ix2 r j)
      = if Ideal.ofBits .f32 0x3ECCCCCD#32 < Ideal.logistic (∑ k : Fin 256, (x0 (ix2 r k) : EReal) * (x1 (ix2 j k) : EReal))
        then (1 : EReal) else 0 := by
  rw [out1_2_eq_pay]
  exact k1_pay1_apply x0 x1 r j

end Cert.KernelIdeal.Hand

end
-- ==== Proof.KICrossArr.lean ====
/- From blocks to the array, for the second pipelined call: the output array after the region as ONE function of the
   region-entry arrays, index by index.

   Grid point `t` (of 100) reads rows `2000 t … 2000 t + 1999` of x and the whole of the 10 prototype rows, and writes
   back rows `2000 t … 2000 t + 1999` of the output.  So row `n` of the output is written by the point `n / 2000`, from
   the row block `n / 2000` of x, at row `n % 2000` of that block; the 100 row blocks tile the 200000 rows. -/
import proofs.«162080_j20057497272460_1_alg».proof.Proof.KICross
import proofs.«162080_j20057497272460_1_alg».proof.Proof.KICrossValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section Generic
variable {F : FTy → Type} [FloatOps F]

/-- Row block `q` (2000 rows) of an array of 200000 rows of 256. -/
def rowBlock {α : Type} (a0 : S200000x256.Idx → α) (q : Nat) : S2000x256.Idx → α :=
  fun y => a0 (ix2 (⟨(q % 100) * 2000 + (y 0).val, by have h : (y 0).val < 2000 := (y 0).isLt; omega⟩ : Fin 200000) (⟨(y 1).val, (y 1).isLt⟩ : Fin 256))

/-- The output array as one function of the x array `a0` and the prototype array `a1`: at row `n`, column `j`, the
    body's payload of the row block `n / 2000` of `a0` and the whole of `a1`, at row `n % 2000`, column `j`. -/
def G1 (a0 : S200000x256.Idx → Elt F .f32) (a1 : S10x256.Idx → Elt F .f32) : S200000x10.Idx → Elt F .f32 :=
  fun i => k1_pay1 (rowBlock a0 ((i 0).val / 2000)) a1
    (ix2 (⟨(i 0).val % 2000, Nat.mod_lt _ (by decide)⟩ : Fin 2000) (⟨(i 1).val, (i 1).isLt⟩ : Fin 10))

/-- `G1` at an index of row block `q`: the payload of that row block at the index inside the block. -/
theorem G1_at (a0 : S200000x256.Idx → Elt F .f32) (a1 : S10x256.Idx → Elt F .f32) (q : Nat) (y : S2000x10.Idx)
    (i : S200000x10.Idx) (h0 : (i 0).val = q * 2000 + (y 0).val) (h1 : (i 1).val = (y 1).val) :
    G1 a0 a1 i = k1_pay1 (rowBlock a0 q) a1 y := by
  have hy : (y 0).val < 2000 := (y 0).isLt
  have hq : (i 0).val / 2000 = q := by rw [h0]; omega
  have hidx : ix2 (⟨(i 0).val % 2000, Nat.mod_lt _ (by decide)⟩ : Fin 2000) (⟨(i 1).val, (i 1).isLt⟩ : Fin 10) = y := by
    funext a
    match a with
    | ⟨0, _⟩ => exact Fin.ext (by show (i 0).val % 2000 = (y 0).val; rw [h0]; omega)
    | ⟨1, _⟩ => exact Fin.ext h1
  unfold G1
  rw [hq, hidx]

-- the TensorCore's buffer contents when the region is entered
variable (V : (c : Dev nD) → (b : Ref sig .tc) → Buf (Elt F) ((c : Thread nD τ).loc b))

/-- The printed index maps over the grid: at point `t` the x window and the output window are at row block `t`,
    column block 0; the prototype window is at block (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 100 :=
  (by decide +kernel : ∀ t : Fin grid1.N, _)

/-- The x window's block at point `t` is row block `t` of the x array. -/
theorem iblk1_0_eq (c : Dev nD) (t : Fin cfg1.N) :
    (iblk1 V c 0 t : S2000x256.Idx → Elt F .f32) = rowBlock (V c main_arg0) t.val := by
  obtain ⟨e0, e1, e2, e3, e4, e5, e6⟩ := idx_facts1 t
  funext y
  show V c main_arg0 (((cfg1.win 0).blk t).view.emb y) = V c main_arg0 _
  refine congrArg (V c main_arg0) ?_
  funext a; apply Fin.ext
  match a with
  | ⟨0, _⟩ =>
    show win1_0.index t (0 : Fin 2) * 2000 + 1 * (y 0).val = (t.val % 100) * 2000 + (y 0).val
    have hy : (y 0).val < 2000 := (y 0).isLt
    omega
  | ⟨1, _⟩ =>
    show win1_0.index t (1 : Fin 2) * 256 + 1 * (y 1).val = (y 1).val
    omega

/-- The prototype window's block at every point is the whole prototype array. -/
theorem iblk1_1_eq (c : Dev nD) (t : Fin cfg1.N) :
    (iblk1 V c 1 t : S10x256.Idx → Elt F .f32) = V c main_v28 := by
  obtain ⟨e0, e1, e2, e3, e4, e5, e6⟩ := idx_facts1 t
  funext y
  show V c main_v28 (((cfg1.win 1).blk t).view.emb y) = V c main_v28 y
  refine congrArg (V c main_v28) ?_
  funext a; apply Fin.ext
  match a with
  | ⟨0, _⟩ =>
    show win1_1.index t (0 : Fin 2) * 10 + 1 * (y 0).val = (y 0).val
    omega
  | ⟨1, _⟩ =>
    show win1_1.index t (1 : Fin 2) * 256 + 1 * (y 1).val = (y 1).val
    omega

/-- WHAT POINT `t` WRITES BACK is block `t` of `G1` of the x and prototype arrays as the region finds them. -/
theorem flushed1_2_eq (c : Dev nD) (t : Fin cfg1.N) :
    (dat1 V c).flushed 2 t = ((cfg1.win 2).blk t).view.read (Elt F) (G1 (V c main_arg0) (V c main_v28)) := by
  show (cfg1.win 2).cut (grid1.coords t) ((dat1 V c).after 2 t) = _
  rw [after1_2, out1_2_eq_pay]
  obtain ⟨e0, e1, e2, e3, e4, e5, e6⟩ := idx_facts1 t
  funext y
  show k1_pay1 (iblk1 V c 0 t : S2000x256.Idx → Elt F .f32) (iblk1 V c 1 t : S10x256.Idx → Elt F .f32) y
    = G1 (V c main_arg0) (V c main_v28) (((cfg1.win 2).blk t).view.emb y)
  rw [iblk1_0_eq, iblk1_1_eq]
  refine (G1_at (V c main_arg0) (V c main_v28) t.val y _ ?_ ?_).symm
  · show win1_2.index t (0 : Fin 2) * 2000 + 1 * (y 0).val = t.val * 2000 + (y 0).val
    omega
  · show win1_2.index t (1 : Fin 2) * 10 + 1 * (y 1).val = (y 1).val
    omega

/-- An index of the output array is in point `t`'s block iff each coordinate is in the block's range on its axis. -/
theorem mem_blk1_2 (t : Fin cfg1.N) (i : S200000x10.Idx) :
    i ∈ ((cfg1.win 2).blk t).view.set ↔ ∀ a : Fin 2, win1_2.index t a * S2000x10.size a ≤ (i a).val ∧ (i a).val < win1_2.index t a * S2000x10.size a + S2000x10.size a := by
  show i ∈ ((View.whole main_v51).slice (win1_2.rect t)).set ↔ _
  rw [View.set_slice_whole, Rect.mem_set_unit]
  exact Iff.rfl

/-- Every index of the output array is in the block of the point `n / 2000`, `n` its row; every point writes back. -/
theorem cover1_2_arr (i : S200000x10.Idx) :
    ∃ t : Fin cfg1.N, (cfg1.win 2).flush t = true ∧ i ∈ ((cfg1.win 2).blk t).view.set := by
  have hi0 : (i 0).val < 200000 := (i 0).isLt
  have hi1 : (i 1).val < 10 := (i 1).isLt
  have hN : (i 0).val / 2000 < cfg1.N := by show _ < grid1.N; rw [N_1]; omega
  refine ⟨⟨(i 0).val / 2000, hN⟩, flush1_2 _, ?_⟩
  obtain ⟨e0, e1, e2, e3, e4, e5, e6⟩ := idx_facts1 ⟨(i 0).val / 2000, hN⟩
  rw [mem_blk1_2]
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000
    omega
  | ⟨1, _⟩ =>
    show win1_2.index ⟨(i 0).val / 2000, hN⟩ (1 : Fin 2) * 10 ≤ (i 1).val ∧ (i 1).val < win1_2.index ⟨(i 0).val / 2000, hN⟩ (1 : Fin 2) * 10 + 10
    rw [e5]; omega

/-- THE OUTPUT ARRAY after the region: `G1` of the x and prototype arrays as the region finds them. -/
theorem arr1_2 (c : Dev nD) : (dat1 V c).arrAt 2 cfg1.N = G1 (V c main_arg0) (V c main_v28) :=
  (dat1 V c).arrAt_eq_of_cover 2 _ (fun t _ => flushed1_2_eq V c t) cover1_2_arr

/-- The same, index by index. -/
theorem arr1_2_apply (c : Dev nD) (n : Fin 200000) (j : Fin 10) :
    (dat1 V c).arrAt 2 cfg1.N (ix2 n j) = G1 (V c main_arg0) (V c main_v28) (ix2 n j) :=
  congrFun (arr1_2 V c) (ix2 n j)

end Generic

/-- Row `n % 2000` of row block `n / 2000` is row `n`. -/
theorem rowBlock_row {α : Type} (a0 : S200000x256.Idx → α) (n : Fin 200000) (k : Fin 256) (q : Nat) (r : Fin 2000)
    (hq : q = n.val / 2000) (hr : r.val = n.val % 2000) : rowBlock a0 q (ix2 r k) = a0 (ix2 n k) := by
  unfold rowBlock
  refine congrArg a0 ?_
  funext a
  match a with
  | ⟨0, _⟩ =>
    refine Fin.ext ?_
    show (q % 100) * 2000 + r.val = n.val
    have hn : n.val < 200000 := n.isLt
    rw [hq, hr]; omega
  | ⟨1, _⟩ => rfl

/-- THE CLOSED VALUE at the ideal values: entry `(n, j)` of `G1` of an x array `a0` and a prototype array `a1` is 1
    where the logistic function of the inner product of row `n` of `a0` with row `j` of `a1` exceeds the constant
    compared with, 0 elsewhere. -/
theorem G1_apply (a0 : FVec Ideal S200000x256 .f32) (a1 : FVec Ideal S10x256 .f32) (n : Fin 200000) (j : Fin 10) :
    G1 (F := Ideal) a0 a1 (ix2 n j)
      = if Ideal.ofBits .f32 0x3ECCCCCD#32 < Ideal.logistic (∑ k : Fin 256, a0 (ix2 n k) * a1 (ix2 j k)) then (1 : EReal) else 0 := by
  have key : ∀ S1 S2 : EReal, S1 = S2 →
      (if Ideal.ofBits .f32 0x3ECCCCCD#32 < Ideal.logistic S1 then (1 : EReal) else 0)
        = if Ideal.ofBits .f32 0x3ECCCCCD#32 < Ideal.logistic S2 then (1 : EReal) else 0 := fun _ _ h => by rw [h]
  unfold G1
  refine (k1_pay1_apply _ a1 _ _).trans (key _ _ (Finset.sum_congr rfl fun k _ => ?_))
  rw [rowBlock_row a0 n k _ _ rfl rfl]

/-- The closed value, named: 1 where the logistic function of the inner product of row `n` of `a0` with row `j` of
    `a1` exceeds the constant compared with, 0 elsewhere. -/
def crossVal (a0 : FVec Ideal S200000x256 .f32) (a1 : FVec Ideal S10x256 .f32) (n : Fin 200000) (j : Fin 10) : EReal :=
  if Ideal.ofBits .f32 0x3ECCCCCD#32 < Ideal.logistic (∑ k : Fin 256, a0 (ix2 n k) * a1 (ix2 j k)) then 1 else 0

/-- The output array of the region at the ideal values, index by index, from the region-entry x and prototype arrays. -/
theorem arr1_2_value (V : (c : Dev nD) → (b : Ref sig .tc) → Buf (Elt Ideal) ((c : Thread nD τ).loc b))
    (c : Dev nD) (n : Fin 200000) (j : Fin 10) :
    (dat1 (F := Ideal) V c).arrAt 2 cfg1.N (ix2 n j) = crossVal (V c main_arg0) (V c main_v28) n j :=
  (arr1_2_apply V c n j).trans (G1_apply (V c main_arg0) (V c main_v28) n j)

end Cert.KernelIdeal.Hand

end
-- ==== Proof.KIHost.lean ====
/- The host stage after the second kernel region, at the ideal values: the array the region leaves, and the
   comparison array the host computes from it (transpose, flatten, compare with one half), read at an index. -/
import proofs.«162080_j20057497272460_1_alg».proof.Proof.KIArgs
import proofs.«162080_j20057497272460_1_alg».proof.Proof.KICrossArr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The output array of the second region, as one function of the arrays the region finds. -/
theorem W6_main_v51 (c : Dev nD) : W6 m c main_v51 = G1 (F := Ideal) (W5 m c main_arg0) (W5 m c main_v28) :=
  (W6_arr m c 2).trans (arr1_2 (VR1 m) c)

/-- The word the host compares the 0/1 block with is one half. -/
theorem ofBits_half : Ideal.ofBits .f32 0x3F000000#32 = ((2⁻¹ : ℝ) : EReal) := by
  have hneg : ((0x3F000000#32 : BitVec 32).extractLsb' (8 + 23) 1 == 1#1) = false := by decide
  have hex : ((0x3F000000#32 : BitVec 32).extractLsb' 23 8).toNat = 126 := by decide
  have hfr : ((0x3F000000#32 : BitVec 32).extractLsb' 0 23).toNat = 0 := by decide
  simp only [Ideal.ofBits, Ideal.ieee, hneg, hex, hfr]
  norm_num

/-- The comparison array after the second region, as the printed operations of the array the region left. -/
theorem W7_main_v55_eq (c : Dev nD) : (W7 m c main_v55 : S2000000.Idx → BitVec 1)
    = cmpf .ogt (shapeCast S2000000 (transpose S10x200000 [1, 0] (W6 m c main_v51 : S200000x10.Idx → Ideal .f32) transposes_S200000x10_S10x200000_1_0) shapeCasts_S10x200000_S2000000)
        (broadcastInDim S2000000 ![] bcast_S_S2000000 (constant (F := Ideal) S_ .f32 0x3F000000#32)) := by
  show StableHlo.after hostOps2 (W6 m c) (Proc.devRef .tc main_v55) = _
  after_results
  rfl

/-- The comparison bit, named: 1 where the logistic function of the inner product of row `n` of `a0` with row `p` of
    `a1` exceeds the constant the kernel compares with, 0 elsewhere. -/
def crossBit (a0 : FVec Ideal S200000x256 .f32) (a1 : FVec Ideal S10x256 .f32) (n : Fin 200000) (p : Fin 10) : BitVec 1 :=
  if Ideal.ofBits .f32 0x3ECCCCCD#32 < Ideal.logistic (∑ k : Fin 256, a0 (ix2 n k) * a1 (ix2 p k)) then 1#1 else 0#1

/-- The comparison array read at the flat index of prototype `p` and row `n`: the kernel's 0/1 entry `(n, p)`,
    transposed and flattened, exceeds one half exactly when it is 1. -/
theorem W7_main_v55_apply (c : Dev nD) (p : Fin 10) (n : Fin 200000) :
    (W7 m c main_v55 : S2000000.Idx → BitVec 1) (ix1 (⟨p.val * 200000 + n.val, by have := p.isLt; have := n.isLt; omega⟩ : Fin 2000000))
      = crossBit (W5 m c main_arg0) (W5 m c main_v28) n p := by
  rw [W7_main_v55_eq, cmpf_apply]
  rw [shapeCast_apply _ shapeCasts_S10x200000_S2000000 _ (ix2 p n) (by rw [Shape.rowMajor_val_two, Shape.rowMajor_val_one]; rfl)]
  rw [transpose_apply [1, 0] _ transposes_S200000x10_S10x200000_1_0 (ix2 p n) (ix2 n p)
    (fun b => by match b with | ⟨0, _⟩ => rfl | ⟨1, _⟩ => rfl)]
  rw [broadcastInDim_apply ![] bcast_S_S2000000 _ _ ix0 (fun a => a.elim0)]
  rw [constant_apply, W6_main_v51, G1_apply, ofBits_half]
  unfold crossBit
  have h1 : ((2⁻¹ : ℝ) : EReal) < 1 := by exact_mod_cast (by norm_num : (2⁻¹ : ℝ) < 1)
  have h0 : ¬ ((2⁻¹ : ℝ) : EReal) < 0 := not_lt.mpr (by exact_mod_cast (by norm_num : (0 : ℝ) ≤ 2⁻¹))
  have key : ∀ (C : Prop) [Decidable C],
      Ideal.cmp .ogt (if C then (1 : EReal) else 0) ((2⁻¹ : ℝ) : EReal) = if C then 1#1 else 0#1 := by
    intro C _; unfold Ideal.cmp; by_cases hC : C <;> simp [hC, h1, h0]
  exact key _

end Cert.KernelIdeal.Hand

end
-- ==== Proof.RefCross.lean ====
/- The reference's cross-similarity stage.
   The flags of which (rescaled prompt row, data row) pairs are similar — the logistic of the rows' inner product above the
   threshold word, the 10 × 200000 table of flags read as one row-major vector — are named as a function of the arguments in
   the program's own operations and shown to be what their buffer holds at the end of the run, for any float values; at
   the extended reals the flag at position `p * 200000 + n` is read as the comparison of
   `1 / (1 + exp (-(Σ_c pp p c · x n c)))` with the threshold word. -/
import proofs.«162080_j20057497272460_1_alg».proof.Proof.RefRead
import Idealize.ShloMosaic.Lib.StackMember

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

section AnyFloat
variable {F : FTy → Type} [FloatOps F]

/-! ## The cross-similarity stage as functions of its inputs -/

/-- A float scalar spread over the 10 × 200000 table. -/
abbrev table (c : FVec F S_ .f32) : FVec F S10x200000 .f32 := broadcastInDim S10x200000 ![] bcast_S_S10x200000 c

/-- Minus the table of inner products of the 10 rows `pp` with the 200000 data rows (the data transposed, then the
    product contracting the 256 columns, then the negation). -/
def negSim (x : FVec F S200000x256 .f32) (pp : FVec F S10x256 .f32) : FVec F S10x200000 .f32 :=
  Host.negf (Host.dotGeneral dot_S10x256_S256x200000_S10x200000_1_0_0_1_n_n none pp
    (transpose S256x200000 [1, 0] x transposes_S200000x256_S256x200000_1_0))

/-- From minus the similarities `z`: the flags `1 / (1 + exp z) > 0.4` (the words `0x3F800000` twice and
    `0x3ECCCCCD`), the 10 × 200000 table read as one row-major vector of 2000000. -/
def crossValidOf (z : FVec F S10x200000 .f32) : IVec S2000000 1 :=
  shapeCast S2000000
    (cmpf .ogt (Host.divf (table (constant S_ .f32 0x3F800000#32)) (addf (table (constant S_ .f32 0x3F800000#32)) (Host.exp z)))
      (table (constant S_ .f32 0x3ECCCCCD#32)))
    shapeCasts_S10x200000_S2000000

/-- The flags of the rows `pp` against the data rows `x`. -/
def crossValid (x : FVec F S200000x256 .f32) (pp : FVec F S10x256 .f32) : IVec S2000000 1 := crossValidOf (negSim x pp)

set_option maxRecDepth 8192

theorem ops4_v46 (W : Valuation τ sig (Elt F)) :
    after ops4 W (main_v46 : DevRef τ sig) = negSim (W (main_arg0 : DevRef τ sig)) (PPof (W (main_arg2 : DevRef τ sig)) (W (main_v3 : DevRef τ sig)) (W (main_v6 : DevRef τ sig)) (W (main_v10 : DevRef τ sig)) (addf (W (main_v11 : DevRef τ sig)) epsRow)) := by
  after_results_simp; try rfl
theorem A_v46 (V : Valuation τ sig (Elt F)) :
    after ops V (main_v46 : DevRef τ sig) = negSim (after ops V (main_arg0 : DevRef τ sig)) (PPof (after ops V (main_arg2 : DevRef τ sig)) (after ops V (main_v3 : DevRef τ sig)) (after ops V (main_v6 : DevRef τ sig)) (after ops V (main_v10 : DevRef τ sig)) (addf (after ops V (main_v11 : DevRef τ sig)) epsRow)) := by
  have h1 : W18 V (main_v46 : DevRef τ sig) = W5 V (main_v46 : DevRef τ sig) :=
    (after_of_writes_sub (r := main_v46) ops17 (W17 V) ops17_writes (by decide)).trans ((after_of_writes_sub (r := main_v46) ops16 (W16 V) ops16_writes (by decide)).trans ((after_of_writes_sub (r := main_v46) ops15 (W15 V) ops15_writes (by decide)).trans ((after_of_writes_sub (r := main_v46) ops14 (W14 V) ops14_writes (by decide)).trans ((after_of_writes_sub (r := main_v46) ops13 (W13 V) ops13_writes (by decide)).trans ((after_of_writes_sub (r := main_v46) ops12 (W12 V) ops12_writes (by decide)).trans ((after_of_writes_sub (r := main_v46) ops11 (W11 V) ops11_writes (by decide)).trans ((after_of_writes_sub (r := main_v46) ops10 (W10 V) ops10_writes (by decide)).trans ((after_of_writes_sub (r := main_v46) ops9 (W9 V) ops9_writes (by decide)).trans ((after_of_writes_sub (r := main_v46) ops8 (W8 V) ops8_writes (by decide)).trans ((after_of_writes_sub (r := main_v46) ops7 (W7 V) ops7_writes (by decide)).trans ((after_of_writes_sub (r := main_v46) ops6 (W6 V) ops6_writes (by decide)).trans ((after_of_writes_sub (r := main_v46) ops5 (W5 V) ops5_writes (by decide))))))))))))))
  have ha0 : W18 V (main_arg0 : DevRef τ sig) = W4 V (main_arg0 : DevRef τ sig) :=
    (after_of_writes_sub (r := main_arg0) ops17 (W17 V) ops17_writes (by decide)).trans ((after_of_writes_sub (r := main_arg0) ops16 (W16 V) ops16_writes (by decide)).trans ((after_of_writes_sub (r := main_arg0) ops15 (W15 V) ops15_writes (by decide)).trans ((after_of_writes_sub (r := main_arg0) ops14 (W14 V) ops14_writes (by decide)).trans ((after_of_writes_sub (r := main_arg0) ops13 (W13 V) ops13_writes (by decide)).trans ((after_of_writes_sub (r := main_arg0) ops12 (W12 V) ops12_writes (by decide)).trans ((after_of_writes_sub (r := main_arg0) ops11 (W11 V) ops11_writes (by decide)).trans ((after_of_writes_sub (r := main_arg0) ops10 (W10 V) ops10_writes (by decide)).trans ((after_of_writes_sub (r := main_arg0) ops9 (W9 V) ops9_writes (by decide)).trans ((after_of_writes_sub (r := main_arg0) ops8 (W8 V) ops8_writes (by decide)).trans ((after_of_writes_sub (r := main_arg0) ops7 (W7 V) ops7_writes (by decide)).trans ((after_of_writes_sub (r := main_arg0) ops6 (W6 V) ops6_writes (by decide)).trans ((after_of_writes_sub (r := main_arg0) ops5 (W5 V) ops5_writes (by decide)).trans ((after_of_writes_sub (r := main_arg0) ops4 (W4 V) ops4_writes (by decide)))))))))))))))
  have ha1 : W18 V (main_arg2 : DevRef τ sig) = W4 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)))))))))))))))
  have ha2 : W18 V (main_v3 : DevRef τ sig) = W4 V (main_v3 : DevRef τ sig) :=
    (after_of_writes_sub (r := main_v3) ops17 (W17 V) ops17_writes (by decide)).trans ((after_of_writes_sub (r := main_v3) ops16 (W16 V) ops16_writes (by decide)).trans ((after_of_writes_sub (r := main_v3) ops15 (W15 V) ops15_writes (by decide)).trans ((after_of_writes_sub (r := main_v3) ops14 (W14 V) ops14_writes (by decide)).trans ((after_of_writes_sub (r := main_v3) ops13 (W13 V) ops13_writes (by decide)).trans ((after_of_writes_sub (r := main_v3) ops12 (W12 V) ops12_writes (by decide)).trans ((after_of_writes_sub (r := main_v3) ops11 (W11 V) ops11_writes (by decide)).trans ((after_of_writes_sub (r := main_v3) ops10 (W10 V) ops10_writes (by decide)).trans ((after_of_writes_sub (r := main_v3) ops9 (W9 V) ops9_writes (by decide)).trans ((after_of_writes_sub (r := main_v3) ops8 (W8 V) ops8_writes (by decide)).trans ((after_of_writes_sub (r := main_v3) ops7 (W7 V) ops7_writes (by decide)).trans ((after_of_writes_sub (r := main_v3) ops6 (W6 V) ops6_writes (by decide)).trans ((after_of_writes_sub (r := main_v3) ops5 (W5 V) ops5_writes (by decide)).trans ((after_of_writes_sub (r := main_v3) ops4 (W4 V) ops4_writes (by decide)))))))))))))))
  have ha3 : W18 V (main_v6 : DevRef τ sig) = W4 V (main_v6 : DevRef τ sig) :=
    (after_of_writes_sub (r := main_v6) ops17 (W17 V) ops17_writes (by decide)).trans ((after_of_writes_sub (r := main_v6) ops16 (W16 V) ops16_writes (by decide)).trans ((after_of_writes_sub (r := main_v6) ops15 (W15 V) ops15_writes (by decide)).trans ((after_of_writes_sub (r := main_v6) ops14 (W14 V) ops14_writes (by decide)).trans ((after_of_writes_sub (r := main_v6) ops13 (W13 V) ops13_writes (by decide)).trans ((after_of_writes_sub (r := main_v6) ops12 (W12 V) ops12_writes (by decide)).trans ((after_of_writes_sub (r := main_v6) ops11 (W11 V) ops11_writes (by decide)).trans ((after_of_writes_sub (r := main_v6) ops10 (W10 V) ops10_writes (by decide)).trans ((after_of_writes_sub (r := main_v6) ops9 (W9 V) ops9_writes (by decide)).trans ((after_of_writes_sub (r := main_v6) ops8 (W8 V) ops8_writes (by decide)).trans ((after_of_writes_sub (r := main_v6) ops7 (W7 V) ops7_writes (by decide)).trans ((after_of_writes_sub (r := main_v6) ops6 (W6 V) ops6_writes (by decide)).trans ((after_of_writes_sub (r := main_v6) ops5 (W5 V) ops5_writes (by decide)).trans ((after_of_writes_sub (r := main_v6) ops4 (W4 V) ops4_writes (by decide)))))))))))))))
  have ha4 : W18 V (main_v10 : DevRef τ sig) = W4 V (main_v10 : DevRef τ sig) :=
    (after_of_writes_sub (r := main_v10) ops17 (W17 V) ops17_writes (by decide)).trans ((after_of_writes_sub (r := main_v10) ops16 (W16 V) ops16_writes (by decide)).trans ((after_of_writes_sub (r := main_v10) ops15 (W15 V) ops15_writes (by decide)).trans ((after_of_writes_sub (r := main_v10) ops14 (W14 V) ops14_writes (by decide)).trans ((after_of_writes_sub (r := main_v10) ops13 (W13 V) ops13_writes (by decide)).trans ((after_of_writes_sub (r := main_v10) ops12 (W12 V) ops12_writes (by decide)).trans ((after_of_writes_sub (r := main_v10) ops11 (W11 V) ops11_writes (by decide)).trans ((after_of_writes_sub (r := main_v10) ops10 (W10 V) ops10_writes (by decide)).trans ((after_of_writes_sub (r := main_v10) ops9 (W9 V) ops9_writes (by decide)).trans ((after_of_writes_sub (r := main_v10) ops8 (W8 V) ops8_writes (by decide)).trans ((after_of_writes_sub (r := main_v10) ops7 (W7 V) ops7_writes (by decide)).trans ((after_of_writes_sub (r := main_v10) ops6 (W6 V) ops6_writes (by decide)).trans ((after_of_writes_sub (r := main_v10) ops5 (W5 V) ops5_writes (by decide)).trans ((after_of_writes_sub (r := main_v10) ops4 (W4 V) ops4_writes (by decide)))))))))))))))
  have ha5 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  rw [after_opsW, h1, ha0, ha1, ha2, ha3, ha4, ha5]
  exact ops4_v46 (W4 V)

theorem ops5_v54 (W : Valuation τ sig (Elt F)) :
    after ops5 W (main_v54 : DevRef τ sig) = crossValidOf (W (main_v46 : DevRef τ sig)) := by
  after_results_simp; try rfl
theorem A_v54 (V : Valuation τ sig (Elt F)) :
    after ops V (main_v54 : DevRef τ sig) = crossValidOf (after ops V (main_v46 : DevRef τ sig)) := by
  have h1 : W18 V (main_v54 : DevRef τ sig) = W6 V (main_v54 : DevRef τ sig) :=
    (after_of_writes_sub (r := main_v54) ops17 (W17 V) ops17_writes (by decide)).trans ((after_of_writes_sub (r := main_v54) ops16 (W16 V) ops16_writes (by decide)).trans ((after_of_writes_sub (r := main_v54) ops15 (W15 V) ops15_writes (by decide)).trans ((after_of_writes_sub (r := main_v54) ops14 (W14 V) ops14_writes (by decide)).trans ((after_of_writes_sub (r := main_v54) ops13 (W13 V) ops13_writes (by decide)).trans ((after_of_writes_sub (r := main_v54) ops12 (W12 V) ops12_writes (by decide)).trans ((after_of_writes_sub (r := main_v54) ops11 (W11 V) ops11_writes (by decide)).trans ((after_of_writes_sub (r := main_v54) ops10 (W10 V) ops10_writes (by decide)).trans ((after_of_writes_sub (r := main_v54) ops9 (W9 V) ops9_writes (by decide)).trans ((after_of_writes_sub (r := main_v54) ops8 (W8 V) ops8_writes (by decide)).trans ((after_of_writes_sub (r := main_v54) ops7 (W7 V) ops7_writes (by decide)).trans ((after_of_writes_sub (r := main_v54) ops6 (W6 V) ops6_writes (by decide)))))))))))))
  have ha0 : W18 V (main_v46 : DevRef τ sig) = W5 V (main_v46 : DevRef τ sig) :=
    (after_of_writes_sub (r := main_v46) ops17 (W17 V) ops17_writes (by decide)).trans ((after_of_writes_sub (r := main_v46) ops16 (W16 V) ops16_writes (by decide)).trans ((after_of_writes_sub (r := main_v46) ops15 (W15 V) ops15_writes (by decide)).trans ((after_of_writes_sub (r := main_v46) ops14 (W14 V) ops14_writes (by decide)).trans ((after_of_writes_sub (r := main_v46) ops13 (W13 V) ops13_writes (by decide)).trans ((after_of_writes_sub (r := main_v46) ops12 (W12 V) ops12_writes (by decide)).trans ((after_of_writes_sub (r := main_v46) ops11 (W11 V) ops11_writes (by decide)).trans ((after_of_writes_sub (r := main_v46) ops10 (W10 V) ops10_writes (by decide)).trans ((after_of_writes_sub (r := main_v46) ops9 (W9 V) ops9_writes (by decide)).trans ((after_of_writes_sub (r := main_v46) ops8 (W8 V) ops8_writes (by decide)).trans ((after_of_writes_sub (r := main_v46) ops7 (W7 V) ops7_writes (by decide)).trans ((after_of_writes_sub (r := main_v46) ops6 (W6 V) ops6_writes (by decide)).trans ((after_of_writes_sub (r := main_v46) ops5 (W5 V) ops5_writes (by decide))))))))))))))
  rw [after_opsW, h1, ha0]
  exact ops5_v54 (W5 V)

/-- The flags buffer at the end of the run: the flags of the rescaled prompt rows against the data rows. -/
theorem A_crossValid (V : Valuation τ sig (Elt F)) :
    after ops V (main_v54 : DevRef τ sig) = crossValid (V (main_arg0 : DevRef τ sig)) (PP (V (main_arg0 : DevRef τ sig)) (V (main_arg2 : DevRef τ sig))) := by
  rw [A_v54, A_v46, A_muP, A_sigP, A_muO, A_v11, A_c_4, A_arg0, A_arg2]; rfl

end AnyFloat

/-! ## The flags at an entry, at the extended reals -/

/-- The row-major position of entry `(p, n)` of the 10 × 200000 table. -/
def flat (p : Fin 10) (n : Fin 200000) : Fin 2000000 :=
  ⟨p.val * 200000 + n.val, by have := p.isLt; have := n.isLt; omega⟩

theorem flat_val (p : Fin 10) (n : Fin 200000) : (flat p n).val = p.val * 200000 + n.val := rfl

/-- A scalar spread over the table reads the scalar. -/
theorem table_apply (c : FVec Ideal S_ .f32) (j : S10x200000.Idx) : table c j = c ix0 :=
  broadcastInDim_scalar_apply bcast_S_S10x200000 c j

/-- The transposed data at `(c, n)` is the data at `(n, c)`. -/
theorem transpose_x_apply (x : FVec Ideal S200000x256 .f32) (c : Fin 256) (n : Fin 200000) :
    transpose S256x200000 [1, 0] x transposes_S200000x256_S256x200000_1_0 (ix2 c n) = x (ix2 n c) :=
  transpose_apply [1, 0] x transposes_S200000x256_S256x200000_1_0 (ix2 c n) (ix2 n c) (fun b => by fin_cases b <;> rfl)

/-- Minus the inner product of row `p` of `pp` with data row `n`. -/
theorem negSim_apply (x : FVec Ideal S200000x256 .f32) (pp : FVec Ideal S10x256 .f32) (p : Fin 10) (n : Fin 200000) :
    negSim x pp (ix2 p n) = -(∑ c : Fin 256, pp (ix2 p c) * x (ix2 n c)) := by
  unfold negSim
  show -(Host.dotGeneral dot_S10x256_S256x200000_S10x200000_1_0_0_1_n_n none pp
      (transpose S256x200000 [1, 0] x transposes_S200000x256_S256x200000_1_0) (ix2 p n)) = _
  have hd : dot_S10x256_S256x200000_S10x200000_1_0_0_1_n_n = DotDims.plain 10 256 200000 := rfl
  rw [hd, StackMember.dotGeneral_plain_apply]
  refine congrArg Neg.neg (Finset.sum_congr rfl fun c _ => ?_)
  rw [transpose_x_apply]

/-- The flag at row-major position `p * 200000 + n`: `1 / (1 + exp z) > 0.4` at `(p, n)`, in the program's words. -/
theorem crossValidOf_apply (z : FVec Ideal S10x200000 .f32) (p : Fin 10) (n : Fin 200000) :
    crossValidOf z (ix1 (flat p n))
      = Ideal.cmp .ogt
          (Ideal.div (Ideal.ofBits .f32 0x3F800000#32) (Ideal.ofBits .f32 0x3F800000#32 + Ideal.exp (z (ix2 p n))))
          (Ideal.ofBits .f32 0x3ECCCCCD#32) := by
  unfold crossValidOf
  rw [shapeCast_apply _ shapeCasts_S10x200000_S2000000 (ix1 (flat p n)) (ix2 p n)
    (by rw [Shape.rowMajor_val_two, Shape.rowMajor_val_one]; rfl)]
  rw [cmpf_apply, hostDivf_apply, addf_apply, table_apply, table_apply]
  rfl

/-- The flag of rescaled prompt row `p` against data row `n`: the logistic of their inner product, in the program's own
    form `1 / (1 + exp (-(Σ_c pp p c · x n c)))`, compared with the word `0x3ECCCCCD`. -/
theorem crossValid_apply (x : FVec Ideal S200000x256 .f32) (pp : FVec Ideal S10x256 .f32) (p : Fin 10) (n : Fin 200000) :
    crossValid x pp (ix1 (flat p n))
      = Ideal.cmp .ogt
          (Ideal.div (Ideal.ofBits .f32 0x3F800000#32)
            (Ideal.ofBits .f32 0x3F800000#32 + Ideal.exp (-(∑ c : Fin 256, pp (ix2 p c) * x (ix2 n c)))))
          (Ideal.ofBits .f32 0x3ECCCCCD#32) := by
  unfold crossValid
  rw [crossValidOf_apply, negSim_apply]

end Cert.ReferenceIdeal.Hand

end
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.KICrossEq.lean ====
/-
  The cross-similarity mask is the same on both sides. The kernel stores 1 or 0 at (n, p) according to whether
  the logistic function of the row-by-row product x[n,:]·p'[p,:] exceeds the threshold word, and the host
  transposes, flattens and compares with one half; the reference compares 1/(1+exp(-(p'[p,:]·x[n,:]))) with
  the same threshold word at the flat position of (p, n). A product of two extended reals commutes, and
  1/(1+exp(-s)) spelt with the word of 1.0 is the logistic function.
-/
import proofs.«162080_j20057497272460_1_alg».proof.Proof.KIHost
import proofs.«162080_j20057497272460_1_alg».proof.Proof.RefCross
import proofs.«162080_j20057497272460_1_alg».proof.Proof.LibPlaneSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- Every flat position below 2000000 is 200000 p + n for a row p < 10 and a column n < 200000. -/
theorem flat_surj (i : S2000000.Idx) : ∃ (p : Fin 10) (n : Fin 200000), i = ix1 (Cert.ReferenceIdeal.Hand.flat p n) := by
  have hi : (i 0).val < 2000000 := (i 0).isLt
  refine ⟨⟨(i 0).val / 200000, by omega⟩, ⟨(i 0).val % 200000, Nat.mod_lt _ (by norm_num)⟩, ?_⟩
  refine (eq_ix1 i).trans (congrArg ix1 (Fin.ext ?_))
  show (i 0).val = (i 0).val / 200000 * 200000 + (i 0).val % 200000
  omega

theorem crossBit_eq (a0 : FVec Ideal S200000x256 .f32) (a1 : FVec Ideal S10x256 .f32) (n : Fin 200000) (p : Fin 10) :
    crossBit a0 a1 n p
      = Ideal.cmp .ogt
          (Ideal.div (Ideal.ofBits .f32 0x3F800000#32)
            (Ideal.ofBits .f32 0x3F800000#32 + Ideal.exp (-(∑ c : Fin 256, a1 (ix2 p c) * a0 (ix2 n c)))))
          (Ideal.ofBits .f32 0x3ECCCCCD#32) := by
  rw [Cert.LibPlaneSum.logistic_spelt]
  unfold crossBit Ideal.cmp
  rw [show (∑ c : Fin 256, a1 (ix2 p c) * a0 (ix2 n c)) = ∑ k : Fin 256, a0 (ix2 n k) * a1 (ix2 p k) from
    Finset.sum_congr rfl fun k _ => mul_comm _ _]
  by_cases h : Ideal.ofBits .f32 0x3ECCCCCD#32 < Ideal.logistic (∑ k : Fin 256, a0 (ix2 n k) * a1 (ix2 p k))
  · rw [if_pos h]; simp only [h, decide_true]; rfl
  · rw [if_neg h]; simp only [h, decide_false]; rfl

/-- The kernel program's cross mask is the reference's function of x and the rescaled prompt rows. -/
theorem W7_v55_ref (c : Dev nD) :
    (W7 m c main_v55 : S2000000.Idx → BitVec 1)
      = Cert.ReferenceIdeal.Hand.crossValid (F := Ideal) (W5 m c main_arg0 : FVec Ideal S200000x256 .f32) (W5 m c main_v28 : FVec Ideal S10x256 .f32) := by
  funext i
  obtain ⟨p, n, rfl⟩ := flat_surj i
  refine (W7_main_v55_apply m c p n).trans ?_
  rw [Cert.ReferenceIdeal.Hand.crossValid_apply]
  exact crossBit_eq _ _ n p

end Cert.KernelIdeal.Hand

end
-- ==== Proof.KITail.lean ====
/-
  The integer side of the program's host operations, named.

  After its two kernel regions the program builds a candidate edge list (sources, destinations, a validity mask),
  replaces the invalid candidates by a sentinel, sorts the pairs lexicographically, marks duplicates, moves the
  marked and the invalid entries to the end by a second stable sort, and returns the two rows and a float weight
  row. This file names that chain as functions of a few intermediate arrays (it never looks inside a sort or a
  gather) and states what each stretch of host operations leaves in its result buffers as those functions of what
  the stretch before it left. Two programs that end with the same chain then have equal results as soon as the
  few intermediate arrays agree.
-/
import proofs.«162080_j20057497272460_1_alg».proof.Proof.KIRun
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The functions -/

/-- The similarity mask of the ten standardized prompt rows: the logistic of every pairwise inner product compared
    (greater) against a threshold word, flattened to 100 bits. -/
def IVf (pp : FVec Ideal S10x256 .f32) : IVec S100 1 :=
  let v30 : FVec Ideal S256x10 .f32 := transpose S256x10 [1, 0] pp transposes_S10x256_S256x10_1_0
  let v31 : FVec Ideal S10x10 .f32 := Host.dotGeneral (F := Ideal) dot_S10x256_S256x10_S10x10_1_0_0_1_n_n none pp v30
  let v32 : FVec Ideal S10x10 .f32 := Host.negf (F := Ideal) v31
  let v33 : FVec Ideal S10x10 .f32 := Host.exp (F := Ideal) v32
  let v34 : FVec Ideal S10x10 .f32 := broadcastInDim S10x10 ![] bcast_S_S10x10 (constant (F := Ideal) S_ .f32 0x3F800000#32)
  let v35 : FVec Ideal S10x10 .f32 := addf v34 v33
  let v36 : FVec Ideal S10x10 .f32 := broadcastInDim S10x10 ![] bcast_S_S10x10 (constant (F := Ideal) S_ .f32 0x3F800000#32)
  let v37 : FVec Ideal S10x10 .f32 := Host.divf (F := Ideal) v36 v35
  let v38 : FVec Ideal S10x10 .f32 := broadcastInDim S10x10 ![] bcast_S_S10x10 (constant (F := Ideal) S_ .f32 0x3E4CCCCD#32)
  let v39 : IVec S10x10 1 := cmpf .ogt v37 v38
  shapeCast S100 v39 shapeCasts_S10x10_S100

/-- The ten prompt-node numbers 0 … 9. -/
def iota10 : IVec S10 32 := iotaInDim S10 32 0

/-- Prompt-to-prompt candidate sources: row number + 200000, over the 10 × 10 pairs flattened. -/
def ppSrc : IVec S100 32 :=
  addi (shapeCast S100 (broadcastInDim S10x10 ![0] bcast_S10_S10x10_0 iota10) shapeCasts_S10x10_S100)
    (broadcastInDim S100 ![] bcast_S_S100 (constantI S_ 32 200000#32))

/-- Prompt-to-prompt candidate destinations: column number + 200000. -/
def ppDst : IVec S100 32 :=
  addi (shapeCast S100 (broadcastInDim S10x10 ![0, 1] bcast_S1x10_S10x10_0_1 (shapeCast S1x10 iota10 shapeCasts_S10_S1x10)) shapeCasts_S10x10_S100)
    (broadcastInDim S100 ![] bcast_S_S100 (constantI S_ 32 200000#32))

/-- Prompt-to-node candidates, the prompt side: prompt number + 200000 over the 10 × 200000 pairs flattened. -/
def pnPrompt : IVec S2000000 32 :=
  addi (shapeCast S2000000 (broadcastInDim S10x200000 ![0] bcast_S10_S10x200000_0 iota10) shapeCasts_S10x200000_S2000000)
    (broadcastInDim S2000000 ![] bcast_S_S2000000 (constantI S_ 32 200000#32))

/-- Prompt-to-node candidates, the node side: node number over the 10 × 200000 pairs flattened. -/
def pnNode : IVec S2000000 32 :=
  shapeCast S2000000 (broadcastInDim S10x200000 ![0, 1] bcast_S1x200000_S10x200000_0_1
    (shapeCast S1x200000 (iotaInDim S200000 32 0) shapeCasts_S200000_S1x200000)) shapeCasts_S10x200000_S2000000

/-- All candidate sources: the given edges' first row, then the prompt pairs, prompt→node, node→prompt. -/
def SRCf (e : IVec S2x3200000 32) : IVec S7200100 32 :=
  concatenate S7200100 0
    [⟨S3200000, shapeCast S3200000 (extractStridedSlice S1x3200000 ![0, 0] e slices_S2x3200000_S1x3200000_0_0) shapeCasts_S1x3200000_S3200000⟩,
     ⟨S100, ppSrc⟩, ⟨S2000000, pnPrompt⟩, ⟨S2000000, pnNode⟩] concatenates_S3200000_S100_S2000000_S2000000_S7200100_d0

/-- All candidate destinations: the given edges' second row, then the prompt pairs, prompt→node, node→prompt. -/
def DSTf (e : IVec S2x3200000 32) : IVec S7200100 32 :=
  concatenate S7200100 0
    [⟨S3200000, shapeCast S3200000 (extractStridedSlice S1x3200000 ![1, 0] e slices_S2x3200000_S1x3200000_1_0) shapeCasts_S1x3200000_S3200000⟩,
     ⟨S100, ppDst⟩, ⟨S2000000, pnNode⟩, ⟨S2000000, pnPrompt⟩] concatenates_S3200000_S100_S2000000_S2000000_S7200100_d0

/-- The cross mask: the node-by-prompt scores, transposed and flattened prompt-major, compared (greater) against one half. -/
def crossMask (s : FVec Ideal S200000x10 .f32) : IVec S2000000 1 :=
  cmpf .ogt (shapeCast S2000000 (transpose S10x200000 [1, 0] s transposes_S200000x10_S10x200000_1_0) shapeCasts_S10x200000_S2000000)
    (broadcastInDim S2000000 ![] bcast_S_S2000000 (constant (F := Ideal) S_ .f32 0x3F000000#32))

/-- The validity mask: every given edge, then the prompt-pair mask, then the cross mask twice. -/
def VALIDf (iv : IVec S100 1) (cv : IVec S2000000 1) : IVec S7200100 1 :=
  concatenate S7200100 0
    [⟨S3200000, broadcastInDim S3200000 ![] bcast_S_S3200000 (constantI S_ 1 1#1)⟩,
     ⟨S100, iv⟩, ⟨S2000000, cv⟩, ⟨S2000000, cv⟩] concatenates_S3200000_S100_S2000000_S2000000_S7200100_d0

/-- The candidate sources over given prompt-pair sources and prompt numbers (what the stretch reads from earlier buffers). -/
def SRCraw (e : IVec S2x3200000 32) (a45 : IVec S100 32) (a41 : IVec S10 32) : IVec S7200100 32 :=
  concatenate S7200100 0
    [⟨S3200000, shapeCast S3200000 (extractStridedSlice S1x3200000 ![0, 0] e slices_S2x3200000_S1x3200000_0_0) shapeCasts_S1x3200000_S3200000⟩,
     ⟨S100, a45⟩,
     ⟨S2000000, addi (shapeCast S2000000 (broadcastInDim S10x200000 ![0] bcast_S10_S10x200000_0 a41) shapeCasts_S10x200000_S2000000)
        (broadcastInDim S2000000 ![] bcast_S_S2000000 (constantI S_ 32 200000#32))⟩,
     ⟨S2000000, pnNode⟩] concatenates_S3200000_S100_S2000000_S2000000_S7200100_d0

/-- The candidate destinations over given prompt-pair destinations and prompt numbers. -/
def DSTraw (e : IVec S2x3200000 32) (a50 : IVec S100 32) (a41 : IVec S10 32) : IVec S7200100 32 :=
  concatenate S7200100 0
    [⟨S3200000, shapeCast S3200000 (extractStridedSlice S1x3200000 ![1, 0] e slices_S2x3200000_S1x3200000_1_0) shapeCasts_S1x3200000_S3200000⟩,
     ⟨S100, a50⟩,
     ⟨S2000000, pnNode⟩,
     ⟨S2000000, addi (shapeCast S2000000 (broadcastInDim S10x200000 ![0] bcast_S10_S10x200000_0 a41) shapeCasts_S10x200000_S2000000)
        (broadcastInDim S2000000 ![] bcast_S_S2000000 (constantI S_ 32 200000#32))⟩] concatenates_S3200000_S100_S2000000_S2000000_S7200100_d0

theorem SRCraw_eq (e : IVec S2x3200000 32) : SRCraw e ppSrc iota10 = SRCf e := rfl
theorem DSTraw_eq (e : IVec S2x3200000 32) : DSTraw e ppDst iota10 = DSTf e := rfl

/-! ## The stretches before the tail, read at their result buffers (from any earlier contents) -/

section Stretches
variable (U : Valuation τ sig (Elt Ideal))

theorem ops1_v40 : after hostOps1 U (main_v40 : DevRef τ sig) = IVf (after hostOps1 U (main_v28 : DevRef τ sig)) := by
  after_results_simp; rfl

theorem ops1_v41 : after hostOps1 U (main_v41 : DevRef τ sig) = iota10 := by
  after_results_simp; rfl

theorem ops1_v45 : after hostOps1 U (main_v45 : DevRef τ sig) = ppSrc := by
  after_results_simp; rfl

theorem ops1_v50 : after hostOps1 U (main_v50 : DevRef τ sig) = ppDst := by
  after_results_simp; rfl

theorem ops2_v66 : after hostOps2 U (main_v66 : DevRef τ sig)
    = SRCraw (U (main_arg1 : DevRef τ sig)) (U (main_v45 : DevRef τ sig)) (U (main_v41 : DevRef τ sig)) := by
  after_results; rfl

theorem ops2_v69 : after hostOps2 U (main_v69 : DevRef τ sig)
    = DSTraw (U (main_arg1 : DevRef τ sig)) (U (main_v50 : DevRef τ sig)) (U (main_v41 : DevRef τ sig)) := by
  after_results; rfl

theorem ops2_v55 : after hostOps2 U (main_v55 : DevRef τ sig) = crossMask (U (main_v51 : DevRef τ sig)) := by
  after_results; try rfl

theorem ops2_v71 : after hostOps2 U (main_v71 : DevRef τ sig)
    = VALIDf (U (main_v40 : DevRef τ sig)) (crossMask (U (main_v51 : DevRef τ sig))) := by
  after_results_simp; try rfl

theorem ops2_c_15 : after hostOps2 U (main_c_15 : DevRef τ sig) = constantI S_ 32 200010#32 := by
  after_results; try rfl

end Stretches

/-! ## The same at the program's boundaries -/

section Boundaries
variable (m : (ℓ : Loc nD τ sig) → Buf (Elt Ideal) ℓ) (c : Dev nD)

/-- The prompt-pair mask is the function IVf of the standardized prompt rows, both as the stretch after the first region leaves them. -/
theorem W5_v40 : W5 m c (main_v40 : DevRef τ sig) = IVf (W5 m c (main_v28 : DevRef τ sig)) := ops1_v40 (W4 m c)

/-- The second region does not touch the prompt-pair mask. -/
theorem W6_v40 : W6 m c (main_v40 : DevRef τ sig) = W5 m c (main_v40 : DevRef τ sig) := W6_of_ne m c main_v40 (by decide)

theorem W6_v45 : W6 m c (main_v45 : DevRef τ sig) = ppSrc := (W6_of_ne m c main_v45 (by decide)).trans (ops1_v45 (W4 m c))
theorem W6_v50 : W6 m c (main_v50 : DevRef τ sig) = ppDst := (W6_of_ne m c main_v50 (by decide)).trans (ops1_v50 (W4 m c))
theorem W6_v41 : W6 m c (main_v41 : DevRef τ sig) = iota10 := (W6_of_ne m c main_v41 (by decide)).trans (ops1_v41 (W4 m c))

/-- The candidate sources are SRCf of the edge-list argument as the second region leaves it. -/
theorem W7_v66 : W7 m c (main_v66 : DevRef τ sig) = SRCf (W6 m c (main_arg1 : DevRef τ sig)) := by
  refine (ops2_v66 (W6 m c)).trans ?_
  rw [W6_v45, W6_v41, SRCraw_eq]

/-- The candidate destinations are DSTf of the edge-list argument as the second region leaves it. -/
theorem W7_v69 : W7 m c (main_v69 : DevRef τ sig) = DSTf (W6 m c (main_arg1 : DevRef τ sig)) := by
  refine (ops2_v69 (W6 m c)).trans ?_
  rw [W6_v50, W6_v41, DSTraw_eq]

/-- The validity mask is VALIDf of the prompt-pair mask and the cross mask. -/
theorem W7_v55 : W7 m c (main_v55 : DevRef τ sig) = crossMask (W6 m c (main_v51 : DevRef τ sig)) := ops2_v55 (W6 m c)

theorem W7_v71 : W7 m c (main_v71 : DevRef τ sig)
    = VALIDf (W6 m c (main_v40 : DevRef τ sig)) (W7 m c (main_v55 : DevRef τ sig)) :=
  (ops2_v71 (W6 m c)).trans (by rw [W7_v55])

theorem W7_c_15 : W7 m c (main_c_15 : DevRef τ sig) = constantI S_ 32 200010#32 := ops2_c_15 (W6 m c)

end Boundaries

/-! ## The tail: its functions -/

/-- The sentinel row: the node count 200010 at every candidate. -/
def sentinel : IVec S7200100 32 := broadcastInDim S7200100 ![] bcast_S_S7200100 (constantI S_ 32 200010#32)

/-- A candidate row with its invalid entries replaced by the sentinel. -/
def maskTo (valid : IVec S7200100 1) (a : IVec S7200100 32) : IVec S7200100 32 := select valid a sentinel

/-- The candidates' positions 0 … 7200099. -/
def iotaE : IVec S7200100 32 := iotaInDim S7200100 32 0

/-- The permutation a stable lexicographic sort of the pairs (a, b) applies, as positions. -/
def lexPerm (a b : IVec S7200100 32) : IVec S7200100 32 :=
  (Host.sort3 S7200100 0 comparator_i32_i32_i32_d0 a b iotaE).2.2

/-- A row of positions made nonnegative (a negative entry + 7200100) with a trailing unit axis: a gather's index operand. -/
def wrapIdx (p : IVec S7200100 32) : IVec S7200100x1 32 :=
  broadcastInDim S7200100x1 ![0] bcast_S7200100_S7200100x1_0
    (select (cmpi .slt p (broadcastInDim S7200100 ![] bcast_S_S7200100 (constantI S_ 32 0#32)))
      (addi p (broadcastInDim S7200100 ![] bcast_S_S7200100 (constantI S_ 32 7200100#32))) p)

/-- The row a read at the positions p. -/
def takeAt (a p : IVec S7200100 32) : IVec S7200100 32 :=
  Host.gather gather_S7200100_S7200100x1_S7200100_n_0_n_n_0_1_1 a (wrapIdx p)

/-- The duplicate mark of a sorted pair of rows: not the first entry, both coordinates equal to the entry before,
    and the first coordinate not the sentinel. -/
def dupMark (g h : IVec S7200100 32) : IVec S7200100 1 :=
  andi
    (concatenate S7200100 0
      [⟨S1, broadcastInDim S1 ![] bcast_S_S1 (constantI S_ 1 0#1)⟩,
       ⟨S7200099, andi
          (cmpi .eq (extractStridedSlice S7200099 ![1] g slices_S7200100_S7200099_1) (extractStridedSlice S7200099 ![0] g slices_S7200100_S7200099_0))
          (cmpi .eq (extractStridedSlice S7200099 ![1] h slices_S7200100_S7200099_1) (extractStridedSlice S7200099 ![0] h slices_S7200100_S7200099_0))⟩]
      concatenates_S1_S7200099_S7200100_d0)
    (cmpi .ne g sentinel)

/-- A row with its marked entries replaced by the sentinel. -/
def dropTo (mark : IVec S7200100 1) (a : IVec S7200100 32) : IVec S7200100 32 := select mark sentinel a

/-- The key of the second sort: 1 where the first coordinate is the sentinel, else 0. -/
def endKey (k : IVec S7200100 32) : IVec S7200100 32 := extui 32 (cmpi .eq k sentinel) natLt_1_32

/-- The permutation of the second stable sort (sentinel entries to the end), as positions. -/
def endPerm (k : IVec S7200100 32) : IVec S7200100 32 := (Host.sort2 S7200100 0 comparator_i32_i32_d0 (endKey k) iotaE).2

/-- Two rows stacked. -/
def rowsOf (a b : IVec S7200100 32) : IVec S2x7200100 32 :=
  concatenate S2x7200100 0
    [⟨S1x7200100, broadcastInDim S1x7200100 ![1] bcast_S7200100_S1x7200100_1 a⟩,
     ⟨S1x7200100, broadcastInDim S1x7200100 ![1] bcast_S7200100_S1x7200100_1 b⟩] concatenates_S1x7200100_S1x7200100_S2x7200100_d0

/-- The weight row: 1 where the first coordinate is not the sentinel, else 0, as a float. -/
def weightOf (a : IVec S7200100 32) : FVec Ideal S7200100 .f32 := uitofp (F := Ideal) .f32 (cmpi .ne a sentinel)

section TailFns
variable (src dst : IVec S7200100 32) (valid : IVec S7200100 1)

/-- The sorted first coordinates. -/
def sortedS : IVec S7200100 32 := takeAt (maskTo valid src) (lexPerm (maskTo valid src) (maskTo valid dst))
/-- The sorted second coordinates. -/
def sortedD : IVec S7200100 32 := takeAt (maskTo valid dst) (lexPerm (maskTo valid src) (maskTo valid dst))
/-- The sorted first coordinates with duplicates replaced by the sentinel. -/
def keptS : IVec S7200100 32 := dropTo (dupMark (sortedS src dst valid) (sortedD src dst valid)) (sortedS src dst valid)
/-- The sorted second coordinates with duplicates replaced by the sentinel. -/
def keptD : IVec S7200100 32 := dropTo (dupMark (sortedS src dst valid) (sortedD src dst valid)) (sortedD src dst valid)
/-- The final first coordinates. -/
def outS : IVec S7200100 32 := takeAt (keptS src dst valid) (endPerm (keptS src dst valid))
/-- The final second coordinates. -/
def outD : IVec S7200100 32 := takeAt (keptD src dst valid) (endPerm (keptS src dst valid))

/-- THE TAIL, integer result: the deduplicated, compacted edge list as two rows. -/
def tailI : IVec S2x7200100 32 := rowsOf (outS src dst valid) (outD src dst valid)
/-- THE TAIL, float result: the weight of each returned edge. -/
def tailW : FVec Ideal S7200100 .f32 := weightOf (outS src dst valid)

end TailFns

/-! ## The tail's stretches, read at their result buffers (from any earlier contents) -/

section TailStretches
variable (U : Valuation τ sig (Elt Ideal))

theorem t1_v72 : after hostOps2_1 U (main_v72 : DevRef τ sig) = select (U (main_v71 : DevRef τ sig)) (U (main_v66 : DevRef τ sig)) (broadcastInDim S7200100 ![] bcast_S_S7200100 (U (main_c_15 : DevRef τ sig))) := by
  after_results; try rfl
theorem t2_c_16 : after hostOps2_2 U (main_c_16 : DevRef τ sig) = constantI S_ 32 200010#32 := by
  after_results; try rfl
theorem t3_v73 : after hostOps2_3 U (main_v73 : DevRef τ sig) = select (U (main_v71 : DevRef τ sig)) (U (main_v69 : DevRef τ sig)) (broadcastInDim S7200100 ![] bcast_S_S7200100 (U (main_c_16 : DevRef τ sig))) := by
  after_results; try rfl
theorem t4_v74 : after hostOps2_4 U (main_v74 : DevRef τ sig) = lexPerm (U (main_v72 : DevRef τ sig)) (U (main_v73 : DevRef τ sig)) := by
  after_results; try rfl
theorem t5_v81 : after hostOps2_5 U (main_v81 : DevRef τ sig) = takeAt (U (main_v72 : DevRef τ sig)) (U (main_v74 : DevRef τ sig)) := by
  after_results_simp; try rfl
theorem t5_v88 : after hostOps2_5 U (main_v88 : DevRef τ sig) = takeAt (U (main_v73 : DevRef τ sig)) (U (main_v74 : DevRef τ sig)) := by
  after_results_simp; try rfl
theorem t5_v100 : after hostOps2_5 U (main_v100 : DevRef τ sig)
    = dupMark (takeAt (U (main_v72 : DevRef τ sig)) (U (main_v74 : DevRef τ sig))) (takeAt (U (main_v73 : DevRef τ sig)) (U (main_v74 : DevRef τ sig))) := by
  after_results_simp; try rfl
theorem t5_c_23 : after hostOps2_5 U (main_c_23 : DevRef τ sig) = constantI S_ 32 200010#32 := by
  after_results_simp; try rfl
theorem t6_v101 : after hostOps2_6 U (main_v101 : DevRef τ sig) = select (U (main_v100 : DevRef τ sig)) (broadcastInDim S7200100 ![] bcast_S_S7200100 (U (main_c_23 : DevRef τ sig))) (U (main_v81 : DevRef τ sig)) := by
  after_results; try rfl
theorem t7_c_24 : after hostOps2_7 U (main_c_24 : DevRef τ sig) = constantI S_ 32 200010#32 := by
  after_results; try rfl
theorem t8_v102 : after hostOps2_8 U (main_v102 : DevRef τ sig) = select (U (main_v100 : DevRef τ sig)) (broadcastInDim S7200100 ![] bcast_S_S7200100 (U (main_c_24 : DevRef τ sig))) (U (main_v88 : DevRef τ sig)) := by
  after_results; try rfl
theorem t9_v105 : after hostOps2_9 U (main_v105 : DevRef τ sig) = endKey (U (main_v101 : DevRef τ sig)) := by
  after_results; try rfl
theorem t10_v106 : after hostOps2_10 U (main_v106 : DevRef τ sig) = (Host.sort2 S7200100 0 comparator_i32_i32_d0 (U (main_v105 : DevRef τ sig)) iotaE).2 := by
  after_results; try rfl
theorem t11_v123 : after hostOps2_11 U (main_v123 : DevRef τ sig)
    = rowsOf (takeAt (U (main_v101 : DevRef τ sig)) (U (main_v106 : DevRef τ sig))) (takeAt (U (main_v102 : DevRef τ sig)) (U (main_v106 : DevRef τ sig))) := by
  after_results_simp; try rfl
theorem t11_v126 : after hostOps2_11 U (main_v126 : DevRef τ sig) = weightOf (takeAt (U (main_v101 : DevRef τ sig)) (U (main_v106 : DevRef τ sig))) := by
  after_results_simp; try rfl

end TailStretches

/-! ## The tail at the program's boundaries -/

section TailBoundaries
variable (m : (ℓ : Loc nD τ sig) → Buf (Elt Ideal) ℓ) (c : Dev nD)

/-! What a stretch does not write it leaves as it was. -/
theorem keep8 (r : Ref sig .tc) (h : r ∉ hostOps2_1_W) : W8 m c (r : DevRef τ sig) = W7 m c (r : DevRef τ sig) :=
  after_of_writes_sub hostOps2_1 _ hostOps2_1_writes h
theorem keep9 (r : Ref sig .tc) (h : r ∉ hostOps2_2_W) : W9 m c (r : DevRef τ sig) = W8 m c (r : DevRef τ sig) :=
  after_of_writes_sub hostOps2_2 _ hostOps2_2_writes h
theorem keep10 (r : Ref sig .tc) (h : r ∉ hostOps2_3_W) : W10 m c (r : DevRef τ sig) = W9 m c (r : DevRef τ sig) :=
  after_of_writes_sub hostOps2_3 _ hostOps2_3_writes h
theorem keep11 (r : Ref sig .tc) (h : r ∉ hostOps2_4_W) : W11 m c (r : DevRef τ sig) = W10 m c (r : DevRef τ sig) :=
  after_of_writes_sub hostOps2_4 _ hostOps2_4_writes h
theorem keep12 (r : Ref sig .tc) (h : r ∉ hostOps2_5_W) : W12 m c (r : DevRef τ sig) = W11 m c (r : DevRef τ sig) :=
  after_of_writes_sub hostOps2_5 _ hostOps2_5_writes h
theorem keep13 (r : Ref sig .tc) (h : r ∉ hostOps2_6_W) : W13 m c (r : DevRef τ sig) = W12 m c (r : DevRef τ sig) :=
  after_of_writes_sub hostOps2_6 _ hostOps2_6_writes h
theorem keep14 (r : Ref sig .tc) (h : r ∉ hostOps2_7_W) : W14 m c (r : DevRef τ sig) = W13 m c (r : DevRef τ sig) :=
  after_of_writes_sub hostOps2_7 _ hostOps2_7_writes h
theorem keep15 (r : Ref sig .tc) (h : r ∉ hostOps2_8_W) : W15 m c (r : DevRef τ sig) = W14 m c (r : DevRef τ sig) :=
  after_of_writes_sub hostOps2_8 _ hostOps2_8_writes h
theorem keep16 (r : Ref sig .tc) (h : r ∉ hostOps2_9_W) : W16 m c (r : DevRef τ sig) = W15 m c (r : DevRef τ sig) :=
  after_of_writes_sub hostOps2_9 _ hostOps2_9_writes h
theorem keep17 (r : Ref sig .tc) (h : r ∉ hostOps2_10_W) : W17 m c (r : DevRef τ sig) = W16 m c (r : DevRef τ sig) :=
  after_of_writes_sub hostOps2_10 _ hostOps2_10_writes h
theorem keep18 (r : Ref sig .tc) (h : r ∉ hostOps2_11_W) : W18 m c (r : DevRef τ sig) = W17 m c (r : DevRef τ sig) :=
  after_of_writes_sub hostOps2_11 _ hostOps2_11_writes h

/-! Stretch by stretch: each result as a function of the candidate rows SRC, DST and the mask VALID left before the tail. -/

theorem W8_v72 : W8 m c (main_v72 : DevRef τ sig) = maskTo (W7 m c (main_v71 : DevRef τ sig)) (W7 m c (main_v66 : DevRef τ sig)) := by
  refine (t1_v72 (W7 m c)).trans ?_
  rw [W7_c_15]; rfl
theorem W9_c_16 : W9 m c (main_c_16 : DevRef τ sig) = constantI S_ 32 200010#32 := t2_c_16 (W8 m c)
theorem W10_v73 : W10 m c (main_v73 : DevRef τ sig) = maskTo (W7 m c (main_v71 : DevRef τ sig)) (W7 m c (main_v69 : DevRef τ sig)) := by
  refine (t3_v73 (W9 m c)).trans ?_
  rw [W9_c_16, (keep9 m c main_v71 (by decide)), (keep8 m c main_v71 (by decide)), (keep9 m c main_v69 (by decide)), (keep8 m c main_v69 (by decide))]; rfl
theorem W10_v72 : W10 m c (main_v72 : DevRef τ sig) = maskTo (W7 m c (main_v71 : DevRef τ sig)) (W7 m c (main_v66 : DevRef τ sig)) :=
  (keep10 m c main_v72 (by decide)).trans ((keep9 m c main_v72 (by decide)).trans (W8_v72 m c))
theorem W11_v74 : W11 m c (main_v74 : DevRef τ sig) = lexPerm (maskTo (W7 m c (main_v71 : DevRef τ sig)) (W7 m c (main_v66 : DevRef τ sig))) (maskTo (W7 m c (main_v71 : DevRef τ sig)) (W7 m c (main_v69 : DevRef τ sig))) := by
  refine (t4_v74 (W10 m c)).trans ?_
  rw [W10_v72, W10_v73]
theorem W11_v72 : W11 m c (main_v72 : DevRef τ sig) = maskTo (W7 m c (main_v71 : DevRef τ sig)) (W7 m c (main_v66 : DevRef τ sig)) := (keep11 m c main_v72 (by decide)).trans (W10_v72 m c)
theorem W11_v73 : W11 m c (main_v73 : DevRef τ sig) = maskTo (W7 m c (main_v71 : DevRef τ sig)) (W7 m c (main_v69 : DevRef τ sig)) := (keep11 m c main_v73 (by decide)).trans (W10_v73 m c)
theorem W12_v81 : W12 m c (main_v81 : DevRef τ sig) = sortedS (W7 m c (main_v66 : DevRef τ sig)) (W7 m c (main_v69 : DevRef τ sig)) (W7 m c (main_v71 : DevRef τ sig)) := by
  refine (t5_v81 (W11 m c)).trans ?_
  rw [W11_v72, W11_v74]; rfl
theorem W12_v88 : W12 m c (main_v88 : DevRef τ sig) = sortedD (W7 m c (main_v66 : DevRef τ sig)) (W7 m c (main_v69 : DevRef τ sig)) (W7 m c (main_v71 : DevRef τ sig)) := by
  refine (t5_v88 (W11 m c)).trans ?_
  rw [W11_v73, W11_v74]; rfl
theorem W12_v100 : W12 m c (main_v100 : DevRef τ sig) = dupMark (sortedS (W7 m c (main_v66 : DevRef τ sig)) (W7 m c (main_v69 : DevRef τ sig)) (W7 m c (main_v71 : DevRef τ sig))) (sortedD (W7 m c (main_v66 : DevRef τ sig)) (W7 m c (main_v69 : DevRef τ sig)) (W7 m c (main_v71 : DevRef τ sig))) := by
  refine (t5_v100 (W11 m c)).trans ?_
  rw [W11_v72, W11_v73, W11_v74]; rfl
theorem W12_c_23 : W12 m c (main_c_23 : DevRef τ sig) = constantI S_ 32 200010#32 := t5_c_23 (W11 m c)
theorem W13_v101 : W13 m c (main_v101 : DevRef τ sig) = keptS (W7 m c (main_v66 : DevRef τ sig)) (W7 m c (main_v69 : DevRef τ sig)) (W7 m c (main_v71 : DevRef τ sig)) := by
  refine (t6_v101 (W12 m c)).trans ?_
  rw [W12_c_23, W12_v100, W12_v81]; rfl
theorem W14_c_24 : W14 m c (main_c_24 : DevRef τ sig) = constantI S_ 32 200010#32 := t7_c_24 (W13 m c)
theorem W14_v100 : W14 m c (main_v100 : DevRef τ sig) = dupMark (sortedS (W7 m c (main_v66 : DevRef τ sig)) (W7 m c (main_v69 : DevRef τ sig)) (W7 m c (main_v71 : DevRef τ sig))) (sortedD (W7 m c (main_v66 : DevRef τ sig)) (W7 m c (main_v69 : DevRef τ sig)) (W7 m c (main_v71 : DevRef τ sig))) :=
  (keep14 m c main_v100 (by decide)).trans ((keep13 m c main_v100 (by decide)).trans (W12_v100 m c))
theorem W14_v88 : W14 m c (main_v88 : DevRef τ sig) = sortedD (W7 m c (main_v66 : DevRef τ sig)) (W7 m c (main_v69 : DevRef τ sig)) (W7 m c (main_v71 : DevRef τ sig)) :=
  (keep14 m c main_v88 (by decide)).trans ((keep13 m c main_v88 (by decide)).trans (W12_v88 m c))
theorem W15_v102 : W15 m c (main_v102 : DevRef τ sig) = keptD (W7 m c (main_v66 : DevRef τ sig)) (W7 m c (main_v69 : DevRef τ sig)) (W7 m c (main_v71 : DevRef τ sig)) := by
  refine (t8_v102 (W14 m c)).trans ?_
  rw [W14_c_24, W14_v100, W14_v88]; rfl
theorem W15_v101 : W15 m c (main_v101 : DevRef τ sig) = keptS (W7 m c (main_v66 : DevRef τ sig)) (W7 m c (main_v69 : DevRef τ sig)) (W7 m c (main_v71 : DevRef τ sig)) :=
  (keep15 m c main_v101 (by decide)).trans ((keep14 m c main_v101 (by decide)).trans (W13_v101 m c))
theorem W16_v105 : W16 m c (main_v105 : DevRef τ sig) = endKey (keptS (W7 m c (main_v66 : DevRef τ sig)) (W7 m c (main_v69 : DevRef τ sig)) (W7 m c (main_v71 : DevRef τ sig))) := by
  refine (t9_v105 (W15 m c)).trans ?_
  rw [W15_v101]
theorem W17_v106 : W17 m c (main_v106 : DevRef τ sig) = endPerm (keptS (W7 m c (main_v66 : DevRef τ sig)) (W7 m c (main_v69 : DevRef τ sig)) (W7 m c (main_v71 : DevRef τ sig))) := by
  refine (t10_v106 (W16 m c)).trans ?_
  rw [W16_v105]; rfl
theorem W17_v101 : W17 m c (main_v101 : DevRef τ sig) = keptS (W7 m c (main_v66 : DevRef τ sig)) (W7 m c (main_v69 : DevRef τ sig)) (W7 m c (main_v71 : DevRef τ sig)) :=
  (keep17 m c main_v101 (by decide)).trans ((keep16 m c main_v101 (by decide)).trans (W15_v101 m c))
theorem W17_v102 : W17 m c (main_v102 : DevRef τ sig) = keptD (W7 m c (main_v66 : DevRef τ sig)) (W7 m c (main_v69 : DevRef τ sig)) (W7 m c (main_v71 : DevRef τ sig)) :=
  (keep17 m c main_v102 (by decide)).trans ((keep16 m c main_v102 (by decide)).trans (W15_v102 m c))

/-- THE TAIL's integer result at the end of the program: tailI of the candidate rows and the mask. -/
theorem W18_v123 : W18 m c (main_v123 : DevRef τ sig) = tailI (W7 m c (main_v66 : DevRef τ sig)) (W7 m c (main_v69 : DevRef τ sig)) (W7 m c (main_v71 : DevRef τ sig)) := by
  refine (t11_v123 (W17 m c)).trans ?_
  rw [W17_v101, W17_v102, W17_v106]; rfl

/-- THE TAIL's float result at the end of the program: tailW of the candidate rows and the mask. -/
theorem W18_v126 : W18 m c (main_v126 : DevRef τ sig) = tailW (W7 m c (main_v66 : DevRef τ sig)) (W7 m c (main_v69 : DevRef τ sig)) (W7 m c (main_v71 : DevRef τ sig)) := by
  refine (t11_v126 (W17 m c)).trans ?_
  rw [W17_v101, W17_v106]; rfl

end TailBoundaries

end Cert.KernelIdeal.Hand

end
-- ==== Proof.KIResults.lean ====
/-
  The kernel program's three results as functions of its arguments, under the finiteness of the float
  arguments: the rows of x over the rescaled prompt rows; and the two edge-list results, the common tail of
  integer operations applied to the candidate source and destination lists (functions of the edge argument
  alone) and the validity list (ones, the prompt-pair mask, the cross mask twice).
-/
import proofs.«162080_j20057497272460_1_alg».proof.Proof.KIMu
import proofs.«162080_j20057497272460_1_alg».proof.Proof.KICrossEq
import proofs.«162080_j20057497272460_1_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.ReferenceIdeal.Hand (PP crossValid)

/-- The first result: x over the rescaled prompt rows. -/
def R0 (x : FVec Ideal S200000x256 .f32) (pf : FVec Ideal S10x256 .f32) : FVec Ideal S200010x256 .f32 :=
  concatenate S200010x256 0 [⟨S200000x256, x⟩, ⟨S10x256, PP (F := Ideal) x pf⟩] concatenates_S200000x256_S10x256_S200010x256_d0
/-- The validity list of the candidate edges. -/
def VAL (x : FVec Ideal S200000x256 .f32) (pf : FVec Ideal S10x256 .f32) : IVec S7200100 1 :=
  VALIDf (IVf (PP (F := Ideal) x pf)) (crossValid (F := Ideal) x (PP (F := Ideal) x pf))
/-- The second and third results. -/
def R1 (x : FVec Ideal S200000x256 .f32) (e : IVec S2x3200000 32) (pf : FVec Ideal S10x256 .f32) : IVec S2x7200100 32 :=
  tailI (SRCf e) (DSTf e) (VAL x pf)
def R2 (x : FVec Ideal S200000x256 .f32) (e : IVec S2x3200000 32) (pf : FVec Ideal S10x256 .f32) : FVec Ideal S7200100 .f32 :=
  tailW (SRCf e) (DSTf e) (VAL x pf)

variable (m : (ℓ : Loc nD τ sig) → Buf (Elt Ideal) ℓ)

theorem W5_v9_ref (c : Dev nD) :
    (W5 m c main_v9 : S1x256.Idx → Ideal .f32) = Cert.ReferenceIdeal.Hand.muO (F := Ideal) (m ((c : Thread nD τ).loc main_arg0)) := by
  funext j; rw [eq_ix2_0 j]; exact mu_eq m c _

theorem W5_v20_ref (hpre : Cert.Pre_KernelIdeal (hPre_finite_inputs := Cert.Pre_finite_inputs.Gen.facts) m) (c : Dev nD) :
    (W5 m c main_v20 : S1x256.Idx → Ideal .f32) = Cert.ReferenceIdeal.Hand.sigO (F := Ideal) (m ((c : Thread nD τ).loc main_arg0)) := by
  funext j; rw [eq_ix2_0 j]; exact sig_eq m hpre c _

/-- The rescaled prompt rows are the reference's. -/
theorem W5_v28_ref (hpre : Cert.Pre_KernelIdeal (hPre_finite_inputs := Cert.Pre_finite_inputs.Gen.facts) m) (c : Dev nD) :
    (W5 m c main_v28 : S10x256.Idx → Ideal .f32)
      = PP (F := Ideal) (m ((c : Thread nD τ).loc main_arg0)) (m ((c : Thread nD τ).loc main_arg2)) := by
  rw [W5_main_v28, W5_main_arg2, W5_v9_ref, W5_v20_ref m hpre,
    show W5 m c main_v3 = W3 m c main_v3 from (W5_of m c main_v3 (by decide)).trans (W4_of_ne m c main_v3 (by decide)),
    show W5 m c main_v6 = W3 m c main_v6 from (W5_of m c main_v6 (by decide)).trans (W4_of_ne m c main_v6 (by decide)),
    W3_v3_ref, W3_v6_ref]
  rfl

theorem K0 (hpre : Cert.Pre_KernelIdeal (hPre_finite_inputs := Cert.Pre_finite_inputs.Gen.facts) m) (c : Dev nD) :
    (W18 m c main_v29 : S200010x256.Idx → Ideal .f32)
      = R0 (m ((c : Thread nD τ).loc main_arg0)) (m ((c : Thread nD τ).loc main_arg2)) := by
  rw [show W18 m c main_v29 = W5 m c main_v29 from
    (W18_of_W6 m c main_v29 (by decide) (by decide) (by decide) (by decide) (by decide) (by decide) (by decide) (by decide) (by decide) (by decide) (by decide) (by decide)).trans (W6_of_ne m c main_v29 (by decide))]
  rw [W5_main_v29, W5_main_arg0, W5_v28_ref m hpre c]
  rfl

theorem W6_main_arg1 (c : Dev nD) : W6 m c main_arg1 = m ((c : Thread nD τ).loc main_arg1) :=
  (W6_of_ne m c main_arg1 (by decide)).trans (W5_main_arg1 m c)

theorem VAL_eq (hpre : Cert.Pre_KernelIdeal (hPre_finite_inputs := Cert.Pre_finite_inputs.Gen.facts) m) (c : Dev nD) :
    (W7 m c main_v71 : S7200100.Idx → BitVec 1)
      = VAL (m ((c : Thread nD τ).loc main_arg0)) (m ((c : Thread nD τ).loc main_arg2)) := by
  rw [W7_v71 m c, W6_v40 m c, W5_v40 m c, W7_v55_ref m c, W5_v28_ref m hpre c, W5_main_arg0]
  rfl

theorem K1 (hpre : Cert.Pre_KernelIdeal (hPre_finite_inputs := Cert.Pre_finite_inputs.Gen.facts) m) (c : Dev nD) :
    (W18 m c main_v123 : S2x7200100.Idx → BitVec 32)
      = R1 (m ((c : Thread nD τ).loc main_arg0)) (m ((c : Thread nD τ).loc main_arg1)) (m ((c : Thread nD τ).loc main_arg2)) := by
  rw [W18_v123 m c, W7_v66 m c, W7_v69 m c, VAL_eq m hpre c, W6_main_arg1]
  rfl

theorem K2 (hpre : Cert.Pre_KernelIdeal (hPre_finite_inputs := Cert.Pre_finite_inputs.Gen.facts) m) (c : Dev nD) :
    (W18 m c main_v126 : S7200100.Idx → Ideal .f32)
      = R2 (m ((c : Thread nD τ).loc main_arg0)) (m ((c : Thread nD τ).loc main_arg1)) (m ((c : Thread nD τ).loc main_arg2)) := by
  rw [W18_v126 m c, W7_v66 m c, W7_v69 m c, VAL_eq m hpre c, W6_main_arg1]
  rfl

end Cert.KernelIdeal.Hand

end
-- ==== Proof.RefTailA.lean ====
/- The reference's candidate edge lists as the functions named for the other program.
   The prompt-pair similarity mask, the candidate sources and destinations (the given edges' two rows, then the prompt
   pairs, prompt→node and node→prompt pairs) and the validity mask (ones, the prompt-pair mask, the cross flags twice) are
   built by the same operations in both programs; each buffer of the reference, read stretch by stretch, is the
   corresponding function of the arguments (the two namespaces' shapes and side facts are the same terms). At the
   extended reals. -/
import proofs.«162080_j20057497272460_1_alg».proof.Proof.RefCross
import proofs.«162080_j20057497272460_1_alg».proof.Proof.KITail

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The candidate edge lists' buffers, stretch by stretch -/

theorem ops4_v33 (W : Valuation τ sig (Elt Ideal)) :
    after ops4 W (main_v33 : DevRef τ sig) = Cert.KernelIdeal.Hand.IVf (PPof (W (main_arg2 : DevRef τ sig)) (W (main_v3 : DevRef τ sig)) (W (main_v6 : DevRef τ sig)) (W (main_v10 : DevRef τ sig)) (addf (W (main_v11 : DevRef τ sig)) epsRow)) := by
  after_results_simp; try rfl
theorem A_v33 (V : Valuation τ sig (Elt Ideal)) :
    after ops V (main_v33 : DevRef τ sig) = Cert.KernelIdeal.Hand.IVf (PPof (after ops V (main_arg2 : DevRef τ sig)) (after ops V (main_v3 : DevRef τ sig)) (after ops V (main_v6 : DevRef τ sig)) (after ops V (main_v10 : DevRef τ sig)) (addf (after ops V (main_v11 : DevRef τ sig)) epsRow)) := by
  have h1 : W18 V (main_v33 : DevRef τ sig) = W5 V (main_v33 : DevRef τ sig) :=
    (after_of_writes_sub (r := main_v33) ops17 (W17 V) ops17_writes (by decide)).trans ((after_of_writes_sub (r := main_v33) ops16 (W16 V) ops16_writes (by decide)).trans ((after_of_writes_sub (r := main_v33) ops15 (W15 V) ops15_writes (by decide)).trans ((after_of_writes_sub (r := main_v33) ops14 (W14 V) ops14_writes (by decide)).trans ((after_of_writes_sub (r := main_v33) ops13 (W13 V) ops13_writes (by decide)).trans ((after_of_writes_sub (r := main_v33) ops12 (W12 V) ops12_writes (by decide)).trans ((after_of_writes_sub (r := main_v33) ops11 (W11 V) ops11_writes (by decide)).trans ((after_of_writes_sub (r := main_v33) ops10 (W10 V) ops10_writes (by decide)).trans ((after_of_writes_sub (r := main_v33) ops9 (W9 V) ops9_writes (by decide)).trans ((after_of_writes_sub (r := main_v33) ops8 (W8 V) ops8_writes (by decide)).trans ((after_of_writes_sub (r := main_v33) ops7 (W7 V) ops7_writes (by decide)).trans ((after_of_writes_sub (r := main_v33) ops6 (W6 V) ops6_writes (by decide)).trans ((after_of_writes_sub (r := main_v33) ops5 (W5 V) ops5_writes (by decide))))))))))))))
  have ha0 : W18 V (main_arg2 : DevRef τ sig) = W4 V (main_arg2 : DevRef τ sig) :=
    (after_of_writes_sub (r := main_arg2) ops17 (W17 V) ops17_writes (by decide)).trans ((after_of_writes_sub (r := main_arg2) ops16 (W16 V) ops16_writes (by decide)).trans ((after_of_writes_sub (r := main_arg2) ops15 (W15 V) ops15_writes (by decide)).trans ((after_of_writes_sub (r := main_arg2) ops14 (W14 V) ops14_writes (by decide)).trans ((after_of_writes_sub (r := main_arg2) ops13 (W13 V) ops13_writes (by decide)).trans ((after_of_writes_sub (r := main_arg2) ops12 (W12 V) ops12_writes (by decide)).trans ((after_of_writes_sub (r := main_arg2) ops11 (W11 V) ops11_writes (by decide)).trans ((after_of_writes_sub (r := main_arg2) ops10 (W10 V) ops10_writes (by decide)).trans ((after_of_writes_sub (r := main_arg2) ops9 (W9 V) ops9_writes (by decide)).trans ((after_of_writes_sub (r := main_arg2) ops8 (W8 V) ops8_writes (by decide)).trans ((after_of_writes_sub (r := main_arg2) ops7 (W7 V) ops7_writes (by decide)).trans ((after_of_writes_sub (r := main_arg2) ops6 (W6 V) ops6_writes (by decide)).trans ((after_of_writes_sub (r := main_arg2) ops5 (W5 V) ops5_writes (by decide)).trans ((after_of_writes_sub (r := main_arg2) ops4 (W4 V) ops4_writes (by decide)))))))))))))))
  have ha1 : W18 V (main_v3 : DevRef τ sig) = W4 V (main_v3 : DevRef τ sig) :=
    (after_of_writes_sub (r := main_v3) ops17 (W17 V) ops17_writes (by decide)).trans ((after_of_writes_sub (r := main_v3) ops16 (W16 V) ops16_writes (by decide)).trans ((after_of_writes_sub (r := main_v3) ops15 (W15 V) ops15_writes (by decide)).trans ((after_of_writes_sub (r := main_v3) ops14 (W14 V) ops14_writes (by decide)).trans ((after_of_writes_sub (r := main_v3) ops13 (W13 V) ops13_writes (by decide)).trans ((after_of_writes_sub (r := main_v3) ops12 (W12 V) ops12_writes (by decide)).trans ((after_of_writes_sub (r := main_v3) ops11 (W11 V) ops11_writes (by decide)).trans ((after_of_writes_sub (r := main_v3) ops10 (W10 V) ops10_writes (by decide)).trans ((after_of_writes_sub (r := main_v3) ops9 (W9 V) ops9_writes (by decide)).trans ((after_of_writes_sub (r := main_v3) ops8 (W8 V) ops8_writes (by decide)).trans ((after_of_writes_sub (r := main_v3) ops7 (W7 V) ops7_writes (by decide)).trans ((after_of_writes_sub (r := main_v3) ops6 (W6 V) ops6_writes (by decide)).trans ((after_of_writes_sub (r := main_v3) ops5 (W5 V) ops5_writes (by decide)).trans ((after_of_writes_sub (r := main_v3) ops4 (W4 V) ops4_writes (by decide)))))))))))))))
  have ha2 : W18 V (main_v6 : DevRef τ sig) = W4 V (main_v6 : DevRef τ sig) :=
    (after_of_writes_sub (r := main_v6) ops17 (W17 V) ops17_writes (by decide)).trans ((after_of_writes_sub (r := main_v6) ops16 (W16 V) ops16_writes (by decide)).trans ((after_of_writes_sub (r := main_v6) ops15 (W15 V) ops15_writes (by decide)).trans ((after_of_writes_sub (r := main_v6) ops14 (W14 V) ops14_writes (by decide)).trans ((after_of_writes_sub (r := main_v6) ops13 (W13 V) ops13_writes (by decide)).trans ((after_of_writes_sub (r := main_v6) ops12 (W12 V) ops12_writes (by decide)).trans ((after_of_writes_sub (r := main_v6) ops11 (W11 V) ops11_writes (by decide)).trans ((after_of_writes_sub (r := main_v6) ops10 (W10 V) ops10_writes (by decide)).trans ((after_of_writes_sub (r := main_v6) ops9 (W9 V) ops9_writes (by decide)).trans ((after_of_writes_sub (r := main_v6) ops8 (W8 V) ops8_writes (by decide)).trans ((after_of_writes_sub (r := main_v6) ops7 (W7 V) ops7_writes (by decide)).trans ((after_of_writes_sub (r := main_v6) ops6 (W6 V) ops6_writes (by decide)).trans ((after_of_writes_sub (r := main_v6) ops5 (W5 V) ops5_writes (by decide)).trans ((after_of_writes_sub (r := main_v6) ops4 (W4 V) ops4_writes (by decide)))))))))))))))
  have ha3 : W18 V (main_v10 : DevRef τ sig) = W4 V (main_v10 : DevRef τ sig) :=
    (after_of_writes_sub (r := main_v10) ops17 (W17 V) ops17_writes (by decide)).trans ((after_of_writes_sub (r := main_v10) ops16 (W16 V) ops16_writes (by decide)).trans ((after_of_writes_sub (r := main_v10) ops15 (W15 V) ops15_writes (by decide)).trans ((after_of_writes_sub (r := main_v10) ops14 (W14 V) ops14_writes (by decide)).trans ((after_of_writes_sub (r := main_v10) ops13 (W13 V) ops13_writes (by decide)).trans ((after_of_writes_sub (r := main_v10) ops12 (W12 V) ops12_writes (by decide)).trans ((after_of_writes_sub (r := main_v10) ops11 (W11 V) ops11_writes (by decide)).trans ((after_of_writes_sub (r := main_v10) ops10 (W10 V) ops10_writes (by decide)).trans ((after_of_writes_sub (r := main_v10) ops9 (W9 V) ops9_writes (by decide)).trans ((after_of_writes_sub (r := main_v10) ops8 (W8 V) ops8_writes (by decide)).trans ((after_of_writes_sub (r := main_v10) ops7 (W7 V) ops7_writes (by decide)).trans ((after_of_writes_sub (r := main_v10) ops6 (W6 V) ops6_writes (by decide)).trans ((after_of_writes_sub (r := main_v10) ops5 (W5 V) ops5_writes (by decide)).trans ((after_of_writes_sub (r := main_v10) ops4 (W4 V) ops4_writes (by decide)))))))))))))))
  have ha4 : W18 V (main_v11 : DevRef τ sig) = W4 V (main_v11 : DevRef τ sig) :=
    (after_of_writes_sub (r := main_v11) ops17 (W17 V) ops17_writes (by decide)).trans ((after_of_writes_sub (r := main_v11) ops16 (W16 V) ops16_writes (by decide)).trans ((after_of_writes_sub (r := main_v11) ops15 (W15 V) ops15_writes (by decide)).trans ((after_of_writes_sub (r := main_v11) ops14 (W14 V) ops14_writes (by decide)).trans ((after_of_writes_sub (r := main_v11) ops13 (W13 V) ops13_writes (by decide)).trans ((after_of_writes_sub (r := main_v11) ops12 (W12 V) ops12_writes (by decide)).trans ((after_of_writes_sub (r := main_v11) ops11 (W11 V) ops11_writes (by decide)).trans ((after_of_writes_sub (r := main_v11) ops10 (W10 V) ops10_writes (by decide)).trans ((after_of_writes_sub (r := main_v11) ops9 (W9 V) ops9_writes (by decide)).trans ((after_of_writes_sub (r := main_v11) ops8 (W8 V) ops8_writes (by decide)).trans ((after_of_writes_sub (r := main_v11) ops7 (W7 V) ops7_writes (by decide)).trans ((after_of_writes_sub (r := main_v11) ops6 (W6 V) ops6_writes (by decide)).trans ((after_of_writes_sub (r := main_v11) ops5 (W5 V) ops5_writes (by decide)).trans ((after_of_writes_sub (r := main_v11) ops4 (W4 V) ops4_writes (by decide)))))))))))))))
  rw [after_opsW, h1, ha0, ha1, ha2, ha3, ha4]
  exact ops4_v33 (W4 V)

theorem ops4_v34 (W : Valuation τ sig (Elt Ideal)) :
    after ops4 W (main_v34 : DevRef τ sig) = Cert.KernelIdeal.Hand.iota10 := by
  after_results_simp; try rfl
theorem A_v34 (V : Valuation τ sig (Elt Ideal)) :
    after ops V (main_v34 : DevRef τ sig) = Cert.KernelIdeal.Hand.iota10 := by
  have h1 : W18 V (main_v34 : DevRef τ sig) = W5 V (main_v34 : DevRef τ sig) :=
    (after_of_writes_sub (r := main_v34) ops17 (W17 V) ops17_writes (by decide)).trans ((after_of_writes_sub (r := main_v34) ops16 (W16 V) ops16_writes (by decide)).trans ((after_of_writes_sub (r := main_v34) ops15 (W15 V) ops15_writes (by decide)).trans ((after_of_writes_sub (r := main_v34) ops14 (W14 V) ops14_writes (by decide)).trans ((after_of_writes_sub (r := main_v34) ops13 (W13 V) ops13_writes (by decide)).trans ((after_of_writes_sub (r := main_v34) ops12 (W12 V) ops12_writes (by decide)).trans ((after_of_writes_sub (r := main_v34) ops11 (W11 V) ops11_writes (by decide)).trans ((after_of_writes_sub (r := main_v34) ops10 (W10 V) ops10_writes (by decide)).trans ((after_of_writes_sub (r := main_v34) ops9 (W9 V) ops9_writes (by decide)).trans ((after_of_writes_sub (r := main_v34) ops8 (W8 V) ops8_writes (by decide)).trans ((after_of_writes_sub (r := main_v34) ops7 (W7 V) ops7_writes (by decide)).trans ((after_of_writes_sub (r := main_v34) ops6 (W6 V) ops6_writes (by decide)).trans ((after_of_writes_sub (r := main_v34) ops5 (W5 V) ops5_writes (by decide))))))))))))))
  rw [after_opsW, h1]
  exact ops4_v34 (W4 V)

theorem ops4_v38 (W : Valuation τ sig (Elt Ideal)) :
    after ops4 W (main_v38 : DevRef τ sig) = Cert.KernelIdeal.Hand.ppSrc := by
  after_results_simp; try rfl
theorem A_v38 (V : Valuation τ sig (Elt Ideal)) :
    after ops V (main_v38 : DevRef τ sig) = Cert.KernelIdeal.Hand.ppSrc := by
  have h1 : W18 V (main_v38 : DevRef τ sig) = W5 V (main_v38 : DevRef τ sig) :=
    (after_of_writes_sub (r := main_v38) ops17 (W17 V) ops17_writes (by decide)).trans ((after_of_writes_sub (r := main_v38) ops16 (W16 V) ops16_writes (by decide)).trans ((after_of_writes_sub (r := main_v38) ops15 (W15 V) ops15_writes (by decide)).trans ((after_of_writes_sub (r := main_v38) ops14 (W14 V) ops14_writes (by decide)).trans ((after_of_writes_sub (r := main_v38) ops13 (W13 V) ops13_writes (by decide)).trans ((after_of_writes_sub (r := main_v38) ops12 (W12 V) ops12_writes (by decide)).trans ((after_of_writes_sub (r := main_v38) ops11 (W11 V) ops11_writes (by decide)).trans ((after_of_writes_sub (r := main_v38) ops10 (W10 V) ops10_writes (by decide)).trans ((after_of_writes_sub (r := main_v38) ops9 (W9 V) ops9_writes (by decide)).trans ((after_of_writes_sub (r := main_v38) ops8 (W8 V) ops8_writes (by decide)).trans ((after_of_writes_sub (r := main_v38) ops7 (W7 V) ops7_writes (by decide)).trans ((after_of_writes_sub (r := main_v38) ops6 (W6 V) ops6_writes (by decide)).trans ((after_of_writes_sub (r := main_v38) ops5 (W5 V) ops5_writes (by decide))))))))))))))
  rw [after_opsW, h1]
  exact ops4_v38 (W4 V)

theorem ops4_v43 (W : Valuation τ sig (Elt Ideal)) :
    after ops4 W (main_v43 : DevRef τ sig) = Cert.KernelIdeal.Hand.ppDst := by
  after_results_simp; try rfl
theorem A_v43 (V : Valuation τ sig (Elt Ideal)) :
    after ops V (main_v43 : DevRef τ sig) = Cert.KernelIdeal.Hand.ppDst := by
  have h1 : W18 V (main_v43 : DevRef τ sig) = W5 V (main_v43 : DevRef τ sig) :=
    (after_of_writes_sub (r := main_v43) ops17 (W17 V) ops17_writes (by decide)).trans ((after_of_writes_sub (r := main_v43) ops16 (W16 V) ops16_writes (by decide)).trans ((after_of_writes_sub (r := main_v43) ops15 (W15 V) ops15_writes (by decide)).trans ((after_of_writes_sub (r := main_v43) ops14 (W14 V) ops14_writes (by decide)).trans ((after_of_writes_sub (r := main_v43) ops13 (W13 V) ops13_writes (by decide)).trans ((after_of_writes_sub (r := main_v43) ops12 (W12 V) ops12_writes (by decide)).trans ((after_of_writes_sub (r := main_v43) ops11 (W11 V) ops11_writes (by decide)).trans ((after_of_writes_sub (r := main_v43) ops10 (W10 V) ops10_writes (by decide)).trans ((after_of_writes_sub (r := main_v43) ops9 (W9 V) ops9_writes (by decide)).trans ((after_of_writes_sub (r := main_v43) ops8 (W8 V) ops8_writes (by decide)).trans ((after_of_writes_sub (r := main_v43) ops7 (W7 V) ops7_writes (by decide)).trans ((after_of_writes_sub (r := main_v43) ops6 (W6 V) ops6_writes (by decide)).trans ((after_of_writes_sub (r := main_v43) ops5 (W5 V) ops5_writes (by decide))))))))))))))
  rw [after_opsW, h1]
  exact ops4_v43 (W4 V)

theorem ops5_v65 (W : Valuation τ sig (Elt Ideal)) :
    after ops5 W (main_v65 : DevRef τ sig) = Cert.KernelIdeal.Hand.SRCraw (W (main_arg1 : DevRef τ sig)) (W (main_v38 : DevRef τ sig)) (W (main_v34 : DevRef τ sig)) := by
  after_results_simp; try rfl
theorem A_v65 (V : Valuation τ sig (Elt Ideal)) :
    after ops V (main_v65 : DevRef τ sig) = Cert.KernelIdeal.Hand.SRCraw (after ops V (main_arg1 : DevRef τ sig)) (after ops V (main_v38 : DevRef τ sig)) (after ops V (main_v34 : DevRef τ sig)) := by
  have h1 : W18 V (main_v65 : DevRef τ sig) = W6 V (main_v65 : DevRef τ sig) :=
    (after_of_writes_sub (r := main_v65) ops17 (W17 V) ops17_writes (by decide)).trans ((after_of_writes_sub (r := main_v65) ops16 (W16 V) ops16_writes (by decide)).trans ((after_of_writes_sub (r := main_v65) ops15 (W15 V) ops15_writes (by decide)).trans ((after_of_writes_sub (r := main_v65) ops14 (W14 V) ops14_writes (by decide)).trans ((after_of_writes_sub (r := main_v65) ops13 (W13 V) ops13_writes (by decide)).trans ((after_of_writes_sub (r := main_v65) ops12 (W12 V) ops12_writes (by decide)).trans ((after_of_writes_sub (r := main_v65) ops11 (W11 V) ops11_writes (by decide)).trans ((after_of_writes_sub (r := main_v65) ops10 (W10 V) ops10_writes (by decide)).trans ((after_of_writes_sub (r := main_v65) ops9 (W9 V) ops9_writes (by decide)).trans ((after_of_writes_sub (r := main_v65) ops8 (W8 V) ops8_writes (by decide)).trans ((after_of_writes_sub (r := main_v65) ops7 (W7 V) ops7_writes (by decide)).trans ((after_of_writes_sub (r := main_v65) ops6 (W6 V) ops6_writes (by decide)))))))))))))
  have ha0 : W18 V (main_arg1 : DevRef τ sig) = W5 V (main_arg1 : DevRef τ sig) :=
    (after_of_writes_sub (r := main_arg1) ops17 (W17 V) ops17_writes (by decide)).trans ((after_of_writes_sub (r := main_arg1) ops16 (W16 V) ops16_writes (by decide)).trans ((after_of_writes_sub (r := main_arg1) ops15 (W15 V) ops15_writes (by decide)).trans ((after_of_writes_sub (r := main_arg1) ops14 (W14 V) ops14_writes (by decide)).trans ((after_of_writes_sub (r := main_arg1) ops13 (W13 V) ops13_writes (by decide)).trans ((after_of_writes_sub (r := main_arg1) ops12 (W12 V) ops12_writes (by decide)).trans ((after_of_writes_sub (r := main_arg1) ops11 (W11 V) ops11_writes (by decide)).trans ((after_of_writes_sub (r := main_arg1) ops10 (W10 V) ops10_writes (by decide)).trans ((after_of_writes_sub (r := main_arg1) ops9 (W9 V) ops9_writes (by decide)).trans ((after_of_writes_sub (r := main_arg1) ops8 (W8 V) ops8_writes (by decide)).trans ((after_of_writes_sub (r := main_arg1) ops7 (W7 V) ops7_writes (by decide)).trans ((after_of_writes_sub (r := main_arg1) ops6 (W6 V) ops6_writes (by decide)).trans ((after_of_writes_sub (r := main_arg1) ops5 (W5 V) ops5_writes (by decide))))))))))))))
  have ha1 : W18 V (main_v38 : DevRef τ sig) = W5 V (main_v38 : DevRef τ sig) :=
    (after_of_writes_sub (r := main_v38) ops17 (W17 V) ops17_writes (by decide)).trans ((after_of_writes_sub (r := main_v38) ops16 (W16 V) ops16_writes (by decide)).trans ((after_of_writes_sub (r := main_v38) ops15 (W15 V) ops15_writes (by decide)).trans ((after_of_writes_sub (r := main_v38) ops14 (W14 V) ops14_writes (by decide)).trans ((after_of_writes_sub (r := main_v38) ops13 (W13 V) ops13_writes (by decide)).trans ((after_of_writes_sub (r := main_v38) ops12 (W12 V) ops12_writes (by decide)).trans ((after_of_writes_sub (r := main_v38) ops11 (W11 V) ops11_writes (by decide)).trans ((after_of_writes_sub (r := main_v38) ops10 (W10 V) ops10_writes (by decide)).trans ((after_of_writes_sub (r := main_v38) ops9 (W9 V) ops9_writes (by decide)).trans ((after_of_writes_sub (r := main_v38) ops8 (W8 V) ops8_writes (by decide)).trans ((after_of_writes_sub (r := main_v38) ops7 (W7 V) ops7_writes (by decide)).trans ((after_of_writes_sub (r := main_v38) ops6 (W6 V) ops6_writes (by decide)).trans ((after_of_writes_sub (r := main_v38) ops5 (W5 V) ops5_writes (by decide))))))))))))))
  have ha2 : W18 V (main_v34 : DevRef τ sig) = W5 V (main_v34 : DevRef τ sig) :=
    (after_of_writes_sub (r := main_v34) ops17 (W17 V) ops17_writes (by decide)).trans ((after_of_writes_sub (r := main_v34) ops16 (W16 V) ops16_writes (by decide)).trans ((after_of_writes_sub (r := main_v34) ops15 (W15 V) ops15_writes (by decide)).trans ((after_of_writes_sub (r := main_v34) ops14 (W14 V) ops14_writes (by decide)).trans ((after_of_writes_sub (r := main_v34) ops13 (W13 V) ops13_writes (by decide)).trans ((after_of_writes_sub (r := main_v34) ops12 (W12 V) ops12_writes (by decide)).trans ((after_of_writes_sub (r := main_v34) ops11 (W11 V) ops11_writes (by decide)).trans ((after_of_writes_sub (r := main_v34) ops10 (W10 V) ops10_writes (by decide)).trans ((after_of_writes_sub (r := main_v34) ops9 (W9 V) ops9_writes (by decide)).trans ((after_of_writes_sub (r := main_v34) ops8 (W8 V) ops8_writes (by decide)).trans ((after_of_writes_sub (r := main_v34) ops7 (W7 V) ops7_writes (by decide)).trans ((after_of_writes_sub (r := main_v34) ops6 (W6 V) ops6_writes (by decide)).trans ((after_of_writes_sub (r := main_v34) ops5 (W5 V) ops5_writes (by decide))))))))))))))
  rw [after_opsW, h1, ha0, ha1, ha2]
  exact ops5_v65 (W5 V)

theorem ops5_v68 (W : Valuation τ sig (Elt Ideal)) :
    after ops5 W (main_v68 : DevRef τ sig) = Cert.KernelIdeal.Hand.DSTraw (W (main_arg1 : DevRef τ sig)) (W (main_v43 : DevRef τ sig)) (W (main_v34 : DevRef τ sig)) := by
  after_results_simp; try rfl
theorem A_v68 (V : Valuation τ sig (Elt Ideal)) :
    after ops V (main_v68 : DevRef τ sig) = Cert.KernelIdeal.Hand.DSTraw (after ops V (main_arg1 : DevRef τ sig)) (after ops V (main_v43 : DevRef τ sig)) (after ops V (main_v34 : DevRef τ sig)) := by
  have h1 : W18 V (main_v68 : DevRef τ sig) = W6 V (main_v68 : DevRef τ sig) :=
    (after_of_writes_sub (r := main_v68) ops17 (W17 V) ops17_writes (by decide)).trans ((after_of_writes_sub (r := main_v68) ops16 (W16 V) ops16_writes (by decide)).trans ((after_of_writes_sub (r := main_v68) ops15 (W15 V) ops15_writes (by decide)).trans ((after_of_writes_sub (r := main_v68) ops14 (W14 V) ops14_writes (by decide)).trans ((after_of_writes_sub (r := main_v68) ops13 (W13 V) ops13_writes (by decide)).trans ((after_of_writes_sub (r := main_v68) ops12 (W12 V) ops12_writes (by decide)).trans ((after_of_writes_sub (r := main_v68) ops11 (W11 V) ops11_writes (by decide)).trans ((after_of_writes_sub (r := main_v68) ops10 (W10 V) ops10_writes (by decide)).trans ((after_of_writes_sub (r := main_v68) ops9 (W9 V) ops9_writes (by decide)).trans ((after_of_writes_sub (r := main_v68) ops8 (W8 V) ops8_writes (by decide)).trans ((after_of_writes_sub (r := main_v68) ops7 (W7 V) ops7_writes (by decide)).trans ((after_of_writes_sub (r := main_v68) ops6 (W6 V) ops6_writes (by decide)))))))))))))
  have ha0 : W18 V (main_arg1 : DevRef τ sig) = W5 V (main_arg1 : DevRef τ sig) :=
    (after_of_writes_sub (r := main_arg1) ops17 (W17 V) ops17_writes (by decide)).trans ((after_of_writes_sub (r := main_arg1) ops16 (W16 V) ops16_writes (by decide)).trans ((after_of_writes_sub (r := main_arg1) ops15 (W15 V) ops15_writes (by decide)).trans ((after_of_writes_sub (r := main_arg1) ops14 (W14 V) ops14_writes (by decide)).trans ((after_of_writes_sub (r := main_arg1) ops13 (W13 V) ops13_writes (by decide)).trans ((after_of_writes_sub (r := main_arg1) ops12 (W12 V) ops12_writes (by decide)).trans ((after_of_writes_sub (r := main_arg1) ops11 (W11 V) ops11_writes (by decide)).trans ((after_of_writes_sub (r := main_arg1) ops10 (W10 V) ops10_writes (by decide)).trans ((after_of_writes_sub (r := main_arg1) ops9 (W9 V) ops9_writes (by decide)).trans ((after_of_writes_sub (r := main_arg1) ops8 (W8 V) ops8_writes (by decide)).trans ((after_of_writes_sub (r := main_arg1) ops7 (W7 V) ops7_writes (by decide)).trans ((after_of_writes_sub (r := main_arg1) ops6 (W6 V) ops6_writes (by decide)).trans ((after_of_writes_sub (r := main_arg1) ops5 (W5 V) ops5_writes (by decide))))))))))))))
  have ha1 : W18 V (main_v43 : DevRef τ sig) = W5 V (main_v43 : DevRef τ sig) :=
    (after_of_writes_sub (r := main_v43) ops17 (W17 V) ops17_writes (by decide)).trans ((after_of_writes_sub (r := main_v43) ops16 (W16 V) ops16_writes (by decide)).trans ((after_of_writes_sub (r := main_v43) ops15 (W15 V) ops15_writes (by decide)).trans ((after_of_writes_sub (r := main_v43) ops14 (W14 V) ops14_writes (by decide)).trans ((after_of_writes_sub (r := main_v43) ops13 (W13 V) ops13_writes (by decide)).trans ((after_of_writes_sub (r := main_v43) ops12 (W12 V) ops12_writes (by decide)).trans ((after_of_writes_sub (r := main_v43) ops11 (W11 V) ops11_writes (by decide)).trans ((after_of_writes_sub (r := main_v43) ops10 (W10 V) ops10_writes (by decide)).trans ((after_of_writes_sub (r := main_v43) ops9 (W9 V) ops9_writes (by decide)).trans ((after_of_writes_sub (r := main_v43) ops8 (W8 V) ops8_writes (by decide)).trans ((after_of_writes_sub (r := main_v43) ops7 (W7 V) ops7_writes (by decide)).trans ((after_of_writes_sub (r := main_v43) ops6 (W6 V) ops6_writes (by decide)).trans ((after_of_writes_sub (r := main_v43) ops5 (W5 V) ops5_writes (by decide))))))))))))))
  have ha2 : W18 V (main_v34 : DevRef τ sig) = W5 V (main_v34 : DevRef τ sig) :=
    (after_of_writes_sub (r := main_v34) ops17 (W17 V) ops17_writes (by decide)).trans ((after_of_writes_sub (r := main_v34) ops16 (W16 V) ops16_writes (by decide)).trans ((after_of_writes_sub (r := main_v34) ops15 (W15 V) ops15_writes (by decide)).trans ((after_of_writes_sub (r := main_v34) ops14 (W14 V) ops14_writes (by decide)).trans ((after_of_writes_sub (r := main_v34) ops13 (W13 V) ops13_writes (by decide)).trans ((after_of_writes_sub (r := main_v34) ops12 (W12 V) ops12_writes (by decide)).trans ((after_of_writes_sub (r := main_v34) ops11 (W11 V) ops11_writes (by decide)).trans ((after_of_writes_sub (r := main_v34) ops10 (W10 V) ops10_writes (by decide)).trans ((after_of_writes_sub (r := main_v34) ops9 (W9 V) ops9_writes (by decide)).trans ((after_of_writes_sub (r := main_v34) ops8 (W8 V) ops8_writes (by decide)).trans ((after_of_writes_sub (r := main_v34) ops7 (W7 V) ops7_writes (by decide)).trans ((after_of_writes_sub (r := main_v34) ops6 (W6 V) ops6_writes (by decide)).trans ((after_of_writes_sub (r := main_v34) ops5 (W5 V) ops5_writes (by decide))))))))))))))
  rw [after_opsW, h1, ha0, ha1, ha2]
  exact ops5_v68 (W5 V)

theorem ops5_v70 (W : Valuation τ sig (Elt Ideal)) :
    after ops5 W (main_v70 : DevRef τ sig) = Cert.KernelIdeal.Hand.VALIDf (W (main_v33 : DevRef τ sig)) (crossValidOf (F := Ideal) (W (main_v46 : DevRef τ sig))) := by
  after_results_simp; try rfl
theorem A_v70 (V : Valuation τ sig (Elt Ideal)) :
    after ops V (main_v70 : DevRef τ sig) = Cert.KernelIdeal.Hand.VALIDf (after ops V (main_v33 : DevRef τ sig)) (crossValidOf (F := Ideal) (after ops V (main_v46 : DevRef τ sig))) := by
  have h1 : W18 V (main_v70 : DevRef τ sig) = W6 V (main_v70 : DevRef τ sig) :=
    (after_of_writes_sub (r := main_v70) ops17 (W17 V) ops17_writes (by decide)).trans ((after_of_writes_sub (r := main_v70) ops16 (W16 V) ops16_writes (by decide)).trans ((after_of_writes_sub (r := main_v70) ops15 (W15 V) ops15_writes (by decide)).trans ((after_of_writes_sub (r := main_v70) ops14 (W14 V) ops14_writes (by decide)).trans ((after_of_writes_sub (r := main_v70) ops13 (W13 V) ops13_writes (by decide)).trans ((after_of_writes_sub (r := main_v70) ops12 (W12 V) ops12_writes (by decide)).trans ((after_of_writes_sub (r := main_v70) ops11 (W11 V) ops11_writes (by decide)).trans ((after_of_writes_sub (r := main_v70) ops10 (W10 V) ops10_writes (by decide)).trans ((after_of_writes_sub (r := main_v70) ops9 (W9 V) ops9_writes (by decide)).trans ((after_of_writes_sub (r := main_v70) ops8 (W8 V) ops8_writes (by decide)).trans ((after_of_writes_sub (r := main_v70) ops7 (W7 V) ops7_writes (by decide)).trans ((after_of_writes_sub (r := main_v70) ops6 (W6 V) ops6_writes (by decide)))))))))))))
  have ha0 : W18 V (main_v33 : DevRef τ sig) = W5 V (main_v33 : DevRef τ sig) :=
    (after_of_writes_sub (r := main_v33) ops17 (W17 V) ops17_writes (by decide)).trans ((after_of_writes_sub (r := main_v33) ops16 (W16 V) ops16_writes (by decide)).trans ((after_of_writes_sub (r := main_v33) ops15 (W15 V) ops15_writes (by decide)).trans ((after_of_writes_sub (r := main_v33) ops14 (W14 V) ops14_writes (by decide)).trans ((after_of_writes_sub (r := main_v33) ops13 (W13 V) ops13_writes (by decide)).trans ((after_of_writes_sub (r := main_v33) ops12 (W12 V) ops12_writes (by decide)).trans ((after_of_writes_sub (r := main_v33) ops11 (W11 V) ops11_writes (by decide)).trans ((after_of_writes_sub (r := main_v33) ops10 (W10 V) ops10_writes (by decide)).trans ((after_of_writes_sub (r := main_v33) ops9 (W9 V) ops9_writes (by decide)).trans ((after_of_writes_sub (r := main_v33) ops8 (W8 V) ops8_writes (by decide)).trans ((after_of_writes_sub (r := main_v33) ops7 (W7 V) ops7_writes (by decide)).trans ((after_of_writes_sub (r := main_v33) ops6 (W6 V) ops6_writes (by decide)).trans ((after_of_writes_sub (r := main_v33) ops5 (W5 V) ops5_writes (by decide))))))))))))))
  have ha1 : W18 V (main_v46 : DevRef τ sig) = W5 V (main_v46 : DevRef τ sig) :=
    (after_of_writes_sub (r := main_v46) ops17 (W17 V) ops17_writes (by decide)).trans ((after_of_writes_sub (r := main_v46) ops16 (W16 V) ops16_writes (by decide)).trans ((after_of_writes_sub (r := main_v46) ops15 (W15 V) ops15_writes (by decide)).trans ((after_of_writes_sub (r := main_v46) ops14 (W14 V) ops14_writes (by decide)).trans ((after_of_writes_sub (r := main_v46) ops13 (W13 V) ops13_writes (by decide)).trans ((after_of_writes_sub (r := main_v46) ops12 (W12 V) ops12_writes (by decide)).trans ((after_of_writes_sub (r := main_v46) ops11 (W11 V) ops11_writes (by decide)).trans ((after_of_writes_sub (r := main_v46) ops10 (W10 V) ops10_writes (by decide)).trans ((after_of_writes_sub (r := main_v46) ops9 (W9 V) ops9_writes (by decide)).trans ((after_of_writes_sub (r := main_v46) ops8 (W8 V) ops8_writes (by decide)).trans ((after_of_writes_sub (r := main_v46) ops7 (W7 V) ops7_writes (by decide)).trans ((after_of_writes_sub (r := main_v46) ops6 (W6 V) ops6_writes (by decide)).trans ((after_of_writes_sub (r := main_v46) ops5 (W5 V) ops5_writes (by decide))))))))))))))
  rw [after_opsW, h1, ha0, ha1]
  exact ops5_v70 (W5 V)

/-! ## The candidate edge lists as the functions named for the other program -/

/-- The prompt-pair mask: the similarity mask of the rescaled prompt rows. -/
theorem A_innerValid (V : Valuation τ sig (Elt Ideal)) :
    after ops V (main_v33 : DevRef τ sig) = Cert.KernelIdeal.Hand.IVf (PP (V (main_arg0 : DevRef τ sig)) (V (main_arg2 : DevRef τ sig))) := by
  rw [A_v33, A_muP, A_sigP, A_muO, A_v11, A_c_4, A_arg0, A_arg2]; rfl

/-- The candidate sources. -/
theorem A_src (V : Valuation τ sig (Elt Ideal)) :
    after ops V (main_v65 : DevRef τ sig) = Cert.KernelIdeal.Hand.SRCf (V (main_arg1 : DevRef τ sig)) := by
  rw [A_v65, A_v38, A_v34, A_arg1]; exact Cert.KernelIdeal.Hand.SRCraw_eq _

/-- The candidate destinations. -/
theorem A_dst (V : Valuation τ sig (Elt Ideal)) :
    after ops V (main_v68 : DevRef τ sig) = Cert.KernelIdeal.Hand.DSTf (V (main_arg1 : DevRef τ sig)) := by
  rw [A_v68, A_v43, A_v34, A_arg1]; exact Cert.KernelIdeal.Hand.DSTraw_eq _

/-- The validity mask: every given edge, the prompt-pair mask, the cross flags twice. -/
theorem A_valid (V : Valuation τ sig (Elt Ideal)) :
    after ops V (main_v70 : DevRef τ sig) = Cert.KernelIdeal.Hand.VALIDf (after ops V (main_v33 : DevRef τ sig)) (after ops V (main_v54 : DevRef τ sig)) := by
  rw [A_v70, A_v54]

end Cert.ReferenceIdeal.Hand

end
-- ==== Proof.RefTailB.lean ====
/-
  The reference program's tail, read against the same functions as the kernel program's.

  After its candidate edge list (sources, destinations, validity mask) the reference runs the same chain as the
  kernel program: the invalid candidates to the sentinel, a stable lexicographic sort, the duplicate mark, the
  marked entries to the sentinel, a second stable sort that moves the sentinel entries to the end, and the two
  results (the stacked rows, the weight row). Each of its stretches of host operations is read from arbitrary
  earlier contents as the function the kernel side named for that step; composed, the reference's two results
  are tailI and tailW of its three candidate arrays. The per-program records (comparators, gather dimensions,
  shapes, side-condition proofs) of the two programs are equal by unfolding.
-/
import proofs.«162080_j20057497272460_1_alg».proof.Proof.RefValue
import proofs.«162080_j20057497272460_1_alg».proof.Proof.KITail

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (sentinel maskTo iotaE lexPerm wrapIdx takeAt dupMark dropTo endKey endPerm rowsOf weightOf
  sortedS sortedD keptS keptD outS outD tailI tailW)

/-! ## The tail's stretches, read at their result buffers (from any earlier contents) -/

section TailStretches
variable (U : Valuation τ sig (Elt Ideal))

theorem r5_c_16 : after ops5 U (main_c_16 : DevRef τ sig) = constantI S_ 32 200010#32 := by
  after_results_simp; try rfl
theorem r6_v71 : after ops6 U (main_v71 : DevRef τ sig) = select (U (main_v70 : DevRef τ sig)) (U (main_v65 : DevRef τ sig)) (broadcastInDim S7200100 ![] bcast_S_S7200100 (U (main_c_16 : DevRef τ sig))) := by
  after_results; try rfl
theorem r7_c_17 : after ops7 U (main_c_17 : DevRef τ sig) = constantI S_ 32 200010#32 := by
  after_results; try rfl
theorem r8_v72 : after ops8 U (main_v72 : DevRef τ sig) = select (U (main_v70 : DevRef τ sig)) (U (main_v68 : DevRef τ sig)) (broadcastInDim S7200100 ![] bcast_S_S7200100 (U (main_c_17 : DevRef τ sig))) := by
  after_results; try rfl
theorem r9_v73 : after ops9 U (main_v73 : DevRef τ sig) = lexPerm (U (main_v71 : DevRef τ sig)) (U (main_v72 : DevRef τ sig)) := by
  after_results; try rfl
theorem r10_v80 : after ops10 U (main_v80 : DevRef τ sig) = takeAt (U (main_v71 : DevRef τ sig)) (U (main_v73 : DevRef τ sig)) := by
  after_results_simp; try rfl
theorem r10_v87 : after ops10 U (main_v87 : DevRef τ sig) = takeAt (U (main_v72 : DevRef τ sig)) (U (main_v73 : DevRef τ sig)) := by
  after_results_simp; try rfl
theorem r10_v88 : after ops10 U (main_v88 : DevRef τ sig) = broadcastInDim S1 ![] bcast_S_S1 (constantI S_ 1 0#1) := by
  after_results_simp; try rfl
theorem r10_v91 : after ops10 U (main_v91 : DevRef τ sig)
    = cmpi .eq (extractStridedSlice S7200099 ![1] (takeAt (U (main_v71 : DevRef τ sig)) (U (main_v73 : DevRef τ sig))) slices_S7200100_S7200099_1)
        (extractStridedSlice S7200099 ![0] (takeAt (U (main_v71 : DevRef τ sig)) (U (main_v73 : DevRef τ sig))) slices_S7200100_S7200099_0) := by
  after_results_simp; try rfl
theorem r10_v94 : after ops10 U (main_v94 : DevRef τ sig)
    = cmpi .eq (extractStridedSlice S7200099 ![1] (takeAt (U (main_v72 : DevRef τ sig)) (U (main_v73 : DevRef τ sig))) slices_S7200100_S7200099_1)
        (extractStridedSlice S7200099 ![0] (takeAt (U (main_v72 : DevRef τ sig)) (U (main_v73 : DevRef τ sig))) slices_S7200100_S7200099_0) := by
  after_results_simp; try rfl
theorem r11_v99 : after ops11 U (main_v99 : DevRef τ sig)
    = andi (concatenate S7200100 0 [⟨S1, (U (main_v88 : DevRef τ sig))⟩, ⟨S7200099, andi (U (main_v91 : DevRef τ sig)) (U (main_v94 : DevRef τ sig))⟩] concatenates_S1_S7200099_S7200100_d0)
        (cmpi .ne (U (main_v80 : DevRef τ sig)) sentinel) := by
  after_results; try rfl
theorem r11_c_24 : after ops11 U (main_c_24 : DevRef τ sig) = constantI S_ 32 200010#32 := by
  after_results; try rfl
theorem r12_v100 : after ops12 U (main_v100 : DevRef τ sig) = select (U (main_v99 : DevRef τ sig)) (broadcastInDim S7200100 ![] bcast_S_S7200100 (U (main_c_24 : DevRef τ sig))) (U (main_v80 : DevRef τ sig)) := by
  after_results; try rfl
theorem r13_c_25 : after ops13 U (main_c_25 : DevRef τ sig) = constantI S_ 32 200010#32 := by
  after_results; try rfl
theorem r14_v101 : after ops14 U (main_v101 : DevRef τ sig) = select (U (main_v99 : DevRef τ sig)) (broadcastInDim S7200100 ![] bcast_S_S7200100 (U (main_c_25 : DevRef τ sig))) (U (main_v87 : DevRef τ sig)) := by
  after_results; try rfl
theorem r15_v104 : after ops15 U (main_v104 : DevRef τ sig) = endKey (U (main_v100 : DevRef τ sig)) := by
  after_results; try rfl
theorem r16_v105 : after ops16 U (main_v105 : DevRef τ sig)
    = (Host.sort2 S7200100 0 Cert.KernelIdeal.comparator_i32_i32_d0 (U (main_v104 : DevRef τ sig)) iotaE).2 := by
  after_results; try rfl
theorem r17_v122 : after ops17 U (main_v122 : DevRef τ sig)
    = rowsOf (takeAt (U (main_v100 : DevRef τ sig)) (U (main_v105 : DevRef τ sig))) (takeAt (U (main_v101 : DevRef τ sig)) (U (main_v105 : DevRef τ sig))) := by
  after_results_simp; try rfl
theorem r17_v125 : after ops17 U (main_v125 : DevRef τ sig) = weightOf (takeAt (U (main_v100 : DevRef τ sig)) (U (main_v105 : DevRef τ sig))) := by
  after_results_simp; try rfl

end TailStretches

/-! ## The tail along the run -/

section TailRun
variable (V : Valuation τ sig (Elt Ideal))

/-! What a stretch does not write it leaves as it was. -/
theorem tkeep7 (r : Ref sig .tc) (h : r ∉ ops6_W) : W7 V (r : DevRef τ sig) = W6 V (r : DevRef τ sig) :=
  after_of_writes_sub (r := r) ops6 (W6 V) ops6_writes h
theorem tkeep8 (r : Ref sig .tc) (h : r ∉ ops7_W) : W8 V (r : DevRef τ sig) = W7 V (r : DevRef τ sig) :=
  after_of_writes_sub (r := r) ops7 (W7 V) ops7_writes h
theorem tkeep9 (r : Ref sig .tc) (h : r ∉ ops8_W) : W9 V (r : DevRef τ sig) = W8 V (r : DevRef τ sig) :=
  after_of_writes_sub (r := r) ops8 (W8 V) ops8_writes h
theorem tkeep10 (r : Ref sig .tc) (h : r ∉ ops9_W) : W10 V (r : DevRef τ sig) = W9 V (r : DevRef τ sig) :=
  after_of_writes_sub (r := r) ops9 (W9 V) ops9_writes h
theorem tkeep11 (r : Ref sig .tc) (h : r ∉ ops10_W) : W11 V (r : DevRef τ sig) = W10 V (r : DevRef τ sig) :=
  after_of_writes_sub (r := r) ops10 (W10 V) ops10_writes h
theorem tkeep12 (r : Ref sig .tc) (h : r ∉ ops11_W) : W12 V (r : DevRef τ sig) = W11 V (r : DevRef τ sig) :=
  after_of_writes_sub (r := r) ops11 (W11 V) ops11_writes h
theorem tkeep13 (r : Ref sig .tc) (h : r ∉ ops12_W) : W13 V (r : DevRef τ sig) = W12 V (r : DevRef τ sig) :=
  after_of_writes_sub (r := r) ops12 (W12 V) ops12_writes h
theorem tkeep14 (r : Ref sig .tc) (h : r ∉ ops13_W) : W14 V (r : DevRef τ sig) = W13 V (r : DevRef τ sig) :=
  after_of_writes_sub (r := r) ops13 (W13 V) ops13_writes h
theorem tkeep15 (r : Ref sig .tc) (h : r ∉ ops14_W) : W15 V (r : DevRef τ sig) = W14 V (r : DevRef τ sig) :=
  after_of_writes_sub (r := r) ops14 (W14 V) ops14_writes h
theorem tkeep16 (r : Ref sig .tc) (h : r ∉ ops15_W) : W16 V (r : DevRef τ sig) = W15 V (r : DevRef τ sig) :=
  after_of_writes_sub (r := r) ops15 (W15 V) ops15_writes h
theorem tkeep17 (r : Ref sig .tc) (h : r ∉ ops16_W) : W17 V (r : DevRef τ sig) = W16 V (r : DevRef τ sig) :=
  after_of_writes_sub (r := r) ops16 (W16 V) ops16_writes h
theorem tkeep18 (r : Ref sig .tc) (h : r ∉ ops17_W) : W18 V (r : DevRef τ sig) = W17 V (r : DevRef τ sig) :=
  after_of_writes_sub (r := r) ops17 (W17 V) ops17_writes h

/-! Stretch by stretch: each result as a function of the candidate rows and the mask left before the tail. -/

theorem W6_c_16 : W6 V (main_c_16 : DevRef τ sig) = constantI S_ 32 200010#32 := r5_c_16 (W5 V)
theorem W7_v71 : W7 V (main_v71 : DevRef τ sig) = maskTo (W6 V (main_v70 : DevRef τ sig)) (W6 V (main_v65 : DevRef τ sig)) := by
  refine (r6_v71 (W6 V)).trans ?_
  rw [W6_c_16]; rfl
theorem W8_c_17 : W8 V (main_c_17 : DevRef τ sig) = constantI S_ 32 200010#32 := r7_c_17 (W7 V)
theorem W9_v72 : W9 V (main_v72 : DevRef τ sig) = maskTo (W6 V (main_v70 : DevRef τ sig)) (W6 V (main_v68 : DevRef τ sig)) := by
  refine (r8_v72 (W8 V)).trans ?_
  rw [W8_c_17, (tkeep8 V main_v70 (by decide)), (tkeep7 V main_v70 (by decide)), (tkeep8 V main_v68 (by decide)), (tkeep7 V main_v68 (by decide))]; rfl
theorem W9_v71 : W9 V (main_v71 : DevRef τ sig) = maskTo (W6 V (main_v70 : DevRef τ sig)) (W6 V (main_v65 : DevRef τ sig)) := (tkeep9 V main_v71 (by decide)).trans ((tkeep8 V main_v71 (by decide)).trans (W7_v71 V))
theorem W10_v73 : W10 V (main_v73 : DevRef τ sig) = lexPerm (maskTo (W6 V (main_v70 : DevRef τ sig)) (W6 V (main_v65 : DevRef τ sig))) (maskTo (W6 V (main_v70 : DevRef τ sig)) (W6 V (main_v68 : DevRef τ sig))) := by
  refine (r9_v73 (W9 V)).trans ?_
  rw [W9_v71, W9_v72]
theorem W10_v71 : W10 V (main_v71 : DevRef τ sig) = maskTo (W6 V (main_v70 : DevRef τ sig)) (W6 V (main_v65 : DevRef τ sig)) := (tkeep10 V main_v71 (by decide)).trans (W9_v71 V)
theorem W10_v72 : W10 V (main_v72 : DevRef τ sig) = maskTo (W6 V (main_v70 : DevRef τ sig)) (W6 V (main_v68 : DevRef τ sig)) := (tkeep10 V main_v72 (by decide)).trans (W9_v72 V)
theorem W11_v80 : W11 V (main_v80 : DevRef τ sig) = sortedS (W6 V (main_v65 : DevRef τ sig)) (W6 V (main_v68 : DevRef τ sig)) (W6 V (main_v70 : DevRef τ sig)) := by
  refine (r10_v80 (W10 V)).trans ?_
  rw [W10_v71, W10_v73]; rfl
theorem W11_v87 : W11 V (main_v87 : DevRef τ sig) = sortedD (W6 V (main_v65 : DevRef τ sig)) (W6 V (main_v68 : DevRef τ sig)) (W6 V (main_v70 : DevRef τ sig)) := by
  refine (r10_v87 (W10 V)).trans ?_
  rw [W10_v72, W10_v73]; rfl
theorem W11_v88 : W11 V (main_v88 : DevRef τ sig) = broadcastInDim S1 ![] bcast_S_S1 (constantI S_ 1 0#1) := r10_v88 (W10 V)
theorem W11_v91 : W11 V (main_v91 : DevRef τ sig)
    = cmpi .eq (extractStridedSlice S7200099 ![1] (sortedS (W6 V (main_v65 : DevRef τ sig)) (W6 V (main_v68 : DevRef τ sig)) (W6 V (main_v70 : DevRef τ sig))) slices_S7200100_S7200099_1)
        (extractStridedSlice S7200099 ![0] (sortedS (W6 V (main_v65 : DevRef τ sig)) (W6 V (main_v68 : DevRef τ sig)) (W6 V (main_v70 : DevRef τ sig))) slices_S7200100_S7200099_0) := by
  refine (r10_v91 (W10 V)).trans ?_
  rw [W10_v71, W10_v73]; rfl
theorem W11_v94 : W11 V (main_v94 : DevRef τ sig)
    = cmpi .eq (extractStridedSlice S7200099 ![1] (sortedD (W6 V (main_v65 : DevRef τ sig)) (W6 V (main_v68 : DevRef τ sig)) (W6 V (main_v70 : DevRef τ sig))) slices_S7200100_S7200099_1)
        (extractStridedSlice S7200099 ![0] (sortedD (W6 V (main_v65 : DevRef τ sig)) (W6 V (main_v68 : DevRef τ sig)) (W6 V (main_v70 : DevRef τ sig))) slices_S7200100_S7200099_0) := by
  refine (r10_v94 (W10 V)).trans ?_
  rw [W10_v72, W10_v73]; rfl
theorem W12_v99 : W12 V (main_v99 : DevRef τ sig) = dupMark (sortedS (W6 V (main_v65 : DevRef τ sig)) (W6 V (main_v68 : DevRef τ sig)) (W6 V (main_v70 : DevRef τ sig))) (sortedD (W6 V (main_v65 : DevRef τ sig)) (W6 V (main_v68 : DevRef τ sig)) (W6 V (main_v70 : DevRef τ sig))) := by
  refine (r11_v99 (W11 V)).trans ?_
  rw [W11_v88, W11_v91, W11_v94, W11_v80]; rfl
theorem W12_c_24 : W12 V (main_c_24 : DevRef τ sig) = constantI S_ 32 200010#32 := r11_c_24 (W11 V)
theorem W12_v80 : W12 V (main_v80 : DevRef τ sig) = sortedS (W6 V (main_v65 : DevRef τ sig)) (W6 V (main_v68 : DevRef τ sig)) (W6 V (main_v70 : DevRef τ sig)) := (tkeep12 V main_v80 (by decide)).trans (W11_v80 V)
theorem W13_v100 : W13 V (main_v100 : DevRef τ sig) = keptS (W6 V (main_v65 : DevRef τ sig)) (W6 V (main_v68 : DevRef τ sig)) (W6 V (main_v70 : DevRef τ sig)) := by
  refine (r12_v100 (W12 V)).trans ?_
  rw [W12_c_24, W12_v99, W12_v80]; rfl
theorem W14_c_25 : W14 V (main_c_25 : DevRef τ sig) = constantI S_ 32 200010#32 := r13_c_25 (W13 V)
theorem W14_v99 : W14 V (main_v99 : DevRef τ sig) = dupMark (sortedS (W6 V (main_v65 : DevRef τ sig)) (W6 V (main_v68 : DevRef τ sig)) (W6 V (main_v70 : DevRef τ sig))) (sortedD (W6 V (main_v65 : DevRef τ sig)) (W6 V (main_v68 : DevRef τ sig)) (W6 V (main_v70 : DevRef τ sig))) := (tkeep14 V main_v99 (by decide)).trans ((tkeep13 V main_v99 (by decide)).trans (W12_v99 V))
theorem W14_v87 : W14 V (main_v87 : DevRef τ sig) = sortedD (W6 V (main_v65 : DevRef τ sig)) (W6 V (main_v68 : DevRef τ sig)) (W6 V (main_v70 : DevRef τ sig)) := (tkeep14 V main_v87 (by decide)).trans ((tkeep13 V main_v87 (by decide)).trans ((tkeep12 V main_v87 (by decide)).trans (W11_v87 V)))
theorem W15_v101 : W15 V (main_v101 : DevRef τ sig) = keptD (W6 V (main_v65 : DevRef τ sig)) (W6 V (main_v68 : DevRef τ sig)) (W6 V (main_v70 : DevRef τ sig)) := by
  refine (r14_v101 (W14 V)).trans ?_
  rw [W14_c_25, W14_v99, W14_v87]; rfl
theorem W15_v100 : W15 V (main_v100 : DevRef τ sig) = keptS (W6 V (main_v65 : DevRef τ sig)) (W6 V (main_v68 : DevRef τ sig)) (W6 V (main_v70 : DevRef τ sig)) := (tkeep15 V main_v100 (by decide)).trans ((tkeep14 V main_v100 (by decide)).trans (W13_v100 V))
theorem W16_v104 : W16 V (main_v104 : DevRef τ sig) = endKey (keptS (W6 V (main_v65 : DevRef τ sig)) (W6 V (main_v68 : DevRef τ sig)) (W6 V (main_v70 : DevRef τ sig))) := by
  refine (r15_v104 (W15 V)).trans ?_
  rw [W15_v100]
theorem W17_v105 : W17 V (main_v105 : DevRef τ sig) = endPerm (keptS (W6 V (main_v65 : DevRef τ sig)) (W6 V (main_v68 : DevRef τ sig)) (W6 V (main_v70 : DevRef τ sig))) := by
  refine (r16_v105 (W16 V)).trans ?_
  rw [W16_v104]; rfl
theorem W17_v100 : W17 V (main_v100 : DevRef τ sig) = keptS (W6 V (main_v65 : DevRef τ sig)) (W6 V (main_v68 : DevRef τ sig)) (W6 V (main_v70 : DevRef τ sig)) := (tkeep17 V main_v100 (by decide)).trans ((tkeep16 V main_v100 (by decide)).trans (W15_v100 V))
theorem W17_v101 : W17 V (main_v101 : DevRef τ sig) = keptD (W6 V (main_v65 : DevRef τ sig)) (W6 V (main_v68 : DevRef τ sig)) (W6 V (main_v70 : DevRef τ sig)) := (tkeep17 V main_v101 (by decide)).trans ((tkeep16 V main_v101 (by decide)).trans (W15_v101 V))
theorem W18_v122 : W18 V (main_v122 : DevRef τ sig) = tailI (W6 V (main_v65 : DevRef τ sig)) (W6 V (main_v68 : DevRef τ sig)) (W6 V (main_v70 : DevRef τ sig)) := by
  refine (r17_v122 (W17 V)).trans ?_
  rw [W17_v100, W17_v101, W17_v105]; rfl
theorem W18_v125 : W18 V (main_v125 : DevRef τ sig) = tailW (W6 V (main_v65 : DevRef τ sig)) (W6 V (main_v68 : DevRef τ sig)) (W6 V (main_v70 : DevRef τ sig)) := by
  refine (r17_v125 (W17 V)).trans ?_
  rw [W17_v100, W17_v105]; rfl

/-! The three candidate arrays are written once, before the tail: at the end they hold what the tail read. -/
theorem W18_v65 : W18 V (main_v65 : DevRef τ sig) = W6 V (main_v65 : DevRef τ sig) := (tkeep18 V main_v65 (by decide)).trans ((tkeep17 V main_v65 (by decide)).trans ((tkeep16 V main_v65 (by decide)).trans ((tkeep15 V main_v65 (by decide)).trans ((tkeep14 V main_v65 (by decide)).trans ((tkeep13 V main_v65 (by decide)).trans ((tkeep12 V main_v65 (by decide)).trans ((tkeep11 V main_v65 (by decide)).trans ((tkeep10 V main_v65 (by decide)).trans ((tkeep9 V main_v65 (by decide)).trans ((tkeep8 V main_v65 (by decide)).trans ((tkeep7 V main_v65 (by decide)))))))))))))
theorem W18_v68 : W18 V (main_v68 : DevRef τ sig) = W6 V (main_v68 : DevRef τ sig) := (tkeep18 V main_v68 (by decide)).trans ((tkeep17 V main_v68 (by decide)).trans ((tkeep16 V main_v68 (by decide)).trans ((tkeep15 V main_v68 (by decide)).trans ((tkeep14 V main_v68 (by decide)).trans ((tkeep13 V main_v68 (by decide)).trans ((tkeep12 V main_v68 (by decide)).trans ((tkeep11 V main_v68 (by decide)).trans ((tkeep10 V main_v68 (by decide)).trans ((tkeep9 V main_v68 (by decide)).trans ((tkeep8 V main_v68 (by decide)).trans ((tkeep7 V main_v68 (by decide)))))))))))))
theorem W18_v70 : W18 V (main_v70 : DevRef τ sig) = W6 V (main_v70 : DevRef τ sig) := (tkeep18 V main_v70 (by decide)).trans ((tkeep17 V main_v70 (by decide)).trans ((tkeep16 V main_v70 (by decide)).trans ((tkeep15 V main_v70 (by decide)).trans ((tkeep14 V main_v70 (by decide)).trans ((tkeep13 V main_v70 (by decide)).trans ((tkeep12 V main_v70 (by decide)).trans ((tkeep11 V main_v70 (by decide)).trans ((tkeep10 V main_v70 (by decide)).trans ((tkeep9 V main_v70 (by decide)).trans ((tkeep8 V main_v70 (by decide)).trans ((tkeep7 V main_v70 (by decide)))))))))))))

/-- THE REFERENCE'S TAIL, integer result: at the end of the run the index pairs are tailI of the three candidate arrays. -/
theorem A_v122 : after ops V (main_v122 : DevRef τ sig)
    = tailI (after ops V (main_v65 : DevRef τ sig)) (after ops V (main_v68 : DevRef τ sig)) (after ops V (main_v70 : DevRef τ sig)) := by
  rw [after_opsW, W18_v65, W18_v68, W18_v70]
  exact W18_v122 V

/-- THE REFERENCE'S TAIL, float result: at the end of the run the weights are tailW of the three candidate arrays. -/
theorem A_v125 : after ops V (main_v125 : DevRef τ sig)
    = tailW (after ops V (main_v65 : DevRef τ sig)) (after ops V (main_v68 : DevRef τ sig)) (after ops V (main_v70 : DevRef τ sig)) := by
  rw [after_opsW, W18_v65, W18_v68, W18_v70]
  exact W18_v125 V

end TailRun

end Cert.ReferenceIdeal.Hand

end
-- ==== Proof.RefResults.lean ====
/-
  The reference's three results as the same functions of its arguments that the kernel program's results are
  (the rows of x over the rescaled prompt rows; the common tail of integer operations applied to the candidate
  lists and the validity list): each stage read off the reference's run is the kernel-side function of the
  same name.
-/
import proofs.«162080_j20057497272460_1_alg».proof.Proof.KIResults
import proofs.«162080_j20057497272460_1_alg».proof.Proof.RefTailA
import proofs.«162080_j20057497272460_1_alg».proof.Proof.RefTailB

noncomputable section

namespace Cert.ReferenceIdeal.Hand

open Cert.ReferenceIdeal Cert.ReferenceIdeal.Gen Idealize.ShloMosaic Idealize.ShloMosaic.TcCoe Idealize.SL.Sem Idealize.ShloMosaic.StableHlo

theorem Rf0 (V : Valuation τ sig (Elt Ideal)) :
    after ops V (main_v22 : DevRef τ sig) = Cert.KernelIdeal.Hand.R0 (V (main_arg0 : DevRef τ sig)) (V (main_arg2 : DevRef τ sig)) := by
  rw [A_out0]; rfl

theorem Rval (V : Valuation τ sig (Elt Ideal)) :
    after ops V (main_v70 : DevRef τ sig) = Cert.KernelIdeal.Hand.VAL (V (main_arg0 : DevRef τ sig)) (V (main_arg2 : DevRef τ sig)) := by
  rw [A_valid, A_innerValid, A_crossValid]; rfl

theorem Rf1 (V : Valuation τ sig (Elt Ideal)) :
    after ops V (main_v122 : DevRef τ sig)
      = Cert.KernelIdeal.Hand.R1 (V (main_arg0 : DevRef τ sig)) (V (main_arg1 : DevRef τ sig)) (V (main_arg2 : DevRef τ sig)) := by
  rw [A_v122, A_src, A_dst, Rval]; rfl

theorem Rf2 (V : Valuation τ sig (Elt Ideal)) :
    after ops V (main_v125 : DevRef τ sig)
      = Cert.KernelIdeal.Hand.R2 (V (main_arg0 : DevRef τ sig)) (V (main_arg1 : DevRef τ sig)) (V (main_arg2 : DevRef τ sig)) := by
  rw [A_v125, A_src, A_dst, Rval]; rfl

end Cert.ReferenceIdeal.Hand

end
-- ==== Proof.lean ====
/-
  The certificate. Each of the three programs runs to the end and leaves its arguments unchanged: the two
  kernel programs through their runs as a chain of host stretches and two kernel regions (the column sums of
  x and of x*x accumulated over the row blocks; the cross-similarity mask block by block), the reference
  through its run as one list of host operations. The idealization rewrote nothing. And on the extended
  reals, for finite float arguments, the two idealized programs compute the same three results: the column
  means agree as sums over the count; the column spreads agree because the squared deviations from the mean
  sum to (sum of squares) − count · mean², which is nonnegative, so the clamp at zero is idle; hence the
  rescaled prompt rows agree, and with them the prompt-pair mask; the cross mask agrees because a product
  commutes and 1/(1+exp(−s)) is the logistic function; everything after is the same chain of integer
  operations on equal arrays.
-/
import proofs.«162080_j20057497272460_1_alg».proof.Defs
import proofs.«162080_j20057497272460_1_alg».proof.Proof.Gen.Kernel
import proofs.«162080_j20057497272460_1_alg».proof.Proof.Gen.KernelIdeal
import proofs.«162080_j20057497272460_1_alg».proof.Proof.Gen.ReferenceIdeal
import proofs.«162080_j20057497272460_1_alg».proof.Proof.Gen.Pre_finite_inputs
import proofs.«162080_j20057497272460_1_alg».proof.Proof.KArgs
import proofs.«162080_j20057497272460_1_alg».proof.Proof.KIArgs
import proofs.«162080_j20057497272460_1_alg».proof.Proof.RefRun
import proofs.«162080_j20057497272460_1_alg».proof.Proof.KIResults
import proofs.«162080_j20057497272460_1_alg».proof.Proof.RefResults
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Hand.mem_uc Cert.Kernel.main_arg0 (by decide))).trans (Cert.Kernel.Hand.W18_main_arg0 m c),
     (h c _ (Cert.Kernel.Hand.mem_uc Cert.Kernel.main_arg1 (by decide))).trans (Cert.Kernel.Hand.W18_main_arg1 m c),
     (h c _ (Cert.Kernel.Hand.mem_uc Cert.Kernel.main_arg2 (by decide))).trans (Cert.Kernel.Hand.W18_main_arg2 m c)⟩)
    (Cert.Kernel.Hand.run_all (F := Bits) m ρ)

/-- The idealized kernel program runs and keeps its arguments. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W18_main_arg0 m c),
     (h c _ (Cert.KernelIdeal.Hand.mem_uc Cert.KernelIdeal.main_arg1 (by decide))).trans (Cert.KernelIdeal.Hand.W18_main_arg1 m c),
     (h c _ (Cert.KernelIdeal.Hand.mem_uc Cert.KernelIdeal.main_arg2 (by decide))).trans (Cert.KernelIdeal.Hand.W18_main_arg2 m c)⟩)
    (Cert.KernelIdeal.Hand.run_all (F := Ideal) m ρ)

/-- The idealized reference runs and keeps its arguments. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- From memories agreeing on the arguments the two idealized programs end with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.R0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.KernelIdeal.Hand.R1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.KernelIdeal.Hand.R2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono (fun r h c =>
      ⟨(h c _ (Cert.KernelIdeal.Hand.mem_uc Cert.KernelIdeal.main_v29 (by decide))).trans (Cert.KernelIdeal.Hand.K0 m hpre c),
       (h c _ (Cert.KernelIdeal.Hand.mem_uc Cert.KernelIdeal.main_v123 (by decide))).trans (Cert.KernelIdeal.Hand.K1 m hpre c),
       (h c _ (Cert.KernelIdeal.Hand.mem_uc Cert.KernelIdeal.main_v126 (by decide))).trans (Cert.KernelIdeal.Hand.K2 m hpre c),
       (h c _ (Cert.KernelIdeal.Hand.mem_uc Cert.KernelIdeal.main_arg0 (by decide))).trans (Cert.KernelIdeal.Hand.W18_main_arg0 m c),
       (h c _ (Cert.KernelIdeal.Hand.mem_uc Cert.KernelIdeal.main_arg1 (by decide))).trans (Cert.KernelIdeal.Hand.W18_main_arg1 m c),
       (h c _ (Cert.KernelIdeal.Hand.mem_uc Cert.KernelIdeal.main_arg2 (by decide))).trans (Cert.KernelIdeal.Hand.W18_main_arg2 m c)⟩)
      (Cert.KernelIdeal.Hand.run_all (F := Ideal) m ρ)
  · refine (θ_run (Cert.ReferenceIdeal.defs (F := Ideal)) _ _).mono (fun r h c => ?_) (Cert.ReferenceIdeal.Hand.run_all (F := Ideal) m' ρ')
    have e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) := (hagree c).1
    have e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (hagree c).2.1
    have e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) := (hagree c).2.2
    refine ⟨(h c Cert.ReferenceIdeal.main_v22).trans ((Cert.ReferenceIdeal.Hand.Rf0 _).trans ?_), (h c Cert.ReferenceIdeal.main_v122).trans ((Cert.ReferenceIdeal.Hand.Rf1 _).trans ?_),
      (h c Cert.ReferenceIdeal.main_v125).trans ((Cert.ReferenceIdeal.Hand.Rf2 _).trans ?_),
      (h c Cert.ReferenceIdeal.main_arg0).trans (Cert.ReferenceIdeal.Hand.A_arg0 _), (h c Cert.ReferenceIdeal.main_arg1).trans (Cert.ReferenceIdeal.Hand.A_arg1 _), (h c Cert.ReferenceIdeal.main_arg2).trans (Cert.ReferenceIdeal.Hand.A_arg2 _)⟩
    · show Cert.KernelIdeal.Hand.R0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) = _
      rw [e0, e2]
    · show Cert.KernelIdeal.Hand.R1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
      rw [e0, e1, e2]
    · show Cert.KernelIdeal.Hand.R2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
      rw [e0, e1, e2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
